-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 129
  | .vmem => 47
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S100000x128, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S2000x64, .f32⟩
  | .local _ .vmem, ⟨46, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68_0 : Ref sig .tc := ⟨.hbm, 95, rfl⟩
abbrev main_v68_1 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_14 : Ref sig .tc := ⟨.hbm, 110, rfl⟩
abbrev main_v80 : Ref sig .tc := ⟨.hbm, 111, rfl⟩
abbrev main_v81 : Ref sig .tc := ⟨.hbm, 112, rfl⟩
abbrev main_c_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v66) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v78) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v78) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S128, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x64, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000x64, .f32⟩
  | 33 => ⟨S1700000x1, .f32⟩
  | 34 => ⟨S1700000x64, .f32⟩
  | 35 => ⟨S1700000x64, .f32⟩
  | 36 => ⟨S_, .f32⟩
  | 37 => ⟨S100000x64, .f32⟩
  | 38 => ⟨S1700000x1, .i32⟩
  | 39 => ⟨S100000x64, .f32⟩
  | 40 => ⟨S1x64, .f32⟩
  | 41 => ⟨S100000x64, .f32⟩
  | 42 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call0_cst : Ref sig .tc := ⟨.hbm, 95, rfl⟩
abbrev main_call0_v0 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_17 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_call1_cst : Ref sig .tc := ⟨.hbm, 148, rfl⟩
abbrev main_call1_v0 : Ref sig .tc := ⟨.hbm, 149, rfl⟩
abbrev main_v112 : Ref sig .tc := ⟨.hbm, 150, rfl⟩
abbrev main_v113 : Ref sig .tc := ⟨.hbm, 151, rfl⟩
abbrev main_c_20 : Ref sig .tc := ⟨.hbm, 152, rfl⟩
abbrev main_v114 : Ref sig .tc := ⟨.hbm, 153, rfl⟩
abbrev main_v115 : Ref sig .tc := ⟨.hbm, 154, rfl⟩
abbrev main_c_21 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_22 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KB.Mat0.lean ====
/- The frame half of matmul region 0: a grid of 50 row blocks; at each point the body reads a S2000x256 row block of the
   left matrix and the whole S256x128 right matrix and stores their product, rounded operands into a zero accumulator,
   over the whole S2000x128 output row block. Stated at the buffer contents `V` found when the region is entered. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's row block (window 0, moved at every point) is what its staging buffer holds at every point,
    for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix (window 1, block index constant, moved at the first point only) is what its staging buffer
    holds at every point: where it is not moved the block index has not changed, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S2000x128 := Rect.unit (s := S2000x128) ![0, 0] S2000x128.size inb_S2000x128_S2000x128_0_0

/-! ## What the body leaves in the output window's buffer -/

/-- The output row block after the body, from the two input blocks: one store over the whole block, of the
    product of the left block `x0` and the right matrix `x1`. -/
def out0_2 (x0 : Vec F S2000x256 .f32) (x1 : Vec F S256x128 .f32) : Vec F S2000x128 .f32 :=
  View.canon [⟨r0_2, k0_pay1 (View.ld x0 r0_0) (View.ld x1 r0_1)⟩]

/-- The one store is over the whole block, so it covers it. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The body on whole staging buffers — the inputs' reading `x0`, `x1`, the output's holding anything — runs to the
    continuation with the inputs' as they were and the output's at `out0_2 x0 x1`. The grid coordinate `i` is not read. -/
theorem sound_kernel0 (c : Dev nD) (E : Set ℕ) (i : grid0.Coords) (arg0 : Memref sig .tc .vmem S2000x256 .f32) (harg0 : arg0.IsWhole) (arg1 : Memref sig .tc .vmem S256x128 .f32) (harg1 : arg1.IsWhole) (arg2 : Memref sig .tc .vmem S2000x128 .f32) (harg2 : arg2.IsWhole)
    (x0 : Vec F S2000x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Stats1Runs.lean ====
/- The batch-norm statistics region (custom_call 1): what its body's three control cases share.
   The region walks 50 row blocks of 2000 rows. Two accumulator rows (1x128 each) are carried from block
   to block: at the first block they are cleared, at every block the column sums of (block + bias row)
   and of its squares are added, and at the last block the two accumulators are copied to the two output
   rows. So a grid point is in one of three cases: FIRST (clear, accumulate), MIDDLE (accumulate), LAST
   (accumulate, copy out). Here: each window's block read off the array contents V the region is entered
   with, the two branch conditions in closed form over the grid, where the two output windows are idle,
   and the memrefs the body is called with. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 rows
    2000·t … 2000·t+1999 of the 100000x128 input, for window 1 the one bias row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, block index constant, so fetched at the first point only) holds its block at
    every point all the same: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional ("this is block 0"), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the body's second conditional ("this is block 49"). -/
abbrev cond1_1 (i : grid1.Coords) : Prop := k1_cond2 i = 1#1
/-- It holds at point 49 only. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the two output rows are idle (nothing is stored into them) and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at the middle points. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point both output rows are live: the accumulators are copied into them. -/
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of each output row, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulator rows: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The same as views: what they hold is stated through these. -/
abbrev VS1_0 : View sig .tc .vmem S1x128 .f32 := scM1_0.view
abbrev VS1_1 : View sig .tc .vmem S1x128 .f32 := scM1_1.view

end Cert.Kernel.Hand

end
-- ==== Proof.KB.Stats1RunA.lean ====
/- The statistics body at the FIRST block (point 0). Both conditionals decided: the accumulators are
   cleared, then the block's column sums are added; the output rows are not touched. -/
import proofs.«107028_j46583215292429_1_alg».proof.Proof.KB.Stats1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces (last first), AT THE FIRST BLOCK, with the proof
    that on whole memrefs — the two inputs' at their contents `x0` (the 2000x128 block) and `x1` (the bias row), the
    two output rows' at contents `xi2`, `xi3` handed back untouched, the two accumulators' at anything — the body
    runs to the continuation holding the inputs and outputs as they were and each accumulator with its pieces
    written (two each: the zero row, then zero row + column sums). The output rows get no piece. -/
noncomputable def kernelRun1_A (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KB.Stats1RunB.lean ====
/- The statistics body at a MIDDLE block (points 1 … 48). Neither conditional taken: the block's column
   sums are added to the accumulators the block before left; the output rows are not touched. -/
import proofs.«107028_j46583215292429_1_alg».proof.Proof.KB.Stats1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces, AT A MIDDLE BLOCK, with the proof that on whole
    memrefs — the inputs' at `x0`, `x1`, the output rows' at `xi2`, `xi3` handed back untouched, the accumulators' at
    what the block before left (`xs0`, `xs1`) — the body runs to the continuation holding the inputs and outputs as
    they were and each accumulator with its one piece written (`xs` + column sums). -/
noncomputable def kernelRun1_B (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KB.Stats1RunC.lean ====
/- The statistics body at the LAST block (point 49). The second conditional taken: the block's column
   sums are added to the accumulators, and the accumulators are then copied into the two output rows. -/
import proofs.«107028_j46583215292429_1_alg».proof.Proof.KB.Stats1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each output row and each accumulator row, as pieces, AT THE LAST BLOCK, with the
    proof that on whole memrefs — the inputs' at `x0`, `x1`, the output rows' at anything, the accumulators' at what
    the block before left (`xs0`, `xs1`) — the body runs to the continuation holding the inputs as they were and each
    output row and accumulator with its one piece written (`xs` + column sums, in all four). -/
noncomputable def kernelRun1_C (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KB.Stats1.lean ====
/- The batch-norm statistics region (custom_call 1) at the buffer contents V it is entered with: what each
   control case leaves in the two accumulator rows and the two output rows, what they hold block after block
   (the accumulation), the invariant carrying the accumulators between blocks, the pipeline's proof data and
   its body obligation, and the invariant's two ends.
   Accumulator 0 after block n is (zero row) + Σ_{b ≤ n} colsum(block b + bias); accumulator 1 the same of the
   squares. Output row 2 (3) receives accumulator 0 (1) at the last block and is otherwise untouched. -/
import proofs.«107028_j46583215292429_1_alg».proof.Proof.KB.Stats1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

section CaseA
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
  (x0 : Vec F S2000x128 .f32) (x1 : Vec F S1x128 .f32)

/-- At the first block nothing is stored into output row 2: no pieces; a placeholder nothing consults (the window
    is idle there and not written back). -/
def out1_A_2 : Vec F S1x128 .f32 :=
  VO1_2.read (Elt F) (VO1_2.writes (Elt F) VO1_2.junk (kernelRun1_A c i arg1 harg1 arg2 harg2 arg3 harg3 arg4 harg4 arg5 harg5 arg6 harg6 hc0 hc1 x0 x1).1)
/-- The same of output row 3. -/
def out1_A_3 : Vec F S1x128 .f32 :=
  VO1_3.read (Elt F) (VO1_3.writes (Elt F) VO1_3.junk (kernelRun1_A c i arg1 harg1 arg2 harg2 arg3 harg3 arg4 harg4 arg5 harg5 arg6 harg6 hc0 hc1 x0 x1).2.1)
/-- The first block's two pieces for accumulator 0 (each the whole row) cover it. -/
theorem scover1_A_0 (y : S1x128.Idx) : ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x128.size (by sl_kernel_rfl) y

/-- What the first block leaves in accumulator 0: its pieces read back. -/
def sout1_A_0 : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- The same for accumulator 1. -/
theorem scover1_A_1 (y : S1x128.Idx) : ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x128.size (by sl_kernel_rfl) y

/-- What the first block leaves in accumulator 1. -/
def sout1_A_1 : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

end CaseA

section CaseB
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
  (x0 : Vec F S2000x128 .f32) (x1 : Vec F S1x128 .f32) (xs0 : Vec F S1x128 .f32) (xs1 : Vec F S1x128 .f32)

/-- At a middle block nothing is stored into output row 2: a placeholder nothing consults. -/
def out1_B_2 : Vec F S1x128 .f32 :=
  VO1_2.read (Elt F) (VO1_2.writes (Elt F) VO1_2.junk (kernelRun1_B c i arg1 harg1 arg2 harg2 arg3 harg3 arg4 harg4 arg5 harg5 arg6 harg6 hc0 hc1 x0 x1 xs0 xs1).1)
/-- The same of output row 3. -/
def out1_B_3 : Vec F S1x128 .f32 :=
  VO1_3.read (Elt F) (VO1_3.writes (Elt F) VO1_3.junk (kernelRun1_B c i arg1 harg1 arg2 harg2 arg3 harg3 arg4 harg4 arg5 harg5 arg6 harg6 hc0 hc1 x0 x1 xs0 xs1).2.1)
/-- A middle block's one piece for accumulator 0 (the whole row) covers it. -/
theorem scover1_B_0 (y : S1x128.Idx) : ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x128.size (by sl_kernel_rfl) y

/-- What a middle block leaves in accumulator 0, over what the block before left. -/
def sout1_B_0 : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- The same for accumulator 1. -/
theorem scover1_B_1 (y : S1x128.Idx) : ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x128.size (by sl_kernel_rfl) y

/-- What a middle block leaves in accumulator 1. -/
def sout1_B_1 : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

end CaseB

section CaseC
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
  (x0 : Vec F S2000x128 .f32) (x1 : Vec F S1x128 .f32) (xs0 : Vec F S1x128 .f32) (xs1 : Vec F S1x128 .f32)

/-- The last block's one store into output row 2 (the whole row) covers it. -/
theorem cover1_C_2 (y : S1x128.Idx) : ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What the last block leaves in output row 2: accumulator 0's final contents. -/
def out1_C_2 : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- The same for output row 3. -/
theorem cover1_C_3 (y : S1x128.Idx) : ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What the last block leaves in output row 3: accumulator 1's final contents. -/
def out1_C_3 : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- The last block's one piece for accumulator 0 covers it. -/
theorem scover1_C_0 (y : S1x128.Idx) : ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What the last block leaves in accumulator 0. -/
def sout1_C_0 : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- The same for accumulator 1. -/
theorem scover1_C_1 (y : S1x128.Idx) : ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What the last block leaves in accumulator 1. -/
def sout1_C_1 : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

end CaseC

/-! ## What the rows hold after each block -/

/-- THE ACCUMULATION. What output rows 2, 3 and accumulators 0, 1 hold after the body at position `n` (in that
    order): the first block's case at 0; afterwards the middle case, or at position 49 the last, run at the
    point's memrefs and input blocks over the accumulators as position `n - 1` left them. -/
def outsAt1 (c : Dev nD) : (n : ℕ) → n < cfg1.N → Vec F S1x128 .f32 × Vec F S1x128 .f32 × Vec F S1x128 .f32 × Vec F S1x128 .f32
  | 0, hn =>
     (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 50 = 49 then
       (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
       (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first block. -/
theorem outsAt1_A (c : Dev nD) (t : Fin cfg1.N) (h0 : t.val % 50 = 0) (h1 : ¬t.val % 50 = 49) :
    outsAt1 V c t.val t.isLt =
     (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have hN : n + 1 < 50 := lt_of_lt_of_eq hn (show cfg1.N = 50 from N_1); (try dsimp only at h0); omega)

/-- `outsAt1` at a middle block: that case's contents, over what the block before left. -/
theorem outsAt1_B (c : Dev nD) (t : Fin cfg1.N) (h0 : ¬t.val % 50 = 0) (h1 : ¬t.val % 50 = 49) :
    outsAt1 V c t.val t.isLt =
     (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last block. -/
theorem outsAt1_C (c : Dev nD) (t : Fin cfg1.N) (h0 : ¬t.val % 50 = 0) (h1 : t.val % 50 = 49) :
    outsAt1 V c t.val t.isLt =
     (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant -/

/-- The region invariant before position `n`: the two accumulator rows held whole — before the first block at
    anything, afterwards at what the block before left (`outsAt1`'s last two components) —, beside every other scoped
    buffer no window stages (unopened) and the generator register at some state. -/
def PhiS1 (c : Dev nD) : (n : ℕ) → n ≤ cfg1.N → sProp 𝕄
  | 0, _ => iprop((∃ d, owns (c : Thread nD τ) scM1_0 fullShare d) ∗ (∃ d, owns (c : Thread nD τ) scM1_1 fullShare d)
      ∗ Pipeline.scopedRestBut (Ix := Unit) (Name := ℕ) (U := UR sig nD τ) (Lvl := ℕ) (Val := Elt F) spec1 c [cc1_scratch0, cc1_scratch1] ∗ (∃ r, prngReg c r))
  | n + 1, hn => iprop(owns (c : Thread nD τ) scM1_0 fullShare (outsAt1 V c n hn).2.2.1 ∗ owns (c : Thread nD τ) scM1_1 fullShare (outsAt1 V c n hn).2.2.2
      ∗ Pipeline.scopedRestBut (Ix := Unit) (Name := ℕ) (U := UR sig nD τ) (Lvl := ℕ) (Val := Elt F) spec1 c [cc1_scratch0, cc1_scratch1] ∗ (∃ r, prngReg c r))

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d)
      ∗ Pipeline.scopedRestBut (Ix := Unit) (Name := ℕ) (U := UR sig nD τ) (Lvl := ℕ) (Val := Elt F) spec1 c [cc1_scratch0, cc1_scratch1] ∗ (∃ r, prngReg c r)) := by
  subst hz; rfl

/-- After point `n` (before point `n + 1`): the accumulators at that point's contents. -/
theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2
      ∗ Pipeline.scopedRestBut (Ix := Unit) (Name := ℕ) (U := UR sig nD τ) (Lvl := ℕ) (Val := Elt F) spec1 c [cc1_scratch0, cc1_scratch1] ∗ (∃ r, prngReg c r)) := rfl

/-- Before a point that is not the first: the accumulators at what the point before left. -/
theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and each output row's at `outsAt1`'s component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulators at what the point before left (at anything at the first point) and takes
    them back at this point's contents; the output rows are handed back untouched except at the last point, where they
    are left at the accumulators' final contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val % 50 = 0
  · by_cases h1 : t.val % 50 = 49
    · exfalso; omega
    · -- the first block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz]
      iintro ⟨⟨HS0, HS1, Hr, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 50 = 49
    · -- the last block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_C_0 c _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · -- a middle block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The invariant before the first point, from the generator register and the scoped buffers no window stages: those
    split at the two accumulator rows, each whole at some contents, the others unopened. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl, scopedRest1_split]
  simp only [scM1_0, scM1_1, owns_whole]
  iintro ⟨Hg, ⟨HS0, HS1⟩, Hr⟩
  isplitl [HS0]; · iexact HS0
  isplitl [HS1]; · iexact HS1
  isplitl [Hr]; · iexact Hr
  iexact Hg

/-- After the last point the invariant gives the generator register and those scoped buffers back: the accumulators'
    named contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), scopedRest1_split]
  simp only [scM1_0, scM1_1, owns_whole]
  iintro ⟨HS0, HS1, Hr, Hg⟩
  isplitl [Hg]; · iexact Hg
  isplitl [HS0 HS1]
  · isplitl [HS0]; · iexists _; iexact HS0
    iexists _; iexact HS1
  iexact Hr

end Cert.Kernel.Hand

end
-- ==== Proof.KB.Apply2.lean ====
/- The frame half of the batch-norm apply region (custom_call 2) at the buffer contents `V` the region is entered
   with: each window's block at a grid point, what the body leaves in the output window's buffer as a function of
   the six input blocks, the body's triple, the pipeline's proof data and its body obligation at every point. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 x 128 extents: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and window 6 rows
    `2000 t .. 2000 t + 1999` of a 100000 x 128 array, for windows 1..5 the whole 1 x 128 row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents (`hA`) and whose body leaves the block in place (`hafter`): where the
    window is not fetched its block index has not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is the entry contents (`hA`) and whose body leaves the block in place (`hafter`): where the
    window is not fetched its block index has not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is the entry contents (`hA`) and whose body leaves the block in place (`hafter`): where the
    window is not fetched its block index has not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is the entry contents (`hA`) and whose body leaves the block in place (`hafter`): where the
    window is not fetched its block index has not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is the entry contents (`hA`) and whose body leaves the block in place (`hafter`): where the
    window is not fetched its block index has not moved, so the previous point's block is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is the entry contents (`hA`) and whose body leaves the block in place (`hafter`): where the
    window is not fetched its block index has not moved, so the previous point's block is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 x 128 block, and the whole 1 x 128 row. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-! ## What the body leaves in the output window's buffer -/

/-- Window 6's staging buffer after the body, from the six input blocks (`x0` the feature rows, `x1` bias, `x2` mean,
    `x3` variance, `x4` scale, `x5` shift): its one store over the whole block. The payload takes the variance row
    before the mean row. -/
def out2_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r2_0, k2_pay1 (View.ld x0 r2_0) (View.ld x1 r2_1) (View.ld x3 r2_1) (View.ld x2 r2_1) (View.ld x4 r2_1) (View.ld x5 r2_1)⟩]

/-- The one store is over the whole buffer, so it covers it. -/
theorem cover2_6 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_6` of the inputs': six whole loads,
    a load of the output buffer whose value is not used, and one whole store. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Mat3.lean ====
/- The frame half of matmul region 3: a grid of 50 row blocks; at each point the body reads a S2000x128 row block of the
   left matrix and the whole S128x128 right matrix and stores their product, rounded operands into a zero accumulator,
   over the whole S2000x128 output row block. Stated at the buffer contents `V` found when the region is entered. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left matrix's row block (window 0, moved at every point) is what its staging buffer holds at every point,
    for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right matrix (window 1, block index constant, moved at the first point only) is what its staging buffer
    holds at every point: where it is not moved the block index has not changed, so the block is the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S2000x128 := Rect.unit (s := S2000x128) ![0, 0] S2000x128.size inb_S2000x128_S2000x128_0_0

/-! ## What the body leaves in the output window's buffer -/

/-- The output row block after the body, from the two input blocks: one store over the whole block, of the
    product of the left block `x0` and the right matrix `x1`. -/
def out3_2 (x0 : Vec F S2000x128 .f32) (x1 : Vec F S128x128 .f32) : Vec F S2000x128 .f32 :=
  View.canon [⟨r3_2, k3_pay1 (View.ld x0 r3_0) (View.ld x1 r3_1)⟩]

/-- The one store is over the whole block, so it covers it. -/
theorem cover3_2 (p0 : Vec F S2000x128 .f32) (y : S2000x128.Idx) :
    ∃ pc ∈ ([⟨r3_2, p0⟩] : List (View.Piece (Elt F) S2000x128 .f32)), y ∈ pc.1.set :=
  View.cover_of_tiled [⟨r3_2, p0⟩] S2000x128.size (by rfl) y

/-! ## The body's triple -/

set_option maxHeartbeats 1000000 in
/-- The body on whole staging buffers — the inputs' reading `x0`, `x1`, the output's holding anything — runs to the
    continuation with the inputs' as they were and the output's at `out3_2 x0 x1`. The grid coordinate `i` is not read. -/
theorem sound_kernel3 (c : Dev nD) (E : Set ℕ) (i : grid3.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input's buffer at its block and the output's at `out3_2` of the two input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, moved there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Stats4Runs.lean ====
/- The batch-norm statistics region (custom_call 4): what its body's three control cases share.
   The region walks 50 row blocks of 2000 rows. Two accumulator rows (1x128 each) are carried from block
   to block: at the first block they are cleared, at every block the column sums of (block + bias row)
   and of its squares are added, and at the last block the two accumulators are copied to the two output
   rows. So a grid point is in one of three cases: FIRST (clear, accumulate), MIDDLE (accumulate), LAST
   (accumulate, copy out). Here: each window's block read off the array contents V the region is entered
   with, the two branch conditions in closed form over the grid, where the two output windows are idle,
   and the memrefs the body is called with. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 rows
    2000·t … 2000·t+1999 of the 100000x128 input, for window 1 the one bias row. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, block index constant, so fetched at the first point only) holds its block at
    every point all the same: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional ("this is block 0"), from the grid coordinate. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional ("this is block 49"). -/
abbrev cond4_1 (i : grid4.Coords) : Prop := k4_cond2 i = 1#1
/-- It holds at point 49 only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The two inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first point the two output rows are idle (nothing is stored into them) and not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- The same at the middle points. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last point both output rows are live: the accumulators are copied into them. -/
theorem liveAt4_2_C : ∀ t : Fin cfg4.N, ¬cond4_0 (grid4.coords t) → cond4_1 (grid4.coords t) → cfg4.idle 2 (grid4.coords t) = false := by decide +kernel
theorem liveAt4_3_C : ∀ t : Fin cfg4.N, ¬cond4_0 (grid4.coords t) → cond4_1 (grid4.coords t) → cfg4.idle 3 (grid4.coords t) = false := by decide +kernel

/-! ## The memrefs the body is called with -/

/-- One staging buffer of each output row, through which its contents are stated. -/
abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
/-- Each window's current staging memref at point `t`, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two accumulator rows: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

end Cert.Kernel.Hand

end
-- ==== Proof.KB.Stats4RunA.lean ====
/- The statistics body at the FIRST block (point 0). Both conditionals decided: the accumulators are
   cleared, then the block's column sums are added; the output rows are not touched. -/
import proofs.«107028_j46583215292429_1_alg».proof.Proof.KB.Stats4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces (last first), AT THE FIRST BLOCK, with the proof
    that on whole memrefs — the two inputs' at their contents `x0` (the 2000x128 block) and `x1` (the bias row), the
    two output rows' at contents `xi2`, `xi3` handed back untouched, the two accumulators' at anything — the body
    runs to the continuation holding the inputs and outputs as they were and each accumulator with its pieces
    written (two each: the zero row, then zero row + column sums). The output rows get no piece. -/
noncomputable def kernelRun4_A (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S2000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KB.Stats4RunB.lean ====
/- The statistics body at a MIDDLE block (points 1 … 48). Neither conditional taken: the block's column
   sums are added to the accumulators the block before left; the output rows are not touched. -/
import proofs.«107028_j46583215292429_1_alg».proof.Proof.KB.Stats4RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces, AT A MIDDLE BLOCK, with the proof that on whole
    memrefs — the inputs' at `x0`, `x1`, the output rows' at `xi2`, `xi3` handed back untouched, the accumulators' at
    what the block before left (`xs0`, `xs1`) — the body runs to the continuation holding the inputs and outputs as
    they were and each accumulator with its one piece written (`xs` + column sums). -/
noncomputable def kernelRun4_B (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.KB.Stats4RunC.lean ====
/- The statistics body at the LAST block (point 49). The second conditional taken: the block's column
   sums are added to the accumulators, and the accumulators are then copied into the two output rows. -/
import proofs.«107028_j46583215292429_1_alg».proof.Proof.KB.Stats4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each output row and each accumulator row, as pieces, AT THE LAST BLOCK, with the
    proof that on whole memrefs — the inputs' at `x0`, `x1`, the output rows' at anything, the accumulators' at what
    the block before left (`xs0`, `xs1`) — the body runs to the continuation holding the inputs as they were and each
    output row and accumulator with its one piece written (`xs` + column sums, in all four). -/
noncomputable def kernelRun4_C (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.KB.Stats4.lean ====
/- The batch-norm statistics region (custom_call 4) at the buffer contents V it is entered with: what each
   control case leaves in the two accumulator rows and the two output rows, what they hold block after block
   (the accumulation), the invariant carrying the accumulators between blocks, the pipeline's proof data and
   its body obligation, and the invariant's two ends.
   Accumulator 0 after block n is (zero row) + Σ_{b ≤ n} colsum(block b + bias); accumulator 1 the same of the
   squares. Output row 2 (3) receives accumulator 0 (1) at the last block and is otherwise untouched. -/
import proofs.«107028_j46583215292429_1_alg».proof.Proof.KB.Stats4RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

section CaseA
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
  (x0 : Vec F S2000x128 .f32) (x1 : Vec F S1x128 .f32)

/-- At the first block nothing is stored into output row 2: no pieces; a placeholder nothing consults (the window
    is idle there and not written back). -/
def out4_A_2 : Vec F S1x128 .f32 :=
  VO4_2.read (Elt F) (VO4_2.writes (Elt F) VO4_2.junk (kernelRun4_A c i arg1 harg1 arg2 harg2 arg3 harg3 arg4 harg4 arg5 harg5 arg6 harg6 hc0 hc1 x0 x1).1)
/-- The same of output row 3. -/
def out4_A_3 : Vec F S1x128 .f32 :=
  VO4_3.read (Elt F) (VO4_3.writes (Elt F) VO4_3.junk (kernelRun4_A c i arg1 harg1 arg2 harg2 arg3 harg3 arg4 harg4 arg5 harg5 arg6 harg6 hc0 hc1 x0 x1).2.1)
/-- The first block's two pieces for accumulator 0 (each the whole row) cover it. -/
theorem scover4_A_0 (y : S1x128.Idx) : ∃ pc ∈ (kernelRun4_A c i arg1 harg1 arg2 harg2 arg3 harg3 arg4 harg4 arg5 harg5 arg6 harg6 hc0 hc1 x0 x1).2.2.1, y ∈ pc.1.set :=
  View.cover_of_tiledL (kernelRun4_A c i arg1 harg1 arg2 harg2 arg3 harg3 arg4 harg4 arg5 harg5 arg6 harg6 hc0 hc1 x0 x1).2.2.1 S1x128.size (by sl_kernel_rfl) y

/-- What the first block leaves in accumulator 0: its pieces read back. -/
def sout4_A_0 : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).2.2.1)

/-- The same for accumulator 1. -/
theorem scover4_A_1 (y : S1x128.Idx) : ∃ pc ∈ (kernelRun4_A c i arg1 harg1 arg2 harg2 arg3 harg3 arg4 harg4 arg5 harg5 arg6 harg6 hc0 hc1 x0 x1).2.2.2.1, y ∈ pc.1.set :=
  View.cover_of_tiledL (kernelRun4_A c i arg1 harg1 arg2 harg2 arg3 harg3 arg4 harg4 arg5 harg5 arg6 harg6 hc0 hc1 x0 x1).2.2.2.1 S1x128.size (by sl_kernel_rfl) y

/-- What the first block leaves in accumulator 1. -/
def sout4_A_1 : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.2.2.1)

end CaseA

section CaseB
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
  (x0 : Vec F S2000x128 .f32) (x1 : Vec F S1x128 .f32) (xs0 : Vec F S1x128 .f32) (xs1 : Vec F S1x128 .f32)

/-- At a middle block nothing is stored into output row 2: a placeholder nothing consults. -/
def out4_B_2 : Vec F S1x128 .f32 :=
  VO4_2.read (Elt F) (VO4_2.writes (Elt F) VO4_2.junk (kernelRun4_B c i arg1 harg1 arg2 harg2 arg3 harg3 arg4 harg4 arg5 harg5 arg6 harg6 hc0 hc1 x0 x1 xs0 xs1).1)
/-- The same of output row 3. -/
def out4_B_3 : Vec F S1x128 .f32 :=
  VO4_3.read (Elt F) (VO4_3.writes (Elt F) VO4_3.junk (kernelRun4_B c i arg1 harg1 arg2 harg2 arg3 harg3 arg4 harg4 arg5 harg5 arg6 harg6 hc0 hc1 x0 x1 xs0 xs1).2.1)
/-- A middle block's one piece for accumulator 0 (the whole row) covers it. -/
theorem scover4_B_0 (y : S1x128.Idx) : ∃ pc ∈ (kernelRun4_B c i arg1 harg1 arg2 harg2 arg3 harg3 arg4 harg4 arg5 harg5 arg6 harg6 hc0 hc1 x0 x1 xs0 xs1).2.2.1, y ∈ pc.1.set :=
  View.cover_of_tiledL (kernelRun4_B c i arg1 harg1 arg2 harg2 arg3 harg3 arg4 harg4 arg5 harg5 arg6 harg6 hc0 hc1 x0 x1 xs0 xs1).2.2.1 S1x128.size (by sl_kernel_rfl) y

/-- What a middle block leaves in accumulator 0, over what the block before left. -/
def sout4_B_0 : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).2.2.1)

/-- The same for accumulator 1. -/
theorem scover4_B_1 (y : S1x128.Idx) : ∃ pc ∈ (kernelRun4_B c i arg1 harg1 arg2 harg2 arg3 harg3 arg4 harg4 arg5 harg5 arg6 harg6 hc0 hc1 x0 x1 xs0 xs1).2.2.2.1, y ∈ pc.1.set :=
  View.cover_of_tiledL (kernelRun4_B c i arg1 harg1 arg2 harg2 arg3 harg3 arg4 harg4 arg5 harg5 arg6 harg6 hc0 hc1 x0 x1 xs0 xs1).2.2.2.1 S1x128.size (by sl_kernel_rfl) y

/-- What a middle block leaves in accumulator 1. -/
def sout4_B_1 : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.2.2.1)

end CaseB

section CaseC
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
  (x0 : Vec F S2000x128 .f32) (x1 : Vec F S1x128 .f32) (xs0 : Vec F S1x128 .f32) (xs1 : Vec F S1x128 .f32)

/-- The last block's one store into output row 2 (the whole row) covers it. -/
theorem cover4_C_2 (y : S1x128.Idx) : ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y

/-- What the last block leaves in output row 2: accumulator 0's final contents. -/
def out4_C_2 : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- The same for output row 3. -/
theorem cover4_C_3 (y : S1x128.Idx) : ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y

/-- What the last block leaves in output row 3: accumulator 1's final contents. -/
def out4_C_3 : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- The last block's one piece for accumulator 0 covers it. -/
theorem scover4_C_0 (y : S1x128.Idx) : ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y

/-- What the last block leaves in accumulator 0. -/
def sout4_C_0 : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- The same for accumulator 1. -/
theorem scover4_C_1 (y : S1x128.Idx) : ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y

/-- What the last block leaves in accumulator 1. -/
def sout4_C_1 : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

end CaseC

/-! ## What the rows hold after each block -/

/-- THE ACCUMULATION. What output rows 2, 3 and accumulators 0, 1 hold after the body at position `n` (in that
    order): the first block's case at 0; afterwards the middle case, or at position 49 the last, run at the
    point's memrefs and input blocks over the accumulators as position `n - 1` left them. -/
def outsAt4 (c : Dev nD) : (n : ℕ) → n < cfg4.N → Vec F S1x128 .f32 × Vec F S1x128 .f32 × Vec F S1x128 .f32 × Vec F S1x128 .f32
  | 0, hn =>
     (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h1 : (n + 1) % 50 = 49 then
       (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
       (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first block. -/
theorem outsAt4_A (c : Dev nD) (t : Fin cfg4.N) (h0 : t.val % 50 = 0) (h1 : ¬t.val % 50 = 49) :
    outsAt4 V c t.val t.isLt =
     (out4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (by exfalso; have hN : n + 1 < 50 := lt_of_lt_of_eq hn (show cfg4.N = 50 from N_4); (try dsimp only at h0); omega)

/-- `outsAt4` at a middle block: that case's contents, over what the block before left. -/
theorem outsAt4_B (c : Dev nD) (t : Fin cfg4.N) (h0 : ¬t.val % 50 = 0) (h1 : ¬t.val % 50 = 49) :
    outsAt4 V c t.val t.isLt =
     (out4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt4` at the last block. -/
theorem outsAt4_C (c : Dev nD) (t : Fin cfg4.N) (h0 : ¬t.val % 50 = 0) (h1 : t.val % 50 = 49) :
    outsAt4 V c t.val t.isLt =
     (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant -/

/-- The region invariant before position `n`: the two accumulator rows held whole — before the first block at
    anything, afterwards at what the block before left (`outsAt4`'s last two components) —, beside every other scoped
    buffer no window stages (unopened) and the generator register at some state. -/
def PhiS4 (c : Dev nD) : (n : ℕ) → n ≤ cfg4.N → sProp 𝕄
  | 0, _ => iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r))
  | n + 1, hn => iprop(owns (c : Thread nD τ) scM4_0 fullShare (outsAt4 V c n hn).2.2.1 ∗ owns (c : Thread nD τ) scM4_1 fullShare (outsAt4 V c n hn).2.2.2
      ∗ Pipeline.scopedRestBut (Ix := Unit) (Name := ℕ) (U := UR sig nD τ) (Lvl := ℕ) (Val := Elt F) spec4 c [cc4_scratch0, cc4_scratch1] ∗ (∃ r, prngReg c r))

theorem PhiS4_zero (c : Dev nD) (n : ℕ) (h : n ≤ cfg4.N) (hz : n = 0) :
    PhiS4 V c n h = iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r)) := by
  subst hz; rfl

/-- After point `n` (before point `n + 1`): the accumulators at that point's contents. -/
theorem PhiS4_succ (c : Dev nD) (n : ℕ) (hn : n < cfg4.N) :
    PhiS4 V c (n + 1) hn = iprop(owns (c : Thread nD τ) scM4_0 fullShare (outsAt4 V c n hn).2.2.1 ∗ owns (c : Thread nD τ) scM4_1 fullShare (outsAt4 V c n hn).2.2.2
      ∗ Pipeline.scopedRestBut (Ix := Unit) (Name := ℕ) (U := UR sig nD τ) (Lvl := ℕ) (Val := Elt F) spec4 c [cc4_scratch0, cc4_scratch1] ∗ (∃ r, prngReg c r)) := rfl

/-- Before a point that is not the first: the accumulators at what the point before left. -/
theorem PhiS4_pos (c : Dev nD) (n : ℕ) (h : n ≤ cfg4.N) (hz : n ≠ 0) :
    PhiS4 V c n h = iprop(owns (c : Thread nD τ) scM4_0 fullShare (outsAt4 V c (n - 1) (by omega)).2.2.1 ∗ owns (c : Thread nD τ) scM4_1 fullShare (outsAt4 V c (n - 1) (by omega)).2.2.2
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-! ## The pipeline's proof data -/

/-- The proof data of pipeline 4 on core `c`: the arrays as the region finds them (`V`); after the body at point
    `t` each input's buffer at its block and each output row's at `outsAt4`'s component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the accumulators at what the point before left (at anything at the first point) and takes
    them back at this point's contents; the output rows are handed back untouched except at the last point, where they
    are left at the accumulators' final contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  by_cases h0 : t.val % 50 = 0
  · by_cases h1 : t.val % 50 = 49
    · exfalso; omega
    · -- the first block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0 sout4_A_1; (try dsimp only)
      have hz : t.val = 0 := by omega
      rw [PhiS4_castSucc V c t, PhiS4_zero V c _ _ hz]
      iintro ⟨⟨HS0, HS1, Hr, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_A_0 c _ _ _ _ _ _ _ _ _ _ _ _ _ _ _ _ _)
        isplitl [HS1]
        · unfold owns; iexists _; isplitr
          swap; · iexact HS1
          ipureintro; exact View.read_writes_of_cover _ _ _ _ _ (scover4_A_1 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 50 = 49
    · -- the last block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_2 out4_C_3 sout4_C_0 sout4_C_1; (try dsimp only)
      rw [PhiS4_castSucc V c t, PhiS4_pos V c _ _ hz]
      iintro ⟨⟨HS0, HS1, Hr, Hg⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_C_0 c _ _ _ _ _ _ _ _ _ _ _ _ _ _ _ _ _ _ _)
        isplitl [HS1]
        · unfold owns; iexists _; isplitr
          swap; · iexact HS1
          ipureintro; exact View.read_writes_of_cover _ _ _ _ _ (scover4_C_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · -- a middle block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ hz]
      iintro ⟨⟨HS0, HS1, Hr, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_B_0 c _ _ _ _ _ _ _ _ _ _ _ _ _ _ _ _ _ _ _)
        isplitl [HS1]
        · unfold owns; iexists _; isplitr
          swap; · iexact HS1
          ipureintro; exact View.read_writes_of_cover _ _ _ _ _ (scover4_B_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The invariant before the first point, from the generator register and the scoped buffers no window stages: those
    split at the two accumulator rows, each whole at some contents, the others unopened. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl, scopedRest4_split]
  simp only [scM4_0, scM4_1, owns_whole]
  iintro ⟨Hg, ⟨HS0, HS1⟩, Hr⟩
  isplitl [HS0]; · iexact HS0
  isplitl [HS1]; · iexact HS1
  isplitl [Hr]; · iexact Hr
  iexact Hg

/-- After the last point the invariant gives the generator register and those scoped buffers back: the accumulators'
    named contents are forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), scopedRest4_split]
  simp only [scM4_0, scM4_1, owns_whole]
  iintro ⟨HS0, HS1, Hr, Hg⟩
  isplitl [Hg]; · iexact Hg
  isplitl [HS0 HS1]
  · isplitl [HS0]; · iexists _; iexact HS0
    iexists _; iexact HS1
  iexact Hr

end Cert.Kernel.Hand

end
-- ==== Proof.KB.Apply5.lean ====
/- The frame half of the batch-norm apply region (custom_call 5) at the buffer contents `V` the region is entered
   with: each window's block at a grid point, what the body leaves in the output window's buffer as a function of
   the six input blocks, the body's triple, the pipeline's proof data and its body obligation at every point. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 x 128 extents: the structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and window 6 rows
    `2000 t .. 2000 t + 1999` of a 100000 x 128 array, for windows 1..5 the whole 1 x 128 row. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents (`hA`) and whose body leaves the block in place (`hafter`): where the
    window is not fetched its block index has not moved, so the previous point's block is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is the entry contents (`hA`) and whose body leaves the block in place (`hafter`): where the
    window is not fetched its block index has not moved, so the previous point's block is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is the entry contents (`hA`) and whose body leaves the block in place (`hafter`): where the
    window is not fetched its block index has not moved, so the previous point's block is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is the entry contents (`hA`) and whose body leaves the block in place (`hafter`): where the
    window is not fetched its block index has not moved, so the previous point's block is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is the entry contents (`hA`) and whose body leaves the block in place (`hafter`): where the
    window is not fetched its block index has not moved, so the previous point's block is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is the entry contents (`hA`) and whose body leaves the block in place (`hafter`): where the
    window is not fetched its block index has not moved, so the previous point's block is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 x 128 block, and the whole 1 x 128 row. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 6's staging buffer after the body, from the six input blocks (`x0` the feature rows, `x1` bias, `x2` mean,
    `x3` variance, `x4` scale, `x5` shift): its one store over the whole block. The payload takes the variance row
    before the mean row. -/
def out5_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r5_0, k5_pay1 (View.ld x0 r5_0) (View.ld x1 r5_1) (View.ld x3 r5_1) (View.ld x2 r5_1) (View.ld x4 r5_1) (View.ld x5 r5_1)⟩]

/-- The one store is over the whole buffer, so it covers it. -/
theorem cover5_6 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `xW` and the output's at anything, runs to
    the continuation holding the inputs' as they were and the output's at `out5_6` of the inputs': six whole loads,
    a load of the output buffer whose value is not used, and one whole store. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_apply_kernel i arg1 harg1 arg2 harg2 arg3 harg3 arg4 harg4 arg5 harg5 arg6 harg6 arg7 harg7) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of the pipeline on core `c`: the arrays as the region finds them (`V`); after the body at point `t`
    each input's buffer at its block and the output's at `out5_6` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Mat6.lean ====
/- The frame half of matmul region 6: a grid of 50 row blocks; at each point the body reads a S2000x128 row block of the
   left matrix and the whole S128x64 right matrix and stores their product, rounded operands into a zero accumulator,
   over the whole S2000x64 output row block. Stated at the buffer contents `V` found when the region is entered. -/
import proofs.«107028_j46583215292429_1_alg».proof.Proof.Gen.Kernel.Launch
import proofs.«107028_j46583215292429_1_alg».proof.Proof.Gen.Kernel.Skeleton
import proofs.«107028_j46583215292429_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left matrix's row block (window 0, moved at every point) is what its staging buffer holds at every point,
    for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right matrix (window 1, block index constant, moved at the first point only) is what its staging buffer
    holds at every point: where it is not moved the block index has not changed, so the block is the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_2 : Rect S2000x64 := Rect.unit (s := S2000x64) ![0, 0] S2000x64.size inb_S2000x64_S2000x64_0_0

/-! ## What the body leaves in the output window's buffer -/

/-- The output row block after the body, from the two input blocks: one store over the whole block, of the
    product of the left block `x0` and the right matrix `x1`. -/
def out6_2 (x0 : Vec F S2000x128 .f32) (x1 : Vec F S128x64 .f32) : Vec F S2000x64 .f32 :=
  View.canon [⟨r6_2, k6_pay1 (View.ld x0 r6_0) (View.ld x1 r6_1)⟩]

/-- The one store is over the whole block, so it covers it. -/
theorem cover6_2 (p0 : Vec F S2000x64 .f32) (y : S2000x64.Idx) :
    ∃ pc ∈ ([⟨r6_2, p0⟩] : List (View.Piece (Elt F) S2000x64 .f32)), y ∈ pc.1.set :=
  View.cover_of_tiled [⟨r6_2, p0⟩] S2000x64.size (by rfl) y

/-! ## The body's triple -/

set_option maxHeartbeats 1000000 in
/-- The body on whole staging buffers — the inputs' reading `x0`, `x1`, the output's holding anything — runs to the
    continuation with the inputs' as they were and the output's at `out6_2 x0 x1`. The grid coordinate `i` is not read. -/
theorem sound_kernel6 (c : Dev nD) (E : Set ℕ) (i : grid6.Coords) (arg0 : Memref sig .tc .vmem S2000x128 .f32) (harg0 : arg0.IsWhole) (arg1 : Memref sig .tc .vmem S128x64 .f32) (harg1 : arg1.IsWhole) (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__matmul_kernel i arg0 harg0 arg1 harg1 arg2 harg2) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t`
    each input's buffer at its block and the output's at `out6_2` of the two input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, moved there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Run.lean ====
/-
  The run of the whole program on the TensorCores, at any float instance: @main is thirteen items in a row — six stretches
  of host operations and seven kernel regions (three dense products, two passes of column statistics, two passes of
  normalisation) — and the contents of every buffer at each boundary is a fold from the launch memory: a host stretch
  applies its operations, a region replaces its output arrays by what its fifty write-backs leave and keeps every other
  buffer. Each region is entered with every unscoped buffer whole at the boundary's contents; its arrays are split out,
  the pipeline runs over the region's proof data, and the arrays are put back at their final contents. At the end every
  unscoped buffer is read against the final memory, so both the unchanged arguments and the result array are available.
-/
import proofs.«107028_j46583215292429_1_alg».proof.Proof.Gen.Kernel.Regions
import proofs.«107028_j46583215292429_1_alg».proof.Proof.KB.Mat0
import proofs.«107028_j46583215292429_1_alg».proof.Proof.KB.Stats1
import proofs.«107028_j46583215292429_1_alg».proof.Proof.KB.Apply2
import proofs.«107028_j46583215292429_1_alg».proof.Proof.KB.Mat3
import proofs.«107028_j46583215292429_1_alg».proof.Proof.KB.Stats4
import proofs.«107028_j46583215292429_1_alg».proof.Proof.KB.Apply5
import proofs.«107028_j46583215292429_1_alg».proof.Proof.KB.Mat6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => m (c, b)
/-- After the host stretch `hostOps0`. -/
abbrev U1 : Dev nD → Valuation τ sig (Elt F) := fun c => StableHlo.after hostOps0 (U0 m c)
/-- The same read at the TensorCore's references. -/
abbrev T1 : (c : Dev nD) → (b : Ref sig .tc) → Buf (Elt F) ((c : Thread nD τ).loc b) := fun c b => U1 m c b
/-- At region 0's exit: its arrays at what the pipeline leaves, every other buffer as entered. -/
def U2 (c : Dev nD) : Valuation τ sig (Elt F) :=
  Pipeline.withArrays spec0 c (U1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- The same read at the TensorCore's references. -/
abbrev T2 : (c : Dev nD) → (b : Ref sig .tc) → Buf (Elt F) ((c : Thread nD τ).loc b) := fun c b => U2 m c b
theorem hF0 (c : Dev nD) (w : Fin cfg0.W) : (dat0 (T1 m) c).arrAt w cfg0.N = T2 m c (Pipeline.arrRef spec0 w) :=
  (U2_arr m c w).symm
theorem hrest0 (c : Dev nD) : ∀ b, b ∉ Finset.univ.image (Pipeline.arrRef spec0) → T2 m c b = T1 m c b :=
  fun b hb => U2_of_ne m c b fun w e => hb (Finset.mem_image.mpr ⟨w, Finset.mem_univ _, e⟩)
/-- After the host stretch `hostOps1`. -/
abbrev U3 : Dev nD → Valuation τ sig (Elt F) := fun c => StableHlo.after hostOps1 (U2 m c)
/-- The same read at the TensorCore's references. -/
abbrev T3 : (c : Dev nD) → (b : Ref sig .tc) → Buf (Elt F) ((c : Thread nD τ).loc b) := fun c b => U3 m c b
/-- At region 1's exit: its arrays at what the pipeline leaves, every other buffer as entered. -/
def U4 (c : Dev nD) : Valuation τ sig (Elt F) :=
  Pipeline.withArrays spec1 c (U3 m c) fun w => (dat1 (T3 m) c).arrAt w cfg1.N
theorem U4_arr (c : Dev nD) (w : Fin cfg1.W) :
    U4 m c (Proc.devRef .tc (Pipeline.arrRef spec1 w)) = (dat1 (T3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
/-- The same read at the TensorCore's references. -/
abbrev T4 : (c : Dev nD) → (b : Ref sig .tc) → Buf (Elt F) ((c : Thread nD τ).loc b) := fun c b => U4 m c b
theorem hF1 (c : Dev nD) (w : Fin cfg1.W) : (dat1 (T3 m) c).arrAt w cfg1.N = T4 m c (Pipeline.arrRef spec1 w) :=
  (U4_arr m c w).symm
theorem hrest1 (c : Dev nD) : ∀ b, b ∉ Finset.univ.image (Pipeline.arrRef spec1) → T4 m c b = T3 m c b :=
  fun b hb => U4_of_ne m c b fun w e => hb (Finset.mem_image.mpr ⟨w, Finset.mem_univ _, e⟩)
/-- After the host stretch `hostOps2`. -/
abbrev U5 : Dev nD → Valuation τ sig (Elt F) := fun c => StableHlo.after hostOps2 (U4 m c)
/-- The same read at the TensorCore's references. -/
abbrev T5 : (c : Dev nD) → (b : Ref sig .tc) → Buf (Elt F) ((c : Thread nD τ).loc b) := fun c b => U5 m c b
/-- At region 2's exit: its arrays at what the pipeline leaves, every other buffer as entered. -/
def U6 (c : Dev nD) : Valuation τ sig (Elt F) :=
  Pipeline.withArrays spec2 c (U5 m c) fun w => (dat2 (T5 m) c).arrAt w cfg2.N
theorem U6_arr (c : Dev nD) (w : Fin cfg2.W) :
    U6 m c (Proc.devRef .tc (Pipeline.arrRef spec2 w)) = (dat2 (T5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
/-- The same read at the TensorCore's references. -/
abbrev T6 : (c : Dev nD) → (b : Ref sig .tc) → Buf (Elt F) ((c : Thread nD τ).loc b) := fun c b => U6 m c b
theorem hF2 (c : Dev nD) (w : Fin cfg2.W) : (dat2 (T5 m) c).arrAt w cfg2.N = T6 m c (Pipeline.arrRef spec2 w) :=
  (U6_arr m c w).symm
theorem hrest2 (c : Dev nD) : ∀ b, b ∉ Finset.univ.image (Pipeline.arrRef spec2) → T6 m c b = T5 m c b :=
  fun b hb => U6_of_ne m c b fun w e => hb (Finset.mem_image.mpr ⟨w, Finset.mem_univ _, e⟩)
/-- At region 3's exit: its arrays at what the pipeline leaves, every other buffer as entered. -/
def U7 (c : Dev nD) : Valuation τ sig (Elt F) :=
  Pipeline.withArrays spec3 c (U6 m c) fun w => (dat3 (T6 m) c).arrAt w cfg3.N
theorem U7_arr (c : Dev nD) (w : Fin cfg3.W) :
    U7 m c (Proc.devRef .tc (Pipeline.arrRef spec3 w)) = (dat3 (T6 m) c).arrAt w cfg3.N := by
  unfold U7; exact Pipeline.withArrays_arr spec3 launch3.win.arr_inj c _ _ w
theorem U7_of_ne (c : Dev nD) (b : Ref sig .tc) (hb : ∀ w, Pipeline.arrRef spec3 w ≠ b) :
    U7 m c (Proc.devRef .tc b) = U6 m c (Proc.devRef .tc b) := by
  unfold U7; exact Pipeline.withArrays_of_ne spec3 c _ _ b hb
/-- The same read at the TensorCore's references. -/
abbrev T7 : (c : Dev nD) → (b : Ref sig .tc) → Buf (Elt F) ((c : Thread nD τ).loc b) := fun c b => U7 m c b
theorem hF3 (c : Dev nD) (w : Fin cfg3.W) : (dat3 (T6 m) c).arrAt w cfg3.N = T7 m c (Pipeline.arrRef spec3 w) :=
  (U7_arr m c w).symm
theorem hrest3 (c : Dev nD) : ∀ b, b ∉ Finset.univ.image (Pipeline.arrRef spec3) → T7 m c b = T6 m c b :=
  fun b hb => U7_of_ne m c b fun w e => hb (Finset.mem_image.mpr ⟨w, Finset.mem_univ _, e⟩)
/-- After the host stretch `hostOps4`. -/
abbrev U8 : Dev nD → Valuation τ sig (Elt F) := fun c => StableHlo.after hostOps4 (U7 m c)
/-- The same read at the TensorCore's references. -/
abbrev T8 : (c : Dev nD) → (b : Ref sig .tc) → Buf (Elt F) ((c : Thread nD τ).loc b) := fun c b => U8 m c b
/-- At region 4's exit: its arrays at what the pipeline leaves, every other buffer as entered. -/
def U9 (c : Dev nD) : Valuation τ sig (Elt F) :=
  Pipeline.withArrays spec4 c (U8 m c) fun w => (dat4 (T8 m) c).arrAt w cfg4.N
theorem U9_arr (c : Dev nD) (w : Fin cfg4.W) :
    U9 m c (Proc.devRef .tc (Pipeline.arrRef spec4 w)) = (dat4 (T8 m) c).arrAt w cfg4.N := by
  unfold U9; exact Pipeline.withArrays_arr spec4 launch4.win.arr_inj c _ _ w
theorem U9_of_ne (c : Dev nD) (b : Ref sig .tc) (hb : ∀ w, Pipeline.arrRef spec4 w ≠ b) :
    U9 m c (Proc.devRef .tc b) = U8 m c (Proc.devRef .tc b) := by
  unfold U9; exact Pipeline.withArrays_of_ne spec4 c _ _ b hb
/-- The same read at the TensorCore's references. -/
abbrev T9 : (c : Dev nD) → (b : Ref sig .tc) → Buf (Elt F) ((c : Thread nD τ).loc b) := fun c b => U9 m c b
theorem hF4 (c : Dev nD) (w : Fin cfg4.W) : (dat4 (T8 m) c).arrAt w cfg4.N = T9 m c (Pipeline.arrRef spec4 w) :=
  (U9_arr m c w).symm
theorem hrest4 (c : Dev nD) : ∀ b, b ∉ Finset.univ.image (Pipeline.arrRef spec4) → T9 m c b = T8 m c b :=
  fun b hb => U9_of_ne m c b fun w e => hb (Finset.mem_image.mpr ⟨w, Finset.mem_univ _, e⟩)
/-- After the host stretch `hostOps5`. -/
abbrev U10 : Dev nD → Valuation τ sig (Elt F) := fun c => StableHlo.after hostOps5 (U9 m c)
/-- The same read at the TensorCore's references. -/
abbrev T10 : (c : Dev nD) → (b : Ref sig .tc) → Buf (Elt F) ((c : Thread nD τ).loc b) := fun c b => U10 m c b
/-- At region 5's exit: its arrays at what the pipeline leaves, every other buffer as entered. -/
def U11 (c : Dev nD) : Valuation τ sig (Elt F) :=
  Pipeline.withArrays spec5 c (U10 m c) fun w => (dat5 (T10 m) c).arrAt w cfg5.N
theorem U11_arr (c : Dev nD) (w : Fin cfg5.W) :
    U11 m c (Proc.devRef .tc (Pipeline.arrRef spec5 w)) = (dat5 (T10 m) c).arrAt w cfg5.N := by
  unfold U11; exact Pipeline.withArrays_arr spec5 launch5.win.arr_inj c _ _ w
theorem U11_of_ne (c : Dev nD) (b : Ref sig .tc) (hb : ∀ w, Pipeline.arrRef spec5 w ≠ b) :
    U11 m c (Proc.devRef .tc b) = U10 m c (Proc.devRef .tc b) := by
  unfold U11; exact Pipeline.withArrays_of_ne spec5 c _ _ b hb
/-- The same read at the TensorCore's references. -/
abbrev T11 : (c : Dev nD) → (b : Ref sig .tc) → Buf (Elt F) ((c : Thread nD τ).loc b) := fun c b => U11 m c b
theorem hF5 (c : Dev nD) (w : Fin cfg5.W) : (dat5 (T10 m) c).arrAt w cfg5.N = T11 m c (Pipeline.arrRef spec5 w) :=
  (U11_arr m c w).symm
theorem hrest5 (c : Dev nD) : ∀ b, b ∉ Finset.univ.image (Pipeline.arrRef spec5) → T11 m c b = T10 m c b :=
  fun b hb => U11_of_ne m c b fun w e => hb (Finset.mem_image.mpr ⟨w, Finset.mem_univ _, e⟩)
/-- At region 6's exit: its arrays at what the pipeline leaves, every other buffer as entered. -/
def U12 (c : Dev nD) : Valuation τ sig (Elt F) :=
  Pipeline.withArrays spec6 c (U11 m c) fun w => (dat6 (T11 m) c).arrAt w cfg6.N
theorem U12_arr (c : Dev nD) (w : Fin cfg6.W) :
    U12 m c (Proc.devRef .tc (Pipeline.arrRef spec6 w)) = (dat6 (T11 m) c).arrAt w cfg6.N := by
  unfold U12; exact Pipeline.withArrays_arr spec6 launch6.win.arr_inj c _ _ w
theorem U12_of_ne (c : Dev nD) (b : Ref sig .tc) (hb : ∀ w, Pipeline.arrRef spec6 w ≠ b) :
    U12 m c (Proc.devRef .tc b) = U11 m c (Proc.devRef .tc b) := by
  unfold U12; exact Pipeline.withArrays_of_ne spec6 c _ _ b hb
/-- The same read at the TensorCore's references. -/
abbrev T12 : (c : Dev nD) → (b : Ref sig .tc) → Buf (Elt F) ((c : Thread nD τ).loc b) := fun c b => U12 m c b
theorem hF6 (c : Dev nD) (w : Fin cfg6.W) : (dat6 (T11 m) c).arrAt w cfg6.N = T12 m c (Pipeline.arrRef spec6 w) :=
  (U12_arr m c w).symm
theorem hrest6 (c : Dev nD) : ∀ b, b ∉ Finset.univ.image (Pipeline.arrRef spec6) → T12 m c b = T11 m c b :=
  fun b hb => U12_of_ne m c b fun w e => hb (Finset.mem_image.mpr ⟨w, Finset.mem_univ _, e⟩)
/-- After the host stretch `hostOps7`. -/
abbrev U13 : Dev nD → Valuation τ sig (Elt F) := fun c => StableHlo.after hostOps7 (U12 m c)
/-- The same read at the TensorCore's references. -/
abbrev T13 : (c : Dev nD) → (b : Ref sig .tc) → Buf (Elt F) ((c : Thread nD τ).loc b) := fun c b => U13 m c b

/-! ## The proof data family and what rides beside the buffers -/

/-- No pallas_call has a prefetched table. -/
abbrev hadm : (p : Fin 7) → (pcfgs (F := F) p).Adm := fun p => (cfgs p).toPCfg_adm
/-- Every pipeline's proof data, each at its region's entry contents. -/
def hpdats : (p : Fin 7) → (c : Dev nD) → Dat τ (Elt F) Unit ℕ (UR sig nD τ) ℕ (Pipeline.pin (pcfgs (F := F)) hadm p) c
  | ⟨0, _⟩ => fun c => dat0 (T1 m) c
  | ⟨1, _⟩ => fun c => dat1 (T3 m) c
  | ⟨2, _⟩ => fun c => dat2 (T5 m) c
  | ⟨3, _⟩ => fun c => dat3 (T6 m) c
  | ⟨4, _⟩ => fun c => dat4 (T8 m) c
  | ⟨5, _⟩ => fun c => dat5 (T10 m) c
  | ⟨6, _⟩ => fun c => dat6 (T11 m) c
abbrev h𝒱 : Variants := Variants.none
/-- No core owes another anything: no level is assigned. -/
abbrev hL : GSem nD τ sig → Finset Unit := fun _ => ∅
abbrev hlv : GSem nD τ sig → Unit → ℕ := fun _ _ => 0
/-- Beside the buffers through every item: the core's generator register at some state, and the core owing nothing. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register
    at some state. -/
abbrev hTₙ (c : Dev nD) : sProp 𝕄 := iprop(StableHlo.held (c : Thread nD τ) (Pipeline.ucRefs τ sig) (U13 m c) ∗ ∃ r, prngReg c r)

/-! ## The regions as segments -/

set_option backward.isDefEq.respectTransparency.types false in
/-- Region 0: entered from every unscoped buffer at `U1`, left at `U2`. Its arrays are split out of the unscoped buffers
    and put back at their final contents; nothing is owed; the kernel has no semaphore of its own. -/
def reg0 : Pipeline.RegionSeg (pcfgs (F := F)) hadm (hpdats m) () defs₀ h𝒱 hL hlv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ hL hlv 0 fun _ _ => rfl
  pre c := iprop(StableHlo.held (c : Thread nD τ) (Pipeline.ucRefs τ sig) (U1 m c) ∗ hR c)
  post c := iprop(StableHlo.held (c : Thread nD τ) (Pipeline.ucRefs τ sig) (U2 m c) ∗ hR c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) hadm (hpdats m) launch0.win launch0.arr_whole c
      ((hpdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m) ((hpdats m 0 c).share_full fun _ => rfl)
      (T1 m c) (T2 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `U3`, left at `U4`. Its arrays are split out of the unscoped buffers
    and put back at their final contents; nothing is owed; the kernel has no semaphore of its own. -/
def reg1 : Pipeline.RegionSeg (pcfgs (F := F)) hadm (hpdats m) () defs₀ h𝒱 hL hlv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ hL hlv 1 fun _ _ => rfl
  pre c := iprop(StableHlo.held (c : Thread nD τ) (Pipeline.ucRefs τ sig) (U3 m c) ∗ hR c)
  post c := iprop(StableHlo.held (c : Thread nD τ) (Pipeline.ucRefs τ sig) (U4 m c) ∗ hR c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) hadm (hpdats m) launch1.win launch1.arr_whole c
      ((hpdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = (dat1 (T3 m) c).Φ 0 from rfl]
    iintro ⟨Hp, -, Hr⟩
    iapply (hin1 (T3 m) c)
    isplitl [Hp]; · iexact Hp
    iexact Hr
  hout c := by
    rw [Pipeline.ownSems0_none, show (hpdats m 1 c).Φ (Fin.last _) = (dat1 (T3 m) c).Φ (Fin.last cfg1.N) from rfl]
    iintro H
    ihave H' := (hout1 (T3 m) c) $$ H
    icases H' with ⟨Hp, Hr⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m) ((hpdats m 1 c).share_full fun _ => rfl)
      (T3 m c) (T4 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `U5`, left at `U6`. Its arrays are split out of the unscoped buffers
    and put back at their final contents; nothing is owed; the kernel has no semaphore of its own. -/
def reg2 : Pipeline.RegionSeg (pcfgs (F := F)) hadm (hpdats m) () defs₀ h𝒱 hL hlv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ hL hlv 2 fun _ _ => rfl
  pre c := iprop(StableHlo.held (c : Thread nD τ) (Pipeline.ucRefs τ sig) (U5 m c) ∗ hR c)
  post c := iprop(StableHlo.held (c : Thread nD τ) (Pipeline.ucRefs τ sig) (U6 m c) ∗ hR c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) hadm (hpdats m) launch2.win launch2.arr_whole c
      ((hpdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m) ((hpdats m 2 c).share_full fun _ => rfl)
      (T5 m c) (T6 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `U6`, left at `U7`. Its arrays are split out of the unscoped buffers
    and put back at their final contents; nothing is owed; the kernel has no semaphore of its own. -/
def reg3 : Pipeline.RegionSeg (pcfgs (F := F)) hadm (hpdats m) () defs₀ h𝒱 hL hlv 3 where
  win := launch3.win.to₀
  block_pos := launch3.block_pos
  stage_whole := launch3.stage_whole
  K := PEmpty
  osem k := k.elim
  ho := Pipeline.OwnSemFacts.none _
  hbody c := (body_obligation3 (T6 m) c).loose
  hwaits := Pipeline.hwaits_of_owed_zero _ _ _ _ hL hlv 3 fun _ _ => rfl
  pre c := iprop(StableHlo.held (c : Thread nD τ) (Pipeline.ucRefs τ sig) (U6 m c) ∗ hR c)
  post c := iprop(StableHlo.held (c : Thread nD τ) (Pipeline.ucRefs τ sig) (U7 m c) ∗ hR c)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) hadm (hpdats m) launch3.win launch3.arr_whole c
      ((hpdats m 3 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m) ((hpdats m 3 c).share_full fun _ => rfl)
      (T6 m c) (T7 m c) ((hpdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `U8`, left at `U9`. Its arrays are split out of the unscoped buffers
    and put back at their final contents; nothing is owed; the kernel has no semaphore of its own. -/
def reg4 : Pipeline.RegionSeg (pcfgs (F := F)) hadm (hpdats m) () defs₀ h𝒱 hL hlv 4 where
  win := launch4.win.to₀
  block_pos := launch4.block_pos
  stage_whole := launch4.stage_whole
  K := PEmpty
  osem k := k.elim
  ho := Pipeline.OwnSemFacts.none _
  hbody c := (body_obligation4 (T8 m) c).loose
  hwaits := Pipeline.hwaits_of_owed_zero _ _ _ _ hL hlv 4 fun _ _ => rfl
  pre c := iprop(StableHlo.held (c : Thread nD τ) (Pipeline.ucRefs τ sig) (U8 m c) ∗ hR c)
  post c := iprop(StableHlo.held (c : Thread nD τ) (Pipeline.ucRefs τ sig) (U9 m c) ∗ hR c)
  X c := iprop(∃ r, prngReg c r)
  Y c := iprop(∃ r, prngReg c r)
  Z c := Pipeline.unscopedRest (Ix := Unit) (Name := ℕ) (U := UR sig nD τ) (Lvl := ℕ) spec4 c (T8 m c)
  hentry c := by
    rw [Pipeline.ownSems0_none]
    have hsplit := Pipeline.arrays_of_unscopedBufs (p := 4) (pcfgs (F := F)) hadm (hpdats m) launch4.win launch4.arr_whole c
      ((hpdats m 4 c).share_full fun _ => rfl) (T8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 4 c).Φ 0 = (dat4 (T8 m) c).Φ 0 from rfl]
    iintro ⟨Hp, -, Hr⟩
    iapply (hin4 (T8 m) c)
    isplitl [Hp]; · iexact Hp
    iexact Hr
  hout c := by
    rw [Pipeline.ownSems0_none, show (hpdats m 4 c).Φ (Fin.last _) = (dat4 (T8 m) c).Φ (Fin.last cfg4.N) from rfl]
    iintro H
    ihave H' := (hout4 (T8 m) c) $$ H
    icases H' with ⟨Hp, Hr⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hpdats m) ((hpdats m 4 c).share_full fun _ => rfl)
      (T8 m c) (T9 m c) ((hpdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `U10`, left at `U11`. Its arrays are split out of the unscoped buffers
    and put back at their final contents; nothing is owed; the kernel has no semaphore of its own. -/
def reg5 : Pipeline.RegionSeg (pcfgs (F := F)) hadm (hpdats m) () defs₀ h𝒱 hL hlv 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ hL hlv 5 fun _ _ => rfl
  pre c := iprop(StableHlo.held (c : Thread nD τ) (Pipeline.ucRefs τ sig) (U10 m c) ∗ hR c)
  post c := iprop(StableHlo.held (c : Thread nD τ) (Pipeline.ucRefs τ sig) (U11 m c) ∗ hR c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) hadm (hpdats m) launch5.win launch5.arr_whole c
      ((hpdats m 5 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hpdats m) ((hpdats m 5 c).share_full fun _ => rfl)
      (T10 m c) (T11 m c) ((hpdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `U11`, left at `U12`. Its arrays are split out of the unscoped buffers
    and put back at their final contents; nothing is owed; the kernel has no semaphore of its own. -/
def reg6 : Pipeline.RegionSeg (pcfgs (F := F)) hadm (hpdats m) () defs₀ h𝒱 hL hlv 6 where
  win := launch6.win.to₀
  block_pos := launch6.block_pos
  stage_whole := launch6.stage_whole
  K := PEmpty
  osem k := k.elim
  ho := Pipeline.OwnSemFacts.none _
  hbody c := (body_obligation6 (T11 m) c).loose
  hwaits := Pipeline.hwaits_of_owed_zero _ _ _ _ hL hlv 6 fun _ _ => rfl
  pre c := iprop(StableHlo.held (c : Thread nD τ) (Pipeline.ucRefs τ sig) (U11 m c) ∗ hR c)
  post c := iprop(StableHlo.held (c : Thread nD τ) (Pipeline.ucRefs τ sig) (U12 m c) ∗ hR c)
  X c := iprop(∃ r, prngReg c r)
  Y c := iprop(∃ r, prngReg c r)
  Z c := Pipeline.unscopedRest (Ix := Unit) (Name := ℕ) (U := UR sig nD τ) (Lvl := ℕ) spec6 c (T11 m c)
  hentry c := by
    rw [Pipeline.ownSems0_none]
    have hsplit := Pipeline.arrays_of_unscopedBufs (p := 6) (pcfgs (F := F)) hadm (hpdats m) launch6.win launch6.arr_whole c
      ((hpdats m 6 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (hpdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (hpdats m) ((hpdats m 6 c).share_full fun _ => rfl)
      (T11 m c) (T12 m c) ((hpdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's thirteen items in order, the same list on every core. -/
abbrev hsegs (c : Dev nD) : List (Pipeline.Seg (pcfgs (F := F)) hadm (hpdats m) () defs₀ h𝒱 hL hlv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .region (reg3 m),
    .host (hseg hostOps4 hostOps4_sub hostOps4_fresh (U7 m)),
    .region (reg4 m),
    .host (hseg hostOps5 hostOps5_sub hostOps5_fresh (U9 m)),
    .region (reg5 m),
    .region (reg6 m),
    .host (hseg hostOps7 hostOps7_sub hostOps7_fresh (U12 m)) ]

/-- The last link: the final host stretch's thread state, reassociated — the buffers and the generator register on one side,
    the core owing nothing on the other. -/
theorem hlast (c : Dev nD) :
    (iprop(StableHlo.held (c : Thread nD τ) (Pipeline.ucRefs τ sig) (U13 m c) ∗ hR c) : sProp 𝕄)
      ⊢ iprop(hTₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and in every
    final memory each unscoped buffer of each core holds the last boundary's contents `U13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U13 m c b) :=
  Pipeline.θ_run_regions_kit_dev (pcfgs (F := F)) hadm (hpdats m) () cellOf_inj emb₁ defs₀ h𝒱 hL hlv m ρ main (hsegs m)
    (fun c Q => by
      rewrite [main_chain c, Pipeline.Seg.run_eq_chain,
        show (hsegs m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      exact .rfl)
    (fun c => by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ hR c)) (Tₙ := hTₙ m)
    (hch := fun c => ⟨.rfl, .rfl, .rfl, .rfl, .rfl, .rfl, .rfl, .rfl, .rfl, .rfl, .rfl, .rfl, .rfl, hlast m c⟩)
    (hinit := by
      refine Pipeline.initEach hL hlv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

end Cert.Kernel.Hand

end
-- ==== Proof.KB.Keep.lean ====
/-
  Which buffers pass through which items of @main unchanged. A host stretch changes only the buffers its operations write;
  a region changes only its output arrays: an array one of its input windows reads ends as it was entered, and a buffer that is
  no window's array is not touched. From these: every argument array holds its launch contents at every boundary; the three
  arrays computed from the edge list (source, target, normalisation) hold from the first boundary on; and an aggregate read
  by two consecutive regions is the same for both.
-/
import proofs.«107028_j46583215292429_1_alg».proof.Proof.KB.Run

set_option maxRecDepth 16384

noncomputable section

namespace Cert.Kernel.Hand

open Idealize.ShloMosaic Idealize.ShloMosaic.TcCoe Idealize.ShloMosaic.Tactic
open Idealize.SL.Sem
open Idealize.ShloMosaic.Pipeline (Dat)
open Cert.Kernel Cert.Kernel.Gen

variable {F : FTy → Type} [FloatOps F]
variable (m : (ℓ : Loc nD τ sig) → Buf (Elt F) ℓ)

/-- The argument arrays. -/
abbrev argsL : List (Ref sig .tc) := [main_arg0, main_arg1, main_arg2, main_arg3, main_arg4, main_arg5, main_arg6, main_arg7, main_arg8, main_arg9, main_arg10, main_arg11]
/-- The arrays the first host stretch computes from the edge list and later stretches read: sources, targets, normalisation. -/
abbrev edgeL : List (Ref sig .tc) := [main_v5, main_v6, main_v26]

/-! ## An input window's array ends as it was entered -/

theorem U2_arg0 (c : Dev nD) : U2 m c (Proc.devRef .tc main_arg0) = U1 m c (Proc.devRef .tc main_arg0) :=
  (U2_arr m c 0).trans (((dat0 (T1 m) c).arrAt_in 0 rfl _).trans (A_eq0 (T1 m) c 0))
theorem U2_arg2 (c : Dev nD) : U2 m c (Proc.devRef .tc main_arg2) = U1 m c (Proc.devRef .tc main_arg2) :=
  (U2_arr m c 1).trans (((dat0 (T1 m) c).arrAt_in 1 rfl _).trans (A_eq0 (T1 m) c 1))
theorem U4_v40 (c : Dev nD) : U4 m c (Proc.devRef .tc main_v40) = U3 m c (Proc.devRef .tc main_v40) :=
  (U4_arr m c 0).trans (((dat1 (T3 m) c).arrAt_in 0 rfl _).trans (A_eq1 (T3 m) c 0))
theorem U7_arg6 (c : Dev nD) : U7 m c (Proc.devRef .tc main_arg6) = U6 m c (Proc.devRef .tc main_arg6) :=
  (U7_arr m c 1).trans (((dat3 (T6 m) c).arrAt_in 1 rfl _).trans (A_eq3 (T6 m) c 1))
theorem U9_v66 (c : Dev nD) : U9 m c (Proc.devRef .tc main_v66) = U8 m c (Proc.devRef .tc main_v66) :=
  (U9_arr m c 0).trans (((dat4 (T8 m) c).arrAt_in 0 rfl _).trans (A_eq4 (T8 m) c 0))
theorem U12_arg10 (c : Dev nD) : U12 m c (Proc.devRef .tc main_arg10) = U11 m c (Proc.devRef .tc main_arg10) :=
  (U12_arr m c 1).trans (((dat6 (T11 m) c).arrAt_in 1 rfl _).trans (A_eq6 (T11 m) c 1))

/-! ## One item at a time: the arguments -/

theorem U1_argStep (c : Dev nD) : ∀ b ∈ argsL, U1 m c (Proc.devRef .tc b) = U0 m c (Proc.devRef .tc b) :=
  fun b hb => StableHlo.after_of_writes_sub hostOps0 _ hostOps0_writes ((by decide : ∀ b ∈ argsL, b ∉ hostOps0_W) b hb)
theorem U2_argStep (c : Dev nD) : ∀ b ∈ argsL, U2 m c (Proc.devRef .tc b) = U1 m c (Proc.devRef .tc b) := by
  intro b hb
  by_cases h0 : b = main_arg0
  · subst h0; exact U2_arg0 m c
  by_cases h1 : b = main_arg2
  · subst h1; exact U2_arg2 m c
  exact U2_of_ne m c b ((by decide : ∀ b ∈ argsL, b ≠ main_arg0 → b ≠ main_arg2 → ∀ w, Pipeline.arrRef spec0 w ≠ b) b hb h0 h1)
theorem U3_argStep (c : Dev nD) : ∀ b ∈ argsL, U3 m c (Proc.devRef .tc b) = U2 m c (Proc.devRef .tc b) :=
  fun b hb => StableHlo.after_of_writes_sub hostOps1 _ hostOps1_writes ((by decide : ∀ b ∈ argsL, b ∉ hostOps1_W) b hb)
theorem U4_argStep (c : Dev nD) : ∀ b ∈ argsL, U4 m c (Proc.devRef .tc b) = U3 m c (Proc.devRef .tc b) := by
  intro b hb
  exact U4_of_ne m c b ((by decide : ∀ b ∈ argsL, ∀ w, Pipeline.arrRef spec1 w ≠ b) b hb)
theorem U5_argStep (c : Dev nD) : ∀ b ∈ argsL, U5 m c (Proc.devRef .tc b) = U4 m c (Proc.devRef .tc b) :=
  fun b hb => StableHlo.after_of_writes_sub hostOps2 _ hostOps2_writes ((by decide : ∀ b ∈ argsL, b ∉ hostOps2_W) b hb)
theorem U6_argStep (c : Dev nD) : ∀ b ∈ argsL, U6 m c (Proc.devRef .tc b) = U5 m c (Proc.devRef .tc b) := by
  intro b hb
  exact U6_of_ne m c b ((by decide : ∀ b ∈ argsL, ∀ w, Pipeline.arrRef spec2 w ≠ b) b hb)
theorem U7_argStep (c : Dev nD) : ∀ b ∈ argsL, U7 m c (Proc.devRef .tc b) = U6 m c (Proc.devRef .tc b) := by
  intro b hb
  by_cases h0 : b = main_arg6
  · subst h0; exact U7_arg6 m c
  exact U7_of_ne m c b ((by decide : ∀ b ∈ argsL, b ≠ main_arg6 → ∀ w, Pipeline.arrRef spec3 w ≠ b) b hb h0)
theorem U8_argStep (c : Dev nD) : ∀ b ∈ argsL, U8 m c (Proc.devRef .tc b) = U7 m c (Proc.devRef .tc b) :=
  fun b hb => StableHlo.after_of_writes_sub hostOps4 _ hostOps4_writes ((by decide : ∀ b ∈ argsL, b ∉ hostOps4_W) b hb)
theorem U9_argStep (c : Dev nD) : ∀ b ∈ argsL, U9 m c (Proc.devRef .tc b) = U8 m c (Proc.devRef .tc b) := by
  intro b hb
  exact U9_of_ne m c b ((by decide : ∀ b ∈ argsL, ∀ w, Pipeline.arrRef spec4 w ≠ b) b hb)
theorem U10_argStep (c : Dev nD) : ∀ b ∈ argsL, U10 m c (Proc.devRef .tc b) = U9 m c (Proc.devRef .tc b) :=
  fun b hb => StableHlo.after_of_writes_sub hostOps5 _ hostOps5_writes ((by decide : ∀ b ∈ argsL, b ∉ hostOps5_W) b hb)
theorem U11_argStep (c : Dev nD) : ∀ b ∈ argsL, U11 m c (Proc.devRef .tc b) = U10 m c (Proc.devRef .tc b) := by
  intro b hb
  exact U11_of_ne m c b ((by decide : ∀ b ∈ argsL, ∀ w, Pipeline.arrRef spec5 w ≠ b) b hb)
theorem U12_argStep (c : Dev nD) : ∀ b ∈ argsL, U12 m c (Proc.devRef .tc b) = U11 m c (Proc.devRef .tc b) := by
  intro b hb
  by_cases h0 : b = main_arg10
  · subst h0; exact U12_arg10 m c
  exact U12_of_ne m c b ((by decide : ∀ b ∈ argsL, b ≠ main_arg10 → ∀ w, Pipeline.arrRef spec6 w ≠ b) b hb h0)
theorem U13_argStep (c : Dev nD) : ∀ b ∈ argsL, U13 m c (Proc.devRef .tc b) = U12 m c (Proc.devRef .tc b) :=
  fun b hb => StableHlo.after_of_writes_sub hostOps7 _ hostOps7_writes ((by decide : ∀ b ∈ argsL, b ∉ hostOps7_W) b hb)

/-! ## Every argument at every boundary -/

theorem U1_arg (c : Dev nD) : ∀ b ∈ argsL, U1 m c (Proc.devRef .tc b) = m (c, Proc.devRef .tc b) := fun b hb => U1_argStep m c b hb
theorem U2_arg (c : Dev nD) : ∀ b ∈ argsL, U2 m c (Proc.devRef .tc b) = m (c, Proc.devRef .tc b) :=
  fun b hb => (U2_argStep m c b hb).trans (U1_arg m c b hb)
theorem U3_arg (c : Dev nD) : ∀ b ∈ argsL, U3 m c (Proc.devRef .tc b) = m (c, Proc.devRef .tc b) :=
  fun b hb => (U3_argStep m c b hb).trans (U2_arg m c b hb)
theorem U4_arg (c : Dev nD) : ∀ b ∈ argsL, U4 m c (Proc.devRef .tc b) = m (c, Proc.devRef .tc b) :=
  fun b hb => (U4_argStep m c b hb).trans (U3_arg m c b hb)
theorem U5_arg (c : Dev nD) : ∀ b ∈ argsL, U5 m c (Proc.devRef .tc b) = m (c, Proc.devRef .tc b) :=
  fun b hb => (U5_argStep m c b hb).trans (U4_arg m c b hb)
theorem U6_arg (c : Dev nD) : ∀ b ∈ argsL, U6 m c (Proc.devRef .tc b) = m (c, Proc.devRef .tc b) :=
  fun b hb => (U6_argStep m c b hb).trans (U5_arg m c b hb)
theorem U7_arg (c : Dev nD) : ∀ b ∈ argsL, U7 m c (Proc.devRef .tc b) = m (c, Proc.devRef .tc b) :=
  fun b hb => (U7_argStep m c b hb).trans (U6_arg m c b hb)
theorem U8_arg (c : Dev nD) : ∀ b ∈ argsL, U8 m c (Proc.devRef .tc b) = m (c, Proc.devRef .tc b) :=
  fun b hb => (U8_argStep m c b hb).trans (U7_arg m c b hb)
theorem U9_arg (c : Dev nD) : ∀ b ∈ argsL, U9 m c (Proc.devRef .tc b) = m (c, Proc.devRef .tc b) :=
  fun b hb => (U9_argStep m c b hb).trans (U8_arg m c b hb)
theorem U10_arg (c : Dev nD) : ∀ b ∈ argsL, U10 m c (Proc.devRef .tc b) = m (c, Proc.devRef .tc b) :=
  fun b hb => (U10_argStep m c b hb).trans (U9_arg m c b hb)
theorem U11_arg (c : Dev nD) : ∀ b ∈ argsL, U11 m c (Proc.devRef .tc b) = m (c, Proc.devRef .tc b) :=
  fun b hb => (U11_argStep m c b hb).trans (U10_arg m c b hb)
theorem U12_arg (c : Dev nD) : ∀ b ∈ argsL, U12 m c (Proc.devRef .tc b) = m (c, Proc.devRef .tc b) :=
  fun b hb => (U12_argStep m c b hb).trans (U11_arg m c b hb)
theorem U13_arg (c : Dev nD) : ∀ b ∈ argsL, U13 m c (Proc.devRef .tc b) = m (c, Proc.devRef .tc b) :=
  fun b hb => (U13_argStep m c b hb).trans (U12_arg m c b hb)

/-! ## The edge arrays from the first boundary on -/

theorem U2_edge (c : Dev nD) : ∀ b ∈ edgeL, U2 m c (Proc.devRef .tc b) = U1 m c (Proc.devRef .tc b) :=
  fun b hb => (U2_of_ne m c b ((by decide : ∀ b ∈ edgeL, ∀ w, Pipeline.arrRef spec0 w ≠ b) b hb)).trans rfl
theorem U3_edge (c : Dev nD) : ∀ b ∈ edgeL, U3 m c (Proc.devRef .tc b) = U1 m c (Proc.devRef .tc b) :=
  fun b hb => (StableHlo.after_of_writes_sub hostOps1 _ hostOps1_writes ((by decide : ∀ b ∈ edgeL, b ∉ hostOps1_W) b hb)).trans (U2_edge m c b hb)
theorem U4_edge (c : Dev nD) : ∀ b ∈ edgeL, U4 m c (Proc.devRef .tc b) = U1 m c (Proc.devRef .tc b) :=
  fun b hb => (U4_of_ne m c b ((by decide : ∀ b ∈ edgeL, ∀ w, Pipeline.arrRef spec1 w ≠ b) b hb)).trans (U3_edge m c b hb)
theorem U5_edge (c : Dev nD) : ∀ b ∈ edgeL, U5 m c (Proc.devRef .tc b) = U1 m c (Proc.devRef .tc b) :=
  fun b hb => (StableHlo.after_of_writes_sub hostOps2 _ hostOps2_writes ((by decide : ∀ b ∈ edgeL, b ∉ hostOps2_W) b hb)).trans (U4_edge m c b hb)
theorem U6_edge (c : Dev nD) : ∀ b ∈ edgeL, U6 m c (Proc.devRef .tc b) = U1 m c (Proc.devRef .tc b) :=
  fun b hb => (U6_of_ne m c b ((by decide : ∀ b ∈ edgeL, ∀ w, Pipeline.arrRef spec2 w ≠ b) b hb)).trans (U5_edge m c b hb)
theorem U7_edge (c : Dev nD) : ∀ b ∈ edgeL, U7 m c (Proc.devRef .tc b) = U1 m c (Proc.devRef .tc b) :=
  fun b hb => (U7_of_ne m c b ((by decide : ∀ b ∈ edgeL, ∀ w, Pipeline.arrRef spec3 w ≠ b) b hb)).trans (U6_edge m c b hb)
theorem U8_edge (c : Dev nD) : ∀ b ∈ edgeL, U8 m c (Proc.devRef .tc b) = U1 m c (Proc.devRef .tc b) :=
  fun b hb => (StableHlo.after_of_writes_sub hostOps4 _ hostOps4_writes ((by decide : ∀ b ∈ edgeL, b ∉ hostOps4_W) b hb)).trans (U7_edge m c b hb)
theorem U9_edge (c : Dev nD) : ∀ b ∈ edgeL, U9 m c (Proc.devRef .tc b) = U1 m c (Proc.devRef .tc b) :=
  fun b hb => (U9_of_ne m c b ((by decide : ∀ b ∈ edgeL, ∀ w, Pipeline.arrRef spec4 w ≠ b) b hb)).trans (U8_edge m c b hb)
theorem U10_edge (c : Dev nD) : ∀ b ∈ edgeL, U10 m c (Proc.devRef .tc b) = U1 m c (Proc.devRef .tc b) :=
  fun b hb => (StableHlo.after_of_writes_sub hostOps5 _ hostOps5_writes ((by decide : ∀ b ∈ edgeL, b ∉ hostOps5_W) b hb)).trans (U9_edge m c b hb)
theorem U11_edge (c : Dev nD) : ∀ b ∈ edgeL, U11 m c (Proc.devRef .tc b) = U1 m c (Proc.devRef .tc b) :=
  fun b hb => (U11_of_ne m c b ((by decide : ∀ b ∈ edgeL, ∀ w, Pipeline.arrRef spec5 w ≠ b) b hb)).trans (U10_edge m c b hb)
theorem U12_edge (c : Dev nD) : ∀ b ∈ edgeL, U12 m c (Proc.devRef .tc b) = U1 m c (Proc.devRef .tc b) :=
  fun b hb => (U12_of_ne m c b ((by decide : ∀ b ∈ edgeL, ∀ w, Pipeline.arrRef spec6 w ≠ b) b hb)).trans (U11_edge m c b hb)

/-! ## An aggregate read by two regions -/

/-- The first layer's aggregate is the same for the statistics pass and the normalisation pass. -/
theorem U5_v40 (c : Dev nD) : U5 m c (Proc.devRef .tc main_v40) = U3 m c (Proc.devRef .tc main_v40) :=
  (StableHlo.after_of_writes_sub hostOps2 _ hostOps2_writes (by decide : main_v40 ∉ hostOps2_W)).trans (U4_v40 m c)
/-- The second layer's aggregate likewise. -/
theorem U10_v66 (c : Dev nD) : U10 m c (Proc.devRef .tc main_v66) = U8 m c (Proc.devRef .tc main_v66) :=
  (StableHlo.after_of_writes_sub hostOps5 _ hostOps5_writes (by decide : main_v66 ∉ hostOps5_W)).trans (U9_v66 m c)

end Cert.Kernel.Hand

end
-- ==== Proof.KB.Frame.lean ====
/-
  The frame of the program, at any float instance: every weakly fair execution of @main terminates, nothing faulting, and each
  argument array ends holding its launch contents — read off the run's last boundary, where every argument still holds what it
  was launched with because no host operation writes one and every region only reads the ones it is given.
-/
import proofs.«107028_j46583215292429_1_alg».proof.Proof.KB.Keep

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (U13_arg m c main_arg0 (by decide)),
     (h c _ (mem_uc main_arg1 (by decide))).trans (U13_arg m c main_arg1 (by decide)),
     (h c _ (mem_uc main_arg2 (by decide))).trans (U13_arg m c main_arg2 (by decide)),
     (h c _ (mem_uc main_arg3 (by decide))).trans (U13_arg m c main_arg3 (by decide)),
     (h c _ (mem_uc main_arg4 (by decide))).trans (U13_arg m c main_arg4 (by decide)),
     (h c _ (mem_uc main_arg5 (by decide))).trans (U13_arg m c main_arg5 (by decide)),
     (h c _ (mem_uc main_arg6 (by decide))).trans (U13_arg m c main_arg6 (by decide)),
     (h c _ (mem_uc main_arg7 (by decide))).trans (U13_arg m c main_arg7 (by decide)),
     (h c _ (mem_uc main_arg8 (by decide))).trans (U13_arg m c main_arg8 (by decide)),
     (h c _ (mem_uc main_arg9 (by decide))).trans (U13_arg m c main_arg9 (by decide)),
     (h c _ (mem_uc main_arg10 (by decide))).trans (U13_arg m c main_arg10 (by decide)),
     (h c _ (mem_uc main_arg11 (by decide))).trans (U13_arg m c main_arg11 (by decide))⟩)
    (run_all m ρ)

end Cert.Kernel.Hand

end
-- ==== Proof.KI.Mat0.lean ====
/- The frame half of matmul region 0: a grid of 50 row blocks; at each point the body reads a S2000x256 row block of the
   left matrix and the whole S256x128 right matrix and stores their product, rounded operands into a zero accumulator,
   over the whole S2000x128 output row block. Stated at the buffer contents `V` found when the region is entered. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's row block (window 0, moved at every point) is what its staging buffer holds at every point,
    for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix (window 1, block index constant, moved at the first point only) is what its staging buffer
    holds at every point: where it is not moved the block index has not changed, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S2000x128 := Rect.unit (s := S2000x128) ![0, 0] S2000x128.size inb_S2000x128_S2000x128_0_0

/-! ## What the body leaves in the output window's buffer -/

/-- The output row block after the body, from the two input blocks: one store over the whole block, of the
    product of the left block `x0` and the right matrix `x1`. -/
def out0_2 (x0 : Vec F S2000x256 .f32) (x1 : Vec F S256x128 .f32) : Vec F S2000x128 .f32 :=
  View.canon [⟨r0_2, k0_pay1 (View.ld x0 r0_0) (View.ld x1 r0_1)⟩]

/-- The one store is over the whole block, so it covers it. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The body on whole staging buffers — the inputs' reading `x0`, `x1`, the output's holding anything — runs to the
    continuation with the inputs' as they were and the output's at `out0_2 x0 x1`. The grid coordinate `i` is not read. -/
theorem sound_kernel0 (c : Dev nD) (E : Set ℕ) (i : grid0.Coords) (arg0 : Memref sig .tc .vmem S2000x256 .f32) (harg0 : arg0.IsWhole) (arg1 : Memref sig .tc .vmem S256x128 .f32) (harg1 : arg1.IsWhole) (arg2 : Memref sig .tc .vmem S2000x128 .f32) (harg2 : arg2.IsWhole)
    (x0 : Vec F S2000x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, moved there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Stats1Runs.lean ====
/- The batch-norm statistics region (custom_call 1): what its body's three control cases share.
   The region walks 50 row blocks of 2000 rows. Two accumulator rows (1x128 each) are carried from block
   to block: at the first block they are cleared, at every block the column sums of (block + bias row)
   and of its squares are added, and at the last block the two accumulators are copied to the two output
   rows. So a grid point is in one of three cases: FIRST (clear, accumulate), MIDDLE (accumulate), LAST
   (accumulate, copy out). Here: each window's block read off the array contents V the region is entered
   with, the two branch conditions in closed form over the grid, where the two output windows are idle,
   and the memrefs the body is called with. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 rows
    2000·t … 2000·t+1999 of the 100000x128 input, for window 1 the one bias row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, block index constant, so fetched at the first point only) holds its block at
    every point all the same: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional ("this is block 0"), from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the body's second conditional ("this is block 49"). -/
abbrev cond1_1 (i : grid1.Coords) : Prop := k1_cond2 i = 1#1
/-- It holds at point 49 only. -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the two output rows are idle (nothing is stored into them) and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at the middle points. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point both output rows are live: the accumulators are copied into them. -/
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of each output row, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two accumulator rows: whole scoped buffers of the kernel's own, passed beside the windows. -/
abbrev scM1_0 : Memref sig .tc .vmem S1x128 .f32 := Memref.whole cc1_scratch0
abbrev scM1_1 : Memref sig .tc .vmem S1x128 .f32 := Memref.whole cc1_scratch1
/-- The same as views: what they hold is stated through these. -/
abbrev VS1_0 : View sig .tc .vmem S1x128 .f32 := scM1_0.view
abbrev VS1_1 : View sig .tc .vmem S1x128 .f32 := scM1_1.view

end Cert.KernelIdeal.Hand

end
-- ==== Proof.KI.Stats1RunA.lean ====
/- The statistics body at the FIRST block (point 0). Both conditionals decided: the accumulators are
   cleared, then the block's column sums are added; the output rows are not touched. -/
import proofs.«107028_j46583215292429_1_alg».proof.Proof.KI.Stats1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces (last first), AT THE FIRST BLOCK, with the proof
    that on whole memrefs — the two inputs' at their contents `x0` (the 2000x128 block) and `x1` (the bias row), the
    two output rows' at contents `xi2`, `xi3` handed back untouched, the two accumulators' at anything — the body
    runs to the continuation holding the inputs and outputs as they were and each accumulator with its pieces
    written (two each: the zero row, then zero row + column sums). The output rows get no piece. -/
noncomputable def kernelRun1_A (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Stats1RunB.lean ====
/- The statistics body at a MIDDLE block (points 1 … 48). Neither conditional taken: the block's column
   sums are added to the accumulators the block before left; the output rows are not touched. -/
import proofs.«107028_j46583215292429_1_alg».proof.Proof.KI.Stats1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces, AT A MIDDLE BLOCK, with the proof that on whole
    memrefs — the inputs' at `x0`, `x1`, the output rows' at `xi2`, `xi3` handed back untouched, the accumulators' at
    what the block before left (`xs0`, `xs1`) — the body runs to the continuation holding the inputs and outputs as
    they were and each accumulator with its one piece written (`xs` + column sums). -/
noncomputable def kernelRun1_B (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Stats1RunC.lean ====
/- The statistics body at the LAST block (point 49). The second conditional taken: the block's column
   sums are added to the accumulators, and the accumulators are then copied into the two output rows. -/
import proofs.«107028_j46583215292429_1_alg».proof.Proof.KI.Stats1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each output row and each accumulator row, as pieces, AT THE LAST BLOCK, with the
    proof that on whole memrefs — the inputs' at `x0`, `x1`, the output rows' at anything, the accumulators' at what
    the block before left (`xs0`, `xs1`) — the body runs to the continuation holding the inputs as they were and each
    output row and accumulator with its one piece written (`xs` + column sums, in all four). -/
noncomputable def kernelRun1_C (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Stats1.lean ====
/- The batch-norm statistics region (custom_call 1) at the buffer contents V it is entered with: what each
   control case leaves in the two accumulator rows and the two output rows, what they hold block after block
   (the accumulation), the invariant carrying the accumulators between blocks, the pipeline's proof data and
   its body obligation, and the invariant's two ends.
   Accumulator 0 after block n is (zero row) + Σ_{b ≤ n} colsum(block b + bias); accumulator 1 the same of the
   squares. Output row 2 (3) receives accumulator 0 (1) at the last block and is otherwise untouched. -/
import proofs.«107028_j46583215292429_1_alg».proof.Proof.KI.Stats1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

section CaseA
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
  (x0 : Vec F S2000x128 .f32) (x1 : Vec F S1x128 .f32)

/-- At the first block nothing is stored into output row 2: no pieces; a placeholder nothing consults (the window
    is idle there and not written back). -/
def out1_A_2 : Vec F S1x128 .f32 :=
  VO1_2.read (Elt F) (VO1_2.writes (Elt F) VO1_2.junk (kernelRun1_A c i arg1 harg1 arg2 harg2 arg3 harg3 arg4 harg4 arg5 harg5 arg6 harg6 hc0 hc1 x0 x1).1)
/-- The same of output row 3. -/
def out1_A_3 : Vec F S1x128 .f32 :=
  VO1_3.read (Elt F) (VO1_3.writes (Elt F) VO1_3.junk (kernelRun1_A c i arg1 harg1 arg2 harg2 arg3 harg3 arg4 harg4 arg5 harg5 arg6 harg6 hc0 hc1 x0 x1).2.1)
/-- The first block's two pieces for accumulator 0 (each the whole row) cover it. -/
theorem scover1_A_0 (y : S1x128.Idx) : ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x128.size (by sl_kernel_rfl) y

/-- What the first block leaves in accumulator 0: its pieces read back. -/
def sout1_A_0 : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- The same for accumulator 1. -/
theorem scover1_A_1 (y : S1x128.Idx) : ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x128.size (by sl_kernel_rfl) y

/-- What the first block leaves in accumulator 1. -/
def sout1_A_1 : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

end CaseA

section CaseB
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
  (x0 : Vec F S2000x128 .f32) (x1 : Vec F S1x128 .f32) (xs0 : Vec F S1x128 .f32) (xs1 : Vec F S1x128 .f32)

/-- At a middle block nothing is stored into output row 2: a placeholder nothing consults. -/
def out1_B_2 : Vec F S1x128 .f32 :=
  VO1_2.read (Elt F) (VO1_2.writes (Elt F) VO1_2.junk (kernelRun1_B c i arg1 harg1 arg2 harg2 arg3 harg3 arg4 harg4 arg5 harg5 arg6 harg6 hc0 hc1 x0 x1 xs0 xs1).1)
/-- The same of output row 3. -/
def out1_B_3 : Vec F S1x128 .f32 :=
  VO1_3.read (Elt F) (VO1_3.writes (Elt F) VO1_3.junk (kernelRun1_B c i arg1 harg1 arg2 harg2 arg3 harg3 arg4 harg4 arg5 harg5 arg6 harg6 hc0 hc1 x0 x1 xs0 xs1).2.1)
/-- A middle block's one piece for accumulator 0 (the whole row) covers it. -/
theorem scover1_B_0 (y : S1x128.Idx) : ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x128.size (by sl_kernel_rfl) y

/-- What a middle block leaves in accumulator 0, over what the block before left. -/
def sout1_B_0 : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- The same for accumulator 1. -/
theorem scover1_B_1 (y : S1x128.Idx) : ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x128.size (by sl_kernel_rfl) y

/-- What a middle block leaves in accumulator 1. -/
def sout1_B_1 : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

end CaseB

section CaseC
variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
  (x0 : Vec F S2000x128 .f32) (x1 : Vec F S1x128 .f32) (xs0 : Vec F S1x128 .f32) (xs1 : Vec F S1x128 .f32)

/-- The last block's one store into output row 2 (the whole row) covers it. -/
theorem cover1_C_2 (y : S1x128.Idx) : ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y

/-- What the last block leaves in output row 2: accumulator 0's final contents. -/
def out1_C_2 : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- The same for output row 3. -/
theorem cover1_C_3 (y : S1x128.Idx) : ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y

/-- What the last block leaves in output row 3: accumulator 1's final contents. -/
def out1_C_3 : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- The last block's one piece for accumulator 0 covers it. -/
theorem scover1_C_0 (y : S1x128.Idx) : ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y

/-- What the last block leaves in accumulator 0. -/
def sout1_C_0 : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- The same for accumulator 1. -/
theorem scover1_C_1 (y : S1x128.Idx) : ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-- What the last block leaves in accumulator 1. -/
def sout1_C_1 : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

end CaseC

/-! ## What the rows hold after each block -/

/-- THE ACCUMULATION. What output rows 2, 3 and accumulators 0, 1 hold after the body at position `n` (in that
    order): the first block's case at 0; afterwards the middle case, or at position 49 the last, run at the
    point's memrefs and input blocks over the accumulators as position `n - 1` left them. -/
def outsAt1 (c : Dev nD) : (n : ℕ) → n < cfg1.N → Vec F S1x128 .f32 × Vec F S1x128 .f32 × Vec F S1x128 .f32 × Vec F S1x128 .f32
  | 0, hn =>
     (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 50 = 49 then
       (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
       (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => (by have hN : n + 1 < 50 := lt_of_lt_of_eq hn (show cfg1.N = 50 from N_1); omega : ¬(n + 1) % 50 = 0) ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first block. -/
theorem outsAt1_A (c : Dev nD) (t : Fin cfg1.N) (h0 : t.val % 50 = 0) (h1 : ¬t.val % 50 = 49) :
    outsAt1 V c t.val t.isLt =
     (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (by exfalso; have hN : n + 1 < 50 := lt_of_lt_of_eq hn (show cfg1.N = 50 from N_1); (try dsimp only at h0); omega)

/-- `outsAt1` at a middle block: that case's contents, over what the block before left. -/
theorem outsAt1_B (c : Dev nD) (t : Fin cfg1.N) (h0 : ¬t.val % 50 = 0) (h1 : ¬t.val % 50 = 49) :
    outsAt1 V c t.val t.isLt =
     (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt1` at the last block. -/
theorem outsAt1_C (c : Dev nD) (t : Fin cfg1.N) (h0 : ¬t.val % 50 = 0) (h1 : t.val % 50 = 49) :
    outsAt1 V c t.val t.isLt =
     (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant -/

/-- The region invariant before position `n`: the two accumulator rows held whole — before the first block at
    anything, afterwards at what the block before left (`outsAt1`'s last two components) —, beside every other scoped
    buffer no window stages (unopened) and the generator register at some state. -/
def PhiS1 (c : Dev nD) : (n : ℕ) → n ≤ cfg1.N → sProp 𝕄
  | 0, _ => iprop((∃ d, owns (c : Thread nD τ) scM1_0 fullShare d) ∗ (∃ d, owns (c : Thread nD τ) scM1_1 fullShare d)
      ∗ Pipeline.scopedRestBut (Ix := Unit) (Name := ℕ) (U := UR sig nD τ) (Lvl := ℕ) (Val := Elt F) spec1 c [cc1_scratch0, cc1_scratch1] ∗ (∃ r, prngReg c r))
  | n + 1, hn => iprop(owns (c : Thread nD τ) scM1_0 fullShare (outsAt1 V c n hn).2.2.1 ∗ owns (c : Thread nD τ) scM1_1 fullShare (outsAt1 V c n hn).2.2.2
      ∗ Pipeline.scopedRestBut (Ix := Unit) (Name := ℕ) (U := UR sig nD τ) (Lvl := ℕ) (Val := Elt F) spec1 c [cc1_scratch0, cc1_scratch1] ∗ (∃ r, prngReg c r))

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d)
      ∗ Pipeline.scopedRestBut (Ix := Unit) (Name := ℕ) (U := UR sig nD τ) (Lvl := ℕ) (Val := Elt F) spec1 c [cc1_scratch0, cc1_scratch1] ∗ (∃ r, prngReg c r)) := by
  subst hz; rfl

/-- After point `n` (before point `n + 1`): the accumulators at that point's contents. -/
theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2
      ∗ Pipeline.scopedRestBut (Ix := Unit) (Name := ℕ) (U := UR sig nD τ) (Lvl := ℕ) (Val := Elt F) spec1 c [cc1_scratch0, cc1_scratch1] ∗ (∃ r, prngReg c r)) := rfl

/-- Before a point that is not the first: the accumulators at what the point before left. -/
theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and each output row's at `outsAt1`'s component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulators at what the point before left (at anything at the first point) and takes
    them back at this point's contents; the output rows are handed back untouched except at the last point, where they
    are left at the accumulators' final contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val % 50 = 0
  · by_cases h1 : t.val % 50 = 49
    · exfalso; omega
    · -- the first block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz]
      iintro ⟨⟨HS0, HS1, Hr, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_A_0 c _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 50 = 49
    · -- the last block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_C_0 c _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · -- a middle block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The invariant before the first point, from the generator register and the scoped buffers no window stages: those
    split at the two accumulator rows, each whole at some contents, the others unopened. -/
theorem hin1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl, scopedRest1_split]
  simp only [scM1_0, scM1_1, owns_whole]
  iintro ⟨Hg, ⟨HS0, HS1⟩, Hr⟩
  isplitl [HS0]; · iexact HS0
  isplitl [HS1]; · iexact HS1
  isplitl [Hr]; · iexact Hr
  iexact Hg

/-- After the last point the invariant gives the generator register and those scoped buffers back: the accumulators'
    named contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), scopedRest1_split]
  simp only [scM1_0, scM1_1, owns_whole]
  iintro ⟨HS0, HS1, Hr, Hg⟩
  isplitl [Hg]; · iexact Hg
  isplitl [HS0 HS1]
  · isplitl [HS0]; · iexists _; iexact HS0
    iexists _; iexact HS1
  iexact Hr

end Cert.KernelIdeal.Hand

end
-- ==== Proof.KI.Apply2.lean ====
/- The frame half of the batch-norm apply region (custom_call 2) at the buffer contents `V` the region is entered
   with: each window's block at a grid point, what the body leaves in the output window's buffer as a function of
   the six input blocks, the body's triple, the pipeline's proof data and its body obligation at every point. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 x 128 extents: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and window 6 rows
    `2000 t .. 2000 t + 1999` of a 100000 x 128 array, for windows 1..5 the whole 1 x 128 row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents (`hA`) and whose body leaves the block in place (`hafter`): where the
    window is not fetched its block index has not moved, so the previous point's block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is the entry contents (`hA`) and whose body leaves the block in place (`hafter`): where the
    window is not fetched its block index has not moved, so the previous point's block is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is the entry contents (`hA`) and whose body leaves the block in place (`hafter`): where the
    window is not fetched its block index has not moved, so the previous point's block is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is the entry contents (`hA`) and whose body leaves the block in place (`hafter`): where the
    window is not fetched its block index has not moved, so the previous point's block is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is the entry contents (`hA`) and whose body leaves the block in place (`hafter`): where the
    window is not fetched its block index has not moved, so the previous point's block is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is the entry contents (`hA`) and whose body leaves the block in place (`hafter`): where the
    window is not fetched its block index has not moved, so the previous point's block is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000 x 128 block, and the whole 1 x 128 row. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-! ## What the body leaves in the output window's buffer -/

/-- Window 6's staging buffer after the body, from the six input blocks (`x0` the feature rows, `x1` bias, `x2` mean,
    `x3` variance, `x4` scale, `x5` shift): its one store over the whole block. The payload takes the variance row
    before the mean row. -/
def out2_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r2_0, k2_pay1 (View.ld x0 r2_0) (View.ld x1 r2_1) (View.ld x3 r2_1) (View.ld x2 r2_1) (View.ld x4 r2_1) (View.ld x5 r2_1)⟩]

/-- The one store is over the whole buffer, so it covers it. -/
theorem cover2_6 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_6` of the inputs': six whole loads,
    a load of the output buffer whose value is not used, and one whole store. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Mat3.lean ====
/- The frame half of matmul region 3: a grid of 50 row blocks; at each point the body reads a S2000x128 row block of the
   left matrix and the whole S128x128 right matrix and stores their product, rounded operands into a zero accumulator,
   over the whole S2000x128 output row block. Stated at the buffer contents `V` found when the region is entered. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left matrix's row block (window 0, moved at every point) is what its staging buffer holds at every point,
    for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right matrix (window 1, block index constant, moved at the first point only) is what its staging buffer
    holds at every point: where it is not moved the block index has not changed, so the block is the same. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S2000x128 := Rect.unit (s := S2000x128) ![0, 0] S2000x128.size inb_S2000x128_S2000x128_0_0

/-! ## What the body leaves in the output window's buffer -/

/-- The output row block after the body, from the two input blocks: one store over the whole block, of the
    product of the left block `x0` and the right matrix `x1`. -/
def out3_2 (x0 : Vec F S2000x128 .f32) (x1 : Vec F S128x128 .f32) : Vec F S2000x128 .f32 :=
  View.canon [⟨r3_2, k3_pay1 (View.ld x0 r3_0) (View.ld x1 r3_1)⟩]

/-- The one store is over the whole block, so it covers it. -/
theorem cover3_2 (p0 : Vec F S2000x128 .f32) (y : S2000x128.Idx) :
    ∃ pc ∈ ([⟨r3_2, p0⟩] : List (View.Piece (Elt F) S2000x128 .f32)), y ∈ pc.1.set :=
  View.cover_of_tiled [⟨r3_2, p0⟩] S2000x128.size (by rfl) y

/-! ## The body's triple -/

set_option maxHeartbeats 1000000 in
/-- The body on whole staging buffers — the inputs' reading `x0`, `x1`, the output's holding anything — runs to the
    continuation with the inputs' as they were and the output's at `out3_2 x0 x1`. The grid coordinate `i` is not read. -/
theorem sound_kernel3 (c : Dev nD) (E : Set ℕ) (i : grid3.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input's buffer at its block and the output's at `out3_2` of the two input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, moved there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    what is owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stats4Runs.lean ====
/- The batch-norm statistics region (custom_call 4): what its body's three control cases share.
   The region walks 50 row blocks of 2000 rows. Two accumulator rows (1x128 each) are carried from block
   to block: at the first block they are cleared, at every block the column sums of (block + bias row)
   and of its squares are added, and at the last block the two accumulators are copied to the two output
   rows. So a grid point is in one of three cases: FIRST (clear, accumulate), MIDDLE (accumulate), LAST
   (accumulate, copy out). Here: each window's block read off the array contents V the region is entered
   with, the two branch conditions in closed form over the grid, where the two output windows are idle,
   and the memrefs the body is called with. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 rows
    2000·t … 2000·t+1999 of the 100000x128 input, for window 1 the one bias row. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, block index constant, so fetched at the first point only) holds its block at
    every point all the same: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional ("this is block 0"), from the grid coordinate. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional ("this is block 49"). -/
abbrev cond4_1 (i : grid4.Coords) : Prop := k4_cond2 i = 1#1
/-- It holds at point 49 only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The two inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first point the two output rows are idle (nothing is stored into them) and not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- The same at the middle points. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last point both output rows are live: the accumulators are copied into them. -/
theorem liveAt4_2_C : ∀ t : Fin cfg4.N, ¬cond4_0 (grid4.coords t) → cond4_1 (grid4.coords t) → cfg4.idle 2 (grid4.coords t) = false := by decide +kernel
theorem liveAt4_3_C : ∀ t : Fin cfg4.N, ¬cond4_0 (grid4.coords t) → cond4_1 (grid4.coords t) → cfg4.idle 3 (grid4.coords t) = false := by decide +kernel

/-! ## The memrefs the body is called with -/

/-- One staging buffer of each output row, through which its contents are stated. -/
abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
/-- Each window's current staging memref at point `t`, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two accumulator rows: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

end Cert.KernelIdeal.Hand

end
-- ==== Proof.KI.Stats4RunA.lean ====
/- The statistics body at the FIRST block (point 0). Both conditionals decided: the accumulators are
   cleared, then the block's column sums are added; the output rows are not touched. -/
import proofs.«107028_j46583215292429_1_alg».proof.Proof.KI.Stats4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces (last first), AT THE FIRST BLOCK, with the proof
    that on whole memrefs — the two inputs' at their contents `x0` (the 2000x128 block) and `x1` (the bias row), the
    two output rows' at contents `xi2`, `xi3` handed back untouched, the two accumulators' at anything — the body
    runs to the continuation holding the inputs and outputs as they were and each accumulator with its pieces
    written (two each: the zero row, then zero row + column sums). The output rows get no piece. -/
noncomputable def kernelRun4_A (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S2000x128 .f32) (x1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Stats4RunB.lean ====
/- The statistics body at a MIDDLE block (points 1 … 48). Neither conditional taken: the block's column
   sums are added to the accumulators the block before left; the output rows are not touched. -/
import proofs.«107028_j46583215292429_1_alg».proof.Proof.KI.Stats4RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each accumulator row, as pieces, AT A MIDDLE BLOCK, with the proof that on whole
    memrefs — the inputs' at `x0`, `x1`, the output rows' at `xi2`, `xi3` handed back untouched, the accumulators' at
    what the block before left (`xs0`, `xs1`) — the body runs to the continuation holding the inputs and outputs as
    they were and each accumulator with its one piece written (`xs` + column sums). -/
noncomputable def kernelRun4_B (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.Stats4RunC.lean ====
/- The statistics body at the LAST block (point 49). The second conditional taken: the block's column
   sums are added to the accumulators, and the accumulators are then copied into the two output rows. -/
import proofs.«107028_j46583215292429_1_alg».proof.Proof.KI.Stats4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in each output row and each accumulator row, as pieces, AT THE LAST BLOCK, with the
    proof that on whole memrefs — the inputs' at `x0`, `x1`, the output rows' at anything, the accumulators' at what
    the block before left (`xs0`, `xs1`) — the body runs to the continuation holding the inputs as they were and each
    output row and accumulator with its one piece written (`xs` + column sums, in all four). -/
noncomputable def kernelRun4_C (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Stats4.lean ====
/- The batch-norm statistics region (custom_call 4) at the buffer contents V it is entered with: what each
   control case leaves in the two accumulator rows and the two output rows, what they hold block after block
   (the accumulation), the invariant carrying the accumulators between blocks, the pipeline's proof data and
   its body obligation, and the invariant's two ends.
   Accumulator 0 after block n is (zero row) + Σ_{b ≤ n} colsum(block b + bias); accumulator 1 the same of the
   squares. Output row 2 (3) receives accumulator 0 (1) at the last block and is otherwise untouched. -/
import proofs.«107028_j46583215292429_1_alg».proof.Proof.KI.Stats4RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

section CaseA
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
  (x0 : Vec F S2000x128 .f32) (x1 : Vec F S1x128 .f32)

/-- At the first block nothing is stored into output row 2: no pieces; a placeholder nothing consults (the window
    is idle there and not written back). -/
def out4_A_2 : Vec F S1x128 .f32 :=
  VO4_2.read (Elt F) (VO4_2.writes (Elt F) VO4_2.junk (kernelRun4_A c i arg1 harg1 arg2 harg2 arg3 harg3 arg4 harg4 arg5 harg5 arg6 harg6 hc0 hc1 x0 x1).1)
/-- The same of output row 3. -/
def out4_A_3 : Vec F S1x128 .f32 :=
  VO4_3.read (Elt F) (VO4_3.writes (Elt F) VO4_3.junk (kernelRun4_A c i arg1 harg1 arg2 harg2 arg3 harg3 arg4 harg4 arg5 harg5 arg6 harg6 hc0 hc1 x0 x1).2.1)
/-- The first block's two pieces for accumulator 0 (each the whole row) cover it. -/
theorem scover4_A_0 (y : S1x128.Idx) : ∃ pc ∈ (kernelRun4_A c i arg1 harg1 arg2 harg2 arg3 harg3 arg4 harg4 arg5 harg5 arg6 harg6 hc0 hc1 x0 x1).2.2.1, y ∈ pc.1.set :=
  View.cover_of_tiledL (kernelRun4_A c i arg1 harg1 arg2 harg2 arg3 harg3 arg4 harg4 arg5 harg5 arg6 harg6 hc0 hc1 x0 x1).2.2.1 S1x128.size (by sl_kernel_rfl) y

/-- What the first block leaves in accumulator 0: its pieces read back. -/
def sout4_A_0 : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).2.2.1)

/-- The same for accumulator 1. -/
theorem scover4_A_1 (y : S1x128.Idx) : ∃ pc ∈ (kernelRun4_A c i arg1 harg1 arg2 harg2 arg3 harg3 arg4 harg4 arg5 harg5 arg6 harg6 hc0 hc1 x0 x1).2.2.2.1, y ∈ pc.1.set :=
  View.cover_of_tiledL (kernelRun4_A c i arg1 harg1 arg2 harg2 arg3 harg3 arg4 harg4 arg5 harg5 arg6 harg6 hc0 hc1 x0 x1).2.2.2.1 S1x128.size (by sl_kernel_rfl) y

/-- What the first block leaves in accumulator 1. -/
def sout4_A_1 : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.2.2.1)

end CaseA

section CaseB
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
  (x0 : Vec F S2000x128 .f32) (x1 : Vec F S1x128 .f32) (xs0 : Vec F S1x128 .f32) (xs1 : Vec F S1x128 .f32)

/-- At a middle block nothing is stored into output row 2: a placeholder nothing consults. -/
def out4_B_2 : Vec F S1x128 .f32 :=
  VO4_2.read (Elt F) (VO4_2.writes (Elt F) VO4_2.junk (kernelRun4_B c i arg1 harg1 arg2 harg2 arg3 harg3 arg4 harg4 arg5 harg5 arg6 harg6 hc0 hc1 x0 x1 xs0 xs1).1)
/-- The same of output row 3. -/
def out4_B_3 : Vec F S1x128 .f32 :=
  VO4_3.read (Elt F) (VO4_3.writes (Elt F) VO4_3.junk (kernelRun4_B c i arg1 harg1 arg2 harg2 arg3 harg3 arg4 harg4 arg5 harg5 arg6 harg6 hc0 hc1 x0 x1 xs0 xs1).2.1)
/-- A middle block's one piece for accumulator 0 (the whole row) covers it. -/
theorem scover4_B_0 (y : S1x128.Idx) : ∃ pc ∈ (kernelRun4_B c i arg1 harg1 arg2 harg2 arg3 harg3 arg4 harg4 arg5 harg5 arg6 harg6 hc0 hc1 x0 x1 xs0 xs1).2.2.1, y ∈ pc.1.set :=
  View.cover_of_tiledL (kernelRun4_B c i arg1 harg1 arg2 harg2 arg3 harg3 arg4 harg4 arg5 harg5 arg6 harg6 hc0 hc1 x0 x1 xs0 xs1).2.2.1 S1x128.size (by sl_kernel_rfl) y

/-- What a middle block leaves in accumulator 0, over what the block before left. -/
def sout4_B_0 : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).2.2.1)

/-- The same for accumulator 1. -/
theorem scover4_B_1 (y : S1x128.Idx) : ∃ pc ∈ (kernelRun4_B c i arg1 harg1 arg2 harg2 arg3 harg3 arg4 harg4 arg5 harg5 arg6 harg6 hc0 hc1 x0 x1 xs0 xs1).2.2.2.1, y ∈ pc.1.set :=
  View.cover_of_tiledL (kernelRun4_B c i arg1 harg1 arg2 harg2 arg3 harg3 arg4 harg4 arg5 harg5 arg6 harg6 hc0 hc1 x0 x1 xs0 xs1).2.2.2.1 S1x128.size (by sl_kernel_rfl) y

/-- What a middle block leaves in accumulator 1. -/
def sout4_B_1 : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.2.2.1)

end CaseB

section CaseC
variable (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
  (x0 : Vec F S2000x128 .f32) (x1 : Vec F S1x128 .f32) (xs0 : Vec F S1x128 .f32) (xs1 : Vec F S1x128 .f32)

/-- The last block's one store into output row 2 (the whole row) covers it. -/
theorem cover4_C_2 (y : S1x128.Idx) : ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y

/-- What the last block leaves in output row 2: accumulator 0's final contents. -/
def out4_C_2 : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- The same for output row 3. -/
theorem cover4_C_3 (y : S1x128.Idx) : ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y

/-- What the last block leaves in output row 3: accumulator 1's final contents. -/
def out4_C_3 : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- The last block's one piece for accumulator 0 covers it. -/
theorem scover4_C_0 (y : S1x128.Idx) : ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y

/-- What the last block leaves in accumulator 0. -/
def sout4_C_0 : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- The same for accumulator 1. -/
theorem scover4_C_1 (y : S1x128.Idx) : ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y

/-- What the last block leaves in accumulator 1. -/
def sout4_C_1 : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

end CaseC

/-! ## What the rows hold after each block -/

/-- THE ACCUMULATION. What output rows 2, 3 and accumulators 0, 1 hold after the body at position `n` (in that
    order): the first block's case at 0; afterwards the middle case, or at position 49 the last, run at the
    point's memrefs and input blocks over the accumulators as position `n - 1` left them. -/
def outsAt4 (c : Dev nD) : (n : ℕ) → n < cfg4.N → Vec F S1x128 .f32 × Vec F S1x128 .f32 × Vec F S1x128 .f32 × Vec F S1x128 .f32
  | 0, hn =>
     (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h1 : (n + 1) % 50 = 49 then
       (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
       (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
        sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => (by have hN : n + 1 < 50 := lt_of_lt_of_eq hn (show cfg4.N = 50 from N_4); omega : ¬(n + 1) % 50 = 0) ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first block. -/
theorem outsAt4_A (c : Dev nD) (t : Fin cfg4.N) (h0 : t.val % 50 = 0) (h1 : ¬t.val % 50 = 49) :
    outsAt4 V c t.val t.isLt =
     (out4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (by exfalso; have hN : n + 1 < 50 := lt_of_lt_of_eq hn (show cfg4.N = 50 from N_4); (try dsimp only at h0); omega)

/-- `outsAt4` at a middle block: that case's contents, over what the block before left. -/
theorem outsAt4_B (c : Dev nD) (t : Fin cfg4.N) (h0 : ¬t.val % 50 = 0) (h1 : ¬t.val % 50 = 49) :
    outsAt4 V c t.val t.isLt =
     (out4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt4` at the last block. -/
theorem outsAt4_C (c : Dev nD) (t : Fin cfg4.N) (h0 : ¬t.val % 50 = 0) (h1 : t.val % 50 = 49) :
    outsAt4 V c t.val t.isLt =
     (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
      sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant -/

/-- The region invariant before position `n`: the two accumulator rows held whole — before the first block at
    anything, afterwards at what the block before left (`outsAt4`'s last two components) —, beside every other scoped
    buffer no window stages (unopened) and the generator register at some state. -/
def PhiS4 (c : Dev nD) : (n : ℕ) → n ≤ cfg4.N → sProp 𝕄
  | 0, _ => iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r))
  | n + 1, hn => iprop(owns (c : Thread nD τ) scM4_0 fullShare (outsAt4 V c n hn).2.2.1 ∗ owns (c : Thread nD τ) scM4_1 fullShare (outsAt4 V c n hn).2.2.2
      ∗ Pipeline.scopedRestBut (Ix := Unit) (Name := ℕ) (U := UR sig nD τ) (Lvl := ℕ) (Val := Elt F) spec4 c [cc4_scratch0, cc4_scratch1] ∗ (∃ r, prngReg c r))

theorem PhiS4_zero (c : Dev nD) (n : ℕ) (h : n ≤ cfg4.N) (hz : n = 0) :
    PhiS4 V c n h = iprop((∃ d, owns (c : Thread nD τ) scM4_0 fullShare d) ∗ (∃ d, owns (c : Thread nD τ) scM4_1 fullShare d)
      ∗ Pipeline.scopedRestBut (Ix := Unit) (Name := ℕ) (U := UR sig nD τ) (Lvl := ℕ) (Val := Elt F) spec4 c [cc4_scratch0, cc4_scratch1] ∗ (∃ r, prngReg c r)) := by
  subst hz; rfl

/-- After point `n` (before point `n + 1`): the accumulators at that point's contents. -/
theorem PhiS4_succ (c : Dev nD) (n : ℕ) (hn : n < cfg4.N) :
    PhiS4 V c (n + 1) hn = iprop(owns (c : Thread nD τ) scM4_0 fullShare (outsAt4 V c n hn).2.2.1 ∗ owns (c : Thread nD τ) scM4_1 fullShare (outsAt4 V c n hn).2.2.2
      ∗ Pipeline.scopedRestBut (Ix := Unit) (Name := ℕ) (U := UR sig nD τ) (Lvl := ℕ) (Val := Elt F) spec4 c [cc4_scratch0, cc4_scratch1] ∗ (∃ r, prngReg c r)) := rfl

/-- Before a point that is not the first: the accumulators at what the point before left. -/
theorem PhiS4_pos (c : Dev nD) (n : ℕ) (h : n ≤ cfg4.N) (hz : n ≠ 0) :
    PhiS4 V c n h = iprop(owns (c : Thread nD τ) scM4_0 fullShare (outsAt4 V c (n - 1) (by omega)).2.2.1 ∗ owns (c : Thread nD τ) scM4_1 fullShare (outsAt4 V c (n - 1) (by omega)).2.2.2
      ∗ Pipeline.scopedRestBut (Ix := Unit) (Name := ℕ) (U := UR sig nD τ) (Lvl := ℕ) (Val := Elt F) spec4 c [cc4_scratch0, cc4_scratch1] ∗ (∃ r, prngReg c r)) := by
  cases n with
  | zero => exact absurd rfl hz
  | succ n => rfl

/-! ## The pipeline's proof data -/

/-- The proof data of pipeline 4 on core `c`: the arrays as the region finds them (`V`); after the body at point
    `t` each input's buffer at its block and each output row's at `outsAt4`'s component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the accumulators at what the point before left (at anything at the first point) and takes
    them back at this point's contents; the output rows are handed back untouched except at the last point, where they
    are left at the accumulators' final contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  by_cases h0 : t.val % 50 = 0
  · by_cases h1 : t.val % 50 = 49
    · exfalso; omega
    · -- the first block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0 sout4_A_1; (try dsimp only)
      have hz : t.val = 0 := by omega
      rw [PhiS4_castSucc V c t, PhiS4_zero V c _ _ hz]
      iintro ⟨⟨HS0, HS1, Hr, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_A_0 c _ _ _ _ _ _ _ _ _ _ _ _ _ _ _ _ _)
        isplitl [HS1]
        · unfold owns; iexists _; isplitr
          swap; · iexact HS1
          ipureintro; exact View.read_writes_of_cover _ _ _ _ _ (scover4_A_1 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3
  · have hz : t.val ≠ 0 := by omega
    by_cases h1 : t.val % 50 = 49
    · -- the last block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_2 out4_C_3 sout4_C_0 sout4_C_1; (try dsimp only)
      rw [PhiS4_castSucc V c t, PhiS4_pos V c _ _ hz]
      iintro ⟨⟨HS0, HS1, Hr, Hg⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_C_0 c _ _ _ _ _ _ _ _ _ _ _ _ _ _ _ _ _ _ _)
        isplitl [HS1]
        · unfold owns; iexists _; isplitr
          swap; · iexact HS1
          ipureintro; exact View.read_writes_of_cover _ _ _ _ _ (scover4_C_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · -- a middle block
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ hz]
      iintro ⟨⟨HS0, HS1, Hr, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scover4_B_0 c _ _ _ _ _ _ _ _ _ _ _ _ _ _ _ _ _ _ _)
        isplitl [HS1]
        · unfold owns; iexists _; isplitr
          swap; · iexact HS1
          ipureintro; exact View.read_writes_of_cover _ _ _ _ _ (scover4_B_1 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The invariant before the first point, from the generator register and the scoped buffers no window stages: those
    split at the two accumulator rows, each whole at some contents, the others unopened. -/
theorem hin4 (c : Dev nD) :
    iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl, scopedRest4_split]
  simp only [scM4_0, scM4_1, owns_whole]
  iintro ⟨Hg, ⟨HS0, HS1⟩, Hr⟩
  isplitl [HS0]; · iexact HS0
  isplitl [HS1]; · iexact HS1
  isplitl [Hr]; · iexact Hr
  iexact Hg

/-- After the last point the invariant gives the generator register and those scoped buffers back: the accumulators'
    named contents are forgotten. -/
theorem hout4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 50 := N_4; omega), scopedRest4_split]
  simp only [scM4_0, scM4_1, owns_whole]
  iintro ⟨HS0, HS1, Hr, Hg⟩
  isplitl [Hg]; · iexact Hg
  isplitl [HS0 HS1]
  · isplitl [HS0]; · iexists _; iexact HS0
    iexists _; iexact HS1
  iexact Hr

end Cert.KernelIdeal.Hand

end
-- ==== Proof.KI.Apply5.lean ====
/- The frame half of the batch-norm apply region (custom_call 5) at the buffer contents `V` the region is entered
   with: each window's block at a grid point, what the body leaves in the output window's buffer as a function of
   the six input blocks, the body's triple, the pipeline's proof data and its body obligation at every point. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 x 128 extents: the structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 and window 6 rows
    `2000 t .. 2000 t + 1999` of a 100000 x 128 array, for windows 1..5 the whole 1 x 128 row. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents (`hA`) and whose body leaves the block in place (`hafter`): where the
    window is not fetched its block index has not moved, so the previous point's block is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is the entry contents (`hA`) and whose body leaves the block in place (`hafter`): where the
    window is not fetched its block index has not moved, so the previous point's block is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is the entry contents (`hA`) and whose body leaves the block in place (`hafter`): where the
    window is not fetched its block index has not moved, so the previous point's block is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is the entry contents (`hA`) and whose body leaves the block in place (`hafter`): where the
    window is not fetched its block index has not moved, so the previous point's block is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is the entry contents (`hA`) and whose body leaves the block in place (`hafter`): where the
    window is not fetched its block index has not moved, so the previous point's block is this point's. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for any proof
    data whose array is the entry contents (`hA`) and whose body leaves the block in place (`hafter`): where the
    window is not fetched its block index has not moved, so the previous point's block is this point's. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000 x 128 block, and the whole 1 x 128 row. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 6's staging buffer after the body, from the six input blocks (`x0` the feature rows, `x1` bias, `x2` mean,
    `x3` variance, `x4` scale, `x5` shift): its one store over the whole block. The payload takes the variance row
    before the mean row. -/
def out5_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r5_0, k5_pay1 (View.ld x0 r5_0) (View.ld x1 r5_1) (View.ld x3 r5_1) (View.ld x2 r5_1) (View.ld x4 r5_1) (View.ld x5 r5_1)⟩]

/-- The one store is over the whole buffer, so it covers it. -/
theorem cover5_6 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at read contents `xW` and the output's at anything, runs to
    the continuation holding the inputs' as they were and the output's at `out5_6` of the inputs': six whole loads,
    a load of the output buffer whose value is not used, and one whole store. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_apply_kernel i arg1 harg1 arg2 harg2 arg3 harg3 arg4 harg4 arg5 harg5 arg6 harg6 arg7 harg7) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of the pipeline on core `c`: the arrays as the region finds them (`V`); after the body at point `t`
    each input's buffer at its block and the output's at `out5_6` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Mat6.lean ====
/- The frame half of matmul region 6: a grid of 50 row blocks; at each point the body reads a S2000x128 row block of the
   left matrix and the whole S128x64 right matrix and stores their product, rounded operands into a zero accumulator,
   over the whole S2000x64 output row block. Stated at the buffer contents `V` found when the region is entered. -/
import proofs.«107028_j46583215292429_1_alg».proof.Proof.Gen.KernelIdeal.Launch
import proofs.«107028_j46583215292429_1_alg».proof.Proof.Gen.KernelIdeal.Skeleton
import proofs.«107028_j46583215292429_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the structural check recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left matrix's row block (window 0, moved at every point) is what its staging buffer holds at every point,
    for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right matrix (window 1, block index constant, moved at the first point only) is what its staging buffer
    holds at every point: where it is not moved the block index has not changed, so the block is the same. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S2000x128 := Rect.unit (s := S2000x128) ![0, 0] S2000x128.size inb_S2000x128_S2000x128_0_0
abbrev r6_1 : Rect S128x64 := Rect.unit (s := S128x64) ![0, 0] S128x64.size inb_S128x64_S128x64_0_0
abbrev r6_2 : Rect S2000x64 := Rect.unit (s := S2000x64) ![0, 0] S2000x64.size inb_S2000x64_S2000x64_0_0

/-! ## What the body leaves in the output window's buffer -/

/-- The output row block after the body, from the two input blocks: one store over the whole block, of the
    product of the left block `x0` and the right matrix `x1`. -/
def out6_2 (x0 : Vec F S2000x128 .f32) (x1 : Vec F S128x64 .f32) : Vec F S2000x64 .f32 :=
  View.canon [⟨r6_2, k6_pay1 (View.ld x0 r6_0) (View.ld x1 r6_1)⟩]

/-- The one store is over the whole block, so it covers it. -/
theorem cover6_2 (p0 : Vec F S2000x64 .f32) (y : S2000x64.Idx) :
    ∃ pc ∈ ([⟨r6_2, p0⟩] : List (View.Piece (Elt F) S2000x64 .f32)), y ∈ pc.1.set :=
  View.cover_of_tiled [⟨r6_2, p0⟩] S2000x64.size (by rfl) y

/-! ## The body's triple -/

set_option maxHeartbeats 1000000 in
/-- The body on whole staging buffers — the inputs' reading `x0`, `x1`, the output's holding anything — runs to the
    continuation with the inputs' as they were and the output's at `out6_2 x0 x1`. The grid coordinate `i` is not read. -/
theorem sound_kernel6 (c : Dev nD) (E : Set ℕ) (i : grid6.Coords) (arg0 : Memref sig .tc .vmem S2000x128 .f32) (harg0 : arg0.IsWhole) (arg1 : Memref sig .tc .vmem S128x64 .f32) (harg1 : arg1.IsWhole) (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__matmul_kernel i arg0 harg0 arg1 harg1 arg2 harg2) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t`
    each input's buffer at its block and the output's at `out6_2` of the two input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, moved there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what is owed pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/-
  The run of the whole program on the TensorCores, at any float instance: @main is thirteen items in a row — six stretches
  of host operations and seven kernel regions (three dense products, two passes of column statistics, two passes of
  normalisation) — and the contents of every buffer at each boundary is a fold from the launch memory: a host stretch
  applies its operations, a region replaces its output arrays by what its fifty write-backs leave and keeps every other
  buffer. Each region is entered with every unscoped buffer whole at the boundary's contents; its arrays are split out,
  the pipeline runs over the region's proof data, and the arrays are put back at their final contents. At the end every
  unscoped buffer is read against the final memory, so both the unchanged arguments and the result array are available.
-/
import proofs.«107028_j46583215292429_1_alg».proof.Proof.Gen.KernelIdeal.Regions
import proofs.«107028_j46583215292429_1_alg».proof.Proof.KI.Mat0
import proofs.«107028_j46583215292429_1_alg».proof.Proof.KI.Stats1
import proofs.«107028_j46583215292429_1_alg».proof.Proof.KI.Apply2
import proofs.«107028_j46583215292429_1_alg».proof.Proof.KI.Mat3
import proofs.«107028_j46583215292429_1_alg».proof.Proof.KI.Stats4
import proofs.«107028_j46583215292429_1_alg».proof.Proof.KI.Apply5
import proofs.«107028_j46583215292429_1_alg».proof.Proof.KI.Mat6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => m (c, b)
/-- After the host stretch `hostOps0`. -/
abbrev U1 : Dev nD → Valuation τ sig (Elt F) := fun c => StableHlo.after hostOps0 (U0 m c)
/-- The same read at the TensorCore's references. -/
abbrev T1 : (c : Dev nD) → (b : Ref sig .tc) → Buf (Elt F) ((c : Thread nD τ).loc b) := fun c b => U1 m c b
/-- At region 0's exit: its arrays at what the pipeline leaves, every other buffer as entered. -/
def U2 (c : Dev nD) : Valuation τ sig (Elt F) :=
  Pipeline.withArrays spec0 c (U1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
/-- The same read at the TensorCore's references. -/
abbrev T2 : (c : Dev nD) → (b : Ref sig .tc) → Buf (Elt F) ((c : Thread nD τ).loc b) := fun c b => U2 m c b
theorem hF0 (c : Dev nD) (w : Fin cfg0.W) : (dat0 (T1 m) c).arrAt w cfg0.N = T2 m c (Pipeline.arrRef spec0 w) :=
  (U2_arr m c w).symm
theorem hrest0 (c : Dev nD) : ∀ b, b ∉ Finset.univ.image (Pipeline.arrRef spec0) → T2 m c b = T1 m c b :=
  fun b hb => U2_of_ne m c b fun w e => hb (Finset.mem_image.mpr ⟨w, Finset.mem_univ _, e⟩)
/-- After the host stretch `hostOps1`. -/
abbrev U3 : Dev nD → Valuation τ sig (Elt F) := fun c => StableHlo.after hostOps1 (U2 m c)
/-- The same read at the TensorCore's references. -/
abbrev T3 : (c : Dev nD) → (b : Ref sig .tc) → Buf (Elt F) ((c : Thread nD τ).loc b) := fun c b => U3 m c b
/-- At region 1's exit: its arrays at what the pipeline leaves, every other buffer as entered. -/
def U4 (c : Dev nD) : Valuation τ sig (Elt F) :=
  Pipeline.withArrays spec1 c (U3 m c) fun w => (dat1 (T3 m) c).arrAt w cfg1.N
theorem U4_arr (c : Dev nD) (w : Fin cfg1.W) :
    U4 m c (Proc.devRef .tc (Pipeline.arrRef spec1 w)) = (dat1 (T3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
/-- The same read at the TensorCore's references. -/
abbrev T4 : (c : Dev nD) → (b : Ref sig .tc) → Buf (Elt F) ((c : Thread nD τ).loc b) := fun c b => U4 m c b
theorem hF1 (c : Dev nD) (w : Fin cfg1.W) : (dat1 (T3 m) c).arrAt w cfg1.N = T4 m c (Pipeline.arrRef spec1 w) :=
  (U4_arr m c w).symm
theorem hrest1 (c : Dev nD) : ∀ b, b ∉ Finset.univ.image (Pipeline.arrRef spec1) → T4 m c b = T3 m c b :=
  fun b hb => U4_of_ne m c b fun w e => hb (Finset.mem_image.mpr ⟨w, Finset.mem_univ _, e⟩)
/-- After the host stretch `hostOps2`. -/
abbrev U5 : Dev nD → Valuation τ sig (Elt F) := fun c => StableHlo.after hostOps2 (U4 m c)
/-- The same read at the TensorCore's references. -/
abbrev T5 : (c : Dev nD) → (b : Ref sig .tc) → Buf (Elt F) ((c : Thread nD τ).loc b) := fun c b => U5 m c b
/-- At region 2's exit: its arrays at what the pipeline leaves, every other buffer as entered. -/
def U6 (c : Dev nD) : Valuation τ sig (Elt F) :=
  Pipeline.withArrays spec2 c (U5 m c) fun w => (dat2 (T5 m) c).arrAt w cfg2.N
theorem U6_arr (c : Dev nD) (w : Fin cfg2.W) :
    U6 m c (Proc.devRef .tc (Pipeline.arrRef spec2 w)) = (dat2 (T5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
/-- The same read at the TensorCore's references. -/
abbrev T6 : (c : Dev nD) → (b : Ref sig .tc) → Buf (Elt F) ((c : Thread nD τ).loc b) := fun c b => U6 m c b
theorem hF2 (c : Dev nD) (w : Fin cfg2.W) : (dat2 (T5 m) c).arrAt w cfg2.N = T6 m c (Pipeline.arrRef spec2 w) :=
  (U6_arr m c w).symm
theorem hrest2 (c : Dev nD) : ∀ b, b ∉ Finset.univ.image (Pipeline.arrRef spec2) → T6 m c b = T5 m c b :=
  fun b hb => U6_of_ne m c b fun w e => hb (Finset.mem_image.mpr ⟨w, Finset.mem_univ _, e⟩)
/-- At region 3's exit: its arrays at what the pipeline leaves, every other buffer as entered. -/
def U7 (c : Dev nD) : Valuation τ sig (Elt F) :=
  Pipeline.withArrays spec3 c (U6 m c) fun w => (dat3 (T6 m) c).arrAt w cfg3.N
theorem U7_arr (c : Dev nD) (w : Fin cfg3.W) :
    U7 m c (Proc.devRef .tc (Pipeline.arrRef spec3 w)) = (dat3 (T6 m) c).arrAt w cfg3.N := by
  unfold U7; exact Pipeline.withArrays_arr spec3 launch3.win.arr_inj c _ _ w
theorem U7_of_ne (c : Dev nD) (b : Ref sig .tc) (hb : ∀ w, Pipeline.arrRef spec3 w ≠ b) :
    U7 m c (Proc.devRef .tc b) = U6 m c (Proc.devRef .tc b) := by
  unfold U7; exact Pipeline.withArrays_of_ne spec3 c _ _ b hb
/-- The same read at the TensorCore's references. -/
abbrev T7 : (c : Dev nD) → (b : Ref sig .tc) → Buf (Elt F) ((c : Thread nD τ).loc b) := fun c b => U7 m c b
theorem hF3 (c : Dev nD) (w : Fin cfg3.W) : (dat3 (T6 m) c).arrAt w cfg3.N = T7 m c (Pipeline.arrRef spec3 w) :=
  (U7_arr m c w).symm
theorem hrest3 (c : Dev nD) : ∀ b, b ∉ Finset.univ.image (Pipeline.arrRef spec3) → T7 m c b = T6 m c b :=
  fun b hb => U7_of_ne m c b fun w e => hb (Finset.mem_image.mpr ⟨w, Finset.mem_univ _, e⟩)
/-- After the host stretch `hostOps4`. -/
abbrev U8 : Dev nD → Valuation τ sig (Elt F) := fun c => StableHlo.after hostOps4 (U7 m c)
/-- The same read at the TensorCore's references. -/
abbrev T8 : (c : Dev nD) → (b : Ref sig .tc) → Buf (Elt F) ((c : Thread nD τ).loc b) := fun c b => U8 m c b
/-- At region 4's exit: its arrays at what the pipeline leaves, every other buffer as entered. -/
def U9 (c : Dev nD) : Valuation τ sig (Elt F) :=
  Pipeline.withArrays spec4 c (U8 m c) fun w => (dat4 (T8 m) c).arrAt w cfg4.N
theorem U9_arr (c : Dev nD) (w : Fin cfg4.W) :
    U9 m c (Proc.devRef .tc (Pipeline.arrRef spec4 w)) = (dat4 (T8 m) c).arrAt w cfg4.N := by
  unfold U9; exact Pipeline.withArrays_arr spec4 launch4.win.arr_inj c _ _ w
theorem U9_of_ne (c : Dev nD) (b : Ref sig .tc) (hb : ∀ w, Pipeline.arrRef spec4 w ≠ b) :
    U9 m c (Proc.devRef .tc b) = U8 m c (Proc.devRef .tc b) := by
  unfold U9; exact Pipeline.withArrays_of_ne spec4 c _ _ b hb
/-- The same read at the TensorCore's references. -/
abbrev T9 : (c : Dev nD) → (b : Ref sig .tc) → Buf (Elt F) ((c : Thread nD τ).loc b) := fun c b => U9 m c b
theorem hF4 (c : Dev nD) (w : Fin cfg4.W) : (dat4 (T8 m) c).arrAt w cfg4.N = T9 m c (Pipeline.arrRef spec4 w) :=
  (U9_arr m c w).symm
theorem hrest4 (c : Dev nD) : ∀ b, b ∉ Finset.univ.image (Pipeline.arrRef spec4) → T9 m c b = T8 m c b :=
  fun b hb => U9_of_ne m c b fun w e => hb (Finset.mem_image.mpr ⟨w, Finset.mem_univ _, e⟩)
/-- After the host stretch `hostOps5`. -/
abbrev U10 : Dev nD → Valuation τ sig (Elt F) := fun c => StableHlo.after hostOps5 (U9 m c)
/-- The same read at the TensorCore's references. -/
abbrev T10 : (c : Dev nD) → (b : Ref sig .tc) → Buf (Elt F) ((c : Thread nD τ).loc b) := fun c b => U10 m c b
/-- At region 5's exit: its arrays at what the pipeline leaves, every other buffer as entered. -/
def U11 (c : Dev nD) : Valuation τ sig (Elt F) :=
  Pipeline.withArrays spec5 c (U10 m c) fun w => (dat5 (T10 m) c).arrAt w cfg5.N
theorem U11_arr (c : Dev nD) (w : Fin cfg5.W) :
    U11 m c (Proc.devRef .tc (Pipeline.arrRef spec5 w)) = (dat5 (T10 m) c).arrAt w cfg5.N := by
  unfold U11; exact Pipeline.withArrays_arr spec5 launch5.win.arr_inj c _ _ w
theorem U11_of_ne (c : Dev nD) (b : Ref sig .tc) (hb : ∀ w, Pipeline.arrRef spec5 w ≠ b) :
    U11 m c (Proc.devRef .tc b) = U10 m c (Proc.devRef .tc b) := by
  unfold U11; exact Pipeline.withArrays_of_ne spec5 c _ _ b hb
/-- The same read at the TensorCore's references. -/
abbrev T11 : (c : Dev nD) → (b : Ref sig .tc) → Buf (Elt F) ((c : Thread nD τ).loc b) := fun c b => U11 m c b
theorem hF5 (c : Dev nD) (w : Fin cfg5.W) : (dat5 (T10 m) c).arrAt w cfg5.N = T11 m c (Pipeline.arrRef spec5 w) :=
  (U11_arr m c w).symm
theorem hrest5 (c : Dev nD) : ∀ b, b ∉ Finset.univ.image (Pipeline.arrRef spec5) → T11 m c b = T10 m c b :=
  fun b hb => U11_of_ne m c b fun w e => hb (Finset.mem_image.mpr ⟨w, Finset.mem_univ _, e⟩)
/-- At region 6's exit: its arrays at what the pipeline leaves, every other buffer as entered. -/
def U12 (c : Dev nD) : Valuation τ sig (Elt F) :=
  Pipeline.withArrays spec6 c (U11 m c) fun w => (dat6 (T11 m) c).arrAt w cfg6.N
theorem U12_arr (c : Dev nD) (w : Fin cfg6.W) :
    U12 m c (Proc.devRef .tc (Pipeline.arrRef spec6 w)) = (dat6 (T11 m) c).arrAt w cfg6.N := by
  unfold U12; exact Pipeline.withArrays_arr spec6 launch6.win.arr_inj c _ _ w
theorem U12_of_ne (c : Dev nD) (b : Ref sig .tc) (hb : ∀ w, Pipeline.arrRef spec6 w ≠ b) :
    U12 m c (Proc.devRef .tc b) = U11 m c (Proc.devRef .tc b) := by
  unfold U12; exact Pipeline.withArrays_of_ne spec6 c _ _ b hb
/-- The same read at the TensorCore's references. -/
abbrev T12 : (c : Dev nD) → (b : Ref sig .tc) → Buf (Elt F) ((c : Thread nD τ).loc b) := fun c b => U12 m c b
theorem hF6 (c : Dev nD) (w : Fin cfg6.W) : (dat6 (T11 m) c).arrAt w cfg6.N = T12 m c (Pipeline.arrRef spec6 w) :=
  (U12_arr m c w).symm
theorem hrest6 (c : Dev nD) : ∀ b, b ∉ Finset.univ.image (Pipeline.arrRef spec6) → T12 m c b = T11 m c b :=
  fun b hb => U12_of_ne m c b fun w e => hb (Finset.mem_image.mpr ⟨w, Finset.mem_univ _, e⟩)
/-- After the host stretch `hostOps7`. -/
abbrev U13 : Dev nD → Valuation τ sig (Elt F) := fun c => StableHlo.after hostOps7 (U12 m c)
/-- The same read at the TensorCore's references. -/
abbrev T13 : (c : Dev nD) → (b : Ref sig .tc) → Buf (Elt F) ((c : Thread nD τ).loc b) := fun c b => U13 m c b

/-! ## The proof data family and what rides beside the buffers -/

/-- No pallas_call has a prefetched table. -/
abbrev hadm : (p : Fin 7) → (pcfgs (F := F) p).Adm := fun p => (cfgs p).toPCfg_adm
/-- Every pipeline's proof data, each at its region's entry contents. -/
def hpdats : (p : Fin 7) → (c : Dev nD) → Dat τ (Elt F) Unit ℕ (UR sig nD τ) ℕ (Pipeline.pin (pcfgs (F := F)) hadm p) c
  | ⟨0, _⟩ => fun c => dat0 (T1 m) c
  | ⟨1, _⟩ => fun c => dat1 (T3 m) c
  | ⟨2, _⟩ => fun c => dat2 (T5 m) c
  | ⟨3, _⟩ => fun c => dat3 (T6 m) c
  | ⟨4, _⟩ => fun c => dat4 (T8 m) c
  | ⟨5, _⟩ => fun c => dat5 (T10 m) c
  | ⟨6, _⟩ => fun c => dat6 (T11 m) c
abbrev h𝒱 : Variants := Variants.none
/-- No core owes another anything: no level is assigned. -/
abbrev hL : GSem nD τ sig → Finset Unit := fun _ => ∅
abbrev hlv : GSem nD τ sig → Unit → ℕ := fun _ _ => 0
/-- Beside the buffers through every item: the core's generator register at some state, and the core owing nothing. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register
    at some state. -/
abbrev hTₙ (c : Dev nD) : sProp 𝕄 := iprop(StableHlo.held (c : Thread nD τ) (Pipeline.ucRefs τ sig) (U13 m c) ∗ ∃ r, prngReg c r)

/-! ## The regions as segments -/

set_option backward.isDefEq.respectTransparency.types false in
/-- Region 0: entered from every unscoped buffer at `U1`, left at `U2`. Its arrays are split out of the unscoped buffers
    and put back at their final contents; nothing is owed; the kernel has no semaphore of its own. -/
def reg0 : Pipeline.RegionSeg (pcfgs (F := F)) hadm (hpdats m) () defs₀ h𝒱 hL hlv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ hL hlv 0 fun _ _ => rfl
  pre c := iprop(StableHlo.held (c : Thread nD τ) (Pipeline.ucRefs τ sig) (U1 m c) ∗ hR c)
  post c := iprop(StableHlo.held (c : Thread nD τ) (Pipeline.ucRefs τ sig) (U2 m c) ∗ hR c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) hadm (hpdats m) launch0.win launch0.arr_whole c
      ((hpdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m) ((hpdats m 0 c).share_full fun _ => rfl)
      (T1 m c) (T2 m c) ((hpdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `U3`, left at `U4`. Its arrays are split out of the unscoped buffers
    and put back at their final contents; nothing is owed; the kernel has no semaphore of its own. -/
def reg1 : Pipeline.RegionSeg (pcfgs (F := F)) hadm (hpdats m) () defs₀ h𝒱 hL hlv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ hL hlv 1 fun _ _ => rfl
  pre c := iprop(StableHlo.held (c : Thread nD τ) (Pipeline.ucRefs τ sig) (U3 m c) ∗ hR c)
  post c := iprop(StableHlo.held (c : Thread nD τ) (Pipeline.ucRefs τ sig) (U4 m c) ∗ hR c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) hadm (hpdats m) launch1.win launch1.arr_whole c
      ((hpdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 1 c).Φ 0 = (dat1 (T3 m) c).Φ 0 from rfl]
    iintro ⟨Hp, -, Hr⟩
    iapply (hin1 (T3 m) c)
    isplitl [Hp]; · iexact Hp
    iexact Hr
  hout c := by
    rw [Pipeline.ownSems0_none, show (hpdats m 1 c).Φ (Fin.last _) = (dat1 (T3 m) c).Φ (Fin.last cfg1.N) from rfl]
    iintro H
    ihave H' := (hout1 (T3 m) c) $$ H
    icases H' with ⟨Hp, Hr⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m) ((hpdats m 1 c).share_full fun _ => rfl)
      (T3 m c) (T4 m c) ((hpdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `U5`, left at `U6`. Its arrays are split out of the unscoped buffers
    and put back at their final contents; nothing is owed; the kernel has no semaphore of its own. -/
def reg2 : Pipeline.RegionSeg (pcfgs (F := F)) hadm (hpdats m) () defs₀ h𝒱 hL hlv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ hL hlv 2 fun _ _ => rfl
  pre c := iprop(StableHlo.held (c : Thread nD τ) (Pipeline.ucRefs τ sig) (U5 m c) ∗ hR c)
  post c := iprop(StableHlo.held (c : Thread nD τ) (Pipeline.ucRefs τ sig) (U6 m c) ∗ hR c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) hadm (hpdats m) launch2.win launch2.arr_whole c
      ((hpdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m) ((hpdats m 2 c).share_full fun _ => rfl)
      (T5 m c) (T6 m c) ((hpdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `U6`, left at `U7`. Its arrays are split out of the unscoped buffers
    and put back at their final contents; nothing is owed; the kernel has no semaphore of its own. -/
def reg3 : Pipeline.RegionSeg (pcfgs (F := F)) hadm (hpdats m) () defs₀ h𝒱 hL hlv 3 where
  win := launch3.win.to₀
  block_pos := launch3.block_pos
  stage_whole := launch3.stage_whole
  K := PEmpty
  osem k := k.elim
  ho := Pipeline.OwnSemFacts.none _
  hbody c := (body_obligation3 (T6 m) c).loose
  hwaits := Pipeline.hwaits_of_owed_zero _ _ _ _ hL hlv 3 fun _ _ => rfl
  pre c := iprop(StableHlo.held (c : Thread nD τ) (Pipeline.ucRefs τ sig) (U6 m c) ∗ hR c)
  post c := iprop(StableHlo.held (c : Thread nD τ) (Pipeline.ucRefs τ sig) (U7 m c) ∗ hR c)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) hadm (hpdats m) launch3.win launch3.arr_whole c
      ((hpdats m 3 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m) ((hpdats m 3 c).share_full fun _ => rfl)
      (T6 m c) (T7 m c) ((hpdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `U8`, left at `U9`. Its arrays are split out of the unscoped buffers
    and put back at their final contents; nothing is owed; the kernel has no semaphore of its own. -/
def reg4 : Pipeline.RegionSeg (pcfgs (F := F)) hadm (hpdats m) () defs₀ h𝒱 hL hlv 4 where
  win := launch4.win.to₀
  block_pos := launch4.block_pos
  stage_whole := launch4.stage_whole
  K := PEmpty
  osem k := k.elim
  ho := Pipeline.OwnSemFacts.none _
  hbody c := (body_obligation4 (T8 m) c).loose
  hwaits := Pipeline.hwaits_of_owed_zero _ _ _ _ hL hlv 4 fun _ _ => rfl
  pre c := iprop(StableHlo.held (c : Thread nD τ) (Pipeline.ucRefs τ sig) (U8 m c) ∗ hR c)
  post c := iprop(StableHlo.held (c : Thread nD τ) (Pipeline.ucRefs τ sig) (U9 m c) ∗ hR c)
  X c := iprop(∃ r, prngReg c r)
  Y c := iprop(∃ r, prngReg c r)
  Z c := Pipeline.unscopedRest (Ix := Unit) (Name := ℕ) (U := UR sig nD τ) (Lvl := ℕ) spec4 c (T8 m c)
  hentry c := by
    rw [Pipeline.ownSems0_none]
    have hsplit := Pipeline.arrays_of_unscopedBufs (p := 4) (pcfgs (F := F)) hadm (hpdats m) launch4.win launch4.arr_whole c
      ((hpdats m 4 c).share_full fun _ => rfl) (T8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 4 c).Φ 0 = (dat4 (T8 m) c).Φ 0 from rfl]
    iintro ⟨Hp, -, Hr⟩
    iapply (hin4 (T8 m) c)
    isplitl [Hp]; · iexact Hp
    iexact Hr
  hout c := by
    rw [Pipeline.ownSems0_none, show (hpdats m 4 c).Φ (Fin.last _) = (dat4 (T8 m) c).Φ (Fin.last cfg4.N) from rfl]
    iintro H
    ihave H' := (hout4 (T8 m) c) $$ H
    icases H' with ⟨Hp, Hr⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hpdats m) ((hpdats m 4 c).share_full fun _ => rfl)
      (T8 m c) (T9 m c) ((hpdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `U10`, left at `U11`. Its arrays are split out of the unscoped buffers
    and put back at their final contents; nothing is owed; the kernel has no semaphore of its own. -/
def reg5 : Pipeline.RegionSeg (pcfgs (F := F)) hadm (hpdats m) () defs₀ h𝒱 hL hlv 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ hL hlv 5 fun _ _ => rfl
  pre c := iprop(StableHlo.held (c : Thread nD τ) (Pipeline.ucRefs τ sig) (U10 m c) ∗ hR c)
  post c := iprop(StableHlo.held (c : Thread nD τ) (Pipeline.ucRefs τ sig) (U11 m c) ∗ hR c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) hadm (hpdats m) launch5.win launch5.arr_whole c
      ((hpdats m 5 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hpdats m) ((hpdats m 5 c).share_full fun _ => rfl)
      (T10 m c) (T11 m c) ((hpdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `U11`, left at `U12`. Its arrays are split out of the unscoped buffers
    and put back at their final contents; nothing is owed; the kernel has no semaphore of its own. -/
def reg6 : Pipeline.RegionSeg (pcfgs (F := F)) hadm (hpdats m) () defs₀ h𝒱 hL hlv 6 where
  win := launch6.win.to₀
  block_pos := launch6.block_pos
  stage_whole := launch6.stage_whole
  K := PEmpty
  osem k := k.elim
  ho := Pipeline.OwnSemFacts.none _
  hbody c := (body_obligation6 (T11 m) c).loose
  hwaits := Pipeline.hwaits_of_owed_zero _ _ _ _ hL hlv 6 fun _ _ => rfl
  pre c := iprop(StableHlo.held (c : Thread nD τ) (Pipeline.ucRefs τ sig) (U11 m c) ∗ hR c)
  post c := iprop(StableHlo.held (c : Thread nD τ) (Pipeline.ucRefs τ sig) (U12 m c) ∗ hR c)
  X c := iprop(∃ r, prngReg c r)
  Y c := iprop(∃ r, prngReg c r)
  Z c := Pipeline.unscopedRest (Ix := Unit) (Name := ℕ) (U := UR sig nD τ) (Lvl := ℕ) spec6 c (T11 m c)
  hentry c := by
    rw [Pipeline.ownSems0_none]
    have hsplit := Pipeline.arrays_of_unscopedBufs (p := 6) (pcfgs (F := F)) hadm (hpdats m) launch6.win launch6.arr_whole c
      ((hpdats m 6 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (hpdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (hpdats m) ((hpdats m 6 c).share_full fun _ => rfl)
      (T11 m c) (T12 m c) ((hpdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's thirteen items in order, the same list on every core. -/
abbrev hsegs (c : Dev nD) : List (Pipeline.Seg (pcfgs (F := F)) hadm (hpdats m) () defs₀ h𝒱 hL hlv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .region (reg3 m),
    .host (hseg hostOps4 hostOps4_sub hostOps4_fresh (U7 m)),
    .region (reg4 m),
    .host (hseg hostOps5 hostOps5_sub hostOps5_fresh (U9 m)),
    .region (reg5 m),
    .region (reg6 m),
    .host (hseg hostOps7 hostOps7_sub hostOps7_fresh (U12 m)) ]

/-- The last link: the final host stretch's thread state, reassociated — the buffers and the generator register on one side,
    the core owing nothing on the other. -/
theorem hlast (c : Dev nD) :
    (iprop(StableHlo.held (c : Thread nD τ) (Pipeline.ucRefs τ sig) (U13 m c) ∗ hR c) : sProp 𝕄)
      ⊢ iprop(hTₙ m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Every weakly fair execution of @main from memory `m` with zero counters terminates, nothing faulting, and in every
    final memory each unscoped buffer of each core holds the last boundary's contents `U13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U13 m c b) :=
  Pipeline.θ_run_regions_kit_dev (pcfgs (F := F)) hadm (hpdats m) () cellOf_inj emb₁ defs₀ h𝒱 hL hlv m ρ main (hsegs m)
    (fun c Q => by
      rewrite [main_chain c, Pipeline.Seg.run_eq_chain,
        show (hsegs m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7 ] from rfl]
      exact .rfl)
    (fun c => by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ hR c)) (Tₙ := hTₙ m)
    (hch := fun c => ⟨.rfl, .rfl, .rfl, .rfl, .rfl, .rfl, .rfl, .rfl, .rfl, .rfl, .rfl, .rfl, .rfl, hlast m c⟩)
    (hinit := by
      refine Pipeline.initEach hL hlv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

end Cert.KernelIdeal.Hand

end
-- ==== Proof.KI.Keep.lean ====
/-
  Which buffers pass through which items of @main unchanged. A host stretch changes only the buffers its operations write;
  a region changes only its output arrays: an array one of its input windows reads ends as it was entered, and a buffer that is
  no window's array is not touched. From these: every argument array holds its launch contents at every boundary; the three
  arrays computed from the edge list (source, target, normalisation) hold from the first boundary on; and an aggregate read
  by two consecutive regions is the same for both.
-/
import proofs.«107028_j46583215292429_1_alg».proof.Proof.KI.Run

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The argument arrays. -/
abbrev argsL : List (Ref sig .tc) := [main_arg0, main_arg1, main_arg2, main_arg3, main_arg4, main_arg5, main_arg6, main_arg7, main_arg8, main_arg9, main_arg10, main_arg11]
/-- The arrays the first host stretch computes from the edge list and later stretches read: sources, targets, normalisation. -/
abbrev edgeL : List (Ref sig .tc) := [main_v5, main_v6, main_v26]

/-! ## An input window's array ends as it was entered -/

theorem U2_arg0 (c : Dev nD) : U2 m c (Proc.devRef .tc main_arg0) = U1 m c (Proc.devRef .tc main_arg0) :=
  (U2_arr m c 0).trans (((dat0 (T1 m) c).arrAt_in 0 rfl _).trans (A_eq0 (T1 m) c 0))
theorem U2_arg2 (c : Dev nD) : U2 m c (Proc.devRef .tc main_arg2) = U1 m c (Proc.devRef .tc main_arg2) :=
  (U2_arr m c 1).trans (((dat0 (T1 m) c).arrAt_in 1 rfl _).trans (A_eq0 (T1 m) c 1))
theorem U4_v40 (c : Dev nD) : U4 m c (Proc.devRef .tc main_v40) = U3 m c (Proc.devRef .tc main_v40) :=
  (U4_arr m c 0).trans (((dat1 (T3 m) c).arrAt_in 0 rfl _).trans (A_eq1 (T3 m) c 0))
theorem U7_arg6 (c : Dev nD) : U7 m c (Proc.devRef .tc main_arg6) = U6 m c (Proc.devRef .tc main_arg6) :=
  (U7_arr m c 1).trans (((dat3 (T6 m) c).arrAt_in 1 rfl _).trans (A_eq3 (T6 m) c 1))
theorem U9_v66 (c : Dev nD) : U9 m c (Proc.devRef .tc main_v66) = U8 m c (Proc.devRef .tc main_v66) :=
  (U9_arr m c 0).trans (((dat4 (T8 m) c).arrAt_in 0 rfl _).trans (A_eq4 (T8 m) c 0))
theorem U12_arg10 (c : Dev nD) : U12 m c (Proc.devRef .tc main_arg10) = U11 m c (Proc.devRef .tc main_arg10) :=
  (U12_arr m c 1).trans (((dat6 (T11 m) c).arrAt_in 1 rfl _).trans (A_eq6 (T11 m) c 1))

/-! ## One item at a time: the arguments -/

theorem U1_argStep (c : Dev nD) : ∀ b ∈ argsL, U1 m c (Proc.devRef .tc b) = U0 m c (Proc.devRef .tc b) :=
  fun b hb => StableHlo.after_of_writes_sub hostOps0 _ hostOps0_writes ((by decide : ∀ b ∈ argsL, b ∉ hostOps0_W) b hb)
theorem U2_argStep (c : Dev nD) : ∀ b ∈ argsL, U2 m c (Proc.devRef .tc b) = U1 m c (Proc.devRef .tc b) := by
  intro b hb
  by_cases h0 : b = main_arg0
  · subst h0; exact U2_arg0 m c
  by_cases h1 : b = main_arg2
  · subst h1; exact U2_arg2 m c
  exact U2_of_ne m c b ((by decide : ∀ b ∈ argsL, b ≠ main_arg0 → b ≠ main_arg2 → ∀ w, Pipeline.arrRef spec0 w ≠ b) b hb h0 h1)
theorem U3_argStep (c : Dev nD) : ∀ b ∈ argsL, U3 m c (Proc.devRef .tc b) = U2 m c (Proc.devRef .tc b) :=
  fun b hb => StableHlo.after_of_writes_sub hostOps1 _ hostOps1_writes ((by decide : ∀ b ∈ argsL, b ∉ hostOps1_W) b hb)
theorem U4_argStep (c : Dev nD) : ∀ b ∈ argsL, U4 m c (Proc.devRef .tc b) = U3 m c (Proc.devRef .tc b) := by
  intro b hb
  exact U4_of_ne m c b ((by decide : ∀ b ∈ argsL, ∀ w, Pipeline.arrRef spec1 w ≠ b) b hb)
theorem U5_argStep (c : Dev nD) : ∀ b ∈ argsL, U5 m c (Proc.devRef .tc b) = U4 m c (Proc.devRef .tc b) :=
  fun b hb => StableHlo.after_of_writes_sub hostOps2 _ hostOps2_writes ((by decide : ∀ b ∈ argsL, b ∉ hostOps2_W) b hb)
theorem U6_argStep (c : Dev nD) : ∀ b ∈ argsL, U6 m c (Proc.devRef .tc b) = U5 m c (Proc.devRef .tc b) := by
  intro b hb
  exact U6_of_ne m c b ((by decide : ∀ b ∈ argsL, ∀ w, Pipeline.arrRef spec2 w ≠ b) b hb)
theorem U7_argStep (c : Dev nD) : ∀ b ∈ argsL, U7 m c (Proc.devRef .tc b) = U6 m c (Proc.devRef .tc b) := by
  intro b hb
  by_cases h0 : b = main_arg6
  · subst h0; exact U7_arg6 m c
  exact U7_of_ne m c b ((by decide : ∀ b ∈ argsL, b ≠ main_arg6 → ∀ w, Pipeline.arrRef spec3 w ≠ b) b hb h0)
theorem U8_argStep (c : Dev nD) : ∀ b ∈ argsL, U8 m c (Proc.devRef .tc b) = U7 m c (Proc.devRef .tc b) :=
  fun b hb => StableHlo.after_of_writes_sub hostOps4 _ hostOps4_writes ((by decide : ∀ b ∈ argsL, b ∉ hostOps4_W) b hb)
theorem U9_argStep (c : Dev nD) : ∀ b ∈ argsL, U9 m c (Proc.devRef .tc b) = U8 m c (Proc.devRef .tc b) := by
  intro b hb
  exact U9_of_ne m c b ((by decide : ∀ b ∈ argsL, ∀ w, Pipeline.arrRef spec4 w ≠ b) b hb)
theorem U10_argStep (c : Dev nD) : ∀ b ∈ argsL, U10 m c (Proc.devRef .tc b) = U9 m c (Proc.devRef .tc b) :=
  fun b hb => StableHlo.after_of_writes_sub hostOps5 _ hostOps5_writes ((by decide : ∀ b ∈ argsL, b ∉ hostOps5_W) b hb)
theorem U11_argStep (c : Dev nD) : ∀ b ∈ argsL, U11 m c (Proc.devRef .tc b) = U10 m c (Proc.devRef .tc b) := by
  intro b hb
  exact U11_of_ne m c b ((by decide : ∀ b ∈ argsL, ∀ w, Pipeline.arrRef spec5 w ≠ b) b hb)
theorem U12_argStep (c : Dev nD) : ∀ b ∈ argsL, U12 m c (Proc.devRef .tc b) = U11 m c (Proc.devRef .tc b) := by
  intro b hb
  by_cases h0 : b = main_arg10
  · subst h0; exact U12_arg10 m c
  exact U12_of_ne m c b ((by decide : ∀ b ∈ argsL, b ≠ main_arg10 → ∀ w, Pipeline.arrRef spec6 w ≠ b) b hb h0)
theorem U13_argStep (c : Dev nD) : ∀ b ∈ argsL, U13 m c (Proc.devRef .tc b) = U12 m c (Proc.devRef .tc b) :=
  fun b hb => StableHlo.after_of_writes_sub hostOps7 _ hostOps7_writes ((by decide : ∀ b ∈ argsL, b ∉ hostOps7_W) b hb)

/-! ## Every argument at every boundary -/

theorem U1_arg (c : Dev nD) : ∀ b ∈ argsL, U1 m c (Proc.devRef .tc b) = m (c, Proc.devRef .tc b) := fun b hb => U1_argStep m c b hb
theorem U2_arg (c : Dev nD) : ∀ b ∈ argsL, U2 m c (Proc.devRef .tc b) = m (c, Proc.devRef .tc b) :=
  fun b hb => (U2_argStep m c b hb).trans (U1_arg m c b hb)
theorem U3_arg (c : Dev nD) : ∀ b ∈ argsL, U3 m c (Proc.devRef .tc b) = m (c, Proc.devRef .tc b) :=
  fun b hb => (U3_argStep m c b hb).trans (U2_arg m c b hb)
theorem U4_arg (c : Dev nD) : ∀ b ∈ argsL, U4 m c (Proc.devRef .tc b) = m (c, Proc.devRef .tc b) :=
  fun b hb => (U4_argStep m c b hb).trans (U3_arg m c b hb)
theorem U5_arg (c : Dev nD) : ∀ b ∈ argsL, U5 m c (Proc.devRef .tc b) = m (c, Proc.devRef .tc b) :=
  fun b hb => (U5_argStep m c b hb).trans (U4_arg m c b hb)
theorem U6_arg (c : Dev nD) : ∀ b ∈ argsL, U6 m c (Proc.devRef .tc b) = m (c, Proc.devRef .tc b) :=
  fun b hb => (U6_argStep m c b hb).trans (U5_arg m c b hb)
theorem U7_arg (c : Dev nD) : ∀ b ∈ argsL, U7 m c (Proc.devRef .tc b) = m (c, Proc.devRef .tc b) :=
  fun b hb => (U7_argStep m c b hb).trans (U6_arg m c b hb)
theorem U8_arg (c : Dev nD) : ∀ b ∈ argsL, U8 m c (Proc.devRef .tc b) = m (c, Proc.devRef .tc b) :=
  fun b hb => (U8_argStep m c b hb).trans (U7_arg m c b hb)
theorem U9_arg (c : Dev nD) : ∀ b ∈ argsL, U9 m c (Proc.devRef .tc b) = m (c, Proc.devRef .tc b) :=
  fun b hb => (U9_argStep m c b hb).trans (U8_arg m c b hb)
theorem U10_arg (c : Dev nD) : ∀ b ∈ argsL, U10 m c (Proc.devRef .tc b) = m (c, Proc.devRef .tc b) :=
  fun b hb => (U10_argStep m c b hb).trans (U9_arg m c b hb)
theorem U11_arg (c : Dev nD) : ∀ b ∈ argsL, U11 m c (Proc.devRef .tc b) = m (c, Proc.devRef .tc b) :=
  fun b hb => (U11_argStep m c b hb).trans (U10_arg m c b hb)
theorem U12_arg (c : Dev nD) : ∀ b ∈ argsL, U12 m c (Proc.devRef .tc b) = m (c, Proc.devRef .tc b) :=
  fun b hb => (U12_argStep m c b hb).trans (U11_arg m c b hb)
theorem U13_arg (c : Dev nD) : ∀ b ∈ argsL, U13 m c (Proc.devRef .tc b) = m (c, Proc.devRef .tc b) :=
  fun b hb => (U13_argStep m c b hb).trans (U12_arg m c b hb)

/-! ## The edge arrays from the first boundary on -/

theorem U2_edge (c : Dev nD) : ∀ b ∈ edgeL, U2 m c (Proc.devRef .tc b) = U1 m c (Proc.devRef .tc b) :=
  fun b hb => (U2_of_ne m c b ((by decide : ∀ b ∈ edgeL, ∀ w, Pipeline.arrRef spec0 w ≠ b) b hb)).trans rfl
theorem U3_edge (c : Dev nD) : ∀ b ∈ edgeL, U3 m c (Proc.devRef .tc b) = U1 m c (Proc.devRef .tc b) :=
  fun b hb => (StableHlo.after_of_writes_sub hostOps1 _ hostOps1_writes ((by decide : ∀ b ∈ edgeL, b ∉ hostOps1_W) b hb)).trans (U2_edge m c b hb)
theorem U4_edge (c : Dev nD) : ∀ b ∈ edgeL, U4 m c (Proc.devRef .tc b) = U1 m c (Proc.devRef .tc b) :=
  fun b hb => (U4_of_ne m c b ((by decide : ∀ b ∈ edgeL, ∀ w, Pipeline.arrRef spec1 w ≠ b) b hb)).trans (U3_edge m c b hb)
theorem U5_edge (c : Dev nD) : ∀ b ∈ edgeL, U5 m c (Proc.devRef .tc b) = U1 m c (Proc.devRef .tc b) :=
  fun b hb => (StableHlo.after_of_writes_sub hostOps2 _ hostOps2_writes ((by decide : ∀ b ∈ edgeL, b ∉ hostOps2_W) b hb)).trans (U4_edge m c b hb)
theorem U6_edge (c : Dev nD) : ∀ b ∈ edgeL, U6 m c (Proc.devRef .tc b) = U1 m c (Proc.devRef .tc b) :=
  fun b hb => (U6_of_ne m c b ((by decide : ∀ b ∈ edgeL, ∀ w, Pipeline.arrRef spec2 w ≠ b) b hb)).trans (U5_edge m c b hb)
theorem U7_edge (c : Dev nD) : ∀ b ∈ edgeL, U7 m c (Proc.devRef .tc b) = U1 m c (Proc.devRef .tc b) :=
  fun b hb => (U7_of_ne m c b ((by decide : ∀ b ∈ edgeL, ∀ w, Pipeline.arrRef spec3 w ≠ b) b hb)).trans (U6_edge m c b hb)
theorem U8_edge (c : Dev nD) : ∀ b ∈ edgeL, U8 m c (Proc.devRef .tc b) = U1 m c (Proc.devRef .tc b) :=
  fun b hb => (StableHlo.after_of_writes_sub hostOps4 _ hostOps4_writes ((by decide : ∀ b ∈ edgeL, b ∉ hostOps4_W) b hb)).trans (U7_edge m c b hb)
theorem U9_edge (c : Dev nD) : ∀ b ∈ edgeL, U9 m c (Proc.devRef .tc b) = U1 m c (Proc.devRef .tc b) :=
  fun b hb => (U9_of_ne m c b ((by decide : ∀ b ∈ edgeL, ∀ w, Pipeline.arrRef spec4 w ≠ b) b hb)).trans (U8_edge m c b hb)
theorem U10_edge (c : Dev nD) : ∀ b ∈ edgeL, U10 m c (Proc.devRef .tc b) = U1 m c (Proc.devRef .tc b) :=
  fun b hb => (StableHlo.after_of_writes_sub hostOps5 _ hostOps5_writes ((by decide : ∀ b ∈ edgeL, b ∉ hostOps5_W) b hb)).trans (U9_edge m c b hb)
theorem U11_edge (c : Dev nD) : ∀ b ∈ edgeL, U11 m c (Proc.devRef .tc b) = U1 m c (Proc.devRef .tc b) :=
  fun b hb => (U11_of_ne m c b ((by decide : ∀ b ∈ edgeL, ∀ w, Pipeline.arrRef spec5 w ≠ b) b hb)).trans (U10_edge m c b hb)
theorem U12_edge (c : Dev nD) : ∀ b ∈ edgeL, U12 m c (Proc.devRef .tc b) = U1 m c (Proc.devRef .tc b) :=
  fun b hb => (U12_of_ne m c b ((by decide : ∀ b ∈ edgeL, ∀ w, Pipeline.arrRef spec6 w ≠ b) b hb)).trans (U11_edge m c b hb)

/-! ## An aggregate read by two regions -/

/-- The first layer's aggregate is the same for the statistics pass and the normalisation pass. -/
theorem U5_v40 (c : Dev nD) : U5 m c (Proc.devRef .tc main_v40) = U3 m c (Proc.devRef .tc main_v40) :=
  (StableHlo.after_of_writes_sub hostOps2 _ hostOps2_writes (by decide : main_v40 ∉ hostOps2_W)).trans (U4_v40 m c)
/-- The second layer's aggregate likewise. -/
theorem U10_v66 (c : Dev nD) : U10 m c (Proc.devRef .tc main_v66) = U8 m c (Proc.devRef .tc main_v66) :=
  (StableHlo.after_of_writes_sub hostOps5 _ hostOps5_writes (by decide : main_v66 ∉ hostOps5_W)).trans (U9_v66 m c)

end Cert.KernelIdeal.Hand

end
-- ==== Proof.KI.Frame.lean ====
/-
  The frame of the program, at any float instance: every weakly fair execution of @main terminates, nothing faulting, and each
  argument array ends holding its launch contents — read off the run's last boundary, where every argument still holds what it
  was launched with because no host operation writes one and every region only reads the ones it is given.
-/
import proofs.«107028_j46583215292429_1_alg».proof.Proof.KI.Keep

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c =>
    ⟨(h c _ (mem_uc main_arg0 (by decide))).trans (U13_arg m c main_arg0 (by decide)),
     (h c _ (mem_uc main_arg1 (by decide))).trans (U13_arg m c main_arg1 (by decide)),
     (h c _ (mem_uc main_arg2 (by decide))).trans (U13_arg m c main_arg2 (by decide)),
     (h c _ (mem_uc main_arg3 (by decide))).trans (U13_arg m c main_arg3 (by decide)),
     (h c _ (mem_uc main_arg4 (by decide))).trans (U13_arg m c main_arg4 (by decide)),
     (h c _ (mem_uc main_arg5 (by decide))).trans (U13_arg m c main_arg5 (by decide)),
     (h c _ (mem_uc main_arg6 (by decide))).trans (U13_arg m c main_arg6 (by decide)),
     (h c _ (mem_uc main_arg7 (by decide))).trans (U13_arg m c main_arg7 (by decide)),
     (h c _ (mem_uc main_arg8 (by decide))).trans (U13_arg m c main_arg8 (by decide)),
     (h c _ (mem_uc main_arg9 (by decide))).trans (U13_arg m c main_arg9 (by decide)),
     (h c _ (mem_uc main_arg10 (by decide))).trans (U13_arg m c main_arg10 (by decide)),
     (h c _ (mem_uc main_arg11 (by decide))).trans (U13_arg m c main_arg11 (by decide))⟩)
    (run_all m ρ)

end Cert.KernelIdeal.Hand

end
-- ==== Proof.KI.HostBridge.lean ====
/-
  The kernel program's host stretches, read back. Between its seven kernel regions the program runs six stretches of
  host operations. For an arbitrary valuation W of the buffers, each lemma says what a stretch leaves in one buffer, as
  a function of W at the buffers the stretch reads:

  * stretch 0 builds the source list (the first row of the edge list followed by 0 … 99999), the destination list
    (the second row followed by 0 … 99999) and the edge weights rsqrt(deg(src)) · rsqrt(deg(dst)); these are the same
    terms the reference builds from the edge list;
  * stretches 2 and 5 turn a column-sum row S and a column-sum-of-squares row Q into the mean S / C and the variance
    Q / C - (S / C)², and reshape three vectors of 128 entries to one-row matrices;
  * stretches 1 and 4 reshape a vector of 128 entries to a one-row matrix.

  Every equation only unfolds the operations' definitions: no array is evaluated.
-/
import proofs.«107028_j46583215292429_1_alg».proof.Proof.Gen.KernelIdeal.Launch
import proofs.«107028_j46583215292429_1_alg».proof.Proof.Gen.ReferenceIdeal.Read
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.HostBridge

open Idealize.ShloMosaic Idealize.ShloMosaic.TcCoe Idealize.ShloMosaic.Tactic Idealize.SL.Sem Idealize.ShloMosaic.StableHlo Cert.KernelIdeal Cert.KernelIdeal.Gen

/-! ## Stretch 0: the edge arrays -/

set_option maxHeartbeats 4000000 in
/-- The source list is the reference's, as a function of the edge list. -/
theorem host0_v5 (W : Valuation τ sig (Elt Ideal)) :
    StableHlo.after (hostOps0 (F := Ideal)) W (Proc.devRef .tc main_v5)
      = Cert.ReferenceIdeal.Read.val_main_v5 (F := Ideal) (W (Proc.devRef .tc main_arg1)) := by
  after_results_simp; rfl

set_option maxHeartbeats 4000000 in
/-- The destination list is the reference's, as a function of the edge list. -/
theorem host0_v6 (W : Valuation τ sig (Elt Ideal)) :
    StableHlo.after (hostOps0 (F := Ideal)) W (Proc.devRef .tc main_v6)
      = Cert.ReferenceIdeal.Read.val_main_v6 (F := Ideal) (W (Proc.devRef .tc main_arg1)) := by
  after_results_simp; rfl

set_option maxHeartbeats 4000000 in
/-- The edge weights are the reference's, as a function of the edge list. -/
theorem host0_v26 (W : Valuation τ sig (Elt Ideal)) :
    StableHlo.after (hostOps0 (F := Ideal)) W (Proc.devRef .tc main_v26)
      = Cert.ReferenceIdeal.Read.val_main_v26 (F := Ideal) (W (Proc.devRef .tc main_arg1)) := by
  after_results_simp; rfl

/-! ## Stretch 1: a vector as a one-row matrix -/

set_option maxHeartbeats 4000000 in
/-- Entry (0, j) of the one-row matrix is entry j of the vector. -/
theorem host1_v41 (W : Valuation τ sig (Elt Ideal)) (j : Fin 128) :
    StableHlo.after (hostOps1 (F := Ideal)) W (Proc.devRef .tc main_v41) (ValueIdx.ix2 0 j)
      = W (Proc.devRef .tc main_arg3) (ValueIdx.ix1 j) := by
  after_results_simp
  exact ValueIdx.shapeCast_a_1a_apply _ _ 0 j

/-! ## Stretch 2: mean and variance rows of the first normalisation -/

set_option maxHeartbeats 4000000 in
/-- The mean row: the column sums divided by the count. -/
theorem host2_v44 (W : Valuation τ sig (Elt Ideal)) (j : Fin 128) :
    StableHlo.after (hostOps2 (F := Ideal)) W (Proc.devRef .tc main_v44) (ValueIdx.ix2 0 j)
      = Ideal.div (W (Proc.devRef .tc main_v42_0) (ValueIdx.ix2 0 j)) (Ideal.ofBits .f32 0x47C35000#32) := by
  after_results_simp; rfl

set_option maxHeartbeats 4000000 in
/-- The variance row: the mean of squares minus the squared mean. -/
theorem host2_v48 (W : Valuation τ sig (Elt Ideal)) (j : Fin 128) :
    StableHlo.after (hostOps2 (F := Ideal)) W (Proc.devRef .tc main_v48) (ValueIdx.ix2 0 j)
      = Ideal.div (W (Proc.devRef .tc main_v42_1) (ValueIdx.ix2 0 j)) (Ideal.ofBits .f32 0x47C35000#32)
        - Ideal.div (W (Proc.devRef .tc main_v42_0) (ValueIdx.ix2 0 j)) (Ideal.ofBits .f32 0x47C35000#32)
          * Ideal.div (W (Proc.devRef .tc main_v42_0) (ValueIdx.ix2 0 j)) (Ideal.ofBits .f32 0x47C35000#32) := by
  after_results_simp; rfl

set_option maxHeartbeats 4000000 in
theorem host2_v49 (W : Valuation τ sig (Elt Ideal)) (j : Fin 128) :
    StableHlo.after (hostOps2 (F := Ideal)) W (Proc.devRef .tc main_v49) (ValueIdx.ix2 0 j)
      = W (Proc.devRef .tc main_arg3) (ValueIdx.ix1 j) := by
  after_results_simp
  exact ValueIdx.shapeCast_a_1a_apply _ _ 0 j

set_option maxHeartbeats 4000000 in
theorem host2_v50 (W : Valuation τ sig (Elt Ideal)) (j : Fin 128) :
    StableHlo.after (hostOps2 (F := Ideal)) W (Proc.devRef .tc main_v50) (ValueIdx.ix2 0 j)
      = W (Proc.devRef .tc main_arg4) (ValueIdx.ix1 j) := by
  after_results_simp
  exact ValueIdx.shapeCast_a_1a_apply _ _ 0 j

set_option maxHeartbeats 4000000 in
theorem host2_v51 (W : Valuation τ sig (Elt Ideal)) (j : Fin 128) :
    StableHlo.after (hostOps2 (F := Ideal)) W (Proc.devRef .tc main_v51) (ValueIdx.ix2 0 j)
      = W (Proc.devRef .tc main_arg5) (ValueIdx.ix1 j) := by
  after_results_simp
  exact ValueIdx.shapeCast_a_1a_apply _ _ 0 j

/-! ## Stretch 4: a vector as a one-row matrix -/

set_option maxHeartbeats 4000000 in
theorem host4_v67 (W : Valuation τ sig (Elt Ideal)) (j : Fin 128) :
    StableHlo.after (hostOps4 (F := Ideal)) W (Proc.devRef .tc main_v67) (ValueIdx.ix2 0 j)
      = W (Proc.devRef .tc main_arg7) (ValueIdx.ix1 j) := by
  after_results_simp
  exact ValueIdx.shapeCast_a_1a_apply _ _ 0 j

/-! ## Stretch 5: mean and variance rows of the second normalisation -/

set_option maxHeartbeats 4000000 in
/-- The mean row: the column sums divided by the count. -/
theorem host5_v70 (W : Valuation τ sig (Elt Ideal)) (j : Fin 128) :
    StableHlo.after (hostOps5 (F := Ideal)) W (Proc.devRef .tc main_v70) (ValueIdx.ix2 0 j)
      = Ideal.div (W (Proc.devRef .tc main_v68_0) (ValueIdx.ix2 0 j)) (Ideal.ofBits .f32 0x47C35000#32) := by
  after_results_simp; rfl

set_option maxHeartbeats 4000000 in
/-- The variance row: the mean of squares minus the squared mean. -/
theorem host5_v74 (W : Valuation τ sig (Elt Ideal)) (j : Fin 128) :
    StableHlo.after (hostOps5 (F := Ideal)) W (Proc.devRef .tc main_v74) (ValueIdx.ix2 0 j)
      = Ideal.div (W (Proc.devRef .tc main_v68_1) (ValueIdx.ix2 0 j)) (Ideal.ofBits .f32 0x47C35000#32)
        - Ideal.div (W (Proc.devRef .tc main_v68_0) (ValueIdx.ix2 0 j)) (Ideal.ofBits .f32 0x47C35000#32)
          * Ideal.div (W (Proc.devRef .tc main_v68_0) (ValueIdx.ix2 0 j)) (Ideal.ofBits .f32 0x47C35000#32) := by
  after_results_simp; rfl

set_option maxHeartbeats 4000000 in
theorem host5_v75 (W : Valuation τ sig (Elt Ideal)) (j : Fin 128) :
    StableHlo.after (hostOps5 (F := Ideal)) W (Proc.devRef .tc main_v75) (ValueIdx.ix2 0 j)
      = W (Proc.devRef .tc main_arg7) (ValueIdx.ix1 j) := by
  after_results_simp
  exact ValueIdx.shapeCast_a_1a_apply _ _ 0 j

set_option maxHeartbeats 4000000 in
theorem host5_v76 (W : Valuation τ sig (Elt Ideal)) (j : Fin 128) :
    StableHlo.after (hostOps5 (F := Ideal)) W (Proc.devRef .tc main_v76) (ValueIdx.ix2 0 j)
      = W (Proc.devRef .tc main_arg8) (ValueIdx.ix1 j) := by
  after_results_simp
  exact ValueIdx.shapeCast_a_1a_apply _ _ 0 j

set_option maxHeartbeats 4000000 in
theorem host5_v77 (W : Valuation τ sig (Elt Ideal)) (j : Fin 128) :
    StableHlo.after (hostOps5 (F := Ideal)) W (Proc.devRef .tc main_v77) (ValueIdx.ix2 0 j)
      = W (Proc.devRef .tc main_arg9) (ValueIdx.ix1 j) := by
  after_results_simp
  exact ValueIdx.shapeCast_a_1a_apply _ _ 0 j

end Cert.KernelIdeal.HostBridge

end
-- ==== Proof.KI.RefShared.lean ====
/-
  The gather / scale / scatter-add chain that every layer of the reference applies to its dense product, named as ONE
  function of the four arrays it reads: the source node of each edge (s), the destination node of each edge (d), the
  weight of each edge (nrm) and the node features (X). A source index below zero is wrapped by adding the node count;
  row e of the gathered array is row s(e) of X; it is multiplied by nrm(e) (broadcast along the row); the rows are then
  added into row d(e) of an all-zero array. The three layers differ only in the feature width (128, 128, 64) and in X.

  The equations below only unfold the stages' definitions: both sides are the same term, and nothing is evaluated.
-/
import proofs.«107028_j46583215292429_1_alg».proof.Proof.Gen.ReferenceIdeal.Read

noncomputable section

namespace Cert.RefForms

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The chain at feature width 128: scatter-add, by destination node, of the gathered source rows of `X` scaled by the
    edge weights. -/
def conv128 (s d : (⟨S1700000, .i32⟩ : BufTy).Contents (Elt Ideal)) (nrm : (⟨S1700000, .f32⟩ : BufTy).Contents (Elt Ideal))
    (X : (⟨S100000x128, .f32⟩ : BufTy).Contents (Elt Ideal)) : (⟨S100000x128, .f32⟩ : BufTy).Contents (Elt Ideal) :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf
      (Host.gather gather_S100000x128_S1700000x1_S1700000x128_1_0_n_n_0_1_1128 X
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32)))
            s)))
      (broadcastInDim S1700000x128 ![0, 1] bcast_S1700000x1_S1700000x128_0_1
        (broadcastInDim S1700000x1 ![0] bcast_S1700000_S1700000x1_0 nrm)))

/-- The same chain at feature width 64 (the last layer). -/
def conv64 (s d : (⟨S1700000, .i32⟩ : BufTy).Contents (Elt Ideal)) (nrm : (⟨S1700000, .f32⟩ : BufTy).Contents (Elt Ideal))
    (X : (⟨S100000x64, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf
      (Host.gather gather_S100000x64_S1700000x1_S1700000x64_1_0_n_n_0_1_164 X
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32)))
            s)))
      (broadcastInDim S1700000x64 ![0, 1] bcast_S1700000x1_S1700000x64_0_1
        (broadcastInDim S1700000x1 ![0] bcast_S1700000_S1700000x1_0 nrm)))

/-- Layer 1's aggregated array is the chain applied to the edge arrays and the first dense product. -/
theorem v40_conv (x0 : (⟨S100000x256, .f32⟩ : BufTy).Contents (Elt Ideal)) (x1 : (⟨S2x1600000, .i32⟩ : BufTy).Contents (Elt Ideal))
    (x2 : (⟨S256x128, .f32⟩ : BufTy).Contents (Elt Ideal)) :
    val_main_v40 (F := Ideal) x0 x1 x2
      = conv128 (val_main_v5 x1) (val_main_v6 x1) (val_main_v26 x1) (val_main_v27 x0 x2) := by
  unfold val_main_v40 val_main_v38 val_main_cst_6 val_main_v39 val_main_v37 val_main_v34 val_main_v33 val_main_v32
    val_main_v29 val_main_v28 val_main_c_4 val_main_v31 val_main_v30 val_main_c_5 val_main_v36 val_main_v35 conv128
  rfl

/-- Layer 2's aggregated array is the chain applied to the edge arrays and the second dense product. -/
theorem v83_conv (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) :
    val_main_v83 (F := Ideal) x0 x1 x2 x3 x4 x5 x6
      = conv128 (val_main_v5 x1) (val_main_v6 x1) (val_main_v26 x1) (val_main_v70 x0 x1 x2 x3 x4 x5 x6) := by
  unfold val_main_v83 val_main_v81 val_main_cst_14 val_main_v82 val_main_v80 val_main_v77 val_main_v76 val_main_v75
    val_main_v72 val_main_v71 val_main_c_12 val_main_v74 val_main_v73 val_main_c_13 val_main_v79 val_main_v78 conv128
  rfl

/-- Layer 3's aggregated array is the width-64 chain applied to the edge arrays and the third dense product. -/
theorem v126_conv (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x64, .f32⟩ : BufTy).Contents (Elt Ideal)) :
    val_main_v126 (F := Ideal) x0 x1 x2 x3 x4 x5 x6 x7 x8 x9 x10
      = conv64 (val_main_v5 x1) (val_main_v6 x1) (val_main_v26 x1) (val_main_v113 x0 x1 x2 x3 x4 x5 x6 x7 x8 x9 x10) := by
  unfold val_main_v126 val_main_v124 val_main_cst_22 val_main_v125 val_main_v123 val_main_v120 val_main_v119 val_main_v118
    val_main_v115 val_main_v114 val_main_c_20 val_main_v117 val_main_v116 val_main_c_21 val_main_v122 val_main_v121 conv64
  rfl

end Cert.RefForms

end
-- ==== Proof.KI.HostBridgeConv.lean ====
/-
  The kernel program's host stretches that carry the graph aggregation, read back. Stretches 1, 4 and 7 gather the rows
  of a node-feature array at each edge's source node, scale row e by the edge weight, and add the rows into the row of
  each edge's destination node, starting from zero; stretch 7 then adds the bias row to every row. For an arbitrary
  valuation W of the buffers, what each stretch leaves in its result buffer is the one named aggregation function of W
  at the source list, the destination list, the edge weights and the feature array the stretch reads.

  Every equation only unfolds the operations' definitions: no array is evaluated.
-/
import proofs.«107028_j46583215292429_1_alg».proof.Proof.Gen.KernelIdeal.Launch
import proofs.«107028_j46583215292429_1_alg».proof.Proof.Gen.ReferenceIdeal.Read
import proofs.«107028_j46583215292429_1_alg».proof.Proof.KI.RefShared
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.HostBridge

open Idealize.ShloMosaic Idealize.ShloMosaic.TcCoe Idealize.ShloMosaic.Tactic Idealize.SL.Sem Idealize.ShloMosaic.StableHlo Cert.KernelIdeal Cert.KernelIdeal.Gen

set_option maxHeartbeats 4000000 in
/-- Stretch 1 leaves the width-128 aggregation of the first dense product. -/
theorem host1_v40 (W : Valuation τ sig (Elt Ideal)) :
    StableHlo.after (hostOps1 (F := Ideal)) W (Proc.devRef .tc main_v40)
      = Cert.RefForms.conv128 (W (Proc.devRef .tc main_v5)) (W (Proc.devRef .tc main_v6)) (W (Proc.devRef .tc main_v26))
          (W (Proc.devRef .tc main_v27)) := by
  after_results_simp; rfl

set_option maxHeartbeats 4000000 in
/-- Stretch 4 leaves the width-128 aggregation of the second dense product. -/
theorem host4_v66 (W : Valuation τ sig (Elt Ideal)) :
    StableHlo.after (hostOps4 (F := Ideal)) W (Proc.devRef .tc main_v66)
      = Cert.RefForms.conv128 (W (Proc.devRef .tc main_v5)) (W (Proc.devRef .tc main_v6)) (W (Proc.devRef .tc main_v26))
          (W (Proc.devRef .tc main_v53)) := by
  after_results_simp; rfl

set_option maxHeartbeats 4000000 in
/-- Stretch 7 leaves the width-64 aggregation of the third dense product plus the bias row broadcast to every row. -/
theorem host7_v95 (W : Valuation τ sig (Elt Ideal)) :
    StableHlo.after (hostOps7 (F := Ideal)) W (Proc.devRef .tc main_v95)
      = addf (F := Ideal) (s := S100000x64) (φ := .f32) (Cert.RefForms.conv64 (W (Proc.devRef .tc main_v5)) (W (Proc.devRef .tc main_v6)) (W (Proc.devRef .tc main_v26))
          (W (Proc.devRef .tc main_v79)))
        (Cert.ReferenceIdeal.Read.val_main_v128 (F := Ideal) (W (Proc.devRef .tc main_arg11))) := by
  after_results_simp; rfl

end Cert.KernelIdeal.HostBridge

end
-- ==== Proof.KI.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.KI.Mat0Value.lean ====
/- Matmul region 0 over the extended reals: the output array after the region is the product of the left matrix
   [100000, 256] and the right matrix [256, 128] as the region finds them — entry (r, j) is the sum over k of
   left(r, k) · right(k, j). Each grid point writes the block of rows 2000·t … 2000·t + 1999, which depends on the
   same rows of the left matrix and on the whole right matrix. -/
import proofs.«107028_j46583215292429_1_alg».proof.Proof.KI.Mat0
import proofs.«107028_j46583215292429_1_alg».proof.Proof.KI.LibDenseLayer
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered, over the extended reals
variable (V : (c : Dev nD) → (b : Ref sig .tc) → Buf (Elt Ideal) ((c : Thread nD τ).loc b))

theorem hzM0 : (![0, 0] : Fin 2 → Nat) = fun _ => 0 := funext fun a => by fin_cases a <;> rfl

/-! ## The product at an entry of a block -/

/-- The matrix unit's index functions: the left operand is read at (output row, contraction position), -/
theorem dot0_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot0_l1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the right operand at (contraction position, output column). -/
theorem dot0_r0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem dot0_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, q) of what the body stores: over the extended reals rounding an operand changes nothing and the
    accumulator starts at zero, so it is the sum over the contracted axis of row p of the left block times
    column q of the right matrix. -/
theorem pay0_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  exact Cert.DenseLayer.matmul_rows_cols (A := 2000) (K := 256) (B := 128) dot_S2000x256_S256x128_S2000x128_1_0_0_1_n_n rfl rfl dot0_l0 dot0_l1 dot0_r0 dot0_r1 none _ _ p q

/-! ## From blocks to the array -/

/-- The product of a [100000, 256] matrix by a [256, 128] matrix, entry by entry:
    entry (r, j) is the sum over k of left(r, k) · right(k, j). -/
def prod0 (l : S100000x256.Idx → Elt Ideal .f32) (r : S256x128.Idx → Elt Ideal .f32) : S100000x128.Idx → Elt Ideal .f32 :=
  fun i => ∑ k : Fin 256, l (ix2 (⟨(i 0).val, (i 0).isLt⟩ : Fin 100000) k) * r (ix2 k (⟨(i 1).val, (i 1).isLt⟩ : Fin 128))

/-- The windows' block indices at a point, decided over the grid: the left matrix's row block moves with the output's
    row block; its column block, both block indices of the right matrix and the output's column block stay at 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto0 : ∀ q0 : Fin 50, ∃ t : Fin cfg0.N, win0_2.index t = ![q0.val, 0] :=
  (by decide +kernel : ∀ q0 : Fin 50, ∃ t : Fin grid0.N, win0_2.index t = ![q0.val, 0])

/-- Entry (p, k) of the left matrix's row block at point `t` is the matrix's entry (r, k), r the array row of the
    output block's row p. -/
theorem lblk0_apply (c : Dev nD) (t : Fin cfg0.N) (p : Fin 2000) (k : Fin 256) (r : Fin 100000)
    (hr : r.val = win0_2.index t (0 : Fin 2) * 2000 + p.val) :
    (iblk0 V c 0 t : Vec Ideal S2000x256 .f32) (ix2 p k) = (V c (Pipeline.arrRef spec0 0) : S100000x256.Idx → Elt Ideal .f32) (ix2 r k) := by
  obtain ⟨e0, e1, -, -, -⟩ := idx_facts0 t
  unfold iblk0
  show V c (Pipeline.arrRef spec0 0) (((cfg0.win 0).blk t).view.emb (ix2 p k)) = V c (Pipeline.arrRef spec0 0) (ix2 r k)
  refine congrArg _ ?_
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The right matrix's one block is the matrix. -/
theorem rblk0_apply (c : Dev nD) (t : Fin cfg0.N) (k : Fin 256) (q : Fin 128) (j : Fin 128) (hj : j.val = q.val) :
    (iblk0 V c 1 t : Vec Ideal S256x128 .f32) (ix2 k q) = (V c (Pipeline.arrRef spec0 1) : S256x128.Idx → Elt Ideal .f32) (ix2 k j) := by
  obtain ⟨-, -, e2, e3, -⟩ := idx_facts0 t
  unfold iblk0
  show V c (Pipeline.arrRef spec0 1) (((cfg0.win 1).blk t).view.emb (ix2 k q)) = V c (Pipeline.arrRef spec0 1) (ix2 k j)
  refine congrArg _ ?_
  funext a; apply Fin.ext
  match a with
  | ⟨0, _⟩ => show win0_1.index t (0 : Fin 2) * 256 + 1 * k.val = k.val; omega
  | ⟨1, _⟩ => show win0_1.index t (1 : Fin 2) * 128 + 1 * q.val = j.val; omega

/-- What point `t` writes back is block `t` of the product of the two matrices as the region finds them. -/
theorem flushed0_eq (c : Dev nD) (t : Fin cfg0.N) :
    (dat0 V c).flushed 2 t = ((cfg0.win 2).blk t).view.read (Elt Ideal) (prod0 (V c (Pipeline.arrRef spec0 0)) (V c (Pipeline.arrRef spec0 1))) := by
  show (cfg0.win 2).cut (grid0.coords t) ((dat0 V c).after 2 t) = _
  rw [after0_2]
  unfold out0_2
  rw [View.canon_unit_zero hzM0]
  simp only [View.ld_unit_zero (S := S2000x256) hzM0, View.ld_unit_zero (S := S256x128) hzM0]
  funext y
  obtain ⟨p, q, rfl⟩ : ∃ (p : Fin 2000) (q : Fin 128), y = ix2 p q := ⟨y 0, y 1, eq_ix2 y⟩
  refine (pay0_apply _ _ p q).trans ?_
  obtain ⟨-, -, -, -, e4⟩ := idx_facts0 t
  show _ = prod0 (V c (Pipeline.arrRef spec0 0)) (V c (Pipeline.arrRef spec0 1)) (((cfg0.win 2).blk t).view.emb (ix2 p q))
  unfold prod0
  refine Finset.sum_congr rfl fun k _ => ?_
  refine congrArg₂ (· * ·) (lblk0_apply V c t p k _ ?_) (rblk0_apply V c t k q _ ?_)
  · show win0_2.index t (0 : Fin 2) * 2000 + 1 * p.val = win0_2.index t (0 : Fin 2) * 2000 + p.val; omega
  · show win0_2.index t (1 : Fin 2) * 128 + 1 * q.val = q.val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The output array after the region: the product of the two matrices. Row r is in the block of point r / 2000,
    and every point writes its block back. -/
theorem final0 (c : Dev nD) :
    (dat0 V c).arrAt 2 cfg0.N = prod0 (V c (Pipeline.arrRef spec0 0)) (V c (Pipeline.arrRef spec0 1)) :=
  (dat0 V c).arrAt_eq_of_cover 2 _ (fun t _ => flushed0_eq V c t) fun i => by
    have hi0 : (i 0).val < 100000 := (i 0).isLt
    have hi1 : (i 1).val < 128 := (i 1).isLt
    obtain ⟨t, ht⟩ := idx_onto0 ⟨(i 0).val / 2000, by omega⟩
    have q0 : win0_2.index t (0 : Fin 2) = (i 0).val / 2000 := congrFun ht 0
    have q1 : win0_2.index t (1 : Fin 2) = 0 := congrFun ht 1
    refine ⟨t, flush0_2 t, ?_⟩
    rw [mem_blk0]
    intro a
    match a with
    | ⟨0, _⟩ => show win0_2.index t (0 : Fin 2) * 2000 ≤ (i 0).val ∧ (i 0).val < win0_2.index t (0 : Fin 2) * 2000 + 2000; omega
    | ⟨1, _⟩ => show win0_2.index t (1 : Fin 2) * 128 ≤ (i 1).val ∧ (i 1).val < win0_2.index t (1 : Fin 2) * 128 + 128; omega

/-- The product read at an entry given by its two coordinates. -/
theorem prod0_apply (l : S100000x256.Idx → Elt Ideal .f32) (w : S256x128.Idx → Elt Ideal .f32) (r : Fin 100000) (j : Fin 128) :
    prod0 l w (ix2 r j) = ∑ k : Fin 256, l (ix2 r k) * w (ix2 k j) := rfl

/-- Entry (r, j) of the output array after the region is entry (r, j) of the product of the two matrices as the
    region finds them: by `prod0_apply`, the sum over k of left(r, k) · right(k, j). -/
theorem mat0_entry (c : Dev nD) (r : Fin 100000) (j : Fin 128) :
    (dat0 V c).arrAt 2 cfg0.N (ix2 r j) = prod0 (V c (Pipeline.arrRef spec0 0)) (V c (Pipeline.arrRef spec0 1)) (ix2 r j) :=
  congrFun (final0 V c) (ix2 r j)

end Cert.KernelIdeal.Hand

end
-- ==== Proof.KI.RefForms1.lean ====
/-
  Layer 1 of the reference, read at one entry (row r, column j).

  The dense product's entry is the sum over the 256 input columns of x[r,k] * W1[k,j]. The bias stage adds b1[j] to the
  aggregated array's entry. The batch-normalisation stages, all as functions of the biased array y:
    mean[j]     = (0 + sum over the 100000 rows k of y[k,j]) / C          (C the float word 1.0e+05)
    dev[r,j]    = y[r,j] - mean[j]                                         (computed twice by the program: once for the
                                                                             variance, once for the output)
    sq[r,j]     = dev[r,j] * dev[r,j]
    var[j]      = (0 + sum over rows k of sq[k,j]) / C
    inv[j]      = rsqrt (var[j] + E)                                       (E the float word of the variance offset)
    out[r,j]    = max ((scale[j] * dev[r,j]) * inv[j] + shift[j]) 0
  Each lemma reads ONE stage group at an index built from literal coordinates; an entry of a broadcast array depends
  only on the column j, an entry of a row reduction on every row of that column. The two float words are never evaluated.
-/
import proofs.«107028_j46583215292429_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.RefForms

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The dense product and the bias -/

/-- An entry of the first dense product: row r of the input against column j of the weight. -/
theorem v27_entry (x0 : (⟨S100000x256, .f32⟩ : BufTy).Contents (Elt Ideal)) (x2 : (⟨S256x128, .f32⟩ : BufTy).Contents (Elt Ideal))
    (r : Fin 100000) (j : Fin 128) :
    val_main_v27 (F := Ideal) x0 x2 (ix2 r j) = ∑ k : Fin 256, x0 (ix2 r k) * x2 (ix2 k j) := by
  rw [val_main_v27_apply]
  refine Finset.sum_congr rfl fun k _ => ?_
  have el : lidx_main_v27 (ix2 r j) k = ix2 r k := funext fun a => Fin.ext (by match a with | ⟨0, _⟩ => rfl | ⟨1, _⟩ => rfl)
  have er : ridx_main_v27 (ix2 r j) k = ix2 k j := funext fun a => Fin.ext (by match a with | ⟨0, _⟩ => rfl | ⟨1, _⟩ => rfl)
  rw [el, er]

/-- An entry of the biased array: the aggregated entry plus the bias of its column. -/
theorem v43_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (r : Fin 100000) (j : Fin 128) :
    val_main_v43 (F := Ideal) x0 x1 x2 x3 (ix2 r j) = val_main_v40 (F := Ideal) x0 x1 x2 (ix2 r j) + x3 (ix1 j) := by
  rw [val_main_v43_apply, val_main_v42_apply, val_main_v41_apply]
  have e : idx_main_v41 (idx_main_v42 (ix2 r j)) = ix1 j := funext fun a => Fin.ext (by match a with | ⟨0, _⟩ => rfl)
  rw [e]
  simp only [Ideal.addf_def]

/-! ## Batch normalisation, stage group by stage group -/

/-- The column mean: zero plus the sum of the column's 100000 entries, divided by the word C. -/
theorem v46_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (j : Fin 128) :
    val_main_v46 (F := Ideal) x0 x1 x2 x3 (ix1 j)
      = Ideal.div (0 + ∑ k : Fin 100000, val_main_v43 (F := Ideal) x0 x1 x2 x3 (ix2 k j)) (Ideal.ofBits .f32 0x47C35000#32) := by
  rw [val_main_v46_apply, val_main_v44_apply, val_main_v45_apply, val_main_cst_8_apply, val_main_cst_7_apply]
  have e : ∀ k : Fin 100000, idx_main_v44 (ix1 j) k = ix2 k j := fun k => funext fun a => Fin.ext (by match a with | ⟨0, _⟩ => rfl | ⟨1, _⟩ => rfl)
  simp only [e, Ideal.hostDivf_def, Ideal.ofBits_def, Ideal.ofBits_zero_f32]

/-- The deviation used for the variance: the entry minus its column's mean. -/
theorem v49_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (r : Fin 100000) (j : Fin 128) :
    val_main_v49 (F := Ideal) x0 x1 x2 x3 (ix2 r j)
      = val_main_v43 (F := Ideal) x0 x1 x2 x3 (ix2 r j) - val_main_v46 (F := Ideal) x0 x1 x2 x3 (ix1 j) := by
  rw [val_main_v49_apply, val_main_v48_apply, val_main_v47_apply]
  have e : idx_main_v47 (idx_main_v48 (ix2 r j)) = ix1 j := funext fun a => Fin.ext (by match a with | ⟨0, _⟩ => rfl)
  rw [e]
  simp only [Ideal.subf_def]

/-- The deviation used for the output: the same entry minus the same mean, through a second pair of broadcasts. -/
theorem v56_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (r : Fin 100000) (j : Fin 128) :
    val_main_v56 (F := Ideal) x0 x1 x2 x3 (ix2 r j)
      = val_main_v43 (F := Ideal) x0 x1 x2 x3 (ix2 r j) - val_main_v46 (F := Ideal) x0 x1 x2 x3 (ix1 j) := by
  rw [val_main_v56_apply, val_main_v55_apply, val_main_v54_apply]
  have e : idx_main_v54 (idx_main_v55 (ix2 r j)) = ix1 j := funext fun a => Fin.ext (by match a with | ⟨0, _⟩ => rfl)
  rw [e]
  simp only [Ideal.subf_def]

/-- The squared deviation: the product of the deviation with itself. -/
theorem v50_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (r : Fin 100000) (j : Fin 128) :
    val_main_v50 (F := Ideal) x0 x1 x2 x3 (ix2 r j)
      = val_main_v49 (F := Ideal) x0 x1 x2 x3 (ix2 r j) * val_main_v49 (F := Ideal) x0 x1 x2 x3 (ix2 r j) := by
  rw [val_main_v50_apply]
  simp only [Ideal.mulf_def]

/-- The column variance: zero plus the sum of the column's squared deviations, divided by the word C. -/
theorem v53_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (j : Fin 128) :
    val_main_v53 (F := Ideal) x0 x1 x2 x3 (ix1 j)
      = Ideal.div (0 + ∑ k : Fin 100000, val_main_v50 (F := Ideal) x0 x1 x2 x3 (ix2 k j)) (Ideal.ofBits .f32 0x47C35000#32) := by
  rw [val_main_v53_apply, val_main_v51_apply, val_main_v52_apply, val_main_cst_10_apply, val_main_cst_9_apply]
  have e : ∀ k : Fin 100000, idx_main_v51 (ix1 j) k = ix2 k j := fun k => funext fun a => Fin.ext (by match a with | ⟨0, _⟩ => rfl | ⟨1, _⟩ => rfl)
  simp only [e, Ideal.hostDivf_def, Ideal.ofBits_def, Ideal.ofBits_zero_f32]

/-- The reciprocal square root of the column variance plus the offset word E. -/
theorem v62_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (j : Fin 128) :
    val_main_v62 (F := Ideal) x0 x1 x2 x3 (ix1 j)
      = Ideal.rsqrt (val_main_v53 (F := Ideal) x0 x1 x2 x3 (ix1 j) + Ideal.ofBits .f32 0x3727C5AC#32) := by
  rw [val_main_v62_apply, val_main_v61_apply, val_main_v60_apply, val_main_cst_11_apply]
  simp only [Ideal.hostUnary_rsqrt_def, Ideal.addf_def, Ideal.ofBits_def]

/-- The output stages: scale times deviation, times the reciprocal square root, plus shift, rectified at zero. -/
theorem v69_stage (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (r : Fin 100000) (j : Fin 128) :
    val_main_v69 (F := Ideal) x0 x1 x2 x3 x4 x5 (ix2 r j)
      = max ((x4 (ix1 j) * val_main_v56 (F := Ideal) x0 x1 x2 x3 (ix2 r j)) * val_main_v62 (F := Ideal) x0 x1 x2 x3 (ix1 j)
          + x5 (ix1 j)) 0 := by
  rw [val_main_v69_apply, val_main_v68_apply, val_main_v65_apply, val_main_v59_apply, val_main_v58_apply, val_main_v57_apply,
    val_main_v64_apply, val_main_v63_apply, val_main_v67_apply, val_main_v66_apply, val_main_call0_v0_apply,
    val_main_call0_cst_apply]
  have e4 : idx_main_v57 (idx_main_v58 (ix2 r j)) = ix1 j := funext fun a => Fin.ext (by match a with | ⟨0, _⟩ => rfl)
  have e6 : idx_main_v63 (idx_main_v64 (ix2 r j)) = ix1 j := funext fun a => Fin.ext (by match a with | ⟨0, _⟩ => rfl)
  have e5 : idx_main_v66 (idx_main_v67 (ix2 r j)) = ix1 j := funext fun a => Fin.ext (by match a with | ⟨0, _⟩ => rfl)
  rw [e4, e6, e5]
  simp only [Ideal.maximumf_def, Ideal.addf_def, Ideal.mulf_def, Ideal.ofBits_def, Ideal.ofBits_zero_f32]

/-! ## The normalised, rectified entry as a function of the biased array alone -/

/-- The layer's output entry written over the biased array y = (aggregated array + bias): every stage above substituted. -/
theorem v69_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (r : Fin 100000) (j : Fin 128) :
    val_main_v69 (F := Ideal) x0 x1 x2 x3 x4 x5 (ix2 r j)
      = max ((x4 (ix1 j) * (val_main_v43 (F := Ideal) x0 x1 x2 x3 (ix2 r j)
              - Ideal.div (0 + ∑ k : Fin 100000, val_main_v43 (F := Ideal) x0 x1 x2 x3 (ix2 k j)) (Ideal.ofBits .f32 0x47C35000#32)))
            * Ideal.rsqrt (Ideal.div (0 + ∑ k : Fin 100000,
                (val_main_v43 (F := Ideal) x0 x1 x2 x3 (ix2 k j)
                  - Ideal.div (0 + ∑ k' : Fin 100000, val_main_v43 (F := Ideal) x0 x1 x2 x3 (ix2 k' j)) (Ideal.ofBits .f32 0x47C35000#32))
                * (val_main_v43 (F := Ideal) x0 x1 x2 x3 (ix2 k j)
                  - Ideal.div (0 + ∑ k' : Fin 100000, val_main_v43 (F := Ideal) x0 x1 x2 x3 (ix2 k' j)) (Ideal.ofBits .f32 0x47C35000#32)))
                (Ideal.ofBits .f32 0x47C35000#32) + Ideal.ofBits .f32 0x3727C5AC#32)
          + x5 (ix1 j)) 0 := by
  rw [v69_stage, v56_entry, v62_entry, v53_entry]
  simp only [v50_entry, v49_entry, v46_entry]

end Cert.RefForms

end
-- ==== Proof.KI.LibBatchVariance.lean ====
/-
  The batch-variance law on the extended reals, and the facts about real-valued entries that feed it.

  For a column `h` of `n` REAL numbers (`n ≠ 0`), read in the extended reals, the mean of the squared deviations from
  the mean equals the mean of the squares minus the square of the mean. Every quantity is an extended real and the
  division by the real `n` is `Ideal.div`, which for a nonzero real divisor is the product with its reciprocal
  (`Ideal.div_coe`). With a column that has an infinite entry the law fails (a difference of infinities on one side
  only), hence the hypothesis that every entry is a real.

  The auxiliary facts say which entries are reals: a finite sum of coerced reals is the coerced sum; `Ideal.sign` of
  anything is one of -1, 0, 1; a value clipped between two reals is a real; a sum of products of reals plus a real is a
  real; and the float words for 16384, 1 and -1 denote those reals.
-/
import Idealize.ShloMosaic.PureOps.Ideal
import Idealize.ShloMosaic.PureOps.Ideal.Laws

noncomputable section

namespace Cert.BatchVariance

open Idealize.ShloMosaic

/-! ## Sums of reals in the extended reals -/

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The law -/

/-- Over the reals: with μ the mean, the mean of (h - μ)² is the mean of h² minus μ². -/
theorem real_law {n : ℕ} (hn : n ≠ 0) (h : Fin n → ℝ) :
    (∑ r, (h r - (∑ s, h s) * (1 / (n : ℝ))) * (h r - (∑ s, h s) * (1 / (n : ℝ)))) * (1 / (n : ℝ))
      = (∑ r, h r * h r) * (1 / (n : ℝ)) - (∑ s, h s) * (1 / (n : ℝ)) * ((∑ s, h s) * (1 / (n : ℝ))) := by
  have hn' : (n : ℝ) ≠ 0 := Nat.cast_ne_zero.mpr hn
  generalize hS : ∑ s, h s = S
  generalize hμ : S * (1 / (n : ℝ)) = μ
  have hSμ : S = n * μ := by rw [← hμ]; field_simp
  have e : ∑ r, (h r - μ) * (h r - μ) = (∑ r, h r * h r) - 2 * μ * S + n * (μ * μ) := by
    have hsq : ∀ r, (h r - μ) * (h r - μ) = h r * h r - 2 * μ * h r + μ * μ := fun r => by ring
    simp only [hsq, Finset.sum_add_distrib, Finset.sum_sub_distrib, ← Finset.mul_sum, hS, Finset.sum_const,
      Finset.card_univ, Fintype.card_fin, nsmul_eq_mul]
    ring
  rw [e, hSμ]
  field_simp
  ring

/-- Over the extended reals, for a column of reals: the mean of the squared deviations from the mean is the mean of
    the squares minus the square of the mean. -/
theorem variance_law {n : ℕ} (hn : n ≠ 0) (h : Fin n → ℝ) :
    Ideal.div (∑ r, ((h r : EReal) - Ideal.div (∑ s, (h s : EReal)) ((n : ℝ) : EReal))
        * ((h r : EReal) - Ideal.div (∑ s, (h s : EReal)) ((n : ℝ) : EReal))) ((n : ℝ) : EReal)
      = Ideal.div (∑ r, (h r : EReal) * (h r : EReal)) ((n : ℝ) : EReal)
        - Ideal.div (∑ s, (h s : EReal)) ((n : ℝ) : EReal) * Ideal.div (∑ s, (h s : EReal)) ((n : ℝ) : EReal) := by
  have hn' : (n : ℝ) ≠ 0 := Nat.cast_ne_zero.mpr hn
  simp only [Ideal.div_coe hn', coe_sum, ← EReal.coe_mul, ← EReal.coe_sub]
  exact congrArg _ (real_law hn h)

/-- The same for a column of extended reals every entry of which is a real. -/
theorem variance_law_of_real {n : ℕ} (hn : n ≠ 0) (h : Fin n → EReal) (hr : ∀ r, ∃ y : ℝ, h r = (y : EReal)) :
    Ideal.div (∑ r, (h r - Ideal.div (∑ s, h s) ((n : ℝ) : EReal)) * (h r - Ideal.div (∑ s, h s) ((n : ℝ) : EReal)))
        ((n : ℝ) : EReal)
      = Ideal.div (∑ r, h r * h r) ((n : ℝ) : EReal)
        - Ideal.div (∑ s, h s) ((n : ℝ) : EReal) * Ideal.div (∑ s, h s) ((n : ℝ) : EReal) := by
  choose y hy using hr
  obtain rfl : h = fun r => (y r : EReal) := funext hy
  exact variance_law hn y

/-! ## Which entries are reals -/

/-- `Ideal.sign` of any extended real is a real: -1, 0 or 1. -/
theorem sign_real (z : EReal) : ∃ y : ℝ, Ideal.sign z = (y : EReal) := by
  induction z using EReal.rec with
  | bot => exact ⟨-1, by simp⟩
  | top => exact ⟨1, by simp⟩
  | coe r => exact ⟨_, Ideal.sign_coe r⟩

/-- A value clipped between two reals is a real, whatever it was: it lies between them. -/
theorem clip_real {lo hi : ℝ} (hle : lo ≤ hi) (y : EReal) :
    ∃ z : ℝ, min (hi : EReal) (max (lo : EReal) y) = (z : EReal) := by
  refine ⟨(min (hi : EReal) (max (lo : EReal) y)).toReal, (EReal.coe_toReal ?_ ?_).symm⟩
  · exact ne_top_of_le_ne_top (EReal.coe_ne_top hi) (min_le_left _ _)
  · refine ne_bot_of_le_ne_bot (EReal.coe_ne_bot lo) (le_min ?_ (le_max_left _ _))
    exact_mod_cast hle

/-- A sum of products of reals, plus a real, is a real. -/
theorem sum_mul_add_real {K : ℕ} (a w : Fin K → EReal) (b : EReal) (ha : ∀ k, ∃ y : ℝ, a k = (y : EReal))
    (hw : ∀ k, ∃ y : ℝ, w k = (y : EReal)) (hb : ∃ y : ℝ, b = (y : EReal)) :
    ∃ y : ℝ, (∑ k, a k * w k) + b = (y : EReal) := by
  choose a' ha' using ha
  choose w' hw' using hw
  obtain ⟨b', rfl⟩ := hb
  refine ⟨(∑ k, a' k * w' k) + b', ?_⟩
  simp only [ha', hw', ← EReal.coe_mul, coe_sum, ← EReal.coe_add]

/-! ## The float words -/

/-- The word for the batch size denotes the real 16384. -/
theorem ofBits_batch : Ideal.ofBits .f32 0x46800000#32 = ((16384 : ℝ) : EReal) := by
  simp [Ideal.ofBits, Ideal.ieee, -EReal.coe_mul]; norm_num

/-- The word for the clip's upper bound denotes the real 1. -/
theorem ofBits_one : Ideal.ofBits .f32 0x3F800000#32 = ((1 : ℝ) : EReal) := by
  simp [Ideal.ofBits, Ideal.ieee, -EReal.coe_mul]; norm_num

/-- The word for the clip's lower bound denotes the real -1. -/
theorem ofBits_neg_one : Ideal.ofBits .f32 0xBF800000#32 = ((-1 : ℝ) : EReal) := by
  simp [Ideal.ofBits, Ideal.ieee, -EReal.coe_mul]; norm_num

end Cert.BatchVariance

end
-- ==== Proof.KI.BNAlg.lean ====
/-
  The extended-real algebra of batch normalisation followed by a maximum with zero, for one column of N entries.

  Two ways of computing the normalised entry are compared. One takes the variance as (mean of squares) - (mean)² and
  multiplies as g · ((y - μ) · s); the other takes the variance as the mean of squared deviations, each reduction being
  "zero + sum", and multiplies as (g · (y - μ)) · s, where s is the reciprocal square root of variance + offset. The two
  variances agree only when every entry of the column is a real (distributivity fails at the infinities of the extended
  reals); the two products agree always (multiplication on the extended reals is associative). Division by N is
  `Ideal.div` by the real N.

  Also here: the normalised entry of a real column with real scale, real shift and positive real offset is a real (so the
  next layer's column is again real); a sum of products of reals is a real; and the values of the two float words involved.
-/
import Idealize.ShloMosaic.PureOps.Ideal
import Idealize.ShloMosaic.PureOps.Ideal.Laws
import proofs.«107028_j46583215292429_1_alg».proof.Proof.KI.LibBatchVariance

noncomputable section

namespace Cert.BNAlg

open Idealize.ShloMosaic Cert.BatchVariance

/-! ## The float words -/

/-- The word of the divisor denotes the real 100000: exponent field 143, so 2^16 times the significand
    (2^23 + 4411392) / 2^23. -/
theorem C_val : Ideal.ofBits .f32 0x47C35000#32 = ((100000 : ℝ) : EReal) := by
  simp [Ideal.ofBits, Ideal.ieee, -EReal.coe_mul]; norm_num

/-- The same with the divisor written as the cast of the natural number 100000 (the column length). -/
theorem C_val_nat : Ideal.ofBits .f32 0x47C35000#32 = ((((100000 : ℕ) : ℝ)) : EReal) := by
  rw [C_val, Nat.cast_ofNat]

/-- The word of the variance offset denotes a positive real (a normal number: exponent field 110). -/
theorem eps_val : ∃ e : ℝ, 0 < e ∧ Ideal.ofBits .f32 0x3727C5AC#32 = ((e : ℝ) : EReal) := by
  have h : Ideal.ofBits .f32 0x3727C5AC#32 = (((10995116 : ℝ) / 2 ^ 40 : ℝ) : EReal) := by
    simp [Ideal.ofBits, Ideal.ieee, -EReal.coe_mul]; norm_num
  exact ⟨_, by norm_num, h⟩

/-! ## Real-valued entries -/

/-- The maximum of a real and zero is a real. -/
theorem max_zero_real {x : EReal} (hx : ∃ a : ℝ, x = (a : EReal)) : ∃ a : ℝ, max x 0 = (a : EReal) := by
  obtain ⟨a, rfl⟩ := hx
  exact ⟨max a 0, by rw [← EReal.coe_zero]; exact (EReal.coe_strictMono.monotone.map_max).symm⟩

/-- The reciprocal square root of a positive real is a real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- A sum of products of reals is a real (an entry of a matrix product of real matrices). -/
theorem sum_mul_real {K : ℕ} (a b : Fin K → EReal) (ha : ∀ k, ∃ x : ℝ, a k = x) (hb : ∀ k, ∃ x : ℝ, b k = x) :
    ∃ x : ℝ, ∑ k, a k * b k = (x : EReal) := by
  choose a' ha' using ha
  choose b' hb' using hb
  exact ⟨∑ k, a' k * b' k, by simp only [ha', hb', ← EReal.coe_mul, coe_sum]⟩

/-! ## One entry of a normalised column -/

/-- For a column of reals, the normalised entry computed with the variance as (mean of squares) - (mean)² and the
    product associated as g · ((y - μ) · s) equals the one computed with the variance as the mean of squared deviations
    (each reduction started from zero) and the product associated as (g · (y - μ)) · s. The two variances agree by the
    batch-variance law, which needs real entries; the two products agree by associativity. -/
theorem bn_entry_eq (N : ℕ) (hN : 0 < N) (C : EReal) (hC : C = (((N : ℕ) : ℝ) : EReal)) (y : Fin N → EReal)
    (hy : ∀ r, ∃ a : ℝ, y r = (a : EReal)) (g bt E : EReal) (r : Fin N) :
    max (g * ((y r - Ideal.div (∑ k, y k) C) * Ideal.rsqrt ((Ideal.div (∑ k, y k * y k) C
        - Ideal.div (∑ k, y k) C * Ideal.div (∑ k, y k) C) + E)) + bt) 0
    = max ((g * (y r - Ideal.div (0 + ∑ k, y k) C)) * Ideal.rsqrt (Ideal.div (0 + ∑ k, (y k - Ideal.div (0 + ∑ k', y k') C)
        * (y k - Ideal.div (0 + ∑ k', y k') C)) C + E) + bt) 0 := by
  subst hC
  simp only [zero_add]
  rw [variance_law_of_real hN.ne' y hy, mul_assoc]

/-- For a column of reals, real scale and shift, and a positive real offset, the normalised entry is a real: the mean
    is a real, the variance (a mean of squares of reals) is a real ≥ 0, so variance + offset is a positive real and its
    reciprocal square root a real. -/
theorem bn_entry_real (N : ℕ) (hN : 0 < N) (C : EReal) (hC : C = (((N : ℕ) : ℝ) : EReal)) (y : Fin N → EReal)
    (hy : ∀ r, ∃ a : ℝ, y r = (a : EReal)) (g bt E : EReal) (hg : ∃ a : ℝ, g = a) (hbt : ∃ a : ℝ, bt = a)
    (hE : ∃ e : ℝ, 0 < e ∧ E = (e : EReal)) (r : Fin N) :
    ∃ a : ℝ, max ((g * (y r - Ideal.div (0 + ∑ k, y k) C)) * Ideal.rsqrt (Ideal.div (0 + ∑ k, (y k - Ideal.div (0 + ∑ k', y k') C)
        * (y k - Ideal.div (0 + ∑ k', y k') C)) C + E) + bt) 0 = (a : EReal) := by
  subst hC
  have hn' : ((N : ℕ) : ℝ) ≠ 0 := Nat.cast_ne_zero.mpr hN.ne'
  choose a ha using hy
  obtain ⟨g', rfl⟩ := hg
  obtain ⟨b', rfl⟩ := hbt
  obtain ⟨e, he, rfl⟩ := hE
  apply max_zero_real
  simp only [zero_add, Ideal.div_coe hn', ha, coe_sum, ← EReal.coe_mul, ← EReal.coe_sub, ← EReal.coe_add]
  have hv : 0 ≤ (∑ k, (a k - (∑ k', a k') * (1 / (N : ℝ))) * (a k - (∑ k', a k') * (1 / (N : ℝ)))) * (1 / (N : ℝ)) :=
    mul_nonneg (Finset.sum_nonneg fun k _ => mul_self_nonneg _) (by positivity)
  rw [rsqrt_pos (by linarith), ← EReal.coe_mul, ← EReal.coe_add]
  exact ⟨_, rfl⟩

end Cert.BNAlg

end
-- ==== Proof.KI.Glue1.lean ====
/-
  The reference's stages as the closed forms the kernel's regions produce.

  * A dense product: the kernel's product of two matrices, entry (r, j) the sum over k of l[r,k] · w[k,j], is the
    reference's dot-product stage applied to the same two arrays.
  * A batch normalisation followed by a maximum with zero: from the column sums the kernel normalises entry (r, j) of the
    biased array y as  max (scale[j] · ((y[r,j] - mean[j]) · rsqrt (var[j] + E)) + shift[j]) 0  with
    mean[j] = (∑ₖ y[k,j]) / C and var[j] = (∑ₖ y[k,j]²) / C - mean[j]²; the reference takes the variance as the mean of
    squared deviations, starts each reduction from zero and associates the product the other way. For a REAL column the
    two agree (the batch-variance law and associativity), so the kernel's form is the reference's stage at (r, j).
-/
import proofs.«107028_j46583215292429_1_alg».proof.Proof.Gen.ReferenceIdeal.Read
import proofs.«107028_j46583215292429_1_alg».proof.Proof.KI.RefForms1
import proofs.«107028_j46583215292429_1_alg».proof.Proof.KI.Mat0Value
import proofs.«107028_j46583215292429_1_alg».proof.Proof.KI.BNAlg
import Idealize.ShloMosaic.Lib.ValueIdx
import Idealize.ShloMosaic.PureOps.Ideal
import Idealize.ShloMosaic.PureOps.Ideal.Laws

noncomputable section

namespace Cert.Glue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Layer 1 -/

/-- The first dense product: the kernel's matrix product of the input and the first weight is the reference's. -/
theorem glue_prod0 (x0 : (⟨S100000x256, .f32⟩ : BufTy).Contents (Elt Ideal)) (x2 : (⟨S256x128, .f32⟩ : BufTy).Contents (Elt Ideal)) :
    Cert.KernelIdeal.Hand.prod0 x0 x2 = val_main_v27 (F := Ideal) x0 x2 := by
  funext i
  obtain ⟨r, j, rfl⟩ : ∃ (r : Fin 100000) (j : Fin 128), i = ix2 r j := ⟨i 0, i 1, eq_ix2 i⟩
  rw [Cert.KernelIdeal.Hand.prod0_apply, Cert.RefForms.v27_entry]

/-- The first normalisation: for a real biased array, the kernel's form of the normalised, rectified entry (variance as
    mean of squares minus squared mean) is the reference's stage at that entry. -/
theorem glue_bn1 (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (hy : ∀ i, ∃ a : ℝ, val_main_v43 (F := Ideal) x0 x1 x2 x3 i = (a : EReal)) (r : Fin 100000) (j : Fin 128) :
    max (x4 (ix1 j) * ((val_main_v43 (F := Ideal) x0 x1 x2 x3 (ix2 r j)
            - Ideal.div (∑ k : Fin 100000, val_main_v43 (F := Ideal) x0 x1 x2 x3 (ix2 k j)) (Ideal.ofBits .f32 0x47C35000#32))
          * Ideal.rsqrt ((Ideal.div (∑ k : Fin 100000, val_main_v43 (F := Ideal) x0 x1 x2 x3 (ix2 k j)
                  * val_main_v43 (F := Ideal) x0 x1 x2 x3 (ix2 k j)) (Ideal.ofBits .f32 0x47C35000#32)
              - Ideal.div (∑ k : Fin 100000, val_main_v43 (F := Ideal) x0 x1 x2 x3 (ix2 k j)) (Ideal.ofBits .f32 0x47C35000#32)
                * Ideal.div (∑ k : Fin 100000, val_main_v43 (F := Ideal) x0 x1 x2 x3 (ix2 k j)) (Ideal.ofBits .f32 0x47C35000#32))
            + Ideal.ofBits .f32 0x3727C5AC#32)) + x5 (ix1 j)) 0
      = val_main_v69 (F := Ideal) x0 x1 x2 x3 x4 x5 (ix2 r j) := by
  rw [Cert.RefForms.v69_entry]
  exact Cert.BNAlg.bn_entry_eq 100000 (by norm_num) _ Cert.BNAlg.C_val_nat
    (fun k => val_main_v43 (F := Ideal) x0 x1 x2 x3 (ix2 k j)) (fun k => hy (ix2 k j)) (x4 (ix1 j)) (x5 (ix1 j)) _ r

end Cert.Glue

end
-- ==== Proof.KI.Chain1.lean ====
/-
  The ideal program's buffers, boundary by boundary, are the reference's stages of the same arguments — first layer, up to the
  aggregate: the arrays the first host stretch computes from the edge list are the reference's (the same operations on the same
  edge list); the first region's output is the dense product, entry (r, j) the sum over k of x(r,k)·W(k,j), which is the reference's
  product; and the second stretch gathers its rows, scales them by the edge normalisation and adds them up by target row — one
  function of the edge arrays and of the product, the same on both sides.
-/
import proofs.«107028_j46583215292429_1_alg».proof.Proof.KI.Keep
import proofs.«107028_j46583215292429_1_alg».proof.Proof.KI.HostBridge
import proofs.«107028_j46583215292429_1_alg».proof.Proof.KI.HostBridgeConv
import proofs.«107028_j46583215292429_1_alg».proof.Proof.KI.Mat0Value
import proofs.«107028_j46583215292429_1_alg».proof.Proof.KI.Glue1
import proofs.«107028_j46583215292429_1_alg».proof.Proof.KI.RefShared

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The edge arrays -/

theorem c1_v5 : U1 m c (Proc.devRef .tc main_v5)
    = Cert.ReferenceIdeal.Read.val_main_v5 (F := Ideal) (m (c, Proc.devRef .tc main_arg1)) :=
  Cert.KernelIdeal.HostBridge.host0_v5 (U0 m c)
theorem c1_v6 : U1 m c (Proc.devRef .tc main_v6)
    = Cert.ReferenceIdeal.Read.val_main_v6 (F := Ideal) (m (c, Proc.devRef .tc main_arg1)) :=
  Cert.KernelIdeal.HostBridge.host0_v6 (U0 m c)
theorem c1_v26 : U1 m c (Proc.devRef .tc main_v26)
    = Cert.ReferenceIdeal.Read.val_main_v26 (F := Ideal) (m (c, Proc.devRef .tc main_arg1)) :=
  Cert.KernelIdeal.HostBridge.host0_v26 (U0 m c)

/-! ## The first dense product -/

theorem c2_v27 : U2 m c (Proc.devRef .tc main_v27)
    = Cert.ReferenceIdeal.Read.val_main_v27 (F := Ideal) (m (c, Proc.devRef .tc main_arg0)) (m (c, Proc.devRef .tc main_arg2)) := by
  refine (U2_arr m c 2).trans ?_
  rw [final0 (T1 m) c]
  rw [show T1 m c (Pipeline.arrRef spec0 0) = m (c, Proc.devRef .tc main_arg0) from U1_arg m c main_arg0 (by decide),
    show T1 m c (Pipeline.arrRef spec0 1) = m (c, Proc.devRef .tc main_arg2) from U1_arg m c main_arg2 (by decide)]
  exact Cert.Glue.glue_prod0 _ _

/-! ## The first aggregate -/

theorem c3_v40 : U3 m c (Proc.devRef .tc main_v40)
    = Cert.ReferenceIdeal.Read.val_main_v40 (F := Ideal) (m (c, Proc.devRef .tc main_arg0)) (m (c, Proc.devRef .tc main_arg1))
        (m (c, Proc.devRef .tc main_arg2)) := by
  refine (Cert.KernelIdeal.HostBridge.host1_v40 (U2 m c)).trans ?_
  rw [U2_edge m c main_v5 (by decide), U2_edge m c main_v6 (by decide), U2_edge m c main_v26 (by decide),
    c1_v5, c1_v6, c1_v26, c2_v27]
  exact (Cert.RefForms.v40_conv _ _ _).symm

end Cert.KernelIdeal.Hand

end
-- ==== Proof.KI.Stats1Pieces.lean ====
/- The statistics region (custom_call 1): what each control case leaves in the accumulator rows and the output
   rows, as VALUES of the payload functions. With s(x0, x1) the 2000x128 block plus the bias row on every row:
   accumulator 0 becomes (previous accumulator 0) + column sums of s, accumulator 1 (previous accumulator 1) +
   column sums of s·s; at the first block "previous" is the zero row just stored; at the last block the output
   rows receive the new accumulators. Each is read off the one covering store the case's run found. -/
import proofs.«107028_j46583215292429_1_alg».proof.Proof.KI.Stats1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets zero, as a constant function. -/
theorem hz2 : (![0, 0] : Fin 2 → Nat) = fun _ => 0 := funext fun a => by fin_cases a <;> rfl

/-! ## A middle block -/

/-- Accumulator 0 after a middle block: the payload of its one covering store, whose loads read the whole buffers. -/
theorem sout1_B_0_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 xs0 xs1 : Vec F S1x128 .f32) :
    sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  rw [View.canon_unit_zero (S := S1x128) hz2]
  simp only [View.readAt_eq_ld, harg1.read_unread, harg2.read_unread, harg5.read_unread, View.ld_unit_zero (S := S2000x128) hz2, View.ld_unit_zero (S := S1x128) hz2]

/-- Accumulator 1 after a middle block. -/
theorem sout1_B_1_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 xs0 xs1 : Vec F S1x128 .f32) :
    sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  rw [View.canon_unit_zero (S := S1x128) hz2]
  simp only [View.readAt_eq_ld, harg1.read_unread, harg2.read_unread, harg6.read_unread, View.ld_unit_zero (S := S2000x128) hz2, View.ld_unit_zero (S := S1x128) hz2]

/-! ## The first block -/

/-- Accumulator 0 after the first block: the zero row is stored, read back, and the column sums added to it. -/
theorem sout1_A_0_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    sout1_A_0 c i arg1 harg1 arg2 harg2 arg3 harg3 arg4 harg4 arg5 harg5 arg6 harg6 hc0 hc1 x0 x1 = k1_pay4 x0 x1 k1_pay1 := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  sl_unfold_words
  rw [View.canon_cons_unit_zero (S := S1x128) hz2, View.readCov_unit_zero (S := S1x128) _ hz2]
  simp only [View.readAt_eq_ld, harg1.read_unread, harg2.read_unread, View.ld_unit_zero (S := S2000x128) hz2, View.ld_unit_zero (S := S1x128) hz2]

/-- Accumulator 1 after the first block. -/
theorem sout1_A_1_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    sout1_A_1 c i arg1 harg1 arg2 harg2 arg3 harg3 arg4 harg4 arg5 harg5 arg6 harg6 hc0 hc1 x0 x1 = k1_pay5 x0 x1 k1_pay2 := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  sl_unfold_words
  rw [View.canon_cons_unit_zero (S := S1x128) hz2, View.readCov_unit_zero (S := S1x128) _ hz2]
  simp only [View.readAt_eq_ld, harg1.read_unread, harg2.read_unread, View.ld_unit_zero (S := S2000x128) hz2, View.ld_unit_zero (S := S1x128) hz2]

/-! ## The last block -/

/-- Accumulator 0 after the last block. -/
theorem sout1_C_0_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 xs0 xs1 : Vec F S1x128 .f32) :
    sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz2]
  simp only [View.readAt_eq_ld, harg1.read_unread, harg2.read_unread, harg5.read_unread, View.ld_unit_zero (S := S2000x128) hz2, View.ld_unit_zero (S := S1x128) hz2]

/-- Accumulator 1 after the last block. -/
theorem sout1_C_1_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 xs0 xs1 : Vec F S1x128 .f32) :
    sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz2]
  simp only [View.readAt_eq_ld, harg1.read_unread, harg2.read_unread, harg6.read_unread, View.ld_unit_zero (S := S2000x128) hz2, View.ld_unit_zero (S := S1x128) hz2]

/-- Output row 2 after the last block: accumulator 0 read back after its store, so the same value. -/
theorem out1_C_2_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 xs0 xs1 : Vec F S1x128 .f32) :
    out1_C_2 c i arg1 harg1 arg2 harg2 arg3 harg3 arg4 harg4 arg5 harg5 arg6 harg6 hc0 hc1 x0 x1 xs0 xs1 = k1_pay4 x0 x1 xs0 := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz2, View.readCov_unit_zero (S := S1x128) _ hz2]
  simp only [View.readAt_eq_ld, harg1.read_unread, harg2.read_unread, harg5.read_unread, View.ld_unit_zero (S := S2000x128) hz2, View.ld_unit_zero (S := S1x128) hz2]

/-- Output row 3 after the last block: accumulator 1 read back after its store. -/
theorem out1_C_3_eq (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 xs0 xs1 : Vec F S1x128 .f32) :
    out1_C_3 c i arg1 harg1 arg2 harg2 arg3 harg3 arg4 harg4 arg5 harg5 arg6 harg6 hc0 hc1 x0 x1 xs0 xs1 = k1_pay5 x0 x1 xs1 := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz2, View.readCov_unit_zero (S := S1x128) _ hz2]
  simp only [View.readAt_eq_ld, harg1.read_unread, harg2.read_unread, harg6.read_unread, View.ld_unit_zero (S := S2000x128) hz2, View.ld_unit_zero (S := S1x128) hz2]

end Cert.KernelIdeal.Hand

end
-- ==== Proof.KI.Stats1Chain.lean ====
/- The statistics region (custom_call 1): its accumulators as a recursion over the 50 row blocks, for any float type.
   acc(0) = zero rows + column sums of block 0 (plus bias; and of the squares), acc(n) = acc(n-1) + column sums of
   block n. What the accumulation of the frame holds after block n is this recursion (induction on the block, each
   case read off its covering store), and after block 49 the two output rows hold acc(49). Also: where a row of a
   block sits in the input array (row 2000·t + r), the bias row's block being the row itself. -/
import proofs.«107028_j46583215292429_1_alg».proof.Proof.KI.Stats1Pieces
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## One block's step, in payload form -/

/-- At the first block the accumulators become the zero rows plus the block's column sums. -/
theorem step1_A (c : Dev nD) (t : Fin cfg1.N) (h0 : t.val % 50 = 0) (h1 : ¬t.val % 50 = 49) :
    (outsAt1 V c t.val t.isLt).2.2.1 = k1_pay4 (iblk1 V c 0 t) (iblk1 V c 1 t) k1_pay1
    ∧ (outsAt1 V c t.val t.isLt).2.2.2 = k1_pay5 (iblk1 V c 0 t) (iblk1 V c 1 t) k1_pay2 := by
  rw [outsAt1_A V c t h0 h1]
  exact ⟨sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)⟩

/-- At a middle block the accumulators become what the block before left plus the block's column sums. -/
theorem step1_B (c : Dev nD) (t : Fin cfg1.N) (h0 : ¬t.val % 50 = 0) (h1 : ¬t.val % 50 = 49) :
    (outsAt1 V c t.val t.isLt).2.2.1 = k1_pay4 (iblk1 V c 0 t) (iblk1 V c 1 t) (outsAt1 V c (t.val - 1) (Nat.lt_of_le_of_lt (Nat.sub_le _ _) t.isLt)).2.2.1
    ∧ (outsAt1 V c t.val t.isLt).2.2.2 = k1_pay5 (iblk1 V c 0 t) (iblk1 V c 1 t) (outsAt1 V c (t.val - 1) (Nat.lt_of_le_of_lt (Nat.sub_le _ _) t.isLt)).2.2.2 := by
  rw [outsAt1_B V c t h0 h1]
  exact ⟨sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2⟩

set_option maxHeartbeats 1000000 in
/-- At the last block the same, and the output rows receive the new accumulators. -/
theorem step1_C (c : Dev nD) (t : Fin cfg1.N) (h0 : ¬t.val % 50 = 0) (h1 : t.val % 50 = 49) :
    ((outsAt1 V c t.val t.isLt).2.2.1 = k1_pay4 (iblk1 V c 0 t) (iblk1 V c 1 t) (outsAt1 V c (t.val - 1) (Nat.lt_of_le_of_lt (Nat.sub_le _ _) t.isLt)).2.2.1
    ∧ (outsAt1 V c t.val t.isLt).2.2.2 = k1_pay5 (iblk1 V c 0 t) (iblk1 V c 1 t) (outsAt1 V c (t.val - 1) (Nat.lt_of_le_of_lt (Nat.sub_le _ _) t.isLt)).2.2.2)
    ∧ ((outsAt1 V c t.val t.isLt).1 = k1_pay4 (iblk1 V c 0 t) (iblk1 V c 1 t) (outsAt1 V c (t.val - 1) (Nat.lt_of_le_of_lt (Nat.sub_le _ _) t.isLt)).2.2.1
    ∧ (outsAt1 V c t.val t.isLt).2.1 = k1_pay5 (iblk1 V c 0 t) (iblk1 V c 1 t) (outsAt1 V c (t.val - 1) (Nat.lt_of_le_of_lt (Nat.sub_le _ _) t.isLt)).2.2.2) := by
  have e := outsAt1_C V c t h0 h1
  exact ⟨⟨(congrArg (fun p => p.2.2.1) e).trans (sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2),
    (congrArg (fun p => p.2.2.2) e).trans (sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2)⟩,
    (congrArg (fun p => p.1) e).trans (out1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2),
    (congrArg (fun p => p.2.1) e).trans (out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2)⟩

/-! ## The recursion -/

/-- The two accumulator rows after block `n`: started from the zero rows at block 0, each block adds its column
    sums (of block + bias, and of the squares). -/
def acc1 (c : Dev nD) : (n : ℕ) → n < cfg1.N → Vec F S1x128 .f32 × Vec F S1x128 .f32
  | 0, h => (k1_pay4 (iblk1 V c 0 ⟨0, h⟩) (iblk1 V c 1 ⟨0, h⟩) k1_pay1,
             k1_pay5 (iblk1 V c 0 ⟨0, h⟩) (iblk1 V c 1 ⟨0, h⟩) k1_pay2)
  | n + 1, h => (k1_pay4 (iblk1 V c 0 ⟨n + 1, h⟩) (iblk1 V c 1 ⟨n + 1, h⟩) (acc1 c n (Nat.lt_of_succ_lt h)).1,
                 k1_pay5 (iblk1 V c 0 ⟨n + 1, h⟩) (iblk1 V c 1 ⟨n + 1, h⟩) (acc1 c n (Nat.lt_of_succ_lt h)).2)

theorem acc1_zero (c : Dev nD) (h : 0 < cfg1.N) :
    acc1 V c 0 h
      = (k1_pay4 (iblk1 V c 0 ⟨0, h⟩) (iblk1 V c 1 ⟨0, h⟩) k1_pay1,
         k1_pay5 (iblk1 V c 0 ⟨0, h⟩) (iblk1 V c 1 ⟨0, h⟩) k1_pay2) := rfl

theorem acc1_succ (c : Dev nD) (n : ℕ) (h : n + 1 < cfg1.N) :
    acc1 V c (n + 1) h
      = (k1_pay4 (iblk1 V c 0 ⟨n + 1, h⟩) (iblk1 V c 1 ⟨n + 1, h⟩) (acc1 V c n (Nat.lt_of_succ_lt h)).1,
         k1_pay5 (iblk1 V c 0 ⟨n + 1, h⟩) (iblk1 V c 1 ⟨n + 1, h⟩) (acc1 V c n (Nat.lt_of_succ_lt h)).2) := rfl

/-- What the accumulators hold after block `n` IS that recursion: by induction on the block. -/
theorem outsAt1_acc (c : Dev nD) : ∀ (n : ℕ) (h : n < cfg1.N),
    (outsAt1 V c n h).2.2.1 = (acc1 V c n h).1 ∧ (outsAt1 V c n h).2.2.2 = (acc1 V c n h).2
  | 0, h => by
    rw [acc1_zero]
    exact step1_A V c ⟨0, h⟩ (Nat.zero_mod _) (fun e => by rw [show (⟨0, h⟩ : Fin cfg1.N).val = 0 from rfl] at e; omega)
  | n + 1, h => by
    have hN : cfg1.N = 50 := N_1
    have ih := outsAt1_acc c n (Nat.lt_of_succ_lt h)
    have h0 : ¬(⟨n + 1, h⟩ : Fin cfg1.N).val % 50 = 0 := by
      rw [show (⟨n + 1, h⟩ : Fin cfg1.N).val = n + 1 from rfl]; omega
    rw [acc1_succ, ← ih.1, ← ih.2]
    by_cases h1 : (⟨n + 1, h⟩ : Fin cfg1.N).val % 50 = 49
    · exact (step1_C V c ⟨n + 1, h⟩ h0 h1).1
    · exact step1_B V c ⟨n + 1, h⟩ h0 h1

/-- The last block is block 49. -/
theorem lt49 : 49 < cfg1.N := by rw [show cfg1.N = 50 from N_1]; decide

/-- At a block that is the last, the two output rows hold the accumulators. -/
theorem outsAt1_out (c : Dev nD) (n : ℕ) (h : n + 1 < cfg1.N) (h1 : (n + 1) % 50 = 49) :
    (outsAt1 V c (n + 1) h).1 = (acc1 V c (n + 1) h).1 ∧ (outsAt1 V c (n + 1) h).2.1 = (acc1 V c (n + 1) h).2 := by
  have hN : cfg1.N = 50 := N_1
  have ih := outsAt1_acc V c n (Nat.lt_of_succ_lt h)
  have h0 : ¬(⟨n + 1, h⟩ : Fin cfg1.N).val % 50 = 0 := by
    rw [show (⟨n + 1, h⟩ : Fin cfg1.N).val = n + 1 from rfl]; omega
  rw [acc1_succ, ← ih.1, ← ih.2]
  exact (step1_C V c ⟨n + 1, h⟩ h0 h1).2

/-- After the last block (block 49) the two output rows hold the accumulators. -/
theorem outsAt1_last (c : Dev nD) :
    (outsAt1 V c 49 lt49).1 = (acc1 V c 49 lt49).1 ∧ (outsAt1 V c 49 lt49).2.1 = (acc1 V c 49 lt49).2 :=
  outsAt1_out V c 48 lt49 rfl

/-! ## Where a block's element sits in its array -/

/-- Window 0's block index at point `t` is (t, 0); window 1's is (0, 0) throughout. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = 0 ∧ win1_1.index t 1 = 0 :=
  (by decide +kernel : ∀ t : Fin grid1.N, win1_1.index t 0 = 0 ∧ win1_1.index t 1 = 0)

/-- Row `r` of block `t` of the input is row `2000·t + r` of the array. -/
theorem iblk1_0_apply (c : Dev nD) (t : Fin cfg1.N) (r : Fin 2000) (j : Fin 128)
    (hr : 2000 * t.val + r.val < 100000) :
    (iblk1 V c 0 t : Vec F S2000x128 .f32) (ix2 r j)
      = (V c (Pipeline.arrRef spec1 0) : Vec F S100000x128 .f32) (ix2 ⟨2000 * t.val + r.val, hr⟩ j) := by
  unfold iblk1
  rw [View.read_apply]
  show V c main_v40 _ = V c main_v40 _
  congr 1
  funext a
  apply Fin.ext
  match a with
  | ⟨0, _⟩ => show win1_0.index t 0 * 2000 + 1 * r.val = 2000 * t.val + r.val; rw [(index1_0 t).1]; omega
  | ⟨1, _⟩ => show win1_0.index t 1 * 128 + 1 * j.val = j.val; rw [(index1_0 t).2]; omega

/-- The bias row's block is the row itself at every point. -/
theorem iblk1_1_apply (c : Dev nD) (t : Fin cfg1.N) (j : Fin 128) :
    (iblk1 V c 1 t : Vec F S1x128 .f32) (ix2 (0 : Fin 1) j)
      = (V c (Pipeline.arrRef spec1 1) : Vec F S1x128 .f32) (ix2 (0 : Fin 1) j) := by
  unfold iblk1
  rw [View.read_apply]
  show V c main_v41 _ = V c main_v41 _
  congr 1
  funext a
  apply Fin.ext
  match a with
  | ⟨0, _⟩ => show win1_1.index t 0 * 1 + 1 * 0 = 0; rw [(index1_1 t).1]
  | ⟨1, _⟩ => show win1_1.index t 1 * 128 + 1 * j.val = j.val; rw [(index1_1 t).2]; omega

end Cert.KernelIdeal.Hand

end
-- ==== Proof.KI.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.KI.Stats1Value.lean ====
/- The statistics region (custom_call 1): the VALUES of its two output rows, at the ideal (extended-real) values.
   With a0 the 100000x128 input and a1 the 1x128 bias row as the region finds them:
     output row 2 at lane j  =  Σ_{r < 100000} (a0[r, j] + a1[0, j])
     output row 3 at lane j  =  Σ_{r < 100000} (a0[r, j] + a1[0, j])²
   At the ideal values a column sum over a block's 2000 rows is a finite sum, so the accumulator recursion at lane j
   is the sum of the block sums so far (addition of extended reals is associative and commutative: no finiteness is
   needed); 50 blocks of 2000 rows are the 100000 rows; the one write-back (after block 49) writes the accumulators,
   and each output array is one block. -/
import proofs.«107028_j46583215292429_1_alg».proof.Proof.KI.Stats1Chain
import proofs.«107028_j46583215292429_1_alg».proof.Proof.KI.LibBlockedSum
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

/-! ## The payloads read at a lane, at the ideal values -/

/-- A column sum over the 2000 rows, read at lane `j`: the finite sum of the column. -/
theorem colsum1_apply (src : FVec Ideal S2000x128 .f32) (h : S2000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ r : Fin 2000, src (ix2 r j) := by
  refine (Ideal.multiReduction_add_single src 0x00000000#32 h hφ hacc (ix1 j)).trans ?_
  refine Finset.sum_congr rfl fun r _ => congrArg src ?_
  funext a
  match a with
  | ⟨0, _⟩ => exact Fin.ext rfl
  | ⟨1, _⟩ => exact Fin.ext rfl

/-- The block with the bias row added to every row, at (r, j). -/
theorem k1_pay3_apply (x0 : FVec Ideal S2000x128 .f32) (x1 : FVec Ideal S1x128 .f32) (r : Fin 2000) (j : Fin 128) :
    k1_pay3 x0 x1 (ix2 r j) = x0 (ix2 r j) + x1 (ix2 (0 : Fin 1) j) := by
  unfold k1_pay3
  refine (addf_apply _ _ _).trans ?_
  refine congrArg₂ (· + ·) (congrFun (shapeCast_self x0 _) _) ?_
  refine (broadcastTo_1b_ab_apply _ _ r j).trans ?_
  exact congrFun (shapeCast_self x1 _) _

/-- The new accumulator 0 at lane `j`: the old one plus the column's sum of (block + bias). -/
theorem k1_pay4_apply (x0 : FVec Ideal S2000x128 .f32) (x1 xs : FVec Ideal S1x128 .f32) (j : Fin 128) :
    k1_pay4 x0 x1 xs (ix2 (0 : Fin 1) j)
      = xs (ix2 (0 : Fin 1) j) + ∑ r : Fin 2000, (x0 (ix2 r j) + x1 (ix2 (0 : Fin 1) j)) := by
  unfold k1_pay4
  refine (congrFun (shapeCast_self _ _) _).trans ?_
  refine (addf_apply _ _ _).trans ?_
  refine congrArg (xs (ix2 (0 : Fin 1) j) + ·) ?_
  refine (shapeCast_a_1a_apply _ _ 0 j).trans ?_
  refine (colsum1_apply _ _ _ _ j).trans ?_
  exact Finset.sum_congr rfl fun r _ => k1_pay3_apply x0 x1 r j

/-- The new accumulator 1 at lane `j`: the old one plus the column's sum of (block + bias)². -/
theorem k1_pay5_apply (x0 : FVec Ideal S2000x128 .f32) (x1 xs : FVec Ideal S1x128 .f32) (j : Fin 128) :
    k1_pay5 x0 x1 xs (ix2 (0 : Fin 1) j)
      = xs (ix2 (0 : Fin 1) j)
        + ∑ r : Fin 2000, (x0 (ix2 r j) + x1 (ix2 (0 : Fin 1) j)) * (x0 (ix2 r j) + x1 (ix2 (0 : Fin 1) j)) := by
  unfold k1_pay5
  refine (congrFun (shapeCast_self _ _) _).trans ?_
  refine (addf_apply _ _ _).trans ?_
  refine congrArg (xs (ix2 (0 : Fin 1) j) + ·) ?_
  refine (shapeCast_a_1a_apply _ _ 0 j).trans ?_
  refine (colsum1_apply _ _ _ _ j).trans ?_
  refine Finset.sum_congr rfl fun r _ => ?_
  refine (mulf_apply _ _ _).trans ?_
  exact congrArg₂ (· * ·) (k1_pay3_apply x0 x1 r j) (k1_pay3_apply x0 x1 r j)

/-- The zero rows the first block stores are zero at every lane. -/
theorem k1_pay1_apply (j : Fin 128) : (k1_pay1 (F := Ideal)) (ix2 (0 : Fin 1) j) = 0 := by
  unfold k1_pay1
  refine (congrFun (shapeCast_self _ _) _).trans ?_
  exact Ideal.ofBits_zero_f32
theorem k1_pay2_apply (j : Fin 128) : (k1_pay2 (F := Ideal)) (ix2 (0 : Fin 1) j) = 0 := by
  unfold k1_pay2
  refine (congrFun (shapeCast_self _ _) _).trans ?_
  exact Ideal.ofBits_zero_f32

/-! ## The accumulators at a lane: sums over the blocks so far -/

variable (V : (c : Dev nD) → (b : Ref sig .tc) → Buf (Elt Ideal) ((c : Thread nD τ).loc b))

/-- The input array and the bias row as the region finds them, as functions into the extended reals. -/
abbrev a1_0 (c : Dev nD) : S100000x128.Idx → EReal := V c (Pipeline.arrRef spec1 0)
abbrev a1_1 (c : Dev nD) : S1x128.Idx → EReal := V c (Pipeline.arrRef spec1 1)
/-- The two inputs' blocks at point `t`, likewise. -/
abbrev b1_0 (c : Dev nD) (t : Fin cfg1.N) : S2000x128.Idx → EReal := iblk1 V c 0 t
abbrev b1_1 (c : Dev nD) (t : Fin cfg1.N) : S1x128.Idx → EReal := iblk1 V c 1 t
/-- The accumulators after block `n`, likewise. -/
abbrev acc1_0 (c : Dev nD) (n : ℕ) (h : n < cfg1.N) : S1x128.Idx → EReal := (acc1 V c n h).1
abbrev acc1_1 (c : Dev nD) (n : ℕ) (h : n < cfg1.N) : S1x128.Idx → EReal := (acc1 V c n h).2

/-- The summand of row `r` at lane `j`: the input plus the bias. -/
def term1 (c : Dev nD) (j : Fin 128) (r : Fin 100000) : EReal := a1_0 V c (ix2 r j) + a1_1 V c (ix2 (0 : Fin 1) j)

/-- Block `s`'s sum of a summand `H` over its 2000 rows (zero past the last block). -/
def bsum1 (H : Fin 100000 → EReal) (s : ℕ) : EReal :=
  if hs : s < 50 then ∑ p : Fin 2000, H ⟨2000 * s + p.val, by have := p.isLt; omega⟩ else 0

/-- The blocks' sums add up to the sum over all rows. -/
theorem sum_bsum1 (H : Fin 100000 → EReal) : ∑ s ∈ Finset.range 50, bsum1 H s = ∑ r : Fin 100000, H r := by
  rw [Finset.sum_range]
  refine Eq.trans ?_ (Cert.BlockedSum.sum_by_blocks (N := 50) (R := 2000) H).symm
  refine Finset.sum_congr rfl fun t _ => ?_
  unfold bsum1
  rw [dif_pos t.isLt]

/-- A row of a block, plus the bias, is the summand of its row of the array. -/
theorem term1_of_block (c : Dev nD) (j : Fin 128) (n : ℕ) (h : n < cfg1.N) (r : Fin 2000)
    (hr : 2000 * n + r.val < 100000) :
    b1_0 V c ⟨n, h⟩ (ix2 r j) + b1_1 V c ⟨n, h⟩ (ix2 (0 : Fin 1) j) = term1 V c j ⟨2000 * n + r.val, hr⟩ := by
  unfold term1
  exact congrArg₂ (· + ·) (iblk1_0_apply V c ⟨n, h⟩ r j hr) (iblk1_1_apply V c ⟨n, h⟩ j)

/-- A block's column sum of (block + bias) at lane `j` is that block's sum of the summands. -/
theorem blocksum1_eq (c : Dev nD) (j : Fin 128) (n : ℕ) (h : n < cfg1.N) :
    ∑ r : Fin 2000, (b1_0 V c ⟨n, h⟩ (ix2 r j) + b1_1 V c ⟨n, h⟩ (ix2 (0 : Fin 1) j)) = bsum1 (term1 V c j) n := by
  have hn : n < 50 := lt_of_lt_of_eq h N_1
  unfold bsum1
  rw [dif_pos hn]
  exact Finset.sum_congr rfl fun r _ => term1_of_block V c j n h r (by have := r.isLt; omega)

/-- The same of the squares. -/
theorem blocksumsq1_eq (c : Dev nD) (j : Fin 128) (n : ℕ) (h : n < cfg1.N) :
    ∑ r : Fin 2000, (b1_0 V c ⟨n, h⟩ (ix2 r j) + b1_1 V c ⟨n, h⟩ (ix2 (0 : Fin 1) j))
        * (b1_0 V c ⟨n, h⟩ (ix2 r j) + b1_1 V c ⟨n, h⟩ (ix2 (0 : Fin 1) j))
      = bsum1 (fun r => term1 V c j r * term1 V c j r) n := by
  have hn : n < 50 := lt_of_lt_of_eq h N_1
  unfold bsum1
  rw [dif_pos hn]
  refine Finset.sum_congr rfl fun r _ => ?_
  have e := term1_of_block V c j n h r (by have := r.isLt; omega)
  exact congrArg₂ (· * ·) e e

/-- Accumulator 0 after block `n`, at lane `j`: the sum of the first `n + 1` blocks' sums. -/
theorem acc1_fst_apply (c : Dev nD) (j : Fin 128) : ∀ (n : ℕ) (h : n < cfg1.N),
    acc1_0 V c n h (ix2 (0 : Fin 1) j) = ∑ s ∈ Finset.range (n + 1), bsum1 (term1 V c j) s
  | 0, h => by
    rw [Finset.sum_range_one, ← blocksum1_eq V c j 0 h]
    refine (k1_pay4_apply (b1_0 V c ⟨0, h⟩) (b1_1 V c ⟨0, h⟩) k1_pay1 j).trans ?_
    rw [k1_pay1_apply, zero_add]
  | n + 1, h => by
    rw [Finset.sum_range_succ, ← acc1_fst_apply c j n (Nat.lt_of_succ_lt h), ← blocksum1_eq V c j (n + 1) h]
    exact k1_pay4_apply (b1_0 V c ⟨n + 1, h⟩) (b1_1 V c ⟨n + 1, h⟩) (acc1_0 V c n (Nat.lt_of_succ_lt h)) j

/-- Accumulator 1 after block `n`, at lane `j`: the same of the squares. -/
theorem acc1_snd_apply (c : Dev nD) (j : Fin 128) : ∀ (n : ℕ) (h : n < cfg1.N),
    acc1_1 V c n h (ix2 (0 : Fin 1) j) = ∑ s ∈ Finset.range (n + 1), bsum1 (fun r => term1 V c j r * term1 V c j r) s
  | 0, h => by
    rw [Finset.sum_range_one, ← blocksumsq1_eq V c j 0 h]
    refine (k1_pay5_apply (b1_0 V c ⟨0, h⟩) (b1_1 V c ⟨0, h⟩) k1_pay2 j).trans ?_
    rw [k1_pay2_apply, zero_add]
  | n + 1, h => by
    rw [Finset.sum_range_succ, ← acc1_snd_apply c j n (Nat.lt_of_succ_lt h), ← blocksumsq1_eq V c j (n + 1) h]
    exact k1_pay5_apply (b1_0 V c ⟨n + 1, h⟩) (b1_1 V c ⟨n + 1, h⟩) (acc1_1 V c n (Nat.lt_of_succ_lt h)) j

/-- Accumulator 0 after the last block, at lane `j`: the sum over all 100000 rows of (input + bias). -/
theorem acc1_fst_total (c : Dev nD) (j : Fin 128) :
    acc1_0 V c 49 lt49 (ix2 (0 : Fin 1) j) = ∑ r : Fin 100000, (a1_0 V c (ix2 r j) + a1_1 V c (ix2 (0 : Fin 1) j)) :=
  (acc1_fst_apply V c j 49 lt49).trans (sum_bsum1 (term1 V c j))

/-- Accumulator 1 after the last block, at lane `j`: the sum over all rows of (input + bias)². -/
theorem acc1_snd_total (c : Dev nD) (j : Fin 128) :
    acc1_1 V c 49 lt49 (ix2 (0 : Fin 1) j)
      = ∑ r : Fin 100000, (a1_0 V c (ix2 r j) + a1_1 V c (ix2 (0 : Fin 1) j)) * (a1_0 V c (ix2 r j) + a1_1 V c (ix2 (0 : Fin 1) j)) :=
  (acc1_snd_apply V c j 49 lt49).trans (sum_bsum1 fun r => term1 V c j r * term1 V c j r)

end Cert.KernelIdeal.Hand

end
-- ==== Proof.KI.Stats1Final.lean ====
/- The statistics region (custom_call 1): its two output ARRAYS after the region. Each output row's one block is the
   whole 1x128 array and is written back once, after block 49, with the accumulator copied into it there; so output
   array 2 ends holding accumulator 0 after block 49 and output array 3 accumulator 1 (any float type). At the ideal
   values these are, lane by lane, the sums over all 100000 rows of (input + bias) and of its square. -/
import proofs.«107028_j46583215292429_1_alg».proof.Proof.KI.Stats1Value

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

section Arrays

variable {F : FTy → Type} [FloatOps F]
variable (V : (c : Dev nD) → (b : Ref sig .tc) → Buf (Elt F) ((c : Thread nD τ).loc b))

/-- The accumulation at equal block numbers is the same (whatever the bound's proof). -/
theorem outsAt1_congr (c : Dev nD) {n m : ℕ} (e : n = m) (hn : n < cfg1.N) (hm : m < cfg1.N) :
    outsAt1 V c n hn = outsAt1 V c m hm := by
  subst e; rfl

/-- Output window 2's block index is (0, 0) at every point, and its block is never cut. -/
theorem index1_2 : ∀ t : Fin cfg1.N, win1_2.index t 0 = 0 ∧ win1_2.index t 1 = 0 :=
  (by decide +kernel : ∀ t : Fin grid1.N, win1_2.index t 0 = 0 ∧ win1_2.index t 1 = 0)
theorem xsize1_2 : ∀ t : Fin cfg1.N, win1_2.xsize (grid1.coords t) 0 = 1 ∧ win1_2.xsize (grid1.coords t) 1 = 128 :=
  (by decide +kernel : ∀ t : Fin grid1.N, win1_2.xsize (grid1.coords t) 0 = 1 ∧ win1_2.xsize (grid1.coords t) 1 = 128)

/-- So its block at any point is the whole 1x128 array: every index of the array lies in it, -/
theorem mem1_2 (t : Fin cfg1.N) (i : S1x128.Idx) : i ∈ ((View.whole main_v42_0).slice (win1_2.rect t)).set := by
  rw [View.set_slice_whole, Rect.mem_set_unit]
  intro a
  have h0 : (i 0 : Nat) < 1 := (i 0).isLt
  have h1 : (i 1 : Nat) < 128 := (i 1).isLt
  match a with
  | ⟨0, _⟩ =>
    show win1_2.index t 0 * win1_2.size 0 ≤ (i 0 : Nat) ∧ (i 0 : Nat) < win1_2.index t 0 * win1_2.size 0 + win1_2.xsize (grid1.coords t) 0
    rw [(index1_2 t).1, (xsize1_2 t).1]; omega
  | ⟨1, _⟩ =>
    show win1_2.index t 1 * win1_2.size 1 ≤ (i 1 : Nat) ∧ (i 1 : Nat) < win1_2.index t 1 * win1_2.size 1 + win1_2.xsize (grid1.coords t) 1
    rw [(index1_2 t).2, (xsize1_2 t).2]; omega

/-- and the block read of contents `G` of the array is `G` (as is its uncut part). -/
theorem blk1_2_read (c : Dev nD) (t : Fin cfg1.N) (G : Buf (Elt F) ((c : Thread nD τ).loc main_v42_0)) :
    (cfg1.win 2).cut (grid1.coords t) G = ((cfg1.win 2).blk t).view.read (Elt F) G := by
  have hz' : (fun a => win1_2.index t a * main_v42_0.ty.shape.size a) = fun _ => 0 := funext fun a => by
    match a with
    | ⟨0, _⟩ => show win1_2.index t 0 * _ = 0; rw [(index1_2 t).1, Nat.zero_mul]
    | ⟨1, _⟩ => show win1_2.index t 1 * _ = 0; rw [(index1_2 t).2, Nat.zero_mul]
  exact (Memref.read_access_unit_zero (Elt F) main_v42_0 hz' (fun a => by rw [congrFun hz' a]; simp) G).symm

/-- At the last block output row 2 holds accumulator 0. -/
theorem out1_2_at (c : Dev nD) (t : Fin cfg1.N) (h49 : t.val = 49) :
    (outsAt1 V c t.val t.isLt).1 = (acc1 V c 49 lt49).1 :=
  (congrArg (fun p => p.1) (outsAt1_congr V c h49 t.isLt lt49)).trans (outsAt1_last V c).1

/-- What the one write-back of output row 2 (after block 49) writes is that accumulator. -/
theorem flushed1_2 (c : Dev nD) (t : Fin cfg1.N) (hf : (cfg1.win 2).flush t = true) :
    (dat1 V c).flushed 2 t = ((cfg1.win 2).blk t).view.read (Elt F) ((acc1 V c 49 lt49).1 : Buf (Elt F) ((c : Thread nD τ).loc main_v42_0)) := by
  have hN : cfg1.N = 50 := N_1
  have h49 : t.val = 49 := by have := (flush1_2 t).mp hf; have := t.isLt; omega
  show (cfg1.win 2).cut (grid1.coords t) ((dat1 V c).after 2 t) = _
  rw [after1_2, out1_2_at V c t h49]
  exact blk1_2_read c t _

/-- So output array 2 ends holding accumulator 0 after block 49. -/
theorem final1_2 (c : Dev nD) : (dat1 V c).arrAt 2 cfg1.N = ((acc1 V c 49 lt49).1 : Buf (Elt F) ((c : Thread nD τ).loc main_v42_0)) :=
  (dat1 V c).arrAt_eq_of_cover 2 _ (flushed1_2 V c) fun i => ⟨⟨49, lt49⟩, (flush1_2 ⟨49, lt49⟩).mpr rfl, mem1_2 ⟨49, lt49⟩ i⟩

/-- Output window 3's block index is (0, 0) at every point, and its block is never cut. -/
theorem index1_3 : ∀ t : Fin cfg1.N, win1_3.index t 0 = 0 ∧ win1_3.index t 1 = 0 :=
  (by decide +kernel : ∀ t : Fin grid1.N, win1_3.index t 0 = 0 ∧ win1_3.index t 1 = 0)
theorem xsize1_3 : ∀ t : Fin cfg1.N, win1_3.xsize (grid1.coords t) 0 = 1 ∧ win1_3.xsize (grid1.coords t) 1 = 128 :=
  (by decide +kernel : ∀ t : Fin grid1.N, win1_3.xsize (grid1.coords t) 0 = 1 ∧ win1_3.xsize (grid1.coords t) 1 = 128)

/-- So its block at any point is the whole 1x128 array: every index of the array lies in it, -/
theorem mem1_3 (t : Fin cfg1.N) (i : S1x128.Idx) : i ∈ ((View.whole main_v42_1).slice (win1_3.rect t)).set := by
  rw [View.set_slice_whole, Rect.mem_set_unit]
  intro a
  have h0 : (i 0 : Nat) < 1 := (i 0).isLt
  have h1 : (i 1 : Nat) < 128 := (i 1).isLt
  match a with
  | ⟨0, _⟩ =>
    show win1_3.index t 0 * win1_3.size 0 ≤ (i 0 : Nat) ∧ (i 0 : Nat) < win1_3.index t 0 * win1_3.size 0 + win1_3.xsize (grid1.coords t) 0
    rw [(index1_3 t).1, (xsize1_3 t).1]; omega
  | ⟨1, _⟩ =>
    show win1_3.index t 1 * win1_3.size 1 ≤ (i 1 : Nat) ∧ (i 1 : Nat) < win1_3.index t 1 * win1_3.size 1 + win1_3.xsize (grid1.coords t) 1
    rw [(index1_3 t).2, (xsize1_3 t).2]; omega

/-- and the block read of contents `G` of the array is `G` (as is its uncut part). -/
theorem blk1_3_read (c : Dev nD) (t : Fin cfg1.N) (G : Buf (Elt F) ((c : Thread nD τ).loc main_v42_1)) :
    (cfg1.win 3).cut (grid1.coords t) G = ((cfg1.win 3).blk t).view.read (Elt F) G := by
  have hz' : (fun a => win1_3.index t a * main_v42_1.ty.shape.size a) = fun _ => 0 := funext fun a => by
    match a with
    | ⟨0, _⟩ => show win1_3.index t 0 * _ = 0; rw [(index1_3 t).1, Nat.zero_mul]
    | ⟨1, _⟩ => show win1_3.index t 1 * _ = 0; rw [(index1_3 t).2, Nat.zero_mul]
  exact (Memref.read_access_unit_zero (Elt F) main_v42_1 hz' (fun a => by rw [congrFun hz' a]; simp) G).symm

/-- At the last block output row 3 holds accumulator 1. -/
theorem out1_3_at (c : Dev nD) (t : Fin cfg1.N) (h49 : t.val = 49) :
    (outsAt1 V c t.val t.isLt).2.1 = (acc1 V c 49 lt49).2 :=
  (congrArg (fun p => p.2.1) (outsAt1_congr V c h49 t.isLt lt49)).trans (outsAt1_last V c).2

/-- What the one write-back of output row 3 (after block 49) writes is that accumulator. -/
theorem flushed1_3 (c : Dev nD) (t : Fin cfg1.N) (hf : (cfg1.win 3).flush t = true) :
    (dat1 V c).flushed 3 t = ((cfg1.win 3).blk t).view.read (Elt F) ((acc1 V c 49 lt49).2 : Buf (Elt F) ((c : Thread nD τ).loc main_v42_1)) := by
  have hN : cfg1.N = 50 := N_1
  have h49 : t.val = 49 := by have := (flush1_3 t).mp hf; have := t.isLt; omega
  show (cfg1.win 3).cut (grid1.coords t) ((dat1 V c).after 3 t) = _
  rw [after1_3, out1_3_at V c t h49]
  exact blk1_3_read c t _

/-- So output array 3 ends holding accumulator 1 after block 49. -/
theorem final1_3 (c : Dev nD) : (dat1 V c).arrAt 3 cfg1.N = ((acc1 V c 49 lt49).2 : Buf (Elt F) ((c : Thread nD τ).loc main_v42_1)) :=
  (dat1 V c).arrAt_eq_of_cover 3 _ (flushed1_3 V c) fun i => ⟨⟨49, lt49⟩, (flush1_3 ⟨49, lt49⟩).mpr rfl, mem1_3 ⟨49, lt49⟩ i⟩

end Arrays

/-! ## The two sums -/

variable (V : (c : Dev nD) → (b : Ref sig .tc) → Buf (Elt Ideal) ((c : Thread nD τ).loc b))

/-- The two output arrays after the region, as functions into the extended reals. -/
abbrev o1_2 (c : Dev nD) : S1x128.Idx → EReal := (dat1 (F := Ideal) V c).arrAt 2 cfg1.N
abbrev o1_3 (c : Dev nD) : S1x128.Idx → EReal := (dat1 (F := Ideal) V c).arrAt 3 cfg1.N

/-- OUTPUT ROW 2: at lane `j`, the sum over all 100000 rows of (input + bias). -/
theorem stats1_sum (c : Dev nD) (j : Fin 128) :
    o1_2 V c (ix2 (0 : Fin 1) j) = ∑ r : Fin 100000, (a1_0 V c (ix2 r j) + a1_1 V c (ix2 (0 : Fin 1) j)) :=
  (congrFun (final1_2 V c) (ix2 (0 : Fin 1) j)).trans (acc1_fst_total V c j)

/-- OUTPUT ROW 3: at lane `j`, the sum over all 100000 rows of (input + bias)². -/
theorem stats1_sumsq (c : Dev nD) (j : Fin 128) :
    o1_3 V c (ix2 (0 : Fin 1) j)
      = ∑ r : Fin 100000, (a1_0 V c (ix2 r j) + a1_1 V c (ix2 (0 : Fin 1) j)) * (a1_0 V c (ix2 r j) + a1_1 V c (ix2 (0 : Fin 1) j)) :=
  (congrFun (final1_3 V c) (ix2 (0 : Fin 1) j)).trans (acc1_snd_total V c j)

end Cert.KernelIdeal.Hand

end
-- ==== Proof.KI.ApplySpec.lean ====
/- The batch-norm apply step as a function of extended reals, with no program in sight. One output entry is
     max (scale * (((x + bias) - mean) * rsqrt (variance + eps)) + shift) 0,
   eps the f32 word 0x3727C5AC kept as a word; the whole 100000 x 128 output reads, at (r, j), the feature entry (r, j)
   and lane j of each of the five 1 x 128 rows. -/
import Idealize.ShloMosaic.PureOps.Ideal
import Idealize.ShloMosaic.Lib.ValueIdx

noncomputable section

open Idealize.ShloMosaic
open Idealize.ShloMosaic.ValueIdx

namespace Cert.KernelIdeal.Hand

/-- One output entry from the feature entry x and its lane's bias, mean, variance, scale and shift. -/
def bnEntry (x b mu var g s : EReal) : EReal :=
  max (g * (((x + b) - mu) * Ideal.rsqrt (var + Ideal.ofBits .f32 0x3727C5AC#32)) + s) 0

/-- The whole output array from the six input arrays: entry (r, j) reads feature entry (r, j) and lane j of each row. -/
def bnArray (a0 : (⟨2, ![100000, 128]⟩ : Shape).Idx → EReal) (a1 a2 a3 a4 a5 : (⟨2, ![1, 128]⟩ : Shape).Idx → EReal) :
    (⟨2, ![100000, 128]⟩ : Shape).Idx → EReal := fun i =>
  bnEntry (a0 i) (a1 (ix2 (0 : Fin 1) (i 1 : Fin 128))) (a2 (ix2 (0 : Fin 1) (i 1 : Fin 128))) (a3 (ix2 (0 : Fin 1) (i 1 : Fin 128)))
    (a4 (ix2 (0 : Fin 1) (i 1 : Fin 128))) (a5 (ix2 (0 : Fin 1) (i 1 : Fin 128)))

/-- The offsets of a whole-buffer access on a rank-2 shape are all zero. -/
theorem hz00 : (![0, 0] : Fin 2 → Nat) = fun _ => 0 := funext fun a => by
  match a with
  | ⟨0, _⟩ => rfl
  | ⟨1, _⟩ => rfl

end Cert.KernelIdeal.Hand

end
-- ==== Proof.KI.Apply2Value.lean ====
/- The batch-norm apply region (custom_call 2) read as a closed form at the ideal values. The region's output array has
   100000 rows of 128 lanes; grid point t writes rows 2000 t .. 2000 t + 1999. Entry (r, j) of the output depends on
   entry (r, j) of the feature array and on lane j of the five one-row arrays (bias, mean, variance, scale, shift):
     max (scale_j * (((x_rj + bias_j) - mean_j) * rsqrt (variance_j + eps)) + shift_j) 0. -/
import proofs.«107028_j46583215292429_1_alg».proof.Proof.KI.Apply2
import proofs.«107028_j46583215292429_1_alg».proof.Proof.KI.ApplySpec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- the TensorCore's buffer contents when the region is entered, at the ideal values
variable (V : (c : Dev nD) → (b : Ref sig .tc) → Buf (Elt Ideal) ((c : Thread nD τ).loc b))

/-! ## The body's payload at an index -/

/-- The stored block at row p, lane q: the pointwise operations read there, each one-row operand broadcast down the rows
    read at lane q of its row. x1 bias, x2 mean, x3 variance, x4 scale, x5 shift (the payload takes x3 before x2). -/
theorem pay2_apply (x0 : Vec Ideal S2000x128 .f32) (x1 x2 x3 x4 x5 : Vec Ideal S1x128 .f32) (p : Fin 2000) (q : Fin 128) :
    k2_pay1 (F := Ideal) x0 x1 x3 x2 x4 x5 (ix2 p q)
      = bnEntry (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  have b1 := broadcastTo_1b_ab_apply (a := 2000) x1 broadcasts_S1x128_S2000x128 p q
  have b2 := broadcastTo_1b_ab_apply (a := 2000) x2 broadcasts_S1x128_S2000x128 p q
  have b3 := broadcastTo_1b_ab_apply (a := 2000) (fun i : S1x128.Idx => Ideal.rsqrt (x3 i + Ideal.ofBits .f32 0x3727C5AC#32)) broadcasts_S1x128_S2000x128 p q
  have b4 := broadcastTo_1b_ab_apply (a := 2000) x4 broadcasts_S1x128_S2000x128 p q
  have b5 := broadcastTo_1b_ab_apply (a := 2000) x5 broadcasts_S1x128_S2000x128 p q
  unfold k2_pay1
  simp only [shapeCast_self]
  show max (broadcastTo S2000x128 x4 broadcasts_S1x128_S2000x128 (ix2 p q)
      * (((x0 (ix2 p q) + broadcastTo S2000x128 x1 broadcasts_S1x128_S2000x128 (ix2 p q))
          - broadcastTo S2000x128 x2 broadcasts_S1x128_S2000x128 (ix2 p q))
        * broadcastTo S2000x128 (fun i : S1x128.Idx => Ideal.rsqrt (x3 i + Ideal.ofBits .f32 0x3727C5AC#32)) broadcasts_S1x128_S2000x128 (ix2 p q))
      + broadcastTo S2000x128 x5 broadcasts_S1x128_S2000x128 (ix2 p q)) (Ideal.ofBits .f32 0x00000000#32) = _
  rw [b1, b2, b3, b4, b5, Ideal.ofBits_zero_f32]
  rfl

/-- The same at any index of the block, its lane named by its second coordinate. -/
theorem pay2_at (x0 : Vec Ideal S2000x128 .f32) (x1 x2 x3 x4 x5 : Vec Ideal S1x128 .f32) (y : S2000x128.Idx) :
    k2_pay1 (F := Ideal) x0 x1 x3 x2 x4 x5 y
      = bnEntry (x0 y) (x1 (ix2 (0 : Fin 1) (y 1 : Fin 128))) (x2 (ix2 (0 : Fin 1) (y 1 : Fin 128))) (x3 (ix2 (0 : Fin 1) (y 1 : Fin 128)))
          (x4 (ix2 (0 : Fin 1) (y 1 : Fin 128))) (x5 (ix2 (0 : Fin 1) (y 1 : Fin 128))) := by
  obtain ⟨p, q, rfl⟩ : ∃ (p : Fin 2000) (q : Fin 128), y = ix2 p q := ⟨y 0, y 1, eq_ix2 y⟩
  exact pay2_apply x0 x1 x2 x3 x4 x5 p q

/-! ## From blocks to the array -/

/-- The printed index maps, decided over the 50 grid points: the feature window moves with the output window, whose
    block index is (t, 0); each one-row window stays at block (0, 0). -/
theorem idx_facts2 : ∀ t : Fin cfg2.N,
    win2_0.index t (0 : Fin 2) = win2_6.index t (0 : Fin 2) ∧ win2_0.index t (1 : Fin 2) = win2_6.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The closed form of the region's output array, from the six arrays as the region finds them. -/
def G2 (c : Dev nD) : S100000x128.Idx → EReal :=
  bnArray (V c main_v40) (V c main_v49) (V c main_v44) (V c main_v48) (V c main_v50) (V c main_v51)

/-- The arrays the seven windows stage, by name: features, bias, mean, variance, scale, shift, and the output. -/
theorem arr2_0 : Pipeline.arrRef spec2 0 = main_v40 := rfl
theorem arr2_1 : Pipeline.arrRef spec2 1 = main_v49 := rfl
theorem arr2_2 : Pipeline.arrRef spec2 2 = main_v44 := rfl
theorem arr2_3 : Pipeline.arrRef spec2 3 = main_v48 := rfl
theorem arr2_4 : Pipeline.arrRef spec2 4 = main_v50 := rfl
theorem arr2_5 : Pipeline.arrRef spec2 5 = main_v51 := rfl
theorem arr2_6 : Pipeline.arrRef spec2 6 = main_v52 := rfl

/-- The output window is uncut: writing back a block that agrees with G on the block's indices writes block t of G. -/
theorem cut_read2_6 (t : Fin cfg2.N) (X : Vec Ideal S2000x128 .f32) (G : S100000x128.Idx → EReal)
    (h : ∀ y : S2000x128.Idx, X y = G (((cfg2.win 6).blk t).view.emb y)) :
    (cfg2.win 6).cut (grid2.coords t) X = ((cfg2.win 6).blk t).view.read (Elt Ideal) G := by
  funext y
  exact h y

/-- The feature window's block at point t, at an index of the block, is the feature array at the output block's index
    there: both windows have block index (t, 0). -/
theorem iblk2_0_at (c : Dev nD) (t : Fin cfg2.N) (y : S2000x128.Idx) :
    (iblk2 V c 0 t : Vec Ideal S2000x128 .f32) y = (V c main_v40 : S100000x128.Idx → EReal) (((cfg2.win 6).blk t).view.emb y) := by
  obtain ⟨e00, e01, -⟩ := idx_facts2 t
  show (V c main_v40 : S100000x128.Idx → EReal) (((cfg2.win 0).blk t).view.emb y) = _
  refine congrArg _ ?_
  funext a; apply Fin.ext
  match a with
  | ⟨0, _⟩ => show win2_0.index t (0 : Fin 2) * 2000 + 1 * (y 0).val = win2_6.index t (0 : Fin 2) * 2000 + 1 * (y 0).val; omega
  | ⟨1, _⟩ => show win2_0.index t (1 : Fin 2) * 128 + 1 * (y 1).val = win2_6.index t (1 : Fin 2) * 128 + 1 * (y 1).val; omega

/-- The bias window's block at any point is its whole row. -/
theorem iblk2_1_at (c : Dev nD) (t : Fin cfg2.N) (q : Fin 128) :
    (iblk2 V c 1 t : Vec Ideal S1x128 .f32) (ix2 (0 : Fin 1) q) = (V c main_v49 : S1x128.Idx → EReal) (ix2 (0 : Fin 1) q) := by
  have e := idx_facts2 t
  show (V c main_v49 : S1x128.Idx → EReal) (((cfg2.win 1).blk t).view.emb (ix2 (0 : Fin 1) q)) = _
  refine congrArg _ ?_
  funext a; apply Fin.ext
  match a with
  | ⟨0, _⟩ => show win2_1.index t (0 : Fin 2) * 1 + 1 * 0 = 0; omega
  | ⟨1, _⟩ => show win2_1.index t (1 : Fin 2) * 128 + 1 * q.val = q.val; omega

/-- The mean window's block at any point is its whole row. -/
theorem iblk2_2_at (c : Dev nD) (t : Fin cfg2.N) (q : Fin 128) :
    (iblk2 V c 2 t : Vec Ideal S1x128 .f32) (ix2 (0 : Fin 1) q) = (V c main_v44 : S1x128.Idx → EReal) (ix2 (0 : Fin 1) q) := by
  have e := idx_facts2 t
  show (V c main_v44 : S1x128.Idx → EReal) (((cfg2.win 2).blk t).view.emb (ix2 (0 : Fin 1) q)) = _
  refine congrArg _ ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- The variance window's block at any point is its whole row. -/
theorem iblk2_3_at (c : Dev nD) (t : Fin cfg2.N) (q : Fin 128) :
    (iblk2 V c 3 t : Vec Ideal S1x128 .f32) (ix2 (0 : Fin 1) q) = (V c main_v48 : S1x128.Idx → EReal) (ix2 (0 : Fin 1) q) := by
  have e := idx_facts2 t
  show (V c main_v48 : S1x128.Idx → EReal) (((cfg2.win 3).blk t).view.emb (ix2 (0 : Fin 1) q)) = _
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- The scale window's block at any point is its whole row. -/
theorem iblk2_4_at (c : Dev nD) (t : Fin cfg2.N) (q : Fin 128) :
    (iblk2 V c 4 t : Vec Ideal S1x128 .f32) (ix2 (0 : Fin 1) q) = (V c main_v50 : S1x128.Idx → EReal) (ix2 (0 : Fin 1) q) := by
  have e := idx_facts2 t
  show (V c main_v50 : S1x128.Idx → EReal) (((cfg2.win 4).blk t).view.emb (ix2 (0 : Fin 1) q)) = _
  refine congrArg _ ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The shift window's block at any point is its whole row. -/
theorem iblk2_5_at (c : Dev nD) (t : Fin cfg2.N) (q : Fin 128) :
    (iblk2 V c 5 t : Vec Ideal S1x128 .f32) (ix2 (0 : Fin 1) q) = (V c main_v51 : S1x128.Idx → EReal) (ix2 (0 : Fin 1) q) := by
  have e := idx_facts2 t
  show (V c main_v51 : S1x128.Idx → EReal) (((cfg2.win 5).blk t).view.emb (ix2 (0 : Fin 1) q)) = _
  refine congrArg _ ?_
  funext a; apply Fin.ext
  match a with
  | ⟨0, _⟩ => show win2_5.index t (0 : Fin 2) * 1 + 1 * 0 = 0; omega
  | ⟨1, _⟩ => show win2_5.index t (1 : Fin 2) * 128 + 1 * q.val = q.val; omega

/-- The lane of the output block's index is the lane inside the block: the output's block index on the lane axis is 0. -/
theorem emb2_6_lane (t : Fin cfg2.N) (y : S2000x128.Idx) :
    ((((cfg2.win 6).blk t).view.emb y) 1 : Fin 128) = (y 1 : Fin 128) := by
  have e := idx_facts2 t
  apply Fin.ext
  show win2_6.index t (1 : Fin 2) * 128 + 1 * (y 1).val = (y 1).val
  omega

/-- The closed form at an index of point t's output block, by the lane inside the block. -/
theorem G2_at (c : Dev nD) (t : Fin cfg2.N) (y : S2000x128.Idx) :
    G2 V c (((cfg2.win 6).blk t).view.emb y)
      = bnEntry ((V c main_v40 : S100000x128.Idx → EReal) (((cfg2.win 6).blk t).view.emb y))
          ((V c main_v49 : S1x128.Idx → EReal) (ix2 (0 : Fin 1) (y 1 : Fin 128))) ((V c main_v44 : S1x128.Idx → EReal) (ix2 (0 : Fin 1) (y 1 : Fin 128)))
          ((V c main_v48 : S1x128.Idx → EReal) (ix2 (0 : Fin 1) (y 1 : Fin 128))) ((V c main_v50 : S1x128.Idx → EReal) (ix2 (0 : Fin 1) (y 1 : Fin 128)))
          ((V c main_v51 : S1x128.Idx → EReal) (ix2 (0 : Fin 1) (y 1 : Fin 128))) := by
  rw [← emb2_6_lane t y]
  rfl

/-- What point t writes back is block t of the closed form: rows 2000 t .. 2000 t + 1999, where the feature window's
    block is the same rows of the feature array and every one-row window's block is its whole row. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz00]
  simp only [View.ld_unit_zero (S := S2000x128) hz00, View.ld_unit_zero (S := S1x128) hz00]
  refine cut_read2_6 t _ _ fun y => ?_
  refine (pay2_at _ _ _ _ _ _ y).trans ?_
  rw [G2_at V c t y, iblk2_0_at V c t y, iblk2_1_at V c t (y 1), iblk2_2_at V c t (y 1), iblk2_3_at V c t (y 1),
    iblk2_4_at V c t (y 1), iblk2_5_at V c t (y 1)]

/-- An index of the output array is in point t's block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v52).slice (win2_6.rect t)).set ↔ _
  rw [View.set_slice_whole, Rect.mem_set_unit]
  exact Iff.rfl

/-- Every index of the output array is written back by some point: row r by point r / 2000. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, e60, e61⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The output array after the region's last point is the closed form. -/
theorem final2 (c : Dev nD) : (dat2 (F := Ideal) V c).arrAt 6 cfg2.N = G2 V c :=
  (dat2 (F := Ideal) V c).arrAt_eq_of_cover 6 (G2 V c) (fun t _ => flushed2_eq V c t) cover2

/-- The six input arrays as the region finds them, as functions into the extended reals: features, bias, mean,
    variance, scale, shift. -/
abbrev a2_0 (c : Dev nD) : S100000x128.Idx → EReal := V c main_v40
abbrev a2_1 (c : Dev nD) : S1x128.Idx → EReal := V c main_v49
abbrev a2_2 (c : Dev nD) : S1x128.Idx → EReal := V c main_v44
abbrev a2_3 (c : Dev nD) : S1x128.Idx → EReal := V c main_v48
abbrev a2_4 (c : Dev nD) : S1x128.Idx → EReal := V c main_v50
abbrev a2_5 (c : Dev nD) : S1x128.Idx → EReal := V c main_v51

/-- Entry by entry: row r, lane j of the output from row r, lane j of the features and lane j of the five rows. -/
theorem apply2_entry (c : Dev nD) (r : Fin 100000) (j : Fin 128) :
    @Eq EReal ((dat2 (F := Ideal) V c).arrAt 6 cfg2.N (ix2 r j))
      (max (a2_4 V c (ix2 (0 : Fin 1) j)
          * (((a2_0 V c (ix2 r j) + a2_1 V c (ix2 (0 : Fin 1) j)) - a2_2 V c (ix2 (0 : Fin 1) j))
            * Ideal.rsqrt (a2_3 V c (ix2 (0 : Fin 1) j) + Ideal.ofBits .f32 0x3727C5AC#32))
          + a2_5 V c (ix2 (0 : Fin 1) j)) 0) := by
  have h := congrFun (final2 V c) (ix2 r j)
  exact h

end Cert.KernelIdeal.Hand

end
-- ==== Proof.KI.Chain2.lean ====
/-
  First layer, from the aggregate to the normalised features. The statistics region leaves, lane by lane, the sum over all rows of
  y = aggregate + bias and the sum of y·y; the host divides by the row count, so the mean is Σy/n and the variance row holds
  Σy²/n − (Σy/n)²; the normalisation region leaves max(scale·((y − mean)·rsqrt(var + ε)) + shift, 0). For real y this is the
  reference's entry, whose variance is the mean squared deviation.
-/
import proofs.«107028_j46583215292429_1_alg».proof.Proof.KI.Chain1
import proofs.«107028_j46583215292429_1_alg».proof.Proof.KI.Stats1Final
import proofs.«107028_j46583215292429_1_alg».proof.Proof.KI.Apply2Value
import proofs.«107028_j46583215292429_1_alg».proof.Proof.KI.RefForms1

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The bias row the statistics region reads. -/
theorem c3_v41 (j : Fin 128) : U3 m c (Proc.devRef .tc main_v41) (ix2 (0 : Fin 1) j) = (m (c, Proc.devRef .tc main_arg3)) (ix1 j) := by
  refine (Cert.KernelIdeal.HostBridge.host1_v41 (U2 m c) j).trans ?_
  rw [U2_arg m c main_arg3 (by decide)]

/-- What the statistics region reads is the aggregate and the bias, so its summand is the reference's biased aggregate. -/
theorem term1_eq (r : Fin 100000) (j : Fin 128) :
    a1_0 (T3 m) c (ix2 r j) + a1_1 (T3 m) c (ix2 (0 : Fin 1) j)
      = Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) := by
  rw [Cert.RefForms.v43_entry, ← c3_v40 m c, ← c3_v41 m c j]

theorem c4_sum (j : Fin 128) : U4 m c (Proc.devRef .tc main_v42_0) (ix2 (0 : Fin 1) j)
    = ∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) := by
  have h := stats1_sum (T3 m) c j
  have e : U4 m c (Proc.devRef .tc main_v42_0) = (dat1 (F := Ideal) (T3 m) c).arrAt 2 cfg1.N := U4_arr m c 2
  rw [e]
  have h2 : (∑ r : Fin 100000, (a1_0 (T3 m) c (ix2 r j) + a1_1 (T3 m) c (ix2 (0 : Fin 1) j)) : EReal)
      = ∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) :=
    Finset.sum_congr rfl fun r _ => term1_eq m c r j
  exact h.trans h2

theorem c4_sumsq (j : Fin 128) : U4 m c (Proc.devRef .tc main_v42_1) (ix2 (0 : Fin 1) j)
    = ∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)
        * Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) := by
  have h := stats1_sumsq (T3 m) c j
  have e : U4 m c (Proc.devRef .tc main_v42_1) = (dat1 (F := Ideal) (T3 m) c).arrAt 3 cfg1.N := U4_arr m c 3
  rw [e]
  have h2 : (∑ r : Fin 100000, (a1_0 (T3 m) c (ix2 r j) + a1_1 (T3 m) c (ix2 (0 : Fin 1) j)) * (a1_0 (T3 m) c (ix2 r j) + a1_1 (T3 m) c (ix2 (0 : Fin 1) j)) : EReal)
      = ∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) * Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) :=
    Finset.sum_congr rfl fun r _ => by rw [term1_eq m c r j]
  exact h.trans h2

/-- The rows the normalisation region reads. -/
theorem c5_v44 (j : Fin 128) : U5 m c (Proc.devRef .tc main_v44) (ix2 (0 : Fin 1) j)
    = Ideal.div (∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)) (Ideal.ofBits .f32 0x47C35000#32) := by
  refine (Cert.KernelIdeal.HostBridge.host2_v44 (U4 m c) j).trans ?_
  rw [c4_sum m c j]
theorem c5_v48 (j : Fin 128) : U5 m c (Proc.devRef .tc main_v48) (ix2 (0 : Fin 1) j)
    = Ideal.div (∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)
          * Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)) (Ideal.ofBits .f32 0x47C35000#32)
      - Ideal.div (∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)) (Ideal.ofBits .f32 0x47C35000#32)
        * Ideal.div (∑ r : Fin 100000, Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j)) (Ideal.ofBits .f32 0x47C35000#32) := by
  refine (Cert.KernelIdeal.HostBridge.host2_v48 (U4 m c) j).trans ?_
  rw [c4_sum m c j, c4_sumsq m c j]
theorem c5_v49 (j : Fin 128) : U5 m c (Proc.devRef .tc main_v49) (ix2 (0 : Fin 1) j) = (m (c, Proc.devRef .tc main_arg3)) (ix1 j) := by
  refine (Cert.KernelIdeal.HostBridge.host2_v49 (U4 m c) j).trans ?_
  rw [U4_arg m c main_arg3 (by decide)]
theorem c5_v50 (j : Fin 128) : U5 m c (Proc.devRef .tc main_v50) (ix2 (0 : Fin 1) j) = (m (c, Proc.devRef .tc main_arg4)) (ix1 j) := by
  refine (Cert.KernelIdeal.HostBridge.host2_v50 (U4 m c) j).trans ?_
  rw [U4_arg m c main_arg4 (by decide)]
theorem c5_v51 (j : Fin 128) : U5 m c (Proc.devRef .tc main_v51) (ix2 (0 : Fin 1) j) = (m (c, Proc.devRef .tc main_arg5)) (ix1 j) := by
  refine (Cert.KernelIdeal.HostBridge.host2_v51 (U4 m c) j).trans ?_
  rw [U4_arg m c main_arg5 (by decide)]

/-- The first layer's normalised, rectified features are the reference's, when the biased aggregate has only real entries. -/
theorem c6_v52 (hy : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) :
    U6 m c (Proc.devRef .tc main_v52) = Cert.ReferenceIdeal.Read.val_main_v69 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) := by
  refine (U6_arr m c 6).trans ?_
  funext i
  obtain ⟨r, j, rfl⟩ : ∃ (r : Fin 100000) (j : Fin 128), i = ix2 r j := ⟨i 0, i 1, eq_ix2 i⟩
  refine (apply2_entry (T5 m) c r j).trans ?_
  have e0 : a2_0 (T5 m) c (ix2 r j) + a2_1 (T5 m) c (ix2 (0 : Fin 1) j)
      = Cert.ReferenceIdeal.Read.val_main_v43 (F := Ideal) (m (c, Proc.devRef .tc main_arg0)) (m (c, Proc.devRef .tc main_arg1)) (m (c, Proc.devRef .tc main_arg2)) (m (c, Proc.devRef .tc main_arg3)) (ix2 r j) := by
    rw [Cert.RefForms.v43_entry, ← c3_v40 m c, ← U5_v40 m c, ← c5_v49 m c j]
  rw [e0, show a2_2 (T5 m) c (ix2 (0 : Fin 1) j) = _ from c5_v44 m c j, show a2_3 (T5 m) c (ix2 (0 : Fin 1) j) = _ from c5_v48 m c j,
    show a2_4 (T5 m) c (ix2 (0 : Fin 1) j) = _ from c5_v50 m c j, show a2_5 (T5 m) c (ix2 (0 : Fin 1) j) = _ from c5_v51 m c j]
  exact Cert.Glue.glue_bn1 _ _ _ _ _ _ hy r j

end Cert.KernelIdeal.Hand

end
-- ==== Proof.KI.Mat3Value.lean ====
/- Matmul region 3 over the extended reals: the output array after the region is the product of the left matrix
   [100000, 128] and the right matrix [128, 128] as the region finds them — entry (r, j) is the sum over k of
   left(r, k) · right(k, j). Each grid point writes the block of rows 2000·t … 2000·t + 1999, which depends on the
   same rows of the left matrix and on the whole right matrix. -/
import proofs.«107028_j46583215292429_1_alg».proof.Proof.KI.Mat3
import proofs.«107028_j46583215292429_1_alg».proof.Proof.KI.LibDenseLayer
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered, over the extended reals
variable (V : (c : Dev nD) → (b : Ref sig .tc) → Buf (Elt Ideal) ((c : Thread nD τ).loc b))

theorem hzM3 : (![0, 0] : Fin 2 → Nat) = fun _ => 0 := funext fun a => by fin_cases a <;> rfl

/-! ## The product at an entry of a block -/

/-- The matrix unit's index functions: the left operand is read at (output row, contraction position), -/
theorem dot3_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot3_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at (contraction position, output column). -/
theorem dot3_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot3_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of what the body stores: over the extended reals rounding an operand changes nothing and the
    accumulator starts at zero, so it is the sum over the contracted axis of row p of the left block times
    column q of the right matrix. -/
theorem pay3_apply (x0 : Vec Ideal S2000x128 .f32) (x1 : Vec Ideal S128x128 .f32) (p : Fin 2000) (q : Fin 128) :
    k3_pay1 (F := Ideal) x0 x1 (ix2 p q) = ∑ k : Fin 128, x0 (ix2 p k) * x1 (ix2 k q) := by
  unfold k3_pay1
  simp only [shapeCast_self]
  exact Cert.DenseLayer.matmul_rows_cols (A := 2000) (K := 128) (B := 128) dot_S2000x128_S128x128_S2000x128_1_0_0_1_n_n rfl rfl dot3_l0 dot3_l1 dot3_r0 dot3_r1 none _ _ p q

/-! ## From blocks to the array -/

/-- The product of a [100000, 128] matrix by a [128, 128] matrix, entry by entry:
    entry (r, j) is the sum over k of left(r, k) · right(k, j). -/
def prod3 (l : S100000x128.Idx → Elt Ideal .f32) (r : S128x128.Idx → Elt Ideal .f32) : S100000x128.Idx → Elt Ideal .f32 :=
  fun i => ∑ k : Fin 128, l (ix2 (⟨(i 0).val, (i 0).isLt⟩ : Fin 100000) k) * r (ix2 k (⟨(i 1).val, (i 1).isLt⟩ : Fin 128))

/-- The windows' block indices at a point, decided over the grid: the left matrix's row block moves with the output's
    row block; its column block, both block indices of the right matrix and the output's column block stay at 0. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every row block of the output is some point's. -/
theorem idx_onto3 : ∀ q0 : Fin 50, ∃ t : Fin cfg3.N, win3_2.index t = ![q0.val, 0] :=
  (by decide +kernel : ∀ q0 : Fin 50, ∃ t : Fin grid3.N, win3_2.index t = ![q0.val, 0])

/-- Entry (p, k) of the left matrix's row block at point `t` is the matrix's entry (r, k), r the array row of the
    output block's row p. -/
theorem lblk3_apply (c : Dev nD) (t : Fin cfg3.N) (p : Fin 2000) (k : Fin 128) (r : Fin 100000)
    (hr : r.val = win3_2.index t (0 : Fin 2) * 2000 + p.val) :
    (iblk3 V c 0 t : Vec Ideal S2000x128 .f32) (ix2 p k) = (V c (Pipeline.arrRef spec3 0) : S100000x128.Idx → Elt Ideal .f32) (ix2 r k) := by
  obtain ⟨e0, e1, -, -, -⟩ := idx_facts3 t
  unfold iblk3
  show V c (Pipeline.arrRef spec3 0) (((cfg3.win 0).blk t).view.emb (ix2 p k)) = V c (Pipeline.arrRef spec3 0) (ix2 r k)
  refine congrArg _ ?_
  funext a; apply Fin.ext
  match a with
  | ⟨0, _⟩ => show win3_0.index t (0 : Fin 2) * 2000 + 1 * p.val = r.val; omega
  | ⟨1, _⟩ => show win3_0.index t (1 : Fin 2) * 128 + 1 * k.val = k.val; omega

/-- The right matrix's one block is the matrix. -/
theorem rblk3_apply (c : Dev nD) (t : Fin cfg3.N) (k : Fin 128) (q : Fin 128) (j : Fin 128) (hj : j.val = q.val) :
    (iblk3 V c 1 t : Vec Ideal S128x128 .f32) (ix2 k q) = (V c (Pipeline.arrRef spec3 1) : S128x128.Idx → Elt Ideal .f32) (ix2 k j) := by
  obtain ⟨-, -, e2, e3, -⟩ := idx_facts3 t
  unfold iblk3
  show V c (Pipeline.arrRef spec3 1) (((cfg3.win 1).blk t).view.emb (ix2 k q)) = V c (Pipeline.arrRef spec3 1) (ix2 k j)
  refine congrArg _ ?_
  funext a; apply Fin.ext
  match a with
  | ⟨0, _⟩ => show win3_1.index t (0 : Fin 2) * 128 + 1 * k.val = k.val; omega
  | ⟨1, _⟩ => show win3_1.index t (1 : Fin 2) * 128 + 1 * q.val = j.val; omega

/-- What point `t` writes back is block `t` of the product of the two matrices as the region finds them. -/
theorem flushed3_eq (c : Dev nD) (t : Fin cfg3.N) :
    (dat3 V c).flushed 2 t = ((cfg3.win 2).blk t).view.read (Elt Ideal) (prod3 (V c (Pipeline.arrRef spec3 0)) (V c (Pipeline.arrRef spec3 1))) := by
  show (cfg3.win 2).cut (grid3.coords t) ((dat3 V c).after 2 t) = _
  rw [after3_2]
  unfold out3_2
  rw [View.canon_unit_zero hzM3]
  simp only [View.ld_unit_zero (S := S2000x128) hzM3, View.ld_unit_zero (S := S128x128) hzM3]
  funext y
  obtain ⟨p, q, rfl⟩ : ∃ (p : Fin 2000) (q : Fin 128), y = ix2 p q := ⟨y 0, y 1, eq_ix2 y⟩
  refine (pay3_apply _ _ p q).trans ?_
  obtain ⟨-, -, -, -, e4⟩ := idx_facts3 t
  show _ = prod3 (V c (Pipeline.arrRef spec3 0)) (V c (Pipeline.arrRef spec3 1)) (((cfg3.win 2).blk t).view.emb (ix2 p q))
  unfold prod3
  refine Finset.sum_congr rfl fun k _ => ?_
  refine congrArg₂ (· * ·) (lblk3_apply V c t p k _ ?_) (rblk3_apply V c t k q _ ?_)
  · show win3_2.index t (0 : Fin 2) * 2000 + 1 * p.val = win3_2.index t (0 : Fin 2) * 2000 + p.val; omega
  · show win3_2.index t (1 : Fin 2) * 128 + 1 * q.val = q.val; omega

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v53).slice (win3_2.rect t)).set ↔ _
  rw [View.set_slice_whole, Rect.mem_set_unit]
  exact Iff.rfl

/-- The output array after the region: the product of the two matrices. Row r is in the block of point r / 2000,
    and every point writes its block back. -/
theorem final3 (c : Dev nD) :
    (dat3 V c).arrAt 2 cfg3.N = prod3 (V c (Pipeline.arrRef spec3 0)) (V c (Pipeline.arrRef spec3 1)) :=
  (dat3 V c).arrAt_eq_of_cover 2 _ (fun t _ => flushed3_eq V c t) fun i => by
    have hi0 : (i 0).val < 100000 := (i 0).isLt
    have hi1 : (i 1).val < 128 := (i 1).isLt
    obtain ⟨t, ht⟩ := idx_onto3 ⟨(i 0).val / 2000, by omega⟩
    have q0 : win3_2.index t (0 : Fin 2) = (i 0).val / 2000 := congrFun ht 0
    have q1 : win3_2.index t (1 : Fin 2) = 0 := congrFun ht 1
    refine ⟨t, flush3_2 t, ?_⟩
    rw [mem_blk3]
    intro a
    match a with
    | ⟨0, _⟩ => show win3_2.index t (0 : Fin 2) * 2000 ≤ (i 0).val ∧ (i 0).val < win3_2.index t (0 : Fin 2) * 2000 + 2000; omega
    | ⟨1, _⟩ => show win3_2.index t (1 : Fin 2) * 128 ≤ (i 1).val ∧ (i 1).val < win3_2.index t (1 : Fin 2) * 128 + 128; omega

/-- The product read at an entry given by its two coordinates. -/
theorem prod3_apply (l : S100000x128.Idx → Elt Ideal .f32) (w : S128x128.Idx → Elt Ideal .f32) (r : Fin 100000) (j : Fin 128) :
    prod3 l w (ix2 r j) = ∑ k : Fin 128, l (ix2 r k) * w (ix2 k j) := rfl

/-- Entry (r, j) of the output array after the region is entry (r, j) of the product of the two matrices as the
    region finds them: by `prod3_apply`, the sum over k of left(r, k) · right(k, j). -/
theorem mat3_entry (c : Dev nD) (r : Fin 100000) (j : Fin 128) :
    (dat3 V c).arrAt 2 cfg3.N (ix2 r j) = prod3 (V c (Pipeline.arrRef spec3 0)) (V c (Pipeline.arrRef spec3 1)) (ix2 r j) :=
  congrFun (final3 V c) (ix2 r j)

end Cert.KernelIdeal.Hand

end
-- ==== Proof.KI.Stats4Pieces.lean ====
/- The statistics region (custom_call 4): what each control case leaves in the accumulator rows and the output
   rows, as VALUES of the payload functions. With s(x0, x1) the 2000x128 block plus the bias row on every row:
   accumulator 0 becomes (previous accumulator 0) + column sums of s, accumulator 1 (previous accumulator 1) +
   column sums of s·s; at the first block "previous" is the zero row just stored; at the last block the output
   rows receive the new accumulators. Each is read off the one covering store the case's run found. -/
import proofs.«107028_j46583215292429_1_alg».proof.Proof.KI.Stats4
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets zero, as a constant function. -/
theorem hz2_4 : (![0, 0] : Fin 2 → Nat) = fun _ => 0 := funext fun a => by fin_cases a <;> rfl

/-! ## A middle block -/

/-- Accumulator 0 after a middle block: the payload of its one covering store, whose loads read the whole buffers. -/
theorem sout4_B_0_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S2000x128 .f32) (x1 xs0 xs1 : Vec F S1x128 .f32) :
    sout4_B_0 c i arg1 harg1 arg2 harg2 arg3 harg3 arg4 harg4 arg5 harg5 arg6 harg6 hc0 hc1 x0 x1 xs0 xs1 = k4_pay4 x0 x1 xs0 := by
  unfold sout4_B_0
  rw [View.read_writes_eq_canon _ _ _ (scover4_B_0 c i arg1 harg1 arg2 harg2 arg3 harg3 arg4 harg4 arg5 harg5 arg6 harg6 hc0 hc1 x0 x1 xs0 xs1)]
  unfold kernelRun4_B
  dsimp only
  rw [View.canon_unit_zero (S := S1x128) hz2_4]
  simp only [View.readAt_eq_ld, harg1.read_unread, harg2.read_unread, harg5.read_unread, View.ld_unit_zero (S := S2000x128) hz2_4, View.ld_unit_zero (S := S1x128) hz2_4]

/-- Accumulator 1 after a middle block. -/
theorem sout4_B_1_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S2000x128 .f32) (x1 xs0 xs1 : Vec F S1x128 .f32) :
    sout4_B_1 c i arg1 harg1 arg2 harg2 arg3 harg3 arg4 harg4 arg5 harg5 arg6 harg6 hc0 hc1 x0 x1 xs0 xs1 = k4_pay5 x0 x1 xs1 := by
  unfold sout4_B_1
  rw [View.read_writes_eq_canon _ _ _ (scover4_B_1 c i arg1 harg1 arg2 harg2 arg3 harg3 arg4 harg4 arg5 harg5 arg6 harg6 hc0 hc1 x0 x1 xs0 xs1)]
  unfold kernelRun4_B
  dsimp only
  rw [View.canon_unit_zero (S := S1x128) hz2_4]
  simp only [View.readAt_eq_ld, harg1.read_unread, harg2.read_unread, harg6.read_unread, View.ld_unit_zero (S := S2000x128) hz2_4, View.ld_unit_zero (S := S1x128) hz2_4]

/-! ## The first block -/

/-- Accumulator 0 after the first block: the zero row is stored, read back, and the column sums added to it. -/
theorem sout4_A_0_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S2000x128 .f32) (x1 : Vec F S1x128 .f32) :
    sout4_A_0 c i arg1 harg1 arg2 harg2 arg3 harg3 arg4 harg4 arg5 harg5 arg6 harg6 hc0 hc1 x0 x1 = k4_pay4 x0 x1 k4_pay1 := by
  unfold sout4_A_0
  rw [View.read_writes_eq_canon _ _ _ (scover4_A_0 c i arg1 harg1 arg2 harg2 arg3 harg3 arg4 harg4 arg5 harg5 arg6 harg6 hc0 hc1 x0 x1)]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, View.ld_unit_zero (S := S2000x128) hz2_4, View.ld_unit_zero (S := S1x128) hz2_4]

/-- Accumulator 1 after the first block. -/
theorem sout4_A_1_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S2000x128 .f32) (x1 : Vec F S1x128 .f32) :
    sout4_A_1 c i arg1 harg1 arg2 harg2 arg3 harg3 arg4 harg4 arg5 harg5 arg6 harg6 hc0 hc1 x0 x1 = k4_pay5 x0 x1 k4_pay2 := by
  unfold sout4_A_1
  rw [View.read_writes_eq_canon _ _ _ (scover4_A_1 c i arg1 harg1 arg2 harg2 arg3 harg3 arg4 harg4 arg5 harg5 arg6 harg6 hc0 hc1 x0 x1)]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, View.ld_unit_zero (S := S2000x128) hz2_4, View.ld_unit_zero (S := S1x128) hz2_4]

/-! ## The last block -/

/-- Accumulator 0 after the last block. -/
theorem sout4_C_0_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 xs0 xs1 : Vec F S1x128 .f32) :
    sout4_C_0 c i arg1 harg1 arg2 harg2 arg3 harg3 arg4 harg4 arg5 harg5 arg6 harg6 hc0 hc1 x0 x1 xs0 xs1 = k4_pay4 x0 x1 xs0 := by
  unfold sout4_C_0
  rw [View.read_writes_eq_canon _ _ _ (scover4_C_0 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2_4]
  simp only [View.readAt_eq_ld, harg1.read_unread, harg2.read_unread, harg5.read_unread, View.ld_unit_zero (S := S2000x128) hz2_4, View.ld_unit_zero (S := S1x128) hz2_4]

/-- Accumulator 1 after the last block. -/
theorem sout4_C_1_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 xs0 xs1 : Vec F S1x128 .f32) :
    sout4_C_1 c i arg1 harg1 arg2 harg2 arg3 harg3 arg4 harg4 arg5 harg5 arg6 harg6 hc0 hc1 x0 x1 xs0 xs1 = k4_pay5 x0 x1 xs1 := by
  unfold sout4_C_1
  rw [View.read_writes_eq_canon _ _ _ (scover4_C_1 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2_4]
  simp only [View.readAt_eq_ld, harg1.read_unread, harg2.read_unread, harg6.read_unread, View.ld_unit_zero (S := S2000x128) hz2_4, View.ld_unit_zero (S := S1x128) hz2_4]

/-- Output row 2 after the last block: accumulator 0 read back after its store, so the same value. -/
theorem out4_C_2_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 xs0 xs1 : Vec F S1x128 .f32) :
    out4_C_2 c i arg1 harg1 arg2 harg2 arg3 harg3 arg4 harg4 arg5 harg5 arg6 harg6 hc0 hc1 x0 x1 xs0 xs1 = k4_pay4 x0 x1 xs0 := by
  unfold out4_C_2
  rw [View.read_writes_eq_canon _ _ _ (cover4_C_2 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2_4, View.readCov_unit_zero (S := S1x128) _ hz2_4]
  simp only [View.readAt_eq_ld, harg1.read_unread, harg2.read_unread, harg5.read_unread, View.ld_unit_zero (S := S2000x128) hz2_4, View.ld_unit_zero (S := S1x128) hz2_4]

/-- Output row 3 after the last block: accumulator 1 read back after its store. -/
theorem out4_C_3_eq (c : Dev nD) (i : grid4.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S2000x128 .f32) (x1 xs0 xs1 : Vec F S1x128 .f32) :
    out4_C_3 c i arg1 harg1 arg2 harg2 arg3 harg3 arg4 harg4 arg5 harg5 arg6 harg6 hc0 hc1 x0 x1 xs0 xs1 = k4_pay5 x0 x1 xs1 := by
  unfold out4_C_3
  rw [View.read_writes_eq_canon _ _ _ (cover4_C_3 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2_4, View.readCov_unit_zero (S := S1x128) _ hz2_4]
  simp only [View.readAt_eq_ld, harg1.read_unread, harg2.read_unread, harg6.read_unread, View.ld_unit_zero (S := S2000x128) hz2_4, View.ld_unit_zero (S := S1x128) hz2_4]

end Cert.KernelIdeal.Hand

end
-- ==== Proof.KI.Stats4Chain.lean ====
/- The statistics region (custom_call 4): its accumulators as a recursion over the 50 row blocks, for any float type.
   acc(0) = zero rows + column sums of block 0 (plus bias; and of the squares), acc(n) = acc(n-1) + column sums of
   block n. What the accumulation of the frame holds after block n is this recursion (induction on the block, each
   case read off its covering store), and after block 49 the two output rows hold acc(49). Also: where a row of a
   block sits in the input array (row 2000·t + r), the bias row's block being the row itself. -/
import proofs.«107028_j46583215292429_1_alg».proof.Proof.KI.Stats4Pieces
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## One block's step, in payload form -/

/-- At the first block the accumulators become the zero rows plus the block's column sums. -/
theorem step4_A (c : Dev nD) (t : Fin cfg4.N) (h0 : t.val % 50 = 0) (h1 : ¬t.val % 50 = 49) :
    (outsAt4 V c t.val t.isLt).2.2.1 = k4_pay4 (iblk4 V c 0 t) (iblk4 V c 1 t) k4_pay1
    ∧ (outsAt4 V c t.val t.isLt).2.2.2 = k4_pay5 (iblk4 V c 0 t) (iblk4 V c 1 t) k4_pay2 := by
  rw [outsAt4_A V c t h0 h1]
  exact ⟨sout4_A_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
    sout4_A_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)⟩

/-- At a middle block the accumulators become what the block before left plus the block's column sums. -/
theorem step4_B (c : Dev nD) (t : Fin cfg4.N) (h0 : ¬t.val % 50 = 0) (h1 : ¬t.val % 50 = 49) :
    (outsAt4 V c t.val t.isLt).2.2.1 = k4_pay4 (iblk4 V c 0 t) (iblk4 V c 1 t) (outsAt4 V c (t.val - 1) (Nat.lt_of_le_of_lt (Nat.sub_le _ _) t.isLt)).2.2.1
    ∧ (outsAt4 V c t.val t.isLt).2.2.2 = k4_pay5 (iblk4 V c 0 t) (iblk4 V c 1 t) (outsAt4 V c (t.val - 1) (Nat.lt_of_le_of_lt (Nat.sub_le _ _) t.isLt)).2.2.2 := by
  rw [outsAt4_B V c t h0 h1]
  exact ⟨sout4_B_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2,
    sout4_B_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2⟩

set_option maxHeartbeats 1000000 in
/-- At the last block the same, and the output rows receive the new accumulators. -/
theorem step4_C (c : Dev nD) (t : Fin cfg4.N) (h0 : ¬t.val % 50 = 0) (h1 : t.val % 50 = 49) :
    ((outsAt4 V c t.val t.isLt).2.2.1 = k4_pay4 (iblk4 V c 0 t) (iblk4 V c 1 t) (outsAt4 V c (t.val - 1) (Nat.lt_of_le_of_lt (Nat.sub_le _ _) t.isLt)).2.2.1
    ∧ (outsAt4 V c t.val t.isLt).2.2.2 = k4_pay5 (iblk4 V c 0 t) (iblk4 V c 1 t) (outsAt4 V c (t.val - 1) (Nat.lt_of_le_of_lt (Nat.sub_le _ _) t.isLt)).2.2.2)
    ∧ ((outsAt4 V c t.val t.isLt).1 = k4_pay4 (iblk4 V c 0 t) (iblk4 V c 1 t) (outsAt4 V c (t.val - 1) (Nat.lt_of_le_of_lt (Nat.sub_le _ _) t.isLt)).2.2.1
    ∧ (outsAt4 V c t.val t.isLt).2.1 = k4_pay5 (iblk4 V c 0 t) (iblk4 V c 1 t) (outsAt4 V c (t.val - 1) (Nat.lt_of_le_of_lt (Nat.sub_le _ _) t.isLt)).2.2.2) := by
  have e := outsAt4_C V c t h0 h1
  exact ⟨⟨(congrArg (fun p => p.2.2.1) e).trans (sout4_C_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2),
    (congrArg (fun p => p.2.2.2) e).trans (sout4_C_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2)⟩,
    (congrArg (fun p => p.1) e).trans (out4_C_2_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2),
    (congrArg (fun p => p.2.1) e).trans (out4_C_3_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2)⟩

/-! ## The recursion -/

/-- The two accumulator rows after block `n`: started from the zero rows at block 0, each block adds its column
    sums (of block + bias, and of the squares). -/
def acc4 (c : Dev nD) : (n : ℕ) → n < cfg4.N → Vec F S1x128 .f32 × Vec F S1x128 .f32
  | 0, h => (k4_pay4 (iblk4 V c 0 ⟨0, h⟩) (iblk4 V c 1 ⟨0, h⟩) k4_pay1,
             k4_pay5 (iblk4 V c 0 ⟨0, h⟩) (iblk4 V c 1 ⟨0, h⟩) k4_pay2)
  | n + 1, h => (k4_pay4 (iblk4 V c 0 ⟨n + 1, h⟩) (iblk4 V c 1 ⟨n + 1, h⟩) (acc4 c n (Nat.lt_of_succ_lt h)).1,
                 k4_pay5 (iblk4 V c 0 ⟨n + 1, h⟩) (iblk4 V c 1 ⟨n + 1, h⟩) (acc4 c n (Nat.lt_of_succ_lt h)).2)

theorem acc4_zero (c : Dev nD) (h : 0 < cfg4.N) :
    acc4 V c 0 h
      = (k4_pay4 (iblk4 V c 0 ⟨0, h⟩) (iblk4 V c 1 ⟨0, h⟩) k4_pay1,
         k4_pay5 (iblk4 V c 0 ⟨0, h⟩) (iblk4 V c 1 ⟨0, h⟩) k4_pay2) := rfl

theorem acc4_succ (c : Dev nD) (n : ℕ) (h : n + 1 < cfg4.N) :
    acc4 V c (n + 1) h
      = (k4_pay4 (iblk4 V c 0 ⟨n + 1, h⟩) (iblk4 V c 1 ⟨n + 1, h⟩) (acc4 V c n (Nat.lt_of_succ_lt h)).1,
         k4_pay5 (iblk4 V c 0 ⟨n + 1, h⟩) (iblk4 V c 1 ⟨n + 1, h⟩) (acc4 V c n (Nat.lt_of_succ_lt h)).2) := rfl

/-- What the accumulators hold after block `n` IS that recursion: by induction on the block. -/
theorem outsAt4_acc (c : Dev nD) : ∀ (n : ℕ) (h : n < cfg4.N),
    (outsAt4 V c n h).2.2.1 = (acc4 V c n h).1 ∧ (outsAt4 V c n h).2.2.2 = (acc4 V c n h).2
  | 0, h => by
    rw [acc4_zero]
    exact step4_A V c ⟨0, h⟩ (Nat.zero_mod _) (fun e => by rw [show (⟨0, h⟩ : Fin cfg4.N).val = 0 from rfl] at e; omega)
  | n + 1, h => by
    have hN : cfg4.N = 50 := N_4
    have ih := outsAt4_acc c n (Nat.lt_of_succ_lt h)
    have h0 : ¬(⟨n + 1, h⟩ : Fin cfg4.N).val % 50 = 0 := by
      rw [show (⟨n + 1, h⟩ : Fin cfg4.N).val = n + 1 from rfl]; omega
    rw [acc4_succ, ← ih.1, ← ih.2]
    by_cases h1 : (⟨n + 1, h⟩ : Fin cfg4.N).val % 50 = 49
    · exact (step4_C V c ⟨n + 1, h⟩ h0 h1).1
    · exact step4_B V c ⟨n + 1, h⟩ h0 h1

/-- The last block is block 49. -/
theorem lt49_4 : 49 < cfg4.N := by rw [show cfg4.N = 50 from N_4]; decide

/-- At a block that is the last, the two output rows hold the accumulators. -/
theorem outsAt4_out (c : Dev nD) (n : ℕ) (h : n + 1 < cfg4.N) (h1 : (n + 1) % 50 = 49) :
    (outsAt4 V c (n + 1) h).1 = (acc4 V c (n + 1) h).1 ∧ (outsAt4 V c (n + 1) h).2.1 = (acc4 V c (n + 1) h).2 := by
  have hN : cfg4.N = 50 := N_4
  have ih := outsAt4_acc V c n (Nat.lt_of_succ_lt h)
  have h0 : ¬(⟨n + 1, h⟩ : Fin cfg4.N).val % 50 = 0 := by
    rw [show (⟨n + 1, h⟩ : Fin cfg4.N).val = n + 1 from rfl]; omega
  rw [acc4_succ, ← ih.1, ← ih.2]
  exact (step4_C V c ⟨n + 1, h⟩ h0 h1).2

/-- After the last block (block 49) the two output rows hold the accumulators. -/
theorem outsAt4_last (c : Dev nD) :
    (outsAt4 V c 49 lt49_4).1 = (acc4 V c 49 lt49_4).1 ∧ (outsAt4 V c 49 lt49_4).2.1 = (acc4 V c 49 lt49_4).2 :=
  outsAt4_out V c 48 lt49_4 rfl

/-! ## Where a block's element sits in its array -/

/-- Window 0's block index at point `t` is (t, 0); window 1's is (0, 0) throughout. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = 0 ∧ win4_1.index t 1 = 0 :=
  (by decide +kernel : ∀ t : Fin grid4.N, win4_1.index t 0 = 0 ∧ win4_1.index t 1 = 0)

/-- Row `r` of block `t` of the input is row `2000·t + r` of the array. -/
theorem iblk4_0_apply (c : Dev nD) (t : Fin cfg4.N) (r : Fin 2000) (j : Fin 128)
    (hr : 2000 * t.val + r.val < 100000) :
    (iblk4 V c 0 t : Vec F S2000x128 .f32) (ix2 r j)
      = (V c (Pipeline.arrRef spec4 0) : Vec F S100000x128 .f32) (ix2 ⟨2000 * t.val + r.val, hr⟩ j) := by
  unfold iblk4
  rw [View.read_apply]
  show V c main_v66 _ = V c main_v66 _
  congr 1
  funext a
  apply Fin.ext
  match a with
  | ⟨0, _⟩ => show win4_0.index t 0 * 2000 + 1 * r.val = 2000 * t.val + r.val; rw [(index4_0 t).1]; omega
  | ⟨1, _⟩ => show win4_0.index t 1 * 128 + 1 * j.val = j.val; rw [(index4_0 t).2]; omega

/-- The bias row's block is the row itself at every point. -/
theorem iblk4_1_apply (c : Dev nD) (t : Fin cfg4.N) (j : Fin 128) :
    (iblk4 V c 1 t : Vec F S1x128 .f32) (ix2 (0 : Fin 1) j)
      = (V c (Pipeline.arrRef spec4 1) : Vec F S1x128 .f32) (ix2 (0 : Fin 1) j) := by
  unfold iblk4
  rw [View.read_apply]
  show V c main_v67 _ = V c main_v67 _
  congr 1
  funext a
  apply Fin.ext
  match a with
  | ⟨0, _⟩ => show win4_1.index t 0 * 1 + 1 * 0 = 0; rw [(index4_1 t).1]
  | ⟨1, _⟩ => show win4_1.index t 1 * 128 + 1 * j.val = j.val; rw [(index4_1 t).2]; omega

end Cert.KernelIdeal.Hand

end
-- ==== Proof.KI.Stats4Value.lean ====
/- The statistics region (custom_call 4): the VALUES of its two output rows, at the ideal (extended-real) values.
   With a0 the 100000x128 input and a1 the 1x128 bias row as the region finds them:
     output row 2 at lane j  =  Σ_{r < 100000} (a0[r, j] + a1[0, j])
     output row 3 at lane j  =  Σ_{r < 100000} (a0[r, j] + a1[0, j])²
   At the ideal values a column sum over a block's 2000 rows is a finite sum, so the accumulator recursion at lane j
   is the sum of the block sums so far (addition of extended reals is associative and commutative: no finiteness is
   needed); 50 blocks of 2000 rows are the 100000 rows; the one write-back (after block 49) writes the accumulators,
   and each output array is one block. -/
import proofs.«107028_j46583215292429_1_alg».proof.Proof.KI.Stats4Chain
import proofs.«107028_j46583215292429_1_alg».proof.Proof.KI.LibBlockedSum
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

/-! ## The payloads read at a lane, at the ideal values -/

/-- A column sum over the 2000 rows, read at lane `j`: the finite sum of the column. -/
theorem colsum4_apply (src : FVec Ideal S2000x128 .f32) (h : S2000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ r : Fin 2000, src (ix2 r j) := by
  refine (Ideal.multiReduction_add_single src 0x00000000#32 h hφ hacc (ix1 j)).trans ?_
  refine Finset.sum_congr rfl fun r _ => congrArg src ?_
  funext a
  match a with
  | ⟨0, _⟩ => exact Fin.ext rfl
  | ⟨1, _⟩ => exact Fin.ext rfl

/-- The block with the bias row added to every row, at (r, j). -/
theorem k4_pay3_apply (x0 : FVec Ideal S2000x128 .f32) (x1 : FVec Ideal S1x128 .f32) (r : Fin 2000) (j : Fin 128) :
    k4_pay3 x0 x1 (ix2 r j) = x0 (ix2 r j) + x1 (ix2 (0 : Fin 1) j) := by
  unfold k4_pay3
  refine (addf_apply _ _ _).trans ?_
  refine congrArg₂ (· + ·) (congrFun (shapeCast_self x0 _) _) ?_
  refine (broadcastTo_1b_ab_apply _ _ r j).trans ?_
  exact congrFun (shapeCast_self x1 _) _

/-- The new accumulator 0 at lane `j`: the old one plus the column's sum of (block + bias). -/
theorem k4_pay4_apply (x0 : FVec Ideal S2000x128 .f32) (x1 xs : FVec Ideal S1x128 .f32) (j : Fin 128) :
    k4_pay4 x0 x1 xs (ix2 (0 : Fin 1) j)
      = xs (ix2 (0 : Fin 1) j) + ∑ r : Fin 2000, (x0 (ix2 r j) + x1 (ix2 (0 : Fin 1) j)) := by
  unfold k4_pay4
  refine (congrFun (shapeCast_self _ _) _).trans ?_
  refine (addf_apply _ _ _).trans ?_
  refine congrArg (xs (ix2 (0 : Fin 1) j) + ·) ?_
  refine (shapeCast_a_1a_apply _ _ 0 j).trans ?_
  refine (colsum4_apply _ _ _ _ j).trans ?_
  exact Finset.sum_congr rfl fun r _ => k4_pay3_apply x0 x1 r j

/-- The new accumulator 1 at lane `j`: the old one plus the column's sum of (block + bias)². -/
theorem k4_pay5_apply (x0 : FVec Ideal S2000x128 .f32) (x1 xs : FVec Ideal S1x128 .f32) (j : Fin 128) :
    k4_pay5 x0 x1 xs (ix2 (0 : Fin 1) j)
      = xs (ix2 (0 : Fin 1) j)
        + ∑ r : Fin 2000, (x0 (ix2 r j) + x1 (ix2 (0 : Fin 1) j)) * (x0 (ix2 r j) + x1 (ix2 (0 : Fin 1) j)) := by
  unfold k4_pay5
  refine (congrFun (shapeCast_self _ _) _).trans ?_
  refine (addf_apply _ _ _).trans ?_
  refine congrArg (xs (ix2 (0 : Fin 1) j) + ·) ?_
  refine (shapeCast_a_1a_apply _ _ 0 j).trans ?_
  refine (colsum4_apply _ _ _ _ j).trans ?_
  refine Finset.sum_congr rfl fun r _ => ?_
  refine (mulf_apply _ _ _).trans ?_
  exact congrArg₂ (· * ·) (k4_pay3_apply x0 x1 r j) (k4_pay3_apply x0 x1 r j)

/-- The zero rows the first block stores are zero at every lane. -/
theorem k4_pay1_apply (j : Fin 128) : (k4_pay1 (F := Ideal)) (ix2 (0 : Fin 1) j) = 0 := by
  unfold k4_pay1
  refine (congrFun (shapeCast_self _ _) _).trans ?_
  exact Ideal.ofBits_zero_f32
theorem k4_pay2_apply (j : Fin 128) : (k4_pay2 (F := Ideal)) (ix2 (0 : Fin 1) j) = 0 := by
  unfold k4_pay2
  refine (congrFun (shapeCast_self _ _) _).trans ?_
  exact Ideal.ofBits_zero_f32

/-! ## The accumulators at a lane: sums over the blocks so far -/

variable (V : (c : Dev nD) → (b : Ref sig .tc) → Buf (Elt Ideal) ((c : Thread nD τ).loc b))

/-- The input array and the bias row as the region finds them, as functions into the extended reals. -/
abbrev a4_0 (c : Dev nD) : S100000x128.Idx → EReal := V c (Pipeline.arrRef spec4 0)
abbrev a4_1 (c : Dev nD) : S1x128.Idx → EReal := V c (Pipeline.arrRef spec4 1)
/-- The two inputs' blocks at point `t`, likewise. -/
abbrev b4_0 (c : Dev nD) (t : Fin cfg4.N) : S2000x128.Idx → EReal := iblk4 V c 0 t
abbrev b4_1 (c : Dev nD) (t : Fin cfg4.N) : S1x128.Idx → EReal := iblk4 V c 1 t
/-- The accumulators after block `n`, likewise. -/
abbrev acc4_0 (c : Dev nD) (n : ℕ) (h : n < cfg4.N) : S1x128.Idx → EReal := (acc4 V c n h).1
abbrev acc4_1 (c : Dev nD) (n : ℕ) (h : n < cfg4.N) : S1x128.Idx → EReal := (acc4 V c n h).2

/-- The summand of row `r` at lane `j`: the input plus the bias. -/
def term4 (c : Dev nD) (j : Fin 128) (r : Fin 100000) : EReal := a4_0 V c (ix2 r j) + a4_1 V c (ix2 (0 : Fin 1) j)

/-- Block `s`'s sum of a summand `H` over its 2000 rows (zero past the last block). -/
def bsum4 (H : Fin 100000 → EReal) (s : ℕ) : EReal :=
  if hs : s < 50 then ∑ p : Fin 2000, H ⟨2000 * s + p.val, by have := p.isLt; omega⟩ else 0

/-- The blocks' sums add up to the sum over all rows. -/
theorem sum_bsum4 (H : Fin 100000 → EReal) : ∑ s ∈ Finset.range 50, bsum4 H s = ∑ r : Fin 100000, H r := by
  rw [Finset.sum_range]
  refine Eq.trans ?_ (Cert.BlockedSum.sum_by_blocks (N := 50) (R := 2000) H).symm
  refine Finset.sum_congr rfl fun t _ => ?_
  unfold bsum4
  rw [dif_pos t.isLt]

/-- A row of a block, plus the bias, is the summand of its row of the array. -/
theorem term4_of_block (c : Dev nD) (j : Fin 128) (n : ℕ) (h : n < cfg4.N) (r : Fin 2000)
    (hr : 2000 * n + r.val < 100000) :
    b4_0 V c ⟨n, h⟩ (ix2 r j) + b4_1 V c ⟨n, h⟩ (ix2 (0 : Fin 1) j) = term4 V c j ⟨2000 * n + r.val, hr⟩ := by
  unfold term4
  exact congrArg₂ (· + ·) (iblk4_0_apply V c ⟨n, h⟩ r j hr) (iblk4_1_apply V c ⟨n, h⟩ j)

/-- A block's column sum of (block + bias) at lane `j` is that block's sum of the summands. -/
theorem blocksum4_eq (c : Dev nD) (j : Fin 128) (n : ℕ) (h : n < cfg4.N) :
    ∑ r : Fin 2000, (b4_0 V c ⟨n, h⟩ (ix2 r j) + b4_1 V c ⟨n, h⟩ (ix2 (0 : Fin 1) j)) = bsum4 (term4 V c j) n := by
  have hn : n < 50 := lt_of_lt_of_eq h N_4
  unfold bsum4
  rw [dif_pos hn]
  exact Finset.sum_congr rfl fun r _ => term4_of_block V c j n h r (by have := r.isLt; omega)

/-- The same of the squares. -/
theorem blocksumsq4_eq (c : Dev nD) (j : Fin 128) (n : ℕ) (h : n < cfg4.N) :
    ∑ r : Fin 2000, (b4_0 V c ⟨n, h⟩ (ix2 r j) + b4_1 V c ⟨n, h⟩ (ix2 (0 : Fin 1) j))
        * (b4_0 V c ⟨n, h⟩ (ix2 r j) + b4_1 V c ⟨n, h⟩ (ix2 (0 : Fin 1) j))
      = bsum4 (fun r => term4 V c j r * term4 V c j r) n := by
  have hn : n < 50 := lt_of_lt_of_eq h N_4
  unfold bsum4
  rw [dif_pos hn]
  refine Finset.sum_congr rfl fun r _ => ?_
  have e := term4_of_block V c j n h r (by have := r.isLt; omega)
  exact congrArg₂ (· * ·) e e

/-- Accumulator 0 after block `n`, at lane `j`: the sum of the first `n + 1` blocks' sums. -/
theorem acc4_fst_apply (c : Dev nD) (j : Fin 128) : ∀ (n : ℕ) (h : n < cfg4.N),
    acc4_0 V c n h (ix2 (0 : Fin 1) j) = ∑ s ∈ Finset.range (n + 1), bsum4 (term4 V c j) s
  | 0, h => by
    rw [Finset.sum_range_one, ← blocksum4_eq V c j 0 h]
    refine (k4_pay4_apply (b4_0 V c ⟨0, h⟩) (b4_1 V c ⟨0, h⟩) k4_pay1 j).trans ?_
    rw [k4_pay1_apply, zero_add]
  | n + 1, h => by
    rw [Finset.sum_range_succ, ← acc4_fst_apply c j n (Nat.lt_of_succ_lt h), ← blocksum4_eq V c j (n + 1) h]
    exact k4_pay4_apply (b4_0 V c ⟨n + 1, h⟩) (b4_1 V c ⟨n + 1, h⟩) (acc4_0 V c n (Nat.lt_of_succ_lt h)) j

/-- Accumulator 1 after block `n`, at lane `j`: the same of the squares. -/
theorem acc4_snd_apply (c : Dev nD) (j : Fin 128) : ∀ (n : ℕ) (h : n < cfg4.N),
    acc4_1 V c n h (ix2 (0 : Fin 1) j) = ∑ s ∈ Finset.range (n + 1), bsum4 (fun r => term4 V c j r * term4 V c j r) s
  | 0, h => by
    rw [Finset.sum_range_one, ← blocksumsq4_eq V c j 0 h]
    refine (k4_pay5_apply (b4_0 V c ⟨0, h⟩) (b4_1 V c ⟨0, h⟩) k4_pay2 j).trans ?_
    rw [k4_pay2_apply, zero_add]
  | n + 1, h => by
    rw [Finset.sum_range_succ, ← acc4_snd_apply c j n (Nat.lt_of_succ_lt h), ← blocksumsq4_eq V c j (n + 1) h]
    exact k4_pay5_apply (b4_0 V c ⟨n + 1, h⟩) (b4_1 V c ⟨n + 1, h⟩) (acc4_1 V c n (Nat.lt_of_succ_lt h)) j

/-- Accumulator 0 after the last block, at lane `j`: the sum over all 100000 rows of (input + bias). -/
theorem acc4_fst_total (c : Dev nD) (j : Fin 128) :
    acc4_0 V c 49 lt49_4 (ix2 (0 : Fin 1) j) = ∑ r : Fin 100000, (a4_0 V c (ix2 r j) + a4_1 V c (ix2 (0 : Fin 1) j)) :=
  (acc4_fst_apply V c j 49 lt49_4).trans (sum_bsum4 (term4 V c j))

/-- Accumulator 1 after the last block, at lane `j`: the sum over all rows of (input + bias)². -/
theorem acc4_snd_total (c : Dev nD) (j : Fin 128) :
    acc4_1 V c 49 lt49_4 (ix2 (0 : Fin 1) j)
      = ∑ r : Fin 100000, (a4_0 V c (ix2 r j) + a4_1 V c (ix2 (0 : Fin 1) j)) * (a4_0 V c (ix2 r j) + a4_1 V c (ix2 (0 : Fin 1) j)) :=
  (acc4_snd_apply V c j 49 lt49_4).trans (sum_bsum4 fun r => term4 V c j r * term4 V c j r)

end Cert.KernelIdeal.Hand

end
-- ==== Proof.KI.Stats4Final.lean ====
/- The statistics region (custom_call 4): its two output ARRAYS after the region. Each output row's one block is the
   whole 1x128 array and is written back once, after block 49, with the accumulator copied into it there; so output
   array 2 ends holding accumulator 0 after block 49 and output array 3 accumulator 1 (any float type). At the ideal
   values these are, lane by lane, the sums over all 100000 rows of (input + bias) and of its square. -/
import proofs.«107028_j46583215292429_1_alg».proof.Proof.KI.Stats4Value

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

section Arrays

variable {F : FTy → Type} [FloatOps F]
variable (V : (c : Dev nD) → (b : Ref sig .tc) → Buf (Elt F) ((c : Thread nD τ).loc b))

/-- The accumulation at equal block numbers is the same (whatever the bound's proof). -/
theorem outsAt4_congr (c : Dev nD) {n m : ℕ} (e : n = m) (hn : n < cfg4.N) (hm : m < cfg4.N) :
    outsAt4 V c n hn = outsAt4 V c m hm := by
  subst e; rfl

/-- Output window 2's block index is (0, 0) at every point, and its block is never cut. -/
theorem index4_2 : ∀ t : Fin cfg4.N, win4_2.index t 0 = 0 ∧ win4_2.index t 1 = 0 :=
  (by decide +kernel : ∀ t : Fin grid4.N, win4_2.index t 0 = 0 ∧ win4_2.index t 1 = 0)
theorem xsize4_2 : ∀ t : Fin cfg4.N, win4_2.xsize (grid4.coords t) 0 = 1 ∧ win4_2.xsize (grid4.coords t) 1 = 128 :=
  (by decide +kernel : ∀ t : Fin grid4.N, win4_2.xsize (grid4.coords t) 0 = 1 ∧ win4_2.xsize (grid4.coords t) 1 = 128)

/-- So its block at any point is the whole 1x128 array: every index of the array lies in it, -/
theorem mem4_2 (t : Fin cfg4.N) (i : S1x128.Idx) : i ∈ ((View.whole main_v68_0).slice (win4_2.rect t)).set := by
  rw [View.set_slice_whole, Rect.mem_set_unit]
  intro a
  have h0 : (i 0 : Nat) < 1 := (i 0).isLt
  have h1 : (i 1 : Nat) < 128 := (i 1).isLt
  match a with
  | ⟨0, _⟩ =>
    show win4_2.index t 0 * win4_2.size 0 ≤ (i 0 : Nat) ∧ (i 0 : Nat) < win4_2.index t 0 * win4_2.size 0 + win4_2.xsize (grid4.coords t) 0
    rw [(index4_2 t).1, (xsize4_2 t).1]; omega
  | ⟨1, _⟩ =>
    show win4_2.index t 1 * win4_2.size 1 ≤ (i 1 : Nat) ∧ (i 1 : Nat) < win4_2.index t 1 * win4_2.size 1 + win4_2.xsize (grid4.coords t) 1
    rw [(index4_2 t).2, (xsize4_2 t).2]; omega

/-- and the block read of contents `G` of the array is `G` (as is its uncut part). -/
theorem blk4_2_read (c : Dev nD) (t : Fin cfg4.N) (G : Buf (Elt F) ((c : Thread nD τ).loc main_v68_0)) :
    (cfg4.win 2).cut (grid4.coords t) G = ((cfg4.win 2).blk t).view.read (Elt F) G := by
  have hz' : (fun a => win4_2.index t a * main_v68_0.ty.shape.size a) = fun _ => 0 := funext fun a => by
    match a with
    | ⟨0, _⟩ => show win4_2.index t 0 * _ = 0; rw [(index4_2 t).1, Nat.zero_mul]
    | ⟨1, _⟩ => show win4_2.index t 1 * _ = 0; rw [(index4_2 t).2, Nat.zero_mul]
  exact (Memref.read_access_unit_zero (Elt F) main_v68_0 hz' (fun a => by rw [congrFun hz' a]; simp) G).symm

/-- At the last block output row 2 holds accumulator 0. -/
theorem out4_2_at (c : Dev nD) (t : Fin cfg4.N) (h49 : t.val = 49) :
    (outsAt4 V c t.val t.isLt).1 = (acc4 V c 49 lt49_4).1 :=
  (congrArg (fun p => p.1) (outsAt4_congr V c h49 t.isLt lt49_4)).trans (outsAt4_last V c).1

/-- What the one write-back of output row 2 (after block 49) writes is that accumulator. -/
theorem flushed4_2 (c : Dev nD) (t : Fin cfg4.N) (hf : (cfg4.win 2).flush t = true) :
    (dat4 V c).flushed 2 t = ((cfg4.win 2).blk t).view.read (Elt F) ((acc4 V c 49 lt49_4).1 : Buf (Elt F) ((c : Thread nD τ).loc main_v68_0)) := by
  have hN : cfg4.N = 50 := N_4
  have h49 : t.val = 49 := by have := (flush4_2 t).mp hf; have := t.isLt; omega
  show (cfg4.win 2).cut (grid4.coords t) ((dat4 V c).after 2 t) = _
  rw [after4_2, out4_2_at V c t h49]
  exact blk4_2_read c t _

/-- So output array 2 ends holding accumulator 0 after block 49. -/
theorem final4_2 (c : Dev nD) : (dat4 V c).arrAt 2 cfg4.N = ((acc4 V c 49 lt49_4).1 : Buf (Elt F) ((c : Thread nD τ).loc main_v68_0)) :=
  (dat4 V c).arrAt_eq_of_cover 2 _ (flushed4_2 V c) fun i => ⟨⟨49, lt49_4⟩, (flush4_2 ⟨49, lt49_4⟩).mpr rfl, mem4_2 ⟨49, lt49_4⟩ i⟩

/-- Output window 3's block index is (0, 0) at every point, and its block is never cut. -/
theorem index4_3 : ∀ t : Fin cfg4.N, win4_3.index t 0 = 0 ∧ win4_3.index t 1 = 0 :=
  (by decide +kernel : ∀ t : Fin grid4.N, win4_3.index t 0 = 0 ∧ win4_3.index t 1 = 0)
theorem xsize4_3 : ∀ t : Fin cfg4.N, win4_3.xsize (grid4.coords t) 0 = 1 ∧ win4_3.xsize (grid4.coords t) 1 = 128 :=
  (by decide +kernel : ∀ t : Fin grid4.N, win4_3.xsize (grid4.coords t) 0 = 1 ∧ win4_3.xsize (grid4.coords t) 1 = 128)

/-- So its block at any point is the whole 1x128 array: every index of the array lies in it, -/
theorem mem4_3 (t : Fin cfg4.N) (i : S1x128.Idx) : i ∈ ((View.whole main_v68_1).slice (win4_3.rect t)).set := by
  rw [View.set_slice_whole, Rect.mem_set_unit]
  intro a
  have h0 : (i 0 : Nat) < 1 := (i 0).isLt
  have h1 : (i 1 : Nat) < 128 := (i 1).isLt
  match a with
  | ⟨0, _⟩ =>
    show win4_3.index t 0 * win4_3.size 0 ≤ (i 0 : Nat) ∧ (i 0 : Nat) < win4_3.index t 0 * win4_3.size 0 + win4_3.xsize (grid4.coords t) 0
    rw [(index4_3 t).1, (xsize4_3 t).1]; omega
  | ⟨1, _⟩ =>
    show win4_3.index t 1 * win4_3.size 1 ≤ (i 1 : Nat) ∧ (i 1 : Nat) < win4_3.index t 1 * win4_3.size 1 + win4_3.xsize (grid4.coords t) 1
    rw [(index4_3 t).2, (xsize4_3 t).2]; omega

/-- and the block read of contents `G` of the array is `G` (as is its uncut part). -/
theorem blk4_3_read (c : Dev nD) (t : Fin cfg4.N) (G : Buf (Elt F) ((c : Thread nD τ).loc main_v68_1)) :
    (cfg4.win 3).cut (grid4.coords t) G = ((cfg4.win 3).blk t).view.read (Elt F) G := by
  have hz' : (fun a => win4_3.index t a * main_v68_1.ty.shape.size a) = fun _ => 0 := funext fun a => by
    match a with
    | ⟨0, _⟩ => show win4_3.index t 0 * _ = 0; rw [(index4_3 t).1, Nat.zero_mul]
    | ⟨1, _⟩ => show win4_3.index t 1 * _ = 0; rw [(index4_3 t).2, Nat.zero_mul]
  exact (Memref.read_access_unit_zero (Elt F) main_v68_1 hz' (fun a => by rw [congrFun hz' a]; simp) G).symm

/-- At the last block output row 3 holds accumulator 1. -/
theorem out4_3_at (c : Dev nD) (t : Fin cfg4.N) (h49 : t.val = 49) :
    (outsAt4 V c t.val t.isLt).2.1 = (acc4 V c 49 lt49_4).2 :=
  (congrArg (fun p => p.2.1) (outsAt4_congr V c h49 t.isLt lt49_4)).trans (outsAt4_last V c).2

/-- What the one write-back of output row 3 (after block 49) writes is that accumulator. -/
theorem flushed4_3 (c : Dev nD) (t : Fin cfg4.N) (hf : (cfg4.win 3).flush t = true) :
    (dat4 V c).flushed 3 t = ((cfg4.win 3).blk t).view.read (Elt F) ((acc4 V c 49 lt49_4).2 : Buf (Elt F) ((c : Thread nD τ).loc main_v68_1)) := by
  have hN : cfg4.N = 50 := N_4
  have h49 : t.val = 49 := by have := (flush4_3 t).mp hf; have := t.isLt; omega
  show (cfg4.win 3).cut (grid4.coords t) ((dat4 V c).after 3 t) = _
  rw [after4_3, out4_3_at V c t h49]
  exact blk4_3_read c t _

/-- So output array 3 ends holding accumulator 1 after block 49. -/
theorem final4_3 (c : Dev nD) : (dat4 V c).arrAt 3 cfg4.N = ((acc4 V c 49 lt49_4).2 : Buf (Elt F) ((c : Thread nD τ).loc main_v68_1)) :=
  (dat4 V c).arrAt_eq_of_cover 3 _ (flushed4_3 V c) fun i => ⟨⟨49, lt49_4⟩, (flush4_3 ⟨49, lt49_4⟩).mpr rfl, mem4_3 ⟨49, lt49_4⟩ i⟩

end Arrays

/-! ## The two sums -/

variable (V : (c : Dev nD) → (b : Ref sig .tc) → Buf (Elt Ideal) ((c : Thread nD τ).loc b))

/-- The two output arrays after the region, as functions into the extended reals. -/
abbrev o4_2 (c : Dev nD) : S1x128.Idx → EReal := (dat4 (F := Ideal) V c).arrAt 2 cfg4.N
abbrev o4_3 (c : Dev nD) : S1x128.Idx → EReal := (dat4 (F := Ideal) V c).arrAt 3 cfg4.N

/-- OUTPUT ROW 2: at lane `j`, the sum over all 100000 rows of (input + bias). -/
theorem stats4_sum (c : Dev nD) (j : Fin 128) :
    o4_2 V c (ix2 (0 : Fin 1) j) = ∑ r : Fin 100000, (a4_0 V c (ix2 r j) + a4_1 V c (ix2 (0 : Fin 1) j)) :=
  (congrFun (final4_2 V c) (ix2 (0 : Fin 1) j)).trans (acc4_fst_total V c j)

/-- OUTPUT ROW 3: at lane `j`, the sum over all 100000 rows of (input + bias)². -/
theorem stats4_sumsq (c : Dev nD) (j : Fin 128) :
    o4_3 V c (ix2 (0 : Fin 1) j)
      = ∑ r : Fin 100000, (a4_0 V c (ix2 r j) + a4_1 V c (ix2 (0 : Fin 1) j)) * (a4_0 V c (ix2 r j) + a4_1 V c (ix2 (0 : Fin 1) j)) :=
  (congrFun (final4_3 V c) (ix2 (0 : Fin 1) j)).trans (acc4_snd_total V c j)

end Cert.KernelIdeal.Hand

end
-- ==== Proof.KI.Apply5Value.lean ====
/- The batch-norm apply region (custom_call 5) read as a closed form at the ideal values. The region's output array has
   100000 rows of 128 lanes; grid point t writes rows 2000 t .. 2000 t + 1999. Entry (r, j) of the output depends on
   entry (r, j) of the feature array and on lane j of the five one-row arrays (bias, mean, variance, scale, shift):
     max (scale_j * (((x_rj + bias_j) - mean_j) * rsqrt (variance_j + eps)) + shift_j) 0. -/
import proofs.«107028_j46583215292429_1_alg».proof.Proof.KI.Apply5
import proofs.«107028_j46583215292429_1_alg».proof.Proof.KI.ApplySpec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

-- the TensorCore's buffer contents when the region is entered, at the ideal values
variable (V : (c : Dev nD) → (b : Ref sig .tc) → Buf (Elt Ideal) ((c : Thread nD τ).loc b))

/-! ## The body's payload at an index -/

/-- The stored block at row p, lane q: the pointwise operations read there, each one-row operand broadcast down the rows
    read at lane q of its row. x1 bias, x2 mean, x3 variance, x4 scale, x5 shift (the payload takes x3 before x2). -/
theorem pay5_apply (x0 : Vec Ideal S2000x128 .f32) (x1 x2 x3 x4 x5 : Vec Ideal S1x128 .f32) (p : Fin 2000) (q : Fin 128) :
    k5_pay1 (F := Ideal) x0 x1 x3 x2 x4 x5 (ix2 p q)
      = bnEntry (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  have b1 := broadcastTo_1b_ab_apply (a := 2000) x1 broadcasts_S1x128_S2000x128 p q
  have b2 := broadcastTo_1b_ab_apply (a := 2000) x2 broadcasts_S1x128_S2000x128 p q
  have b3 := broadcastTo_1b_ab_apply (a := 2000) (fun i : S1x128.Idx => Ideal.rsqrt (x3 i + Ideal.ofBits .f32 0x3727C5AC#32)) broadcasts_S1x128_S2000x128 p q
  have b4 := broadcastTo_1b_ab_apply (a := 2000) x4 broadcasts_S1x128_S2000x128 p q
  have b5 := broadcastTo_1b_ab_apply (a := 2000) x5 broadcasts_S1x128_S2000x128 p q
  unfold k5_pay1
  simp only [shapeCast_self]
  show max (broadcastTo S2000x128 x4 broadcasts_S1x128_S2000x128 (ix2 p q)
      * (((x0 (ix2 p q) + broadcastTo S2000x128 x1 broadcasts_S1x128_S2000x128 (ix2 p q))
          - broadcastTo S2000x128 x2 broadcasts_S1x128_S2000x128 (ix2 p q))
        * broadcastTo S2000x128 (fun i : S1x128.Idx => Ideal.rsqrt (x3 i + Ideal.ofBits .f32 0x3727C5AC#32)) broadcasts_S1x128_S2000x128 (ix2 p q))
      + broadcastTo S2000x128 x5 broadcasts_S1x128_S2000x128 (ix2 p q)) (Ideal.ofBits .f32 0x00000000#32) = _
  rw [b1, b2, b3, b4, b5, Ideal.ofBits_zero_f32]
  rfl

/-- The same at any index of the block, its lane named by its second coordinate. -/
theorem pay5_at (x0 : Vec Ideal S2000x128 .f32) (x1 x2 x3 x4 x5 : Vec Ideal S1x128 .f32) (y : S2000x128.Idx) :
    k5_pay1 (F := Ideal) x0 x1 x3 x2 x4 x5 y
      = bnEntry (x0 y) (x1 (ix2 (0 : Fin 1) (y 1 : Fin 128))) (x2 (ix2 (0 : Fin 1) (y 1 : Fin 128))) (x3 (ix2 (0 : Fin 1) (y 1 : Fin 128)))
          (x4 (ix2 (0 : Fin 1) (y 1 : Fin 128))) (x5 (ix2 (0 : Fin 1) (y 1 : Fin 128))) := by
  obtain ⟨p, q, rfl⟩ : ∃ (p : Fin 2000) (q : Fin 128), y = ix2 p q := ⟨y 0, y 1, eq_ix2 y⟩
  exact pay5_apply x0 x1 x2 x3 x4 x5 p q

/-! ## From blocks to the array -/

/-- The printed index maps, decided over the 50 grid points: the feature window moves with the output window, whose
    block index is (t, 0); each one-row window stays at block (0, 0). -/
theorem idx_facts5 : ∀ t : Fin cfg5.N,
    win5_0.index t (0 : Fin 2) = win5_6.index t (0 : Fin 2) ∧ win5_0.index t (1 : Fin 2) = win5_6.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The closed form of the region's output array, from the six arrays as the region finds them. -/
def G5 (c : Dev nD) : S100000x128.Idx → EReal :=
  bnArray (V c main_v66) (V c main_v75) (V c main_v70) (V c main_v74) (V c main_v76) (V c main_v77)

/-- The arrays the seven windows stage, by name: features, bias, mean, variance, scale, shift, and the output. -/
theorem arr5_0 : Pipeline.arrRef spec5 0 = main_v66 := rfl
theorem arr5_1 : Pipeline.arrRef spec5 1 = main_v75 := rfl
theorem arr5_2 : Pipeline.arrRef spec5 2 = main_v70 := rfl
theorem arr5_3 : Pipeline.arrRef spec5 3 = main_v74 := rfl
theorem arr5_4 : Pipeline.arrRef spec5 4 = main_v76 := rfl
theorem arr5_5 : Pipeline.arrRef spec5 5 = main_v77 := rfl
theorem arr5_6 : Pipeline.arrRef spec5 6 = main_v78 := rfl

/-- The output window is uncut: writing back a block that agrees with G on the block's indices writes block t of G. -/
theorem cut_read5_6 (t : Fin cfg5.N) (X : Vec Ideal S2000x128 .f32) (G : S100000x128.Idx → EReal)
    (h : ∀ y : S2000x128.Idx, X y = G (((cfg5.win 6).blk t).view.emb y)) :
    (cfg5.win 6).cut (grid5.coords t) X = ((cfg5.win 6).blk t).view.read (Elt Ideal) G := by
  funext y
  exact h y

/-- The feature window's block at point t, at an index of the block, is the feature array at the output block's index
    there: both windows have block index (t, 0). -/
theorem iblk5_0_at (c : Dev nD) (t : Fin cfg5.N) (y : S2000x128.Idx) :
    (iblk5 V c 0 t : Vec Ideal S2000x128 .f32) y = (V c main_v66 : S100000x128.Idx → EReal) (((cfg5.win 6).blk t).view.emb y) := by
  obtain ⟨e00, e01, -⟩ := idx_facts5 t
  show (V c main_v66 : S100000x128.Idx → EReal) (((cfg5.win 0).blk t).view.emb y) = _
  refine congrArg _ ?_
  funext a; apply Fin.ext
  match a with
  | ⟨0, _⟩ => show win5_0.index t (0 : Fin 2) * 2000 + 1 * (y 0).val = win5_6.index t (0 : Fin 2) * 2000 + 1 * (y 0).val; omega
  | ⟨1, _⟩ => show win5_0.index t (1 : Fin 2) * 128 + 1 * (y 1).val = win5_6.index t (1 : Fin 2) * 128 + 1 * (y 1).val; omega

/-- The bias window's block at any point is its whole row. -/
theorem iblk5_1_at (c : Dev nD) (t : Fin cfg5.N) (q : Fin 128) :
    (iblk5 V c 1 t : Vec Ideal S1x128 .f32) (ix2 (0 : Fin 1) q) = (V c main_v75 : S1x128.Idx → EReal) (ix2 (0 : Fin 1) q) := by
  have e := idx_facts5 t
  show (V c main_v75 : S1x128.Idx → EReal) (((cfg5.win 1).blk t).view.emb (ix2 (0 : Fin 1) q)) = _
  refine congrArg _ ?_
  funext a; apply Fin.ext
  match a with
  | ⟨0, _⟩ => show win5_1.index t (0 : Fin 2) * 1 + 1 * 0 = 0; omega
  | ⟨1, _⟩ => show win5_1.index t (1 : Fin 2) * 128 + 1 * q.val = q.val; omega

/-- The mean window's block at any point is its whole row. -/
theorem iblk5_2_at (c : Dev nD) (t : Fin cfg5.N) (q : Fin 128) :
    (iblk5 V c 2 t : Vec Ideal S1x128 .f32) (ix2 (0 : Fin 1) q) = (V c main_v70 : S1x128.Idx → EReal) (ix2 (0 : Fin 1) q) := by
  have e := idx_facts5 t
  show (V c main_v70 : S1x128.Idx → EReal) (((cfg5.win 2).blk t).view.emb (ix2 (0 : Fin 1) q)) = _
  refine congrArg _ ?_
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- The variance window's block at any point is its whole row. -/
theorem iblk5_3_at (c : Dev nD) (t : Fin cfg5.N) (q : Fin 128) :
    (iblk5 V c 3 t : Vec Ideal S1x128 .f32) (ix2 (0 : Fin 1) q) = (V c main_v74 : S1x128.Idx → EReal) (ix2 (0 : Fin 1) q) := by
  have e := idx_facts5 t
  show (V c main_v74 : S1x128.Idx → EReal) (((cfg5.win 3).blk t).view.emb (ix2 (0 : Fin 1) q)) = _
  refine congrArg _ ?_
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- The scale window's block at any point is its whole row. -/
theorem iblk5_4_at (c : Dev nD) (t : Fin cfg5.N) (q : Fin 128) :
    (iblk5 V c 4 t : Vec Ideal S1x128 .f32) (ix2 (0 : Fin 1) q) = (V c main_v76 : S1x128.Idx → EReal) (ix2 (0 : Fin 1) q) := by
  have e := idx_facts5 t
  show (V c main_v76 : S1x128.Idx → EReal) (((cfg5.win 4).blk t).view.emb (ix2 (0 : Fin 1) q)) = _
  refine congrArg _ ?_
  funext a; apply Fin.ext
  match a with
  | ⟨0, _⟩ => show win5_4.index t (0 : Fin 2) * 1 + 1 * 0 = 0; omega
  | ⟨1, _⟩ => show win5_4.index t (1 : Fin 2) * 128 + 1 * q.val = q.val; omega

/-- The shift window's block at any point is its whole row. -/
theorem iblk5_5_at (c : Dev nD) (t : Fin cfg5.N) (q : Fin 128) :
    (iblk5 V c 5 t : Vec Ideal S1x128 .f32) (ix2 (0 : Fin 1) q) = (V c main_v77 : S1x128.Idx → EReal) (ix2 (0 : Fin 1) q) := by
  have e := idx_facts5 t
  show (V c main_v77 : S1x128.Idx → EReal) (((cfg5.win 5).blk t).view.emb (ix2 (0 : Fin 1) q)) = _
  refine congrArg _ ?_
  funext a; apply Fin.ext
  match a with
  | ⟨0, _⟩ => show win5_5.index t (0 : Fin 2) * 1 + 1 * 0 = 0; omega
  | ⟨1, _⟩ => show win5_5.index t (1 : Fin 2) * 128 + 1 * q.val = q.val; omega

/-- The lane of the output block's index is the lane inside the block: the output's block index on the lane axis is 0. -/
theorem emb5_6_lane (t : Fin cfg5.N) (y : S2000x128.Idx) :
    ((((cfg5.win 6).blk t).view.emb y) 1 : Fin 128) = (y 1 : Fin 128) := by
  have e := idx_facts5 t
  apply Fin.ext
  show win5_6.index t (1 : Fin 2) * 128 + 1 * (y 1).val = (y 1).val
  omega

/-- The closed form at an index of point t's output block, by the lane inside the block. -/
theorem G5_at (c : Dev nD) (t : Fin cfg5.N) (y : S2000x128.Idx) :
    G5 V c (((cfg5.win 6).blk t).view.emb y)
      = bnEntry ((V c main_v66 : S100000x128.Idx → EReal) (((cfg5.win 6).blk t).view.emb y))
          ((V c main_v75 : S1x128.Idx → EReal) (ix2 (0 : Fin 1) (y 1 : Fin 128))) ((V c main_v70 : S1x128.Idx → EReal) (ix2 (0 : Fin 1) (y 1 : Fin 128)))
          ((V c main_v74 : S1x128.Idx → EReal) (ix2 (0 : Fin 1) (y 1 : Fin 128))) ((V c main_v76 : S1x128.Idx → EReal) (ix2 (0 : Fin 1) (y 1 : Fin 128)))
          ((V c main_v77 : S1x128.Idx → EReal) (ix2 (0 : Fin 1) (y 1 : Fin 128))) := by
  rw [← emb5_6_lane t y]
  rfl

/-- What point t writes back is block t of the closed form: rows 2000 t .. 2000 t + 1999, where the feature window's
    block is the same rows of the feature array and every one-row window's block is its whole row. -/
theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 (F := Ideal) V c).after 6 t) = _
  rw [after5_6]
  unfold out5_6
  rw [View.canon_unit_zero hz00]
  simp only [View.ld_unit_zero (S := S2000x128) hz00, View.ld_unit_zero (S := S1x128) hz00]
  refine cut_read5_6 t _ _ fun y => ?_
  refine (pay5_at _ _ _ _ _ _ y).trans ?_
  rw [G5_at V c t y, iblk5_0_at V c t y, iblk5_1_at V c t (y 1), iblk5_2_at V c t (y 1), iblk5_3_at V c t (y 1),
    iblk5_4_at V c t (y 1), iblk5_5_at V c t (y 1)]

/-- An index of the output array is in point t's block iff each coordinate is in the block's range on its axis. -/
theorem mem_blk5 (t : Fin cfg5.N) (i : S100000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v78).slice (win5_6.rect t)).set ↔ _
  rw [View.set_slice_whole, Rect.mem_set_unit]
  exact Iff.rfl

/-- Every index of the output array is written back by some point: row r by point r / 2000. -/
theorem cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, e60, e61⟩ := idx_facts5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 128 ≤ (i 1).val ∧ (i 1).val < win5_6.index t (1 : Fin 2) * 128 + 128; omega

/-- The output array after the region's last point is the closed form. -/
theorem final5 (c : Dev nD) : (dat5 (F := Ideal) V c).arrAt 6 cfg5.N = G5 V c :=
  (dat5 (F := Ideal) V c).arrAt_eq_of_cover 6 (G5 V c) (fun t _ => flushed5_eq V c t) cover5

/-- The six input arrays as the region finds them, as functions into the extended reals: features, bias, mean,
    variance, scale, shift. -/
abbrev a5_0 (c : Dev nD) : S100000x128.Idx → EReal := V c main_v66
abbrev a5_1 (c : Dev nD) : S1x128.Idx → EReal := V c main_v75
abbrev a5_2 (c : Dev nD) : S1x128.Idx → EReal := V c main_v70
abbrev a5_3 (c : Dev nD) : S1x128.Idx → EReal := V c main_v74
abbrev a5_4 (c : Dev nD) : S1x128.Idx → EReal := V c main_v76
abbrev a5_5 (c : Dev nD) : S1x128.Idx → EReal := V c main_v77

/-- Entry by entry: row r, lane j of the output from row r, lane j of the features and lane j of the five rows. -/
theorem apply5_entry (c : Dev nD) (r : Fin 100000) (j : Fin 128) :
    @Eq EReal ((dat5 (F := Ideal) V c).arrAt 6 cfg5.N (ix2 r j))
      (max (a5_4 V c (ix2 (0 : Fin 1) j)
          * (((a5_0 V c (ix2 r j) + a5_1 V c (ix2 (0 : Fin 1) j)) - a5_2 V c (ix2 (0 : Fin 1) j))
            * Ideal.rsqrt (a5_3 V c (ix2 (0 : Fin 1) j) + Ideal.ofBits .f32 0x3727C5AC#32))
          + a5_5 V c (ix2 (0 : Fin 1) j)) 0) := by
  have h := congrFun (final5 V c) (ix2 r j)
  exact h

end Cert.KernelIdeal.Hand

end
-- ==== Proof.KI.RefForms2.lean ====
/-
  Layer 2 of the reference, read at one entry (row r, column j): the same stages as layer 1, one layer later.

  The dense product's entry is the sum over the 128 columns of layer 1's output h1[r,k] * W2[k,j]. The bias stage adds b2[j] to the
  aggregated array's entry. The batch-normalisation stages, all as functions of the biased array y:
    mean[j]     = (0 + sum over the 100000 rows k of y[k,j]) / C          (C the float word 1.0e+05)
    dev[r,j]    = y[r,j] - mean[j]                                         (computed twice by the program: once for the
                                                                             variance, once for the output)
    var[j]      = (0 + sum over rows k of dev[k,j] * dev[k,j]) / C
    inv[j]      = rsqrt (var[j] + E)                                       (E the float word of the variance offset)
    out[r,j]    = max ((scale[j] * dev[r,j]) * inv[j] + shift[j]) 0
  Each lemma reads ONE stage group at an index built from literal coordinates; an entry of a broadcast array depends
  only on the column j, an entry of a row reduction on every row of that column. The two float words are never evaluated.
-/
import proofs.«107028_j46583215292429_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.RefForms

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The dense product and the bias -/

/-- An entry of the second dense product: row r of layer 1's output against column j of the weight. -/
theorem v70_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal))
    (r : Fin 100000) (j : Fin 128) :
    val_main_v70 (F := Ideal) x0 x1 x2 x3 x4 x5 x6 (ix2 r j)
      = ∑ k : Fin 128, val_main_v69 (F := Ideal) x0 x1 x2 x3 x4 x5 (ix2 r k) * x6 (ix2 k j) := by
  rw [val_main_v70_apply]
  refine Finset.sum_congr rfl fun k _ => ?_
  have el : lidx_main_v70 (ix2 r j) k = ix2 r k := funext fun a => Fin.ext (by match a with | ⟨0, _⟩ => rfl | ⟨1, _⟩ => rfl)
  have er : ridx_main_v70 (ix2 r j) k = ix2 k j := funext fun a => Fin.ext (by match a with | ⟨0, _⟩ => rfl | ⟨1, _⟩ => rfl)
  rw [el, er]

/-- An entry of the biased array: the aggregated entry plus the bias of its column. -/
theorem v86_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (r : Fin 100000) (j : Fin 128) :
    val_main_v86 (F := Ideal) x0 x1 x2 x3 x4 x5 x6 x7 (ix2 r j) = val_main_v83 (F := Ideal) x0 x1 x2 x3 x4 x5 x6 (ix2 r j) + x7 (ix1 j) := by
  rw [val_main_v86_apply, val_main_v85_apply, val_main_v84_apply]
  have e : idx_main_v84 (idx_main_v85 (ix2 r j)) = ix1 j := funext fun a => Fin.ext (by match a with | ⟨0, _⟩ => rfl)
  rw [e]
  simp only [Ideal.addf_def]

/-! ## Batch normalisation, stage group by stage group -/

/-- The column mean: zero plus the sum of the column's 100000 entries, divided by the word C. -/
theorem v89_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (j : Fin 128) :
    val_main_v89 (F := Ideal) x0 x1 x2 x3 x4 x5 x6 x7 (ix1 j)
      = Ideal.div (0 + ∑ k : Fin 100000, val_main_v86 (F := Ideal) x0 x1 x2 x3 x4 x5 x6 x7 (ix2 k j)) (Ideal.ofBits .f32 0x47C35000#32) := by
  rw [val_main_v89_apply, val_main_v87_apply, val_main_v88_apply, val_main_cst_16_apply, val_main_cst_15_apply]
  have e : ∀ k : Fin 100000, idx_main_v87 (ix1 j) k = ix2 k j := fun k => funext fun a => Fin.ext (by match a with | ⟨0, _⟩ => rfl | ⟨1, _⟩ => rfl)
  simp only [e, Ideal.hostDivf_def, Ideal.ofBits_def, Ideal.ofBits_zero_f32]

/-- The deviation used for the variance: the entry minus its column's mean. -/
theorem v92_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (r : Fin 100000) (j : Fin 128) :
    val_main_v92 (F := Ideal) x0 x1 x2 x3 x4 x5 x6 x7 (ix2 r j)
      = val_main_v86 (F := Ideal) x0 x1 x2 x3 x4 x5 x6 x7 (ix2 r j) - val_main_v89 (F := Ideal) x0 x1 x2 x3 x4 x5 x6 x7 (ix1 j) := by
  rw [val_main_v92_apply, val_main_v91_apply, val_main_v90_apply]
  have e : idx_main_v90 (idx_main_v91 (ix2 r j)) = ix1 j := funext fun a => Fin.ext (by match a with | ⟨0, _⟩ => rfl)
  rw [e]
  simp only [Ideal.subf_def]

/-- The deviation used for the output: the same entry minus the same mean, through a second pair of broadcasts. -/
theorem v99_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (r : Fin 100000) (j : Fin 128) :
    val_main_v99 (F := Ideal) x0 x1 x2 x3 x4 x5 x6 x7 (ix2 r j)
      = val_main_v86 (F := Ideal) x0 x1 x2 x3 x4 x5 x6 x7 (ix2 r j) - val_main_v89 (F := Ideal) x0 x1 x2 x3 x4 x5 x6 x7 (ix1 j) := by
  rw [val_main_v99_apply, val_main_v98_apply, val_main_v97_apply]
  have e : idx_main_v97 (idx_main_v98 (ix2 r j)) = ix1 j := funext fun a => Fin.ext (by match a with | ⟨0, _⟩ => rfl)
  rw [e]
  simp only [Ideal.subf_def]

/-- The squared deviation: the product of the deviation with itself. -/
theorem v93_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (r : Fin 100000) (j : Fin 128) :
    val_main_v93 (F := Ideal) x0 x1 x2 x3 x4 x5 x6 x7 (ix2 r j)
      = val_main_v92 (F := Ideal) x0 x1 x2 x3 x4 x5 x6 x7 (ix2 r j) * val_main_v92 (F := Ideal) x0 x1 x2 x3 x4 x5 x6 x7 (ix2 r j) := by
  rw [val_main_v93_apply]
  simp only [Ideal.mulf_def]

/-- The column variance: zero plus the sum of the column's squared deviations, divided by the word C. -/
theorem v96_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (j : Fin 128) :
    val_main_v96 (F := Ideal) x0 x1 x2 x3 x4 x5 x6 x7 (ix1 j)
      = Ideal.div (0 + ∑ k : Fin 100000, val_main_v93 (F := Ideal) x0 x1 x2 x3 x4 x5 x6 x7 (ix2 k j)) (Ideal.ofBits .f32 0x47C35000#32) := by
  rw [val_main_v96_apply, val_main_v94_apply, val_main_v95_apply, val_main_cst_18_apply, val_main_cst_17_apply]
  have e : ∀ k : Fin 100000, idx_main_v94 (ix1 j) k = ix2 k j := fun k => funext fun a => Fin.ext (by match a with | ⟨0, _⟩ => rfl | ⟨1, _⟩ => rfl)
  simp only [e, Ideal.hostDivf_def, Ideal.ofBits_def, Ideal.ofBits_zero_f32]

/-- The reciprocal square root of the column variance plus the offset word E. -/
theorem v105_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 : (⟨S128, .f32⟩ : BufTy).Contents (Elt Ideal))
    (j : Fin 128) :
    val_main_v105 (F := Ideal) x0 x1 x2 x3 x4 x5 x6 x7 (ix1 j)
      = Ideal.rsqrt (val_main_v96 (F := Ideal) x0 x1 x2 x3 x4 x5 x6 x7 (ix1 j) + Ideal.ofBits .f32 0x3727C5AC#32) := by
  rw [val_main_v105_apply, val_main_v104_apply, val_main_v103_apply, val_main_cst_19_apply]
  simp only [Ideal.hostUnary_rsqrt_def, Ideal.addf_def, Ideal.ofBits_def]

/-- The output stages: scale times deviation, times the reciprocal square root, plus shift, rectified at zero. -/
theorem v112_stage (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (r : Fin 100000) (j : Fin 128) :
    val_main_v112 (F := Ideal) x0 x1 x2 x3 x4 x5 x6 x7 x8 x9 (ix2 r j)
      = max ((x8 (ix1 j) * val_main_v99 (F := Ideal) x0 x1 x2 x3 x4 x5 x6 x7 (ix2 r j)) * val_main_v105 (F := Ideal) x0 x1 x2 x3 x4 x5 x6 x7 (ix1 j)
          + x9 (ix1 j)) 0 := by
  rw [val_main_v112_apply, val_main_v111_apply, val_main_v108_apply, val_main_v102_apply, val_main_v101_apply, val_main_v100_apply,
    val_main_v107_apply, val_main_v106_apply, val_main_v110_apply, val_main_v109_apply, val_main_call1_v0_apply,
    val_main_call1_cst_apply]
  have e4 : idx_main_v100 (idx_main_v101 (ix2 r j)) = ix1 j := funext fun a => Fin.ext (by match a with | ⟨0, _⟩ => rfl)
  have e6 : idx_main_v106 (idx_main_v107 (ix2 r j)) = ix1 j := funext fun a => Fin.ext (by match a with | ⟨0, _⟩ => rfl)
  have e5 : idx_main_v109 (idx_main_v110 (ix2 r j)) = ix1 j := funext fun a => Fin.ext (by match a with | ⟨0, _⟩ => rfl)
  rw [e4, e6, e5]
  simp only [Ideal.maximumf_def, Ideal.addf_def, Ideal.mulf_def, Ideal.ofBits_def, Ideal.ofBits_zero_f32]

/-! ## The normalised, rectified entry as a function of the biased array alone -/

/-- The layer's output entry written over the biased array y = (aggregated array + bias): every stage above substituted. -/
theorem v112_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (r : Fin 100000) (j : Fin 128) :
    val_main_v112 (F := Ideal) x0 x1 x2 x3 x4 x5 x6 x7 x8 x9 (ix2 r j)
      = max ((x8 (ix1 j) * (val_main_v86 (F := Ideal) x0 x1 x2 x3 x4 x5 x6 x7 (ix2 r j)
              - Ideal.div (0 + ∑ k : Fin 100000, val_main_v86 (F := Ideal) x0 x1 x2 x3 x4 x5 x6 x7 (ix2 k j)) (Ideal.ofBits .f32 0x47C35000#32)))
            * Ideal.rsqrt (Ideal.div (0 + ∑ k : Fin 100000,
                (val_main_v86 (F := Ideal) x0 x1 x2 x3 x4 x5 x6 x7 (ix2 k j)
                  - Ideal.div (0 + ∑ k' : Fin 100000, val_main_v86 (F := Ideal) x0 x1 x2 x3 x4 x5 x6 x7 (ix2 k' j)) (Ideal.ofBits .f32 0x47C35000#32))
                * (val_main_v86 (F := Ideal) x0 x1 x2 x3 x4 x5 x6 x7 (ix2 k j)
                  - Ideal.div (0 + ∑ k' : Fin 100000, val_main_v86 (F := Ideal) x0 x1 x2 x3 x4 x5 x6 x7 (ix2 k' j)) (Ideal.ofBits .f32 0x47C35000#32)))
                (Ideal.ofBits .f32 0x47C35000#32) + Ideal.ofBits .f32 0x3727C5AC#32)
          + x9 (ix1 j)) 0 := by
  rw [v112_stage, v99_entry, v105_entry, v96_entry]
  simp only [v93_entry, v92_entry, v89_entry]

end Cert.RefForms

end
-- ==== Proof.KI.RefForms3.lean ====
/-
  Layer 3 of the reference (no normalisation after it), read at one entry (row r, column j of 64).

  The dense product's entry is the sum over the 128 columns of layer 2's output h2[r,k] * W3[k,j]; the result entry is
  the aggregated array's entry plus b3[j].
-/
import proofs.«107028_j46583215292429_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.RefForms

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- An entry of the third dense product: row r of layer 2's output against column j of the weight. -/
theorem v113_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x64, .f32⟩ : BufTy).Contents (Elt Ideal))
    (r : Fin 100000) (j : Fin 64) :
    val_main_v113 (F := Ideal) x0 x1 x2 x3 x4 x5 x6 x7 x8 x9 x10 (ix2 r j)
      = ∑ k : Fin 128, val_main_v112 (F := Ideal) x0 x1 x2 x3 x4 x5 x6 x7 x8 x9 (ix2 r k) * x10 (ix2 k j) := by
  rw [val_main_v113_apply]
  refine Finset.sum_congr rfl fun k _ => ?_
  have el : lidx_main_v113 (ix2 r j) k = ix2 r k := funext fun a => Fin.ext (by match a with | ⟨0, _⟩ => rfl | ⟨1, _⟩ => rfl)
  have er : ridx_main_v113 (ix2 r j) k = ix2 k j := funext fun a => Fin.ext (by match a with | ⟨0, _⟩ => rfl | ⟨1, _⟩ => rfl)
  rw [el, er]

/-- An entry of the result: the aggregated entry plus the bias of its column. -/
theorem v129_entry (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x64, .f32⟩ : BufTy).Contents (Elt Ideal)) (x11 : (⟨S64, .f32⟩ : BufTy).Contents (Elt Ideal))
    (r : Fin 100000) (j : Fin 64) :
    val_main_v129 (F := Ideal) x0 x1 x2 x3 x4 x5 x6 x7 x8 x9 x10 x11 (ix2 r j)
      = val_main_v126 (F := Ideal) x0 x1 x2 x3 x4 x5 x6 x7 x8 x9 x10 (ix2 r j) + x11 (ix1 j) := by
  rw [val_main_v129_apply, val_main_v128_apply, val_main_v127_apply]
  have e : idx_main_v127 (idx_main_v128 (ix2 r j)) = ix1 j := funext fun a => Fin.ext (by match a with | ⟨0, _⟩ => rfl)
  rw [e]
  simp only [Ideal.addf_def]

end Cert.RefForms

end
-- ==== Proof.KI.Mat6Value.lean ====
/- Matmul region 6 over the extended reals: the output array after the region is the product of the left matrix
   [100000, 128] and the right matrix [128, 64] as the region finds them — entry (r, j) is the sum over k of
   left(r, k) · right(k, j). Each grid point writes the block of rows 2000·t … 2000·t + 1999, which depends on the
   same rows of the left matrix and on the whole right matrix. -/
import proofs.«107028_j46583215292429_1_alg».proof.Proof.KI.Mat6
import proofs.«107028_j46583215292429_1_alg».proof.Proof.KI.LibDenseLayer
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered, over the extended reals
variable (V : (c : Dev nD) → (b : Ref sig .tc) → Buf (Elt Ideal) ((c : Thread nD τ).loc b))

theorem hzM6 : (![0, 0] : Fin 2 → Nat) = fun _ => 0 := funext fun a => by fin_cases a <;> rfl

/-! ## The product at an entry of a block -/

/-- The matrix unit's index functions: the left operand is read at (output row, contraction position), -/
theorem dot6_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot6_l1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- the right operand at (contraction position, output column). -/
theorem dot6_r0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem dot6_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of what the body stores: over the extended reals rounding an operand changes nothing and the
    accumulator starts at zero, so it is the sum over the contracted axis of row p of the left block times
    column q of the right matrix. -/
theorem pay6_apply (x0 : Vec Ideal S2000x128 .f32) (x1 : Vec Ideal S128x64 .f32) (p : Fin 2000) (q : Fin 64) :
    k6_pay1 (F := Ideal) x0 x1 (ix2 p q) = ∑ k : Fin 128, x0 (ix2 p k) * x1 (ix2 k q) := by
  unfold k6_pay1
  simp only [shapeCast_self]
  exact Cert.DenseLayer.matmul_rows_cols (A := 2000) (K := 128) (B := 64) dot_S2000x128_S128x64_S2000x64_1_0_0_1_n_n rfl rfl dot6_l0 dot6_l1 dot6_r0 dot6_r1 none _ _ p q

/-! ## From blocks to the array -/

/-- The product of a [100000, 128] matrix by a [128, 64] matrix, entry by entry:
    entry (r, j) is the sum over k of left(r, k) · right(k, j). -/
def prod6 (l : S100000x128.Idx → Elt Ideal .f32) (r : S128x64.Idx → Elt Ideal .f32) : S100000x64.Idx → Elt Ideal .f32 :=
  fun i => ∑ k : Fin 128, l (ix2 (⟨(i 0).val, (i 0).isLt⟩ : Fin 100000) k) * r (ix2 k (⟨(i 1).val, (i 1).isLt⟩ : Fin 64))

/-- The windows' block indices at a point, decided over the grid: the left matrix's row block moves with the output's
    row block; its column block, both block indices of the right matrix and the output's column block stay at 0. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every row block of the output is some point's. -/
theorem idx_onto6 : ∀ q0 : Fin 50, ∃ t : Fin cfg6.N, win6_2.index t = ![q0.val, 0] :=
  (by decide +kernel : ∀ q0 : Fin 50, ∃ t : Fin grid6.N, win6_2.index t = ![q0.val, 0])

/-- Entry (p, k) of the left matrix's row block at point `t` is the matrix's entry (r, k), r the array row of the
    output block's row p. -/
theorem lblk6_apply (c : Dev nD) (t : Fin cfg6.N) (p : Fin 2000) (k : Fin 128) (r : Fin 100000)
    (hr : r.val = win6_2.index t (0 : Fin 2) * 2000 + p.val) :
    (iblk6 V c 0 t : Vec Ideal S2000x128 .f32) (ix2 p k) = (V c (Pipeline.arrRef spec6 0) : S100000x128.Idx → Elt Ideal .f32) (ix2 r k) := by
  obtain ⟨e0, e1, -, -, -⟩ := idx_facts6 t
  unfold iblk6
  show V c (Pipeline.arrRef spec6 0) (((cfg6.win 0).blk t).view.emb (ix2 p k)) = V c (Pipeline.arrRef spec6 0) (ix2 r k)
  refine congrArg _ ?_
  funext a; apply Fin.ext
  match a with
  | ⟨0, _⟩ => show win6_0.index t (0 : Fin 2) * 2000 + 1 * p.val = r.val; omega
  | ⟨1, _⟩ => show win6_0.index t (1 : Fin 2) * 128 + 1 * k.val = k.val; omega

/-- The right matrix's one block is the matrix. -/
theorem rblk6_apply (c : Dev nD) (t : Fin cfg6.N) (k : Fin 128) (q : Fin 64) (j : Fin 64) (hj : j.val = q.val) :
    (iblk6 V c 1 t : Vec Ideal S128x64 .f32) (ix2 k q) = (V c (Pipeline.arrRef spec6 1) : S128x64.Idx → Elt Ideal .f32) (ix2 k j) := by
  obtain ⟨-, -, e2, e3, -⟩ := idx_facts6 t
  unfold iblk6
  show V c (Pipeline.arrRef spec6 1) (((cfg6.win 1).blk t).view.emb (ix2 k q)) = V c (Pipeline.arrRef spec6 1) (ix2 k j)
  refine congrArg _ ?_
  funext a; apply Fin.ext
  match a with
  | ⟨0, _⟩ => show win6_1.index t (0 : Fin 2) * 128 + 1 * k.val = k.val; omega
  | ⟨1, _⟩ => show win6_1.index t (1 : Fin 2) * 64 + 1 * q.val = j.val; omega

/-- What point `t` writes back is block `t` of the product of the two matrices as the region finds them. -/
theorem flushed6_eq (c : Dev nD) (t : Fin cfg6.N) :
    (dat6 V c).flushed 2 t = ((cfg6.win 2).blk t).view.read (Elt Ideal) (prod6 (V c (Pipeline.arrRef spec6 0)) (V c (Pipeline.arrRef spec6 1))) := by
  show (cfg6.win 2).cut (grid6.coords t) ((dat6 V c).after 2 t) = _
  rw [after6_2]
  unfold out6_2
  rw [View.canon_unit_zero hzM6]
  simp only [View.ld_unit_zero (S := S2000x128) hzM6, View.ld_unit_zero (S := S128x64) hzM6]
  funext y
  obtain ⟨p, q, rfl⟩ : ∃ (p : Fin 2000) (q : Fin 64), y = ix2 p q := ⟨y 0, y 1, eq_ix2 y⟩
  refine (pay6_apply _ _ p q).trans ?_
  obtain ⟨-, -, -, -, e4⟩ := idx_facts6 t
  show _ = prod6 (V c (Pipeline.arrRef spec6 0)) (V c (Pipeline.arrRef spec6 1)) (((cfg6.win 2).blk t).view.emb (ix2 p q))
  unfold prod6
  refine Finset.sum_congr rfl fun k _ => ?_
  refine congrArg₂ (· * ·) (lblk6_apply V c t p k _ ?_) (rblk6_apply V c t k q _ ?_)
  · show win6_2.index t (0 : Fin 2) * 2000 + 1 * p.val = win6_2.index t (0 : Fin 2) * 2000 + p.val; omega
  · show win6_2.index t (1 : Fin 2) * 64 + 1 * q.val = q.val; omega

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v79).slice (win6_2.rect t)).set ↔ _
  rw [View.set_slice_whole, Rect.mem_set_unit]
  exact Iff.rfl

/-- The output array after the region: the product of the two matrices. Row r is in the block of point r / 2000,
    and every point writes its block back. -/
theorem final6 (c : Dev nD) :
    (dat6 V c).arrAt 2 cfg6.N = prod6 (V c (Pipeline.arrRef spec6 0)) (V c (Pipeline.arrRef spec6 1)) :=
  (dat6 V c).arrAt_eq_of_cover 2 _ (fun t _ => flushed6_eq V c t) fun i => by
    have hi0 : (i 0).val < 100000 := (i 0).isLt
    have hi1 : (i 1).val < 64 := (i 1).isLt
    obtain ⟨t, ht⟩ := idx_onto6 ⟨(i 0).val / 2000, by omega⟩
    have q0 : win6_2.index t (0 : Fin 2) = (i 0).val / 2000 := congrFun ht 0
    have q1 : win6_2.index t (1 : Fin 2) = 0 := congrFun ht 1
    refine ⟨t, flush6_2 t, ?_⟩
    rw [mem_blk6]
    intro a
    match a with
    | ⟨0, _⟩ => show win6_2.index t (0 : Fin 2) * 2000 ≤ (i 0).val ∧ (i 0).val < win6_2.index t (0 : Fin 2) * 2000 + 2000; omega
    | ⟨1, _⟩ => show win6_2.index t (1 : Fin 2) * 64 ≤ (i 1).val ∧ (i 1).val < win6_2.index t (1 : Fin 2) * 64 + 64; omega

/-- The product read at an entry given by its two coordinates. -/
theorem prod6_apply (l : S100000x128.Idx → Elt Ideal .f32) (w : S128x64.Idx → Elt Ideal .f32) (r : Fin 100000) (j : Fin 64) :
    prod6 l w (ix2 r j) = ∑ k : Fin 128, l (ix2 r k) * w (ix2 k j) := rfl

/-- Entry (r, j) of the output array after the region is entry (r, j) of the product of the two matrices as the
    region finds them: by `prod6_apply`, the sum over k of left(r, k) · right(k, j). -/
theorem mat6_entry (c : Dev nD) (r : Fin 100000) (j : Fin 64) :
    (dat6 V c).arrAt 2 cfg6.N (ix2 r j) = prod6 (V c (Pipeline.arrRef spec6 0)) (V c (Pipeline.arrRef spec6 1)) (ix2 r j) :=
  congrFun (final6 V c) (ix2 r j)

end Cert.KernelIdeal.Hand

end
-- ==== Proof.KI.Glue2.lean ====
/-
  The reference's stages as the closed forms the kernel's regions produce.

  * A dense product: the kernel's product of two matrices, entry (r, j) the sum over k of l[r,k] · w[k,j], is the
    reference's dot-product stage applied to the same two arrays.
  * A batch normalisation followed by a maximum with zero: from the column sums the kernel normalises entry (r, j) of the
    biased array y as  max (scale[j] · ((y[r,j] - mean[j]) · rsqrt (var[j] + E)) + shift[j]) 0  with
    mean[j] = (∑ₖ y[k,j]) / C and var[j] = (∑ₖ y[k,j]²) / C - mean[j]²; the reference takes the variance as the mean of
    squared deviations, starts each reduction from zero and associates the product the other way. For a REAL column the
    two agree (the batch-variance law and associativity), so the kernel's form is the reference's stage at (r, j).
-/
import proofs.«107028_j46583215292429_1_alg».proof.Proof.Gen.ReferenceIdeal.Read
import proofs.«107028_j46583215292429_1_alg».proof.Proof.KI.RefForms2
import proofs.«107028_j46583215292429_1_alg».proof.Proof.KI.RefForms3
import proofs.«107028_j46583215292429_1_alg».proof.Proof.KI.Mat3Value
import proofs.«107028_j46583215292429_1_alg».proof.Proof.KI.Mat6Value
import proofs.«107028_j46583215292429_1_alg».proof.Proof.KI.BNAlg
import Idealize.ShloMosaic.Lib.ValueIdx
import Idealize.ShloMosaic.PureOps.Ideal
import Idealize.ShloMosaic.PureOps.Ideal.Laws

noncomputable section

namespace Cert.Glue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Layers 2 and 3 -/

/-- The second dense product: the kernel's matrix product of layer 1's output and the second weight is the reference's. -/
theorem glue_prod3 (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) :
    Cert.KernelIdeal.Hand.prod3 (val_main_v69 (F := Ideal) x0 x1 x2 x3 x4 x5) x6
      = val_main_v70 (F := Ideal) x0 x1 x2 x3 x4 x5 x6 := by
  funext i
  obtain ⟨r, j, rfl⟩ : ∃ (r : Fin 100000) (j : Fin 128), i = ix2 r j := ⟨i 0, i 1, eq_ix2 i⟩
  rw [Cert.KernelIdeal.Hand.prod3_apply, Cert.RefForms.v70_entry]

/-- The third dense product: the kernel's matrix product of layer 2's output and the third weight is the reference's. -/
theorem glue_prod6 (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x64, .f32⟩ : BufTy).Contents (Elt Ideal)) :
    Cert.KernelIdeal.Hand.prod6 (val_main_v112 (F := Ideal) x0 x1 x2 x3 x4 x5 x6 x7 x8 x9) x10
      = val_main_v113 (F := Ideal) x0 x1 x2 x3 x4 x5 x6 x7 x8 x9 x10 := by
  funext i
  obtain ⟨r, j, rfl⟩ : ∃ (r : Fin 100000) (j : Fin 64), i = ix2 r j := ⟨i 0, i 1, eq_ix2 i⟩
  rw [Cert.KernelIdeal.Hand.prod6_apply, Cert.RefForms.v113_entry]

/-- The second normalisation: for a real biased array, the kernel's form of the normalised, rectified entry (variance as
    mean of squares minus squared mean) is the reference's stage at that entry. -/
theorem glue_bn2 (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (hy : ∀ i, ∃ a : ℝ, val_main_v86 (F := Ideal) x0 x1 x2 x3 x4 x5 x6 x7 i = (a : EReal)) (r : Fin 100000) (j : Fin 128) :
    max (x8 (ix1 j) * ((val_main_v86 (F := Ideal) x0 x1 x2 x3 x4 x5 x6 x7 (ix2 r j)
            - Ideal.div (∑ k : Fin 100000, val_main_v86 (F := Ideal) x0 x1 x2 x3 x4 x5 x6 x7 (ix2 k j)) (Ideal.ofBits .f32 0x47C35000#32))
          * Ideal.rsqrt ((Ideal.div (∑ k : Fin 100000, val_main_v86 (F := Ideal) x0 x1 x2 x3 x4 x5 x6 x7 (ix2 k j)
                  * val_main_v86 (F := Ideal) x0 x1 x2 x3 x4 x5 x6 x7 (ix2 k j)) (Ideal.ofBits .f32 0x47C35000#32)
              - Ideal.div (∑ k : Fin 100000, val_main_v86 (F := Ideal) x0 x1 x2 x3 x4 x5 x6 x7 (ix2 k j)) (Ideal.ofBits .f32 0x47C35000#32)
                * Ideal.div (∑ k : Fin 100000, val_main_v86 (F := Ideal) x0 x1 x2 x3 x4 x5 x6 x7 (ix2 k j)) (Ideal.ofBits .f32 0x47C35000#32))
            + Ideal.ofBits .f32 0x3727C5AC#32)) + x9 (ix1 j)) 0
      = val_main_v112 (F := Ideal) x0 x1 x2 x3 x4 x5 x6 x7 x8 x9 (ix2 r j) := by
  rw [Cert.RefForms.v112_entry]
  exact Cert.BNAlg.bn_entry_eq 100000 (by norm_num) _ Cert.BNAlg.C_val_nat
    (fun k => val_main_v86 (F := Ideal) x0 x1 x2 x3 x4 x5 x6 x7 (ix2 k j)) (fun k => hy (ix2 k j)) (x8 (ix1 j)) (x9 (ix1 j)) _ r

end Cert.Glue

end
-- ==== Proof.KI.Chain3.lean ====
/-
  Second layer, by the same steps as the first: the dense product of the first layer's features with the second weight matrix, the
  gather-scale-scatter aggregate, the column sums of y = aggregate + bias and of y·y, the mean and variance rows, and the normalised,
  rectified features — each the reference's stage of the same arguments, the last for real y.
-/
import proofs.«107028_j46583215292429_1_alg».proof.Proof.KI.Chain2
import proofs.«107028_j46583215292429_1_alg».proof.Proof.KI.Mat3Value
import proofs.«107028_j46583215292429_1_alg».proof.Proof.KI.Stats4Final
import proofs.«107028_j46583215292429_1_alg».proof.Proof.KI.Apply5Value
import proofs.«107028_j46583215292429_1_alg».proof.Proof.KI.RefForms2
import proofs.«107028_j46583215292429_1_alg».proof.Proof.KI.Glue2

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-! ## The second dense product and aggregate -/

theorem c7_v53 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) : U7 m c (Proc.devRef .tc main_v53)
    = Cert.ReferenceIdeal.Read.val_main_v70 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (U7_arr m c 2).trans ?_
  rw [final3 (T6 m) c]
  rw [show T6 m c (Pipeline.arrRef spec3 0) = _ from c6_v52 m c hy43,
    show T6 m c (Pipeline.arrRef spec3 1) = m (c, Proc.devRef .tc main_arg6) from U6_arg m c main_arg6 (by decide)]
  exact Cert.Glue.glue_prod3 _ _ _ _ _ _ _

theorem c8_v66 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) : U8 m c (Proc.devRef .tc main_v66)
    = Cert.ReferenceIdeal.Read.val_main_v83 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) := by
  refine (Cert.KernelIdeal.HostBridge.host4_v66 (U7 m c)).trans ?_
  rw [U7_edge m c main_v5 (by decide), U7_edge m c main_v6 (by decide), U7_edge m c main_v26 (by decide),
    c1_v5, c1_v6, c1_v26, c7_v53 m c hy43]
  exact (Cert.RefForms.v83_conv _ _ _ _ _ _ _).symm

theorem c8_v67 (j : Fin 128) : U8 m c (Proc.devRef .tc main_v67) (ix2 (0 : Fin 1) j) = (m (c, Proc.devRef .tc main_arg7)) (ix1 j) := by
  refine (Cert.KernelIdeal.HostBridge.host4_v67 (U7 m c) j).trans ?_
  rw [U7_arg m c main_arg7 (by decide)]

/-! ## Its column statistics -/

theorem term4_eq (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (r : Fin 100000) (j : Fin 128) :
    a4_0 (T8 m) c (ix2 r j) + a4_1 (T8 m) c (ix2 (0 : Fin 1) j) = Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) := by
  rw [Cert.RefForms.v86_entry, ← c8_v66 m c hy43, ← c8_v67 m c j]

theorem c9_sum (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (j : Fin 128) : U9 m c (Proc.devRef .tc main_v68_0) (ix2 (0 : Fin 1) j)
    = ∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) := by
  have h := stats4_sum (T8 m) c j
  have e : U9 m c (Proc.devRef .tc main_v68_0) = (dat4 (F := Ideal) (T8 m) c).arrAt 2 cfg4.N := U9_arr m c 2
  rw [e]
  have h2 : (∑ r : Fin 100000, (a4_0 (T8 m) c (ix2 r j) + a4_1 (T8 m) c (ix2 (0 : Fin 1) j)) : EReal)
      = ∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) :=
    Finset.sum_congr rfl fun r _ => term4_eq m c hy43 r j
  exact h.trans h2

theorem c9_sumsq (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (j : Fin 128) : U9 m c (Proc.devRef .tc main_v68_1) (ix2 (0 : Fin 1) j)
    = ∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) * Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) := by
  have h := stats4_sumsq (T8 m) c j
  have e : U9 m c (Proc.devRef .tc main_v68_1) = (dat4 (F := Ideal) (T8 m) c).arrAt 3 cfg4.N := U9_arr m c 3
  rw [e]
  have h2 : (∑ r : Fin 100000, (a4_0 (T8 m) c (ix2 r j) + a4_1 (T8 m) c (ix2 (0 : Fin 1) j)) * (a4_0 (T8 m) c (ix2 r j) + a4_1 (T8 m) c (ix2 (0 : Fin 1) j)) : EReal)
      = ∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) * Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) :=
    Finset.sum_congr rfl fun r _ => by rw [term4_eq m c hy43 r j]
  exact h.trans h2

theorem c10_v70 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (j : Fin 128) : U10 m c (Proc.devRef .tc main_v70) (ix2 (0 : Fin 1) j)
    = Ideal.div (∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j)) (Ideal.ofBits .f32 0x47C35000#32) := by
  refine (Cert.KernelIdeal.HostBridge.host5_v70 (U9 m c) j).trans ?_
  rw [c9_sum m c hy43 j]
theorem c10_v74 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (j : Fin 128) : U10 m c (Proc.devRef .tc main_v74) (ix2 (0 : Fin 1) j)
    = Ideal.div (∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) * Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j)) (Ideal.ofBits .f32 0x47C35000#32)
      - Ideal.div (∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j)) (Ideal.ofBits .f32 0x47C35000#32) * Ideal.div (∑ r : Fin 100000, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j)) (Ideal.ofBits .f32 0x47C35000#32) := by
  refine (Cert.KernelIdeal.HostBridge.host5_v74 (U9 m c) j).trans ?_
  rw [c9_sum m c hy43 j, c9_sumsq m c hy43 j]
theorem c10_v75 (j : Fin 128) : U10 m c (Proc.devRef .tc main_v75) (ix2 (0 : Fin 1) j) = (m (c, Proc.devRef .tc main_arg7)) (ix1 j) := by
  refine (Cert.KernelIdeal.HostBridge.host5_v75 (U9 m c) j).trans ?_
  rw [U9_arg m c main_arg7 (by decide)]
theorem c10_v76 (j : Fin 128) : U10 m c (Proc.devRef .tc main_v76) (ix2 (0 : Fin 1) j) = (m (c, Proc.devRef .tc main_arg8)) (ix1 j) := by
  refine (Cert.KernelIdeal.HostBridge.host5_v76 (U9 m c) j).trans ?_
  rw [U9_arg m c main_arg8 (by decide)]
theorem c10_v77 (j : Fin 128) : U10 m c (Proc.devRef .tc main_v77) (ix2 (0 : Fin 1) j) = (m (c, Proc.devRef .tc main_arg9)) (ix1 j) := by
  refine (Cert.KernelIdeal.HostBridge.host5_v77 (U9 m c) j).trans ?_
  rw [U9_arg m c main_arg9 (by decide)]

/-! ## Its normalised features -/

theorem c11_v78 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (hy86 : ∀ i, ∃ a : ℝ, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) i = (a : EReal)) : U11 m c (Proc.devRef .tc main_v78)
    = Cert.ReferenceIdeal.Read.val_main_v112 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) := by
  refine (U11_arr m c 6).trans ?_
  funext i
  obtain ⟨r, j, rfl⟩ : ∃ (r : Fin 100000) (j : Fin 128), i = ix2 r j := ⟨i 0, i 1, eq_ix2 i⟩
  refine (apply5_entry (T10 m) c r j).trans ?_
  have e0 : a5_0 (T10 m) c (ix2 r j) + a5_1 (T10 m) c (ix2 (0 : Fin 1) j) = Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (ix2 r j) := by
    rw [Cert.RefForms.v86_entry, ← c8_v66 m c hy43, ← U10_v66 m c, ← c10_v75 m c j]
  rw [e0, show a5_2 (T10 m) c (ix2 (0 : Fin 1) j) = _ from c10_v70 m c hy43 j, show a5_3 (T10 m) c (ix2 (0 : Fin 1) j) = _ from c10_v74 m c hy43 j,
    show a5_4 (T10 m) c (ix2 (0 : Fin 1) j) = _ from c10_v76 m c j, show a5_5 (T10 m) c (ix2 (0 : Fin 1) j) = _ from c10_v77 m c j]
  exact Cert.Glue.glue_bn2 _ _ _ _ _ _ _ _ _ _ hy86 r j

end Cert.KernelIdeal.Hand

end
-- ==== Proof.KI.Chain4.lean ====
/-
  The output layer: the dense product of the second layer's features with the last weight matrix, the gather-scale-scatter aggregate
  at the output width, and the bias row added — the reference's last stage of the same arguments.
-/
import proofs.«107028_j46583215292429_1_alg».proof.Proof.KI.Chain3
import proofs.«107028_j46583215292429_1_alg».proof.Proof.KI.Mat6Value
import proofs.«107028_j46583215292429_1_alg».proof.Proof.KI.RefForms3

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

theorem c12_v79 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (hy86 : ∀ i, ∃ a : ℝ, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) i = (a : EReal)) : U12 m c (Proc.devRef .tc main_v79)
    = Cert.ReferenceIdeal.Read.val_main_v113 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) := by
  refine (U12_arr m c 2).trans ?_
  rw [final6 (T11 m) c]
  rw [show T11 m c (Pipeline.arrRef spec6 0) = _ from c11_v78 m c hy43 hy86,
    show T11 m c (Pipeline.arrRef spec6 1) = m (c, Proc.devRef .tc main_arg10) from U11_arg m c main_arg10 (by decide)]
  exact Cert.Glue.glue_prod6 _ _ _ _ _ _ _ _ _ _ _

/-- The result array is the reference's last stage of the launch arguments. -/
theorem c13_v95 (hy43 : ∀ i, ∃ a : ℝ, Cert.ReferenceIdeal.Read.val_main_v43 (F := Ideal) (m (c, Proc.devRef .tc main_arg0)) (m (c, Proc.devRef .tc main_arg1)) (m (c, Proc.devRef .tc main_arg2)) (m (c, Proc.devRef .tc main_arg3)) i = (a : EReal)) (hy86 : ∀ i, ∃ a : ℝ, Cert.ReferenceIdeal.Read.val_main_v86 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) i = (a : EReal)) : U13 m c (Proc.devRef .tc main_v95)
    = Cert.ReferenceIdeal.Read.val_main_v129 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) := by
  refine (Cert.KernelIdeal.HostBridge.host7_v95 (U12 m c)).trans ?_
  rw [U12_edge m c main_v5 (by decide), U12_edge m c main_v6 (by decide), U12_edge m c main_v26 (by decide),
    c1_v5, c1_v6, c1_v26, c12_v79 m c hy43 hy86, U12_arg m c main_arg11 (by decide), ← Cert.RefForms.v126_conv]
  rfl

end Cert.KernelIdeal.Hand

end
-- ==== Proof.KI.FiniteInputs.lean ====
/-
  From the precondition to real entries. The precondition is the conjunction, over the eleven float arguments, of
  "every entry has absolute value below +∞", each conjunct a reduction by `and` of the entrywise comparison
  |x| < +∞ over all axes; the integer argument (the edge list) is not constrained. On the extended reals an entry
  with |x| < +∞ is neither +∞ nor -∞, hence a real. So when the precondition evaluates to 1, every entry of every
  float argument is a real.
-/
import proofs.«107028_j46583215292429_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs

/-- The rank-0 shape has one index. -/
instance : Subsingleton S_.Idx := ⟨fun a b => funext fun d => d.elim0⟩

/-- The word with exponent field all ones and significand zero denotes +∞. -/
theorem inf_val : Ideal.ofBits .f32 0x7F800000#32 = (⊤ : EReal) := by
  simp [Ideal.ofBits, Ideal.ieee]

/-- An extended real whose absolute value max x (-x) compares below +∞ is a real: at -∞ and at +∞ the absolute
    value is +∞, which is not below itself. -/
theorem real_of_abs_lt (x : EReal) (h : Ideal.cmp .olt (max x (-x)) (Ideal.ofBits .f32 0x7F800000#32) = 1#1) :
    ∃ a : ℝ, x = (a : EReal) := by
  rw [inf_val] at h
  induction x using EReal.rec with
  | bot => simp [Ideal.cmp] at h
  | top => simp [Ideal.cmp] at h
  | coe r => exact ⟨r, rfl⟩

/-- One conjunct: if the reduction by `and`, over all axes, of the entrywise comparison |x| < +∞ is 1, every entry
    of x is a real. -/
theorem all_real {s : Shape} {axes : List (Fin s.rank)} (x : FVec Ideal s .f32)
    (bc : S_.BroadcastsInDim s (![] : Fin 0 → Fin s.rank)) (h : s.ReducesTo axes S_) (hu : 0 < S_.numel) (j : S_.Idx)
    (e : Host.reduce IntOp.andi (cmpf .olt (Host.absf x) (broadcastInDim s ![] bc (constant S_ .f32 0x7F800000#32)))
      (constantI S_ 1 1#1) h hu j = 1#1) (i : s.Idx) : ∃ a : ℝ, x i = (a : EReal) :=
  real_of_abs_lt (x i) (Host.reduce_andi_all _ _ h hu j e i)

/-- When the precondition evaluates to 1, every entry of each of the eleven float arguments is a real. -/
theorem real_args [Cert.Pre_finite_inputs.Facts]
    (x0 : FVec Ideal S100000x256 .f32) (x1 : IVec S2x1600000 32) (x2 : FVec Ideal S256x128 .f32)
    (x3 x4 x5 : FVec Ideal S128 .f32) (x6 : FVec Ideal S128x128 .f32) (x7 x8 x9 : FVec Ideal S128 .f32)
    (x10 : FVec Ideal S128x64 .f32) (x11 : FVec Ideal S64 .f32)
    (h : Cert.Pre_finite_inputs.fn (F := Ideal) x0 x1 x2 x3 x4 x5 x6 x7 x8 x9 x10 x11 = fun _ => 1#1) :
    (∀ i, ∃ a : ℝ, x0 i = (a : EReal)) ∧ (∀ i, ∃ a : ℝ, x2 i = (a : EReal)) ∧ (∀ i, ∃ a : ℝ, x3 i = (a : EReal))
    ∧ (∀ i, ∃ a : ℝ, x4 i = (a : EReal)) ∧ (∀ i, ∃ a : ℝ, x5 i = (a : EReal)) ∧ (∀ i, ∃ a : ℝ, x6 i = (a : EReal))
    ∧ (∀ i, ∃ a : ℝ, x7 i = (a : EReal)) ∧ (∀ i, ∃ a : ℝ, x8 i = (a : EReal)) ∧ (∀ i, ∃ a : ℝ, x9 i = (a : EReal))
    ∧ (∀ i, ∃ a : ℝ, x10 i = (a : EReal)) ∧ (∀ i, ∃ a : ℝ, x11 i = (a : EReal)) := by
  have h0 := congrFun h ValueIdx.ix0
  dsimp only [fn, fn_part1, fn_part2, fn_part3, andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨all_real _ _ _ _ _ e0, all_real _ _ _ _ _ e2, all_real _ _ _ _ _ e3, all_real _ _ _ _ _ e4,
    all_real _ _ _ _ _ e5, all_real _ _ _ _ _ e6, all_real _ _ _ _ _ e7, all_real _ _ _ _ _ e8,
    all_real _ _ _ _ _ e9, all_real _ _ _ _ _ e10, all_real _ _ _ _ _ e11⟩

end Cert.FiniteInputs

end
-- ==== Proof.KI.RefRealBase.lean ====
/-
  REAL ENTRIES ARE KEPT. Over the extended reals: sums, differences, products and maxima of reals are real, a finite
  sum of reals is real, the reciprocal square root of a positive real is a positive real; a gather of a table with
  real entries has real entries (each entry is an entry of the table), and a float scatter-add of real updates into an
  operand with real entries has real entries (each entry is the operand's plus a finite sum of updates) — whatever the
  integer positions are.
-/
import Idealize.ShloMosaic.PureOps.Ideal
import Idealize.ShloMosaic.Lib.ValueIdx
import Idealize.ShloMosaic.PureOps.Ideal.Laws

noncomputable section
open scoped BigOperators
namespace Cert.RefReal
open Idealize.ShloMosaic

/-- An extended real that is a real number. -/
def IsReal (x : EReal) : Prop := ∃ a : ℝ, x = (a : EReal)

theorem isReal_coe (a : ℝ) : IsReal (a : EReal) := ⟨a, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A gather of a table with real entries has real entries: each entry is an entry of the table. -/
theorem gather_real {s si t : Shape} {w : Nat} (d : GatherDims s si t) (x : s.Idx → EReal) (idx : IVec si w)
    (hx : ∀ j, IsReal (x j)) (i : t.Idx) : IsReal (Host.gather d x idx i) := hx _

/-- A float scatter-add of real updates into a real operand has real entries. -/
theorem scatterAdd_real {s si su : Shape} {w : Nat} {φ : FTy} (d : ScatterDims s si su) (x : FVec Ideal s φ) (idx : IVec si w)
    (upd : FVec Ideal su φ) (hx : ∀ j, IsReal (x j)) (hu : ∀ j, IsReal (upd j)) (i : s.Idx) :
    IsReal (Host.scatterAdd (F := Ideal) d x idx upd i) :=
  (hx i).add (isReal_sum _ _ fun j _ => hu j)

theorem rsqrt_real {x : EReal} (h : ∃ a : ℝ, 0 < a ∧ x = (a : EReal)) : ∃ b : ℝ, 0 < b ∧ Ideal.rsqrt x = (b : EReal) := by
  obtain ⟨a, ha, rfl⟩ := h
  refine ⟨(Real.sqrt a)⁻¹, inv_pos.mpr (Real.sqrt_pos.mpr ha), ?_⟩
  rw [Ideal.rsqrt_coe, if_neg (not_lt.mpr ha.le), if_neg ha.ne']

end Cert.RefReal
end
-- ==== Proof.KI.LibVecScatterAdd.lean ====
/-
  THE VECTOR SCATTER-ADD READ AT AN INDEX. For an operand `x : [N]`, an integer array of `E` element numbers and
  updates `upd : [E]`, the arrays `jax.ops.segment_sum(upd, idx)` and `x.at[idx].add(upd)` are `stablehlo.scatter`
  with an `add` body, no update window axis, inserted_window_dims [0], scatter_dims_to_operand_dims [0] and
  index_vector_dim 1 over the element numbers as `[E, 1]`. Update element `e` lands on operand element `n` exactly
  when the `e`-th number, read as a signed integer and NOT clamped, is `n`; an update whose number is negative or at
  least `N` is dropped. So, over the extended reals, the result's element `n` is `x n` plus the sum of `upd e` over
  the `e` whose number is `n`. Generic in the sizes `N`, `E` and the width of the index words.
-/
import Idealize.ShloMosaic.PureOps.Ideal
import Idealize.ShloMosaic.Lib.ValueIdx

noncomputable section

open scoped BigOperators

namespace Cert.VecScatterAdd

open Idealize.ShloMosaic Idealize.ShloMosaic.ValueIdx

/-- The dimension numbers of `jax.ops.segment_sum(upd, idx)` / `zeros.at[idx].add(upd)` for an operand `[N]`, the
    indices as `[E, 1]` and updates `[E]`: no update window axis, inserted_window_dims [0],
    scatter_dims_to_operand_dims [0], index_vector_dim 1. -/
abbrev dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the `e`-th number, read signed. -/
theorem start_elt : (dims N E wf).start (ix1 e) idx 0 = (idx (ix2 e (0 : Fin 1))).toInt := by
  unfold ScatterDims.start
  rw [dif_pos (show (0 : Fin 1) ∈ (dims N E wf).scatterDimsToOperandDims from List.mem_singleton.mpr rfl)]
  have hsi : (dims N E wf).siIdx (ix1 e) ⟨List.idxOf (0 : Fin 1) (dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: it takes no window coordinate. -/
theorem not_mem_sKept (a : Fin 1) : a ∉ (dims N E wf).sKept := by
  simp [ScatterDims.sKept, Shape.kept, List.mem_filter, List.mem_finRange, Fin.fin_one_eq_zero a]

/-- On the operand's axis, an inserted one, the window coordinate is `0`. -/
theorem window_elt : (dims N E wf).window (ix1 e) 0 = 0 := by
  unfold ScatterDims.window
  rw [dif_neg (not_mem_sKept wf 0)]

end Coordinates

/-- WHERE AN UPDATE LANDS: update element `e` lands on operand element `n` exactly when the `e`-th number, read
    signed and not clamped, is `n`. -/
theorem resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (dims N E wf).resultIdx? (ix1 e) idx = some (ix1 n) ↔ hits idx e n := by
  have hs0 := start_elt wf idx e
  have hw0 := window_elt wf e
  have hn : n.val < N := n.isLt
  unfold hits
  unfold ScatterDims.resultIdx?
  split
  · rename_i h
    rw [Option.some.injEq]
    constructor
    · intro hf
      have h0 := congrArg Fin.val (congrFun hf 0)
      have hb0 := (h 0).1
      simp only [hs0, hw0] at h0 hb0
      change (((idx (ix2 e (0 : Fin 1))).toInt + ((0 : Nat) : Int)).toNat) = n.val at h0
      omega
    · intro hhit
      funext a
      refine Fin.ext ?_
      match a with
      | ⟨0, _⟩ =>
        show ((dims N E wf).start (ix1 e) idx 0 + ((dims N E wf).window (ix1 e) 0 : Nat)).toNat = n.val
        rw [hs0, hw0, hhit]; omega
  · rename_i h
    constructor
    · intro hf; exact absurd hf (by simp)
    · intro hhit
      exfalso; apply h
      intro a
      match a with
      | ⟨0, _⟩ =>
        show 0 ≤ (dims N E wf).start (ix1 e) idx 0 + ((dims N E wf).window (ix1 e) 0 : Nat) ∧
          (dims N E wf).start (ix1 e) idx 0 + ((dims N E wf).window (ix1 e) 0 : Nat) < (N : Int)
        rw [hs0, hw0, hhit]; omega

/-- THE VECTOR SCATTER-ADD READ AT `n`: the operand's element plus the sum, over the updates `e` whose number (read
    signed, not clamped) is `n`, of the update's element `e`. -/
theorem scatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (dims N E wf) x idx upd (ix1 n)
      = x (ix1 n) + ∑ e : Fin E, if hits idx e n then upd (ix1 e) else 0 := by
  unfold Ideal.hostScatterAdd
  congr 1
  rw [Finset.sum_filter, sum_idx1]
  refine Finset.sum_congr rfl fun e _ => ?_
  by_cases h2 : hits idx e n
  · rw [if_pos ((resultIdx?_eq_some_iff wf idx e n).mpr h2), if_pos h2]
  · rw [if_neg (fun h => h2 ((resultIdx?_eq_some_iff wf idx e n).mp h)), if_neg h2]

/-- The same read of the host's accumulating scatter as a program states it (`Host.scatterAdd`) at the ideal instance,
    where it is that exact sum whatever the float format. -/
theorem host_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w)
    (upd : FVec Ideal ⟨1, ![E]⟩ φ) (n : Fin N) :
    Host.scatterAdd (F := Ideal) (dims N E wf) x idx upd (ix1 n)
      = x (ix1 n) + ∑ e : Fin E, if hits idx e n then upd (ix1 e) else 0 :=
  scatterAdd_apply wf x idx upd n

end Cert.VecScatterAdd

end
-- ==== Proof.KI.RefDeg.lean ====
/-
  THE DEGREE, ITS RECIPROCAL SQUARE ROOT AND THE EDGE WEIGHT OF THE REFERENCE ARE REAL, whatever the edge list holds.
  The target list d is the 1,600,000 edge targets followed by the node numbers 0 … 99,999 (the self-loops). The degree of
  node n is zero plus the sum, over the 1,700,000 list positions e, of one where d(e) read signed is n: every term is 0
  or 1, and the term of the self-loop position 1,600,000 + n is 1, so the degree is a real ≥ 1. Its reciprocal square
  root is then a positive real, and the edge weight, a product of two gathered entries of that vector, is a real.
-/
import proofs.«107028_j46583215292429_1_alg».proof.Proof.Gen.ReferenceIdeal.Read
import proofs.«107028_j46583215292429_1_alg».proof.Proof.KI.RefRealBase
import proofs.«107028_j46583215292429_1_alg».proof.Proof.KI.LibVecScatterAdd
import Idealize.ShloMosaic.Lib.IdealHost

noncomputable section

open scoped BigOperators

namespace Cert.RefReal

open Cert.ReferenceIdeal Cert.ReferenceIdeal.Gen Cert.ReferenceIdeal.Read Idealize.ShloMosaic Idealize.ShloMosaic.ValueIdx

/-- A node number, as a 32-bit word, reads signed as itself. -/
theorem toInt_ofNat_node (n : Nat) (h : n < 100000) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  rw [if_pos (by omega)]

/-- The target list at the self-loop position of node n holds n. -/
theorem v6_loop (x1 : (⟨S2x1600000, .i32⟩ : BufTy).Contents (Elt Ideal)) (n : Fin 100000) :
    val_main_v6 (F := Ideal) x1 (ix1 ⟨1600000 + n.val, by omega⟩) = BitVec.ofNat 32 n.val := by
  unfold val_main_v6
  rw [concatenate_pair_apply_right (0 : Fin S1700000.rank) (val_main_v3 (F := Ideal) x1) (val_main_v4 (F := Ideal))
    concatenates_S1600000_S100000_S1700000_d0 (ix1 ⟨1600000 + n.val, by omega⟩) rfl rfl (ix1 n)
    (fun b hb => absurd (Subsingleton.elim _ _) hb) (by show n.val + 1600000 = 1600000 + n.val; omega)]
  rfl

/-- The self-loop position of node n lands on n. -/
theorem loop_hits (x1 : (⟨S2x1600000, .i32⟩ : BufTy).Contents (Elt Ideal)) (n : Fin 100000) :
    Cert.VecScatterAdd.hits (val_main_v9 (F := Ideal) x1) (⟨1600000 + n.val, by omega⟩ : Fin 1700000) n := by
  unfold Cert.VecScatterAdd.hits
  rw [val_main_v9_apply]
  have hi : idx_main_v9 (ix2 (⟨1600000 + n.val, by omega⟩ : Fin 1700000) (0 : Fin 1)) = ix1 ⟨1600000 + n.val, by omega⟩ := by
    funext a; match a with | ⟨0, _⟩ => rfl
  rw [hi, v6_loop, toInt_ofNat_node _ n.isLt]

/-- The degree of node n: zero plus, over the list positions landing on n, one each. -/
theorem v10_apply (x1 : (⟨S2x1600000, .i32⟩ : BufTy).Contents (Elt Ideal)) (n : Fin 100000) :
    val_main_v10 (F := Ideal) x1 (ix1 n) = (0 : EReal) + ∑ e : Fin 1700000,
      if Cert.VecScatterAdd.hits (val_main_v9 (F := Ideal) x1) e n then (1 : EReal) else 0 := by
  have h := Cert.VecScatterAdd.host_scatterAdd_apply (φ := .f32) scatter_S100000_S1700000x1_S1700000_n_0_0_1_wf
    (val_main_v8 (F := Ideal)) (val_main_v9 (F := Ideal) x1) (val_main_v7 (F := Ideal)) n
  have h8 : val_main_v8 (F := Ideal) (ix1 n) = (0 : EReal) := by
    rw [val_main_v8_apply, val_main_cst_0_apply]; exact Ideal.ofBits_zero_f32
  have h7 : ∀ e : Fin 1700000, val_main_v7 (F := Ideal) (ix1 e) = (1 : EReal) := by
    intro e; rw [val_main_v7_apply, val_main_cst_apply]; exact Ideal.ofBits_one_f32
  simp only [h8, h7] at h
  exact h

/-- A finite sum of zeros and ones is a real ≥ 0. -/
theorem sum_ite_one_nonneg {ι : Type*} (s : Finset ι) (p : ι → Prop) [DecidablePred p] :
    ∃ a : ℝ, 0 ≤ a ∧ (∑ e ∈ s, if p e then (1 : EReal) else 0) = (a : EReal) := by
  classical
  induction s using Finset.induction_on with
  | empty => exact ⟨0, le_refl _, by simp⟩
  | insert b s hb ih =>
    obtain ⟨a, ha, hs⟩ := ih
    rw [Finset.sum_insert hb, hs]
    by_cases hp : p b
    · rw [if_pos hp]; exact ⟨1 + a, by linarith, by rw [EReal.coe_add]; rfl⟩
    · rw [if_neg hp]; exact ⟨a, ha, zero_add _⟩

/-- THE DEGREE IS A REAL ≥ 1. -/
theorem v10_ge_one (x1 : (⟨S2x1600000, .i32⟩ : BufTy).Contents (Elt Ideal)) (n : Fin 100000) :
    ∃ a : ℝ, 0 < a ∧ val_main_v10 (F := Ideal) x1 (ix1 n) = (a : EReal) := by
  rw [v10_apply, zero_add, ← Finset.add_sum_erase Finset.univ _ (Finset.mem_univ (⟨1600000 + n.val, by omega⟩ : Fin 1700000)),
    if_pos (loop_hits x1 n)]
  obtain ⟨a, ha, hs⟩ := sum_ite_one_nonneg (Finset.univ.erase (⟨1600000 + n.val, by omega⟩ : Fin 1700000))
    (fun e => Cert.VecScatterAdd.hits (val_main_v9 (F := Ideal) x1) e n)
  rw [hs]
  exact ⟨1 + a, by linarith, by rw [EReal.coe_add]; rfl⟩

/-- THE RECIPROCAL SQUARE ROOT OF THE DEGREE IS A POSITIVE REAL. -/
theorem v11_pos (x1 : (⟨S2x1600000, .i32⟩ : BufTy).Contents (Elt Ideal)) (i : S100000.Idx) :
    ∃ b : ℝ, 0 < b ∧ val_main_v11 (F := Ideal) x1 i = (b : EReal) := by
  obtain ⟨n, rfl⟩ : ∃ n : Fin 100000, i = ix1 n := ⟨i 0, eq_ix1 i⟩
  rw [val_main_v11_apply, Ideal.hostUnary_rsqrt_def]
  obtain ⟨a, ha, h⟩ := v10_ge_one x1 n
  rw [h]
  exact rsqrt_real ⟨a, ha, rfl⟩

theorem v11_real (x1 : (⟨S2x1600000, .i32⟩ : BufTy).Contents (Elt Ideal)) (i : S100000.Idx) :
    IsReal (val_main_v11 (F := Ideal) x1 i) := by
  obtain ⟨b, _, hb⟩ := v11_pos x1 i; exact ⟨b, hb⟩

/-- THE EDGE WEIGHT IS A REAL: the product of two gathered entries of the reciprocal square roots. -/
theorem v26_real (x1 : (⟨S2x1600000, .i32⟩ : BufTy).Contents (Elt Ideal)) (i : S1700000.Idx) :
    IsReal (val_main_v26 (F := Ideal) x1 i) := by
  rw [val_main_v26_apply, Ideal.mulf_def]
  unfold val_main_v18 val_main_v25
  exact IsReal.mul (gather_real _ _ _ (v11_real x1) i) (gather_real _ _ _ (v11_real x1) i)

end Cert.RefReal

end
-- ==== Proof.KI.RefConv.lean ====
/-
  SIGNS OF REALS, AND THE TWO FLOAT WORDS. Over the extended reals: the square of a real is a real ≥ 0; a finite sum of
  reals ≥ 0 is a real ≥ 0; a real divided by a nonzero real is a real, and a real ≥ 0 divided by a positive real is a real
  ≥ 0; a real ≥ 0 plus a positive real is a positive real; the reciprocal square root of a positive real is a positive
  real. The divisor word of the column means denotes 100000 and the variance offset word a positive real.
-/
import proofs.«107028_j46583215292429_1_alg».proof.Proof.KI.RefRealBase
import Idealize.ShloMosaic.PureOps.Ideal.Laws

noncomputable section

open scoped BigOperators

namespace Cert.RefReal

open Idealize.ShloMosaic

/-- An extended real that is a positive real number. -/
def IsPos (x : EReal) : Prop := ∃ a : ℝ, 0 < a ∧ x = (a : EReal)
/-- An extended real that is a real number ≥ 0. -/
def IsNonneg (x : EReal) : Prop := ∃ a : ℝ, 0 ≤ a ∧ x = (a : EReal)

theorem IsPos.isReal {x : EReal} (h : IsPos x) : IsReal x := by obtain ⟨a, _, h⟩ := h; exact ⟨a, h⟩
theorem IsNonneg.isReal {x : EReal} (h : IsNonneg x) : IsReal x := by obtain ⟨a, _, h⟩ := h; exact ⟨a, h⟩

/-- The zero word denotes the real zero. -/
theorem isReal_word_zero : IsReal (Ideal.ofBits .f32 0x00000000#32) := by
  rw [Ideal.ofBits_zero_f32]; exact isReal_zero
theorem isNonneg_word_zero : IsNonneg (Ideal.ofBits .f32 0x00000000#32) := by
  rw [Ideal.ofBits_zero_f32]; exact ⟨0, le_refl _, rfl⟩

/-- The word of the divisor denotes the real 100000: exponent field 143 and significand (2^23 + 4411392) / 2^23. -/
theorem word_C : Ideal.ofBits .f32 0x47C35000#32 = ((100000 : ℝ) : EReal) := by
  simp [Ideal.ofBits, Ideal.ieee, -EReal.coe_mul]; norm_num

/-- The word of the variance offset denotes a positive real (exponent field 110). -/
theorem word_eps : IsPos (Ideal.ofBits .f32 0x3727C5AC#32) := by
  have h : Ideal.ofBits .f32 0x3727C5AC#32 = (((10995116 : ℝ) / 2 ^ 40 : ℝ) : EReal) := by
    simp [Ideal.ofBits, Ideal.ieee, -EReal.coe_mul]; norm_num
  exact ⟨_, by norm_num, h⟩

/-- The square of a real is a real ≥ 0. -/
theorem IsReal.mul_self_nonneg {x : EReal} (hx : IsReal x) : IsNonneg (x * x) := by
  obtain ⟨a, rfl⟩ := hx; exact ⟨a * a, _root_.mul_self_nonneg a, (EReal.coe_mul a a).symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

/-- A finite sum of reals ≥ 0 is a real ≥ 0. -/
theorem isNonneg_sum {ι : Type*} (s : Finset ι) (f : ι → EReal) (h : ∀ i ∈ s, IsNonneg (f i)) :
    IsNonneg (∑ i ∈ s, f i) := by
  classical
  induction s using Finset.induction_on with
  | empty => exact ⟨0, le_refl _, by simp⟩
  | insert a s ha ih =>
    rw [Finset.sum_insert ha]
    exact (h a (Finset.mem_insert_self a s)).add (ih fun i hi => h i (Finset.mem_insert_of_mem hi))

/-- A real divided by a nonzero real is a real. -/
theorem IsReal.div_real {x : EReal} (hx : IsReal x) {c : ℝ} (hc : c ≠ 0) : IsReal (Ideal.div x (c : EReal)) := by
  obtain ⟨a, rfl⟩ := hx
  rw [Ideal.div_coe hc]
  exact ⟨a * (1 / c), (EReal.coe_mul a (1 / c)).symm⟩

/-- A real ≥ 0 divided by a positive real is a real ≥ 0. -/
theorem IsNonneg.div_pos {x : EReal} (hx : IsNonneg x) {c : ℝ} (hc : 0 < c) : IsNonneg (Ideal.div x (c : EReal)) := by
  obtain ⟨a, ha, rfl⟩ := hx
  rw [Ideal.div_coe hc.ne']
  exact ⟨a * (1 / c), mul_nonneg ha (by positivity), (EReal.coe_mul a (1 / c)).symm⟩

/-- A real ≥ 0 plus a positive real is a positive real. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The reciprocal square root of a positive real is a positive real. -/
theorem IsPos.rsqrt {x : EReal} (hx : IsPos x) : IsPos (Ideal.rsqrt x) := rsqrt_real hx

end Cert.RefReal

end
-- ==== Proof.KI.RefL1.lean ====
/-
  THE FIRST GRAPH CONVOLUTION OF THE REFERENCE HAS REAL ENTRIES when the node features, the first weight matrix and the
  first bias have, whatever the edge list holds. An entry of the dense transform is a finite sum of products of reals.
  A message entry is a gathered entry of the transform (an entry of it, at whichever row) times the edge weight, a real.
  An aggregated entry is zero plus a finite sum of message entries (whichever land on its row). The result adds a bias
  entry.
-/
import proofs.«107028_j46583215292429_1_alg».proof.Proof.Gen.ReferenceIdeal.Read
import proofs.«107028_j46583215292429_1_alg».proof.Proof.KI.RefDeg
import proofs.«107028_j46583215292429_1_alg».proof.Proof.KI.RefConv

noncomputable section

open scoped BigOperators

namespace Cert.RefReal

open Cert.ReferenceIdeal Cert.ReferenceIdeal.Gen Cert.ReferenceIdeal.Read Idealize.ShloMosaic Idealize.ShloMosaic.ValueIdx

/-- An entry of the first dense transform: a finite sum of products of reals. -/
theorem v27_real (x0 : (⟨S100000x256, .f32⟩ : BufTy).Contents (Elt Ideal)) (x2 : (⟨S256x128, .f32⟩ : BufTy).Contents (Elt Ideal)) (h0 : ∀ i, IsReal (x0 i)) (h2 : ∀ i, IsReal (x2 i)) (i : S100000x128.Idx) :
    IsReal (val_main_v27 (F := Ideal) x0 x2 i) := by
  rw [val_main_v27_apply]
  exact isReal_sum _ _ fun k _ => (h0 _).mul (h2 _)

/-- THE FIRST CONVOLUTION'S RESULT HAS REAL ENTRIES. -/
theorem v43_real (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (h0 : ∀ i, IsReal (x0 i)) (h2 : ∀ i, IsReal (x2 i)) (h3 : ∀ i, IsReal (x3 i)) (i : S100000x128.Idx) :
    IsReal (val_main_v43 (F := Ideal) x0 x1 x2 x3 i) := by
  rw [val_main_v43_apply, Ideal.addf_def]
  refine IsReal.add ?_ ?_
  · unfold val_main_v40
    refine scatterAdd_real _ _ _ _ (fun j => ?_) (fun j => ?_) i
    · rw [val_main_v38_apply, val_main_cst_6_apply, Ideal.ofBits_def]; exact isReal_word_zero
    · rw [val_main_v37_apply, Ideal.mulf_def]
      refine IsReal.mul ?_ ?_
      · unfold val_main_v34; exact gather_real _ _ _ (v27_real x0 x2 h0 h2) j
      · rw [val_main_v36_apply, val_main_v35_apply]; exact v26_real x1 _
  · rw [val_main_v42_apply, val_main_v41_apply]; exact h3 _

/-- The same, with the hypotheses and the conclusion spelt out. -/
theorem real_v43 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (h0 : ∀ i, ∃ a : ℝ, x0 i = (a : EReal)) (h2 : ∀ i, ∃ a : ℝ, x2 i = (a : EReal)) (h3 : ∀ i, ∃ a : ℝ, x3 i = (a : EReal)) :
    ∀ i, ∃ a : ℝ, val_main_v43 (F := Ideal) x0 x1 x2 x3 i = (a : EReal) :=
  fun i => v43_real x0 x1 x2 x3 h0 h2 h3 i

end Cert.RefReal

end
-- ==== Proof.KI.RefBN1.lean ====
/-
  THE FIRST BATCH NORMALISATION FOLLOWED BY THE MAXIMUM WITH ZERO KEEPS REAL ENTRIES. Given that the array y it is applied
  to has real entries, and the scale and the shift have: a column sum (the zero word plus a finite sum of entries) is a
  real, the column mean (that sum divided by the real 100000) is a real, a deviation y − mean is a real, its square is a
  real ≥ 0, the sum of the squares is a real ≥ 0 and so is the variance (that sum divided by 100000); the variance plus
  the offset, a positive real, is a positive real, and its reciprocal square root is a positive real. So the normalised
  entry (scale · deviation) · that root + shift is a real, and so is its maximum with zero.
-/
import proofs.«107028_j46583215292429_1_alg».proof.Proof.Gen.ReferenceIdeal.Read
import proofs.«107028_j46583215292429_1_alg».proof.Proof.KI.RefConv

noncomputable section

open scoped BigOperators

namespace Cert.RefReal

open Cert.ReferenceIdeal Cert.ReferenceIdeal.Gen Cert.ReferenceIdeal.Read Idealize.ShloMosaic Idealize.ShloMosaic.ValueIdx

section
variable (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))

/-- A column sum: the zero word plus a finite sum of entries. -/
theorem v44_real (hy : ∀ i, IsReal (val_main_v43 (F := Ideal) x0 x1 x2 x3 i)) (j : S128.Idx) : IsReal (val_main_v44 (F := Ideal) x0 x1 x2 x3 j) := by
  rw [val_main_v44_apply, val_main_cst_7_apply, Ideal.ofBits_def]
  exact isReal_word_zero.add (isReal_sum _ _ fun k _ => hy _)

/-- The divisor of the means is the real 100000. -/
theorem v45_val (j : S128.Idx) : val_main_v45 (F := Ideal) j = ((100000 : ℝ) : EReal) := by
  rw [val_main_v45_apply, val_main_cst_8_apply, Ideal.ofBits_def]; exact word_C

/-- A column mean. -/
theorem v46_real (hy : ∀ i, IsReal (val_main_v43 (F := Ideal) x0 x1 x2 x3 i)) (j : S128.Idx) : IsReal (val_main_v46 (F := Ideal) x0 x1 x2 x3 j) := by
  rw [val_main_v46_apply, Ideal.hostDivf_def, v45_val]
  exact (v44_real x0 x1 x2 x3 hy j).div_real (by norm_num)

theorem v48_real (hy : ∀ i, IsReal (val_main_v43 (F := Ideal) x0 x1 x2 x3 i)) (i : S100000x128.Idx) : IsReal (val_main_v48 (F := Ideal) x0 x1 x2 x3 i) := by
  rw [val_main_v48_apply, val_main_v47_apply]; exact v46_real x0 x1 x2 x3 hy _

/-- A deviation from the column mean. -/
theorem v49_real (hy : ∀ i, IsReal (val_main_v43 (F := Ideal) x0 x1 x2 x3 i)) (i : S100000x128.Idx) : IsReal (val_main_v49 (F := Ideal) x0 x1 x2 x3 i) := by
  rw [val_main_v49_apply, Ideal.subf_def]; exact (hy i).sub (v48_real x0 x1 x2 x3 hy i)

/-- A squared deviation is a real ≥ 0. -/
theorem v50_nonneg (hy : ∀ i, IsReal (val_main_v43 (F := Ideal) x0 x1 x2 x3 i)) (i : S100000x128.Idx) : IsNonneg (val_main_v50 (F := Ideal) x0 x1 x2 x3 i) := by
  rw [val_main_v50_apply, Ideal.mulf_def]; exact (v49_real x0 x1 x2 x3 hy i).mul_self_nonneg

/-- A column sum of squared deviations is a real ≥ 0. -/
theorem v51_nonneg (hy : ∀ i, IsReal (val_main_v43 (F := Ideal) x0 x1 x2 x3 i)) (j : S128.Idx) : IsNonneg (val_main_v51 (F := Ideal) x0 x1 x2 x3 j) := by
  rw [val_main_v51_apply, val_main_cst_9_apply, Ideal.ofBits_def]
  exact isNonneg_word_zero.add (isNonneg_sum _ _ fun k _ => v50_nonneg x0 x1 x2 x3 hy _)

theorem v52_val (j : S128.Idx) : val_main_v52 (F := Ideal) j = ((100000 : ℝ) : EReal) := by
  rw [val_main_v52_apply, val_main_cst_10_apply, Ideal.ofBits_def]; exact word_C

/-- A column variance is a real ≥ 0. -/
theorem v53_nonneg (hy : ∀ i, IsReal (val_main_v43 (F := Ideal) x0 x1 x2 x3 i)) (j : S128.Idx) : IsNonneg (val_main_v53 (F := Ideal) x0 x1 x2 x3 j) := by
  rw [val_main_v53_apply, Ideal.hostDivf_def, v52_val]
  exact (v51_nonneg x0 x1 x2 x3 hy j).div_pos (by norm_num)

theorem v55_real (hy : ∀ i, IsReal (val_main_v43 (F := Ideal) x0 x1 x2 x3 i)) (i : S100000x128.Idx) : IsReal (val_main_v55 (F := Ideal) x0 x1 x2 x3 i) := by
  rw [val_main_v55_apply, val_main_v54_apply]; exact v46_real x0 x1 x2 x3 hy _

theorem v56_real (hy : ∀ i, IsReal (val_main_v43 (F := Ideal) x0 x1 x2 x3 i)) (i : S100000x128.Idx) : IsReal (val_main_v56 (F := Ideal) x0 x1 x2 x3 i) := by
  rw [val_main_v56_apply, Ideal.subf_def]; exact (hy i).sub (v55_real x0 x1 x2 x3 hy i)

theorem v58_real (x4 : (⟨S128, .f32⟩ : BufTy).Contents (Elt Ideal)) (h4 : ∀ i, IsReal (x4 i)) (i : S100000x128.Idx) : IsReal (val_main_v58 (F := Ideal) x4 i) := by
  rw [val_main_v58_apply, val_main_v57_apply]; exact h4 _

/-- Scale times deviation. -/
theorem v59_real (x4 : (⟨S128, .f32⟩ : BufTy).Contents (Elt Ideal)) (hy : ∀ i, IsReal (val_main_v43 (F := Ideal) x0 x1 x2 x3 i)) (h4 : ∀ i, IsReal (x4 i)) (i : S100000x128.Idx) :
    IsReal (val_main_v59 (F := Ideal) x0 x1 x2 x3 x4 i) := by
  rw [val_main_v59_apply, Ideal.mulf_def]; exact (v58_real x4 h4 i).mul (v56_real x0 x1 x2 x3 hy i)

/-- The variance offset is a positive real. -/
theorem v60_pos (j : S128.Idx) : IsPos (val_main_v60 (F := Ideal) j) := by
  rw [val_main_v60_apply, val_main_cst_11_apply, Ideal.ofBits_def]; exact word_eps

/-- Variance plus offset is a positive real. -/
theorem v61_pos (hy : ∀ i, IsReal (val_main_v43 (F := Ideal) x0 x1 x2 x3 i)) (j : S128.Idx) : IsPos (val_main_v61 (F := Ideal) x0 x1 x2 x3 j) := by
  rw [val_main_v61_apply, Ideal.addf_def]; exact (v53_nonneg x0 x1 x2 x3 hy j).add_pos (v60_pos j)

/-- Its reciprocal square root is a positive real. -/
theorem v62_pos (hy : ∀ i, IsReal (val_main_v43 (F := Ideal) x0 x1 x2 x3 i)) (j : S128.Idx) : IsPos (val_main_v62 (F := Ideal) x0 x1 x2 x3 j) := by
  rw [val_main_v62_apply, Ideal.hostUnary_rsqrt_def]; exact (v61_pos x0 x1 x2 x3 hy j).rsqrt

theorem v64_real (hy : ∀ i, IsReal (val_main_v43 (F := Ideal) x0 x1 x2 x3 i)) (i : S100000x128.Idx) : IsReal (val_main_v64 (F := Ideal) x0 x1 x2 x3 i) := by
  rw [val_main_v64_apply, val_main_v63_apply]; exact (v62_pos x0 x1 x2 x3 hy _).isReal

theorem v65_real (x4 : (⟨S128, .f32⟩ : BufTy).Contents (Elt Ideal)) (hy : ∀ i, IsReal (val_main_v43 (F := Ideal) x0 x1 x2 x3 i)) (h4 : ∀ i, IsReal (x4 i)) (i : S100000x128.Idx) :
    IsReal (val_main_v65 (F := Ideal) x0 x1 x2 x3 x4 i) := by
  rw [val_main_v65_apply, Ideal.mulf_def]; exact (v59_real x0 x1 x2 x3 x4 hy h4 i).mul (v64_real x0 x1 x2 x3 hy i)

theorem v67_real (x5 : (⟨S128, .f32⟩ : BufTy).Contents (Elt Ideal)) (h5 : ∀ i, IsReal (x5 i)) (i : S100000x128.Idx) : IsReal (val_main_v67 (F := Ideal) x5 i) := by
  rw [val_main_v67_apply, val_main_v66_apply]; exact h5 _

/-- The normalised entry. -/
theorem v68_real (x4 : (⟨S128, .f32⟩ : BufTy).Contents (Elt Ideal)) (x5 : (⟨S128, .f32⟩ : BufTy).Contents (Elt Ideal)) (hy : ∀ i, IsReal (val_main_v43 (F := Ideal) x0 x1 x2 x3 i)) (h4 : ∀ i, IsReal (x4 i)) (h5 : ∀ i, IsReal (x5 i)) (i : S100000x128.Idx) :
    IsReal (val_main_v68 (F := Ideal) x0 x1 x2 x3 x4 x5 i) := by
  rw [val_main_v68_apply, Ideal.addf_def]; exact (v65_real x0 x1 x2 x3 x4 hy h4 i).add (v67_real x5 h5 i)

/-- THE FIRST LAYER'S OUTPUT, the maximum of the normalised entry and zero, HAS REAL ENTRIES. -/
theorem v69_real (x4 : (⟨S128, .f32⟩ : BufTy).Contents (Elt Ideal)) (x5 : (⟨S128, .f32⟩ : BufTy).Contents (Elt Ideal)) (hy : ∀ i, IsReal (val_main_v43 (F := Ideal) x0 x1 x2 x3 i)) (h4 : ∀ i, IsReal (x4 i)) (h5 : ∀ i, IsReal (x5 i)) (i : S100000x128.Idx) :
    IsReal (val_main_v69 (F := Ideal) x0 x1 x2 x3 x4 x5 i) := by
  rw [val_main_v69_apply, Ideal.maximumf_def, val_main_call0_v0_apply, val_main_call0_cst_apply, Ideal.ofBits_def]
  exact (v68_real x0 x1 x2 x3 x4 x5 hy h4 h5 i).max isReal_word_zero

end

end Cert.RefReal

end
-- ==== Proof.KI.RefReal.lean ====
/-
  THE SECOND GRAPH CONVOLUTION OF THE REFERENCE HAS REAL ENTRIES when every float input it depends on has, whatever the
  edge list holds. Its input is the first layer's output, real entrywise; an entry of the dense transform is a finite sum
  of products of reals; a message entry is a gathered entry of the transform times the edge weight, a real; an
  aggregated entry is zero plus a finite sum of message entries; the result adds a bias entry. With the first
  convolution's statement these are the two arrays the batch normalisations are applied to.
-/
import proofs.«107028_j46583215292429_1_alg».proof.Proof.Gen.ReferenceIdeal.Read
import proofs.«107028_j46583215292429_1_alg».proof.Proof.KI.RefL1
import proofs.«107028_j46583215292429_1_alg».proof.Proof.KI.RefBN1

noncomputable section

open scoped BigOperators

namespace Cert.RefReal

open Cert.ReferenceIdeal Cert.ReferenceIdeal.Gen Cert.ReferenceIdeal.Read Idealize.ShloMosaic Idealize.ShloMosaic.ValueIdx

/-- An entry of the second dense transform: a finite sum of products of reals. -/
theorem v70_real (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 x4 x5 : (⟨S128, .f32⟩ : BufTy).Contents (Elt Ideal)) (x6 : (⟨S128x128, .f32⟩ : BufTy).Contents (Elt Ideal))
    (h69 : ∀ i, IsReal (val_main_v69 (F := Ideal) x0 x1 x2 x3 x4 x5 i)) (h6 : ∀ i, IsReal (x6 i)) (i : S100000x128.Idx) :
    IsReal (val_main_v70 (F := Ideal) x0 x1 x2 x3 x4 x5 x6 i) := by
  rw [val_main_v70_apply]
  exact isReal_sum _ _ fun k _ => (h69 _).mul (h6 _)

/-- THE SECOND CONVOLUTION'S RESULT HAS REAL ENTRIES, given that the first layer's output has. -/
theorem v86_real_of (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal))
    (h69 : ∀ i, IsReal (val_main_v69 (F := Ideal) x0 x1 x2 x3 x4 x5 i)) (h6 : ∀ i, IsReal (x6 i)) (h7 : ∀ i, IsReal (x7 i))
    (i : S100000x128.Idx) : IsReal (val_main_v86 (F := Ideal) x0 x1 x2 x3 x4 x5 x6 x7 i) := by
  rw [val_main_v86_apply, Ideal.addf_def]
  refine IsReal.add ?_ ?_
  · unfold val_main_v83
    refine scatterAdd_real _ _ _ _ (fun j => ?_) (fun j => ?_) i
    · rw [val_main_v81_apply, val_main_cst_14_apply, Ideal.ofBits_def]; exact isReal_word_zero
    · rw [val_main_v80_apply, Ideal.mulf_def]
      refine IsReal.mul ?_ ?_
      · unfold val_main_v77; exact gather_real _ _ _ (v70_real x0 x1 x2 x3 x4 x5 x6 h69 h6) j
      · rw [val_main_v79_apply, val_main_v78_apply]; exact v26_real x1 _
  · rw [val_main_v85_apply, val_main_v84_apply]; exact h7 _

/-- The first layer's output has real entries when the float inputs it depends on have. -/
theorem real_v69 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 x4 x5 : (⟨S128, .f32⟩ : BufTy).Contents (Elt Ideal))
    (h0 : ∀ i, ∃ a : ℝ, x0 i = (a : EReal)) (h2 : ∀ i, ∃ a : ℝ, x2 i = (a : EReal)) (h3 : ∀ i, ∃ a : ℝ, x3 i = (a : EReal))
    (h4 : ∀ i, ∃ a : ℝ, x4 i = (a : EReal)) (h5 : ∀ i, ∃ a : ℝ, x5 i = (a : EReal)) :
    ∀ i, ∃ a : ℝ, val_main_v69 (F := Ideal) x0 x1 x2 x3 x4 x5 i = (a : EReal) :=
  fun i => v69_real x0 x1 x2 x3 x4 x5 (v43_real x0 x1 x2 x3 h0 h2 h3) h4 h5 i

/-- THE ARRAY THE SECOND BATCH NORMALISATION IS APPLIED TO HAS REAL ENTRIES when the float inputs it depends on have. -/
theorem real_v86 (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal))
    (h0 : ∀ i, ∃ a : ℝ, x0 i = (a : EReal)) (h2 : ∀ i, ∃ a : ℝ, x2 i = (a : EReal)) (h3 : ∀ i, ∃ a : ℝ, x3 i = (a : EReal))
    (h4 : ∀ i, ∃ a : ℝ, x4 i = (a : EReal)) (h5 : ∀ i, ∃ a : ℝ, x5 i = (a : EReal)) (h6 : ∀ i, ∃ a : ℝ, x6 i = (a : EReal))
    (h7 : ∀ i, ∃ a : ℝ, x7 i = (a : EReal)) :
    ∀ i, ∃ a : ℝ, val_main_v86 (F := Ideal) x0 x1 x2 x3 x4 x5 x6 x7 i = (a : EReal) :=
  fun i => v86_real_of x0 x1 x2 x3 x4 x5 x6 x7 (real_v69 x0 x1 x2 x3 x4 x5 h0 h2 h3 h4 h5) h6 h7 i

end Cert.RefReal

end
-- ==== Proof.lean ====
/-
  The certificate of a three-layer graph convolution network with batch normalisation and ReLU between the layers: a program whose
  dense transforms, column statistics and normalisations are seven kernel regions over fifty blocks of 2000 rows, with the edge
  gather and scatter-add on the host, against the same network written with whole-array operations.

  Frames. Each of the two kernel programs is thirteen items in a row; the contents of every buffer at every boundary is a fold from
  the launch memory, each region's proof data is stated at the boundary's contents, and no item writes an argument array. The
  reference is straight-line host code: its frame is its run with the result dropped.

  Values, over the extended reals. Every buffer the ideal program fills is the reference's stage of the same arguments: the dense
  products are sums over the contracted axis on both sides; the gather of rows, their scaling by the edge normalisation and the
  scatter-add by target row are one function of the edge arrays and of the product; the column statistics accumulated block by block
  are the column sums. The one place where the two differ as formulas is the variance — the mean of squares minus the squared mean
  against the mean squared deviation — and these agree for real entries. The entries are real because every float input is finite
  and every node has degree at least one (the self-loops), whatever the edge list holds.
-/
import proofs.«107028_j46583215292429_1_alg».proof.Defs
import proofs.«107028_j46583215292429_1_alg».proof.Proof.Gen.Kernel
import proofs.«107028_j46583215292429_1_alg».proof.Proof.Gen.Kernel.Skeleton
import proofs.«107028_j46583215292429_1_alg».proof.Proof.Gen.Kernel.Launch
import proofs.«107028_j46583215292429_1_alg».proof.Proof.Gen.Kernel.Regions
import proofs.«107028_j46583215292429_1_alg».proof.Proof.Gen.Kernel.Points
import proofs.«107028_j46583215292429_1_alg».proof.Proof.Gen.KernelIdeal
import proofs.«107028_j46583215292429_1_alg».proof.Proof.Gen.KernelIdeal.Skeleton
import proofs.«107028_j46583215292429_1_alg».proof.Proof.Gen.KernelIdeal.Launch
import proofs.«107028_j46583215292429_1_alg».proof.Proof.Gen.KernelIdeal.Regions
import proofs.«107028_j46583215292429_1_alg».proof.Proof.Gen.KernelIdeal.Points
import proofs.«107028_j46583215292429_1_alg».proof.Proof.Gen.ReferenceIdeal
import proofs.«107028_j46583215292429_1_alg».proof.Proof.Gen.ReferenceIdeal.Run
import proofs.«107028_j46583215292429_1_alg».proof.Proof.Gen.ReferenceIdeal.Read
import proofs.«107028_j46583215292429_1_alg».proof.Proof.Gen.Pre_finite_inputs
import proofs.«107028_j46583215292429_1_alg».proof.Proof.KB.Frame
import proofs.«107028_j46583215292429_1_alg».proof.Proof.KI.Frame
import proofs.«107028_j46583215292429_1_alg».proof.Proof.KI.Chain4
import proofs.«107028_j46583215292429_1_alg».proof.Proof.KI.FiniteInputs
import proofs.«107028_j46583215292429_1_alg».proof.Proof.KI.RefReal
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hRI : Cert.ReferenceIdeal.Facts] [hPre : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal program's result array is the reference's last stage of the launch arguments: the chain of boundaries, with the two
    realness facts it needs read off the precondition. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.U13 m c (Proc.devRef .tc Cert.KernelIdeal.main_v95)
      = Cert.ReferenceIdeal.Read.val_main_v129 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h2, h3, h4, h5, h6, h7, h8, h9, h10, h11⟩ := Cert.FiniteInputs.real_args _ _ _ _ _ _ _ _ _ _ _ _ (hpre c)
  exact Cert.KernelIdeal.Hand.c13_v95 m c
    (Cert.RefReal.real_v43 _ _ _ _ h0 h2 h3)
    (Cert.RefReal.real_v86 _ _ _ _ _ _ _ _ h0 h2 h3 h4 h5 h6 h7)

theorem algebraic : Cert.algebraic_KernelIdeal_ReferenceIdeal := by
  intro m ρ m' ρ' hpre hagree
  refine ⟨fun c => Cert.KernelIdeal.Hand.U13 m c (Proc.devRef .tc Cert.KernelIdeal.main_v95), ?_, ?_⟩
  · exact (θ_run Cert.KernelIdeal.defs _ _).mono (fun r h c =>
      ⟨h c _ (Cert.KernelIdeal.Hand.mem_uc Cert.KernelIdeal.main_v95 (by decide)),
       (h c _ (Cert.KernelIdeal.Hand.mem_uc Cert.KernelIdeal.main_arg0 (by decide))).trans (Cert.KernelIdeal.Hand.U13_arg m c Cert.KernelIdeal.main_arg0 (by decide)),
       (h c _ (Cert.KernelIdeal.Hand.mem_uc Cert.KernelIdeal.main_arg1 (by decide))).trans (Cert.KernelIdeal.Hand.U13_arg m c Cert.KernelIdeal.main_arg1 (by decide)),
       (h c _ (Cert.KernelIdeal.Hand.mem_uc Cert.KernelIdeal.main_arg2 (by decide))).trans (Cert.KernelIdeal.Hand.U13_arg m c Cert.KernelIdeal.main_arg2 (by decide)),
       (h c _ (Cert.KernelIdeal.Hand.mem_uc Cert.KernelIdeal.main_arg3 (by decide))).trans (Cert.KernelIdeal.Hand.U13_arg m c Cert.KernelIdeal.main_arg3 (by decide)),
       (h c _ (Cert.KernelIdeal.Hand.mem_uc Cert.KernelIdeal.main_arg4 (by decide))).trans (Cert.KernelIdeal.Hand.U13_arg m c Cert.KernelIdeal.main_arg4 (by decide)),
       (h c _ (Cert.KernelIdeal.Hand.mem_uc Cert.KernelIdeal.main_arg5 (by decide))).trans (Cert.KernelIdeal.Hand.U13_arg m c Cert.KernelIdeal.main_arg5 (by decide)),
       (h c _ (Cert.KernelIdeal.Hand.mem_uc Cert.KernelIdeal.main_arg6 (by decide))).trans (Cert.KernelIdeal.Hand.U13_arg m c Cert.KernelIdeal.main_arg6 (by decide)),
       (h c _ (Cert.KernelIdeal.Hand.mem_uc Cert.KernelIdeal.main_arg7 (by decide))).trans (Cert.KernelIdeal.Hand.U13_arg m c Cert.KernelIdeal.main_arg7 (by decide)),
       (h c _ (Cert.KernelIdeal.Hand.mem_uc Cert.KernelIdeal.main_arg8 (by decide))).trans (Cert.KernelIdeal.Hand.U13_arg m c Cert.KernelIdeal.main_arg8 (by decide)),
       (h c _ (Cert.KernelIdeal.Hand.mem_uc Cert.KernelIdeal.main_arg9 (by decide))).trans (Cert.KernelIdeal.Hand.U13_arg m c Cert.KernelIdeal.main_arg9 (by decide)),
       (h c _ (Cert.KernelIdeal.Hand.mem_uc Cert.KernelIdeal.main_arg10 (by decide))).trans (Cert.KernelIdeal.Hand.U13_arg m c Cert.KernelIdeal.main_arg10 (by decide)),
       (h c _ (Cert.KernelIdeal.Hand.mem_uc Cert.KernelIdeal.main_arg11 (by decide))).trans (Cert.KernelIdeal.Hand.U13_arg m c Cert.KernelIdeal.main_arg11 (by decide))⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v129_eq, a0, a1, a2, a3, a4, a5, a6, a7, a8, a9, a10, a11]
    exact (result_eq m hpre c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
